-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x32 : Shape := ⟨2, ![64, 32]⟩
abbrev S32 : Shape := ⟨1, ![32]⟩
abbrev S32x32 : Shape := ⟨2, ![32, 32]⟩
abbrev S96x2 : Shape := ⟨2, ![96, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S96x2 .f32) (main_arg16 : FVec F S2 .f32) (main_v63 : IVec S_ 1) (main_v67 : IVec S_ 1) : IVec S_ 1 :=
  let main_v68 : IVec S_ 1 := andi main_v63 main_v67
  let main_v69 : FVec F S96x2 .f32 := Host.absf main_arg15
  let main_cst_26 : FVec F S_ .f32 := constant S_ .f32 0x7F800000#32
  let main_v70 : FVec F S96x2 .f32 := broadcastInDim S96x2 ![] bcast_S_S96x2 main_cst_26
  let main_v71 : IVec S96x2 1 := cmpf .olt main_v69 main_v70
  let main_c_27 : IVec S_ 1 := constantI S_ 1 1#1
  let main_v72 : IVec S_ 1 := (fun x v => Host.reduce IntOp.andi x v reducesTo_S96x2_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg12 : FVec F S32 .f32) (main_arg13 : FVec F S32 .f32) (main_arg14 : FVec F S32 .f32) (main_arg15 : FVec F S96x2 .f32) (main_arg16 : FVec F S2 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_v63 main_v67

def fn_part2 {F : FTy → Type} [FloatOps F] (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S96x2 .f32) (main_arg16 : FVec F S2 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg12 main_arg13 main_arg14 main_arg15 main_arg16 main_v48 main_v49 main_v50

def fn_part1 {F : FTy → Type} [FloatOps F] (main_arg5 : FVec F S32 .f32) (main_arg6 : FVec F S32 .f32) (main_arg7 : FVec F S32x32 .f32) (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S96x2 .f32) (main_arg16 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x64 .f32) (main_arg1 : IVec S2x1600000 32) (main_arg2 : FVec F S1600000 .f32) (main_arg3 : FVec F S64x32 .f32) (main_arg4 : FVec F S32 .f32) (main_arg5 : FVec F S32 .f32) (main_arg6 : FVec F S32 .f32) (main_arg7 : FVec F S32x32 .f32) (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S96x2 .f32) (main_arg16 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x32 : Shape := ⟨2, ![64, 32]⟩
abbrev S32 : Shape := ⟨1, ![32]⟩
abbrev S32x32 : Shape := ⟨2, ![32, 32]⟩
abbrev S96x2 : Shape := ⟨2, ![96, 2]⟩
abbrev S2 : Shape := ⟨1, ![2]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S5000x64 : Shape := ⟨2, ![5000, 64]⟩
abbrev S5000x32 : Shape := ⟨2, ![5000, 32]⟩
abbrev S1700000x32 : Shape := ⟨2, ![1700000, 32]⟩
abbrev S1x32 : Shape := ⟨2, ![1, 32]⟩
abbrev S32x2 : Shape := ⟨2, ![32, 2]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 181
  | .vmem => 66
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x32, .f32⟩
  | 4 => ⟨S32, .f32⟩
  | 5 => ⟨S32, .f32⟩
  | 6 => ⟨S32, .f32⟩
  | 7 => ⟨S32x32, .f32⟩
  | 8 => ⟨S32, .f32⟩
  | 9 => ⟨S32, .f32⟩
  | 10 => ⟨S32, .f32⟩
  | 11 => ⟨S32x32, .f32⟩
  | 12 => ⟨S32, .f32⟩
  | 13 => ⟨S32, .f32⟩
  | 14 => ⟨S32, .f32⟩
  | 15 => ⟨S96x2, .f32⟩
  | 16 => ⟨S2, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x32, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x32, .f32⟩
  | 69 => ⟨S1700000x1, .f32⟩
  | 70 => ⟨S1700000x32, .f32⟩
  | 71 => ⟨S1700000x32, .f32⟩
  | 72 => ⟨S_, .f32⟩
  | 73 => ⟨S100000x32, .f32⟩
  | 74 => ⟨S1700000x1, .i32⟩
  | 75 => ⟨S100000x32, .f32⟩
  | 76 => ⟨S1x32, .f32⟩
  | 77 => ⟨S100000x32, .f32⟩
  | 78 => ⟨S1x32, .f32⟩
  | 79 => ⟨S1x32, .f32⟩
  | 80 => ⟨S_, .f32⟩
  | 81 => ⟨S1x32, .f32⟩
  | 82 => ⟨S1x32, .f32⟩
  | 83 => ⟨S_, .f32⟩
  | 84 => ⟨S1x32, .f32⟩
  | 85 => ⟨S1x32, .f32⟩
  | 86 => ⟨S1x32, .f32⟩
  | 87 => ⟨S1x32, .f32⟩
  | 88 => ⟨S1x32, .f32⟩
  | 89 => ⟨S_, .f32⟩
  | 90 => ⟨S1x32, .f32⟩
  | 91 => ⟨S1x32, .f32⟩
  | 92 => ⟨S1x32, .f32⟩
  | 93 => ⟨S1x32, .f32⟩
  | 94 => ⟨S1x32, .f32⟩
  | 95 => ⟨S1x32, .f32⟩
  | 96 => ⟨S1x32, .f32⟩
  | 97 => ⟨S100000x32, .f32⟩
  | 98 => ⟨S100000x32, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x32, .f32⟩
  | 108 => ⟨S1700000x1, .f32⟩
  | 109 => ⟨S1700000x32, .f32⟩
  | 110 => ⟨S1700000x32, .f32⟩
  | 111 => ⟨S_, .f32⟩
  | 112 => ⟨S100000x32, .f32⟩
  | 113 => ⟨S1700000x1, .i32⟩
  | 114 => ⟨S100000x32, .f32⟩
  | 115 => ⟨S1x32, .f32⟩
  | 116 => ⟨S100000x32, .f32⟩
  | 117 => ⟨S1x32, .f32⟩
  | 118 => ⟨S1x32, .f32⟩
  | 119 => ⟨S_, .f32⟩
  | 120 => ⟨S1x32, .f32⟩
  | 121 => ⟨S1x32, .f32⟩
  | 122 => ⟨S_, .f32⟩
  | 123 => ⟨S1x32, .f32⟩
  | 124 => ⟨S1x32, .f32⟩
  | 125 => ⟨S1x32, .f32⟩
  | 126 => ⟨S1x32, .f32⟩
  | 127 => ⟨S1x32, .f32⟩
  | _ => ⟨S100000x64, .f32⟩

abbrev hbmTy0_1 (i : Nat) : BufTy := match i % 128 with
  | 0 => ⟨S_, .f32⟩
  | 1 => ⟨S1x32, .f32⟩
  | 2 => ⟨S1x32, .f32⟩
  | 3 => ⟨S1x32, .f32⟩
  | 4 => ⟨S1x32, .f32⟩
  | 5 => ⟨S1x32, .f32⟩
  | 6 => ⟨S1x32, .f32⟩
  | 7 => ⟨S1x32, .f32⟩
  | 8 => ⟨S100000x32, .f32⟩
  | 9 => ⟨S100000x32, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x32, .f32⟩
  | 19 => ⟨S1700000x1, .f32⟩
  | 20 => ⟨S1700000x32, .f32⟩
  | 21 => ⟨S1700000x32, .f32⟩
  | 22 => ⟨S_, .f32⟩
  | 23 => ⟨S100000x32, .f32⟩
  | 24 => ⟨S1700000x1, .i32⟩
  | 25 => ⟨S100000x32, .f32⟩
  | 26 => ⟨S1x32, .f32⟩
  | 27 => ⟨S100000x32, .f32⟩
  | 28 => ⟨S1x32, .f32⟩
  | 29 => ⟨S1x32, .f32⟩
  | 30 => ⟨S_, .f32⟩
  | 31 => ⟨S1x32, .f32⟩
  | 32 => ⟨S1x32, .f32⟩
  | 33 => ⟨S_, .f32⟩
  | 34 => ⟨S1x32, .f32⟩
  | 35 => ⟨S1x32, .f32⟩
  | 36 => ⟨S1x32, .f32⟩
  | 37 => ⟨S1x32, .f32⟩
  | 38 => ⟨S1x32, .f32⟩
  | 39 => ⟨S_, .f32⟩
  | 40 => ⟨S1x32, .f32⟩
  | 41 => ⟨S1x32, .f32⟩
  | 42 => ⟨S1x32, .f32⟩
  | 43 => ⟨S1x32, .f32⟩
  | 44 => ⟨S1x32, .f32⟩
  | 45 => ⟨S1x32, .f32⟩
  | 46 => ⟨S1x32, .f32⟩
  | 47 => ⟨S100000x32, .f32⟩
  | 48 => ⟨S32x2, .f32⟩
  | 49 => ⟨S32x2, .f32⟩
  | 50 => ⟨S32x2, .f32⟩
  | 51 => ⟨S1x2, .f32⟩
  | 52 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S1x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S1x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S32x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | .local _ .vmem, ⟨28, _⟩ => ⟨S1x32, .f32⟩
  | .local _ .vmem, ⟨29, _⟩ => ⟨S1x32, .f32⟩
  | .local _ .vmem, ⟨30, _⟩ => ⟨S5000x32, .f32⟩
  | .local _ .vmem, ⟨31, _⟩ => ⟨S5000x32, .f32⟩
  | .local _ .vmem, ⟨32, _⟩ => ⟨S1x32, .f32⟩
  | .local _ .vmem, ⟨33, _⟩ => ⟨S1x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | .local _ .vmem, ⟨38, _⟩ => ⟨S32x32, .f32⟩
  | .local _ .vmem, ⟨39, _⟩ => ⟨S5000x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S1x32, .f32⟩
  | .local _ .vmem, ⟨44, _⟩ => ⟨S5000x32, .f32⟩
  | .local _ .vmem, ⟨45, _⟩ => ⟨S5000x32, .f32⟩
  | .local _ .vmem, ⟨46, _⟩ => ⟨S1x32, .f32⟩
  | .local _ .vmem, ⟨47, _⟩ => ⟨S1x32, .f32⟩
  | .local _ .vmem, ⟨48, _⟩ => ⟨S5000x32, .f32⟩
  | .local _ .vmem, ⟨49, _⟩ => ⟨S5000x32, .f32⟩
  | .local _ .vmem, ⟨50, _⟩ => ⟨S1x32, .f32⟩
  | .local _ .vmem, ⟨51, _⟩ => ⟨S1x32, .f32⟩
  | .local _ .vmem, ⟨52, _⟩ => ⟨S5000x32, .f32⟩
  | .local _ .vmem, ⟨53, _⟩ => ⟨S5000x32, .f32⟩
  | .local _ .vmem, ⟨54, _⟩ => ⟨S5000x32, .f32⟩
  | .local _ .vmem, ⟨55, _⟩ => ⟨S5000x32, .f32⟩
  | .local _ .vmem, ⟨56, _⟩ => ⟨S5000x32, .f32⟩
  | .local _ .vmem, ⟨57, _⟩ => ⟨S5000x32, .f32⟩
  | .local _ .vmem, ⟨58, _⟩ => ⟨S5000x32, .f32⟩
  | .local _ .vmem, ⟨59, _⟩ => ⟨S5000x32, .f32⟩
  | .local _ .vmem, ⟨60, _⟩ => ⟨S32x2, .f32⟩
  | .local _ .vmem, ⟨61, _⟩ => ⟨S32x2, .f32⟩
  | .local _ .vmem, ⟨62, _⟩ => ⟨S32x2, .f32⟩
  | .local _ .vmem, ⟨63, _⟩ => ⟨S1x2, .f32⟩
  | .local _ .vmem, ⟨64, _⟩ => ⟨S5000x2, .f32⟩
  | .local _ .vmem, ⟨65, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47_0 : Ref sig .tc := ⟨.hbm, 77, rfl⟩
abbrev main_v47_1 : Ref sig .tc := ⟨.hbm, 78, rfl⟩
abbrev main_v47_2 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_12 : Ref sig .tc := ⟨.hbm, 99, rfl⟩
abbrev main_v64 : Ref sig .tc := ⟨.hbm, 100, rfl⟩
abbrev main_v65 : Ref sig .tc := ⟨.hbm, 101, rfl⟩
abbrev main_c_13 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78_0 : Ref sig .tc := ⟨.hbm, 116, rfl⟩
abbrev main_v78_1 : Ref sig .tc := ⟨.hbm, 117, rfl⟩
abbrev main_v78_2 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_cst_16 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_17 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_18 : Ref sig .tc := ⟨.hbm, 138, rfl⟩
abbrev main_v95 : Ref sig .tc := ⟨.hbm, 139, rfl⟩
abbrev main_v96 : Ref sig .tc := ⟨.hbm, 140, rfl⟩
abbrev main_c_19 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_20 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109_0 : Ref sig .tc := ⟨.hbm, 155, rfl⟩
abbrev main_v109_1 : Ref sig .tc := ⟨.hbm, 156, rfl⟩
abbrev main_v109_2 : Ref sig .tc := ⟨.hbm, 157, rfl⟩
abbrev main_cst_21 : Ref sig .tc := ⟨.hbm, 158, rfl⟩
abbrev main_v110 : Ref sig .tc := ⟨.hbm, 159, rfl⟩
abbrev main_v111 : Ref sig .tc := ⟨.hbm, 160, rfl⟩
abbrev main_cst_22 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_23 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg4_0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc7_stg3_0 : Ref sig .tc := ⟨.vmem, 46, rfl⟩
abbrev cc7_stg4_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc9_stg3_0 : Ref sig .tc := ⟨.vmem, 60, rfl⟩
abbrev cc9_stg4_0 : Ref sig .tc := ⟨.vmem, 61, rfl⟩
abbrev cc9_stg5_0 : Ref sig .tc := ⟨.vmem, 62, rfl⟩
abbrev cc9_stg6_0 : Ref sig .tc := ⟨.vmem, 63, rfl⟩
abbrev cc9_stg7_0 : Ref sig .tc := ⟨.vmem, 64, rfl⟩
abbrev cc9_stg7_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem4_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc7_sem3_0 : DmaSem sig := 46
abbrev cc7_sem4_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc9_sem3_0 : DmaSem sig := 60
abbrev cc9_sem4_0 : DmaSem sig := 61
abbrev cc9_sem5_0 : DmaSem sig := 62
abbrev cc9_sem6_0 : DmaSem sig := 63
abbrev cc9_sem7_0 : DmaSem sig := 64
abbrev cc9_sem7_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S32x2 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S32x2 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S32x2 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x2 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x2 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S5000x32_S5000x32 : S5000x32.ShapeCasts S5000x32
  shapeCasts_S1x32_S1x32 : S1x32.ShapeCasts S1x32
  broadcasts_S1x32_S5000x32 : S1x32.Broadcasts S5000x32
  reduces_S5000x32_S32 : S5000x32.Reduces [0] S32
  bcast_S_S1x32 : S_.BroadcastsInDim S1x32 (![] : Fin 0 → Fin S1x32.rank)
  inb_S32x32_S32x32_0_0 : ∀ a, (![0, 0] : Fin 2 → Nat) a + S32x32.size a ≤ S32x32.size a
  h_S32x32 : 0 < S32x32.numel
  slices_S96x2_S32x2_0_0 : S96x2.Slices ![0, 0] S32x2
  slices_S96x2_S32x2_32_0 : S96x2.Slices ![32, 0] S32x2
  slices_S96x2_S32x2_64_0 : S96x2.Slices ![64, 0] S32x2
  shapeCasts_S2_S1x2 : S2.ShapeCasts S1x2
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x32_S5000x32_1_0_0_1_n_n_wf : DotDims.WF S5000x32 S32x32 S5000x32 [1] [0] [0] [1] [] []
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x32.size a ≤ S100000x32.size a
  hwx5_3 : ∀ i : grid5.Coords, EltTy.bits .f32 = 32 ∨ (Rect.block (s := S100000x32) S5000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x32.size a ≤ S100000x32.size a
  hwx6_2 : ∀ i : grid6.Coords, EltTy.bits .f32 = 32 ∨ (Rect.block (s := S100000x32) S5000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x32.size a ≤ S100000x32.size a
  hwx7_2 : ∀ i : grid7.Coords, EltTy.bits .f32 = 32 ∨ (Rect.block (s := S100000x32) S5000x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S100000x32.size a
  hwx8_0 : ∀ i : grid8.Coords, EltTy.bits .f32 = 32 ∨ (Rect.block (s := S100000x32) S5000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x32.size a ≤ S100000x32.size a
  hwx8_3 : ∀ i : grid8.Coords, EltTy.bits .f32 = 32 ∨ (Rect.block (s := S100000x32) S5000x32.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x32.size a ≤ S100000x32.size a
  hwx9_0 : ∀ i : grid9.Coords, EltTy.bits .f32 = 32 ∨ (Rect.block (s := S100000x32) S5000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x32.size a ≤ S100000x32.size a
  hwx9_1 : ∀ i : grid9.Coords, EltTy.bits .f32 = 32 ∨ (Rect.block (s := S100000x32) S5000x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x32.size a ≤ S100000x32.size a
  hwx9_2 : ∀ i : grid9.Coords, EltTy.bits .f32 = 32 ∨ (Rect.block (s := S100000x32) S5000x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S32x2.size a ≤ S32x2.size a
  hwx9_3 : ∀ i : grid9.Coords, EltTy.bits .f32 = 32 ∨ (Rect.block (s := S32x2) S32x2.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S32x2.size a ≤ S32x2.size a
  hwx9_4 : ∀ i : grid9.Coords, EltTy.bits .f32 = 32 ∨ (Rect.block (s := S32x2) S32x2.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S32x2.size a ≤ S32x2.size a
  hwx9_5 : ∀ i : grid9.Coords, EltTy.bits .f32 = 32 ∨ (Rect.block (s := S32x2) S32x2.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x2.size a ≤ S1x2.size a
  hwx9_6 : ∀ i : grid9.Coords, EltTy.bits .f32 = 32 ∨ (Rect.block (s := S1x2) S1x2.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x2.size a ≤ S100000x2.size a
  hwx9_7 : ∀ i : grid9.Coords, EltTy.bits .f32 = 32 ∨ (Rect.block (s := S100000x2) S5000x2.size (cc9_transform_7 i) (hinb9_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S5000x32.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x32.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47_2) S1x32.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47_0) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78_0) S5000x32.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v78_1) S1x32.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78_2) S1x32.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v78_0) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S5000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v93) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S5000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v107) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v109_0) S5000x32.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v109_1) S1x32.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v109_2) S1x32.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v109_0) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v120) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v123) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v124) S5000x32.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v62) S5000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v93) S5000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v124) S5000x32.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v125) S32x2.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v126) S32x2.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v127) S32x2.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v128) S1x2.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v129) S5000x2.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x32 : Shape := ⟨2, ![64, 32]⟩
abbrev S32 : Shape := ⟨1, ![32]⟩
abbrev S32x32 : Shape := ⟨2, ![32, 32]⟩
abbrev S96x2 : Shape := ⟨2, ![96, 2]⟩
abbrev S2 : Shape := ⟨1, ![2]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S100000x32 : Shape := ⟨2, ![100000, 32]⟩
abbrev S1700000x1 : Shape := ⟨2, ![1700000, 1]⟩
abbrev S1700000x32 : Shape := ⟨2, ![1700000, 32]⟩
abbrev S1x32 : Shape := ⟨2, ![1, 32]⟩
abbrev S100000x96 : Shape := ⟨2, ![100000, 96]⟩
abbrev S100000x2 : Shape := ⟨2, ![100000, 2]⟩
abbrev S1x2 : Shape := ⟨2, ![1, 2]⟩

abbrev nBuf : Space → Nat
  | .hbm => 329
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x32, .f32⟩
  | 4 => ⟨S32, .f32⟩
  | 5 => ⟨S32, .f32⟩
  | 6 => ⟨S32, .f32⟩
  | 7 => ⟨S32x32, .f32⟩
  | 8 => ⟨S32, .f32⟩
  | 9 => ⟨S32, .f32⟩
  | 10 => ⟨S32, .f32⟩
  | 11 => ⟨S32x32, .f32⟩
  | 12 => ⟨S32, .f32⟩
  | 13 => ⟨S32, .f32⟩
  | 14 => ⟨S32, .f32⟩
  | 15 => ⟨S96x2, .f32⟩
  | 16 => ⟨S2, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S100000x32, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x32, .f32⟩
  | 69 => ⟨S1700000x1, .f32⟩
  | 70 => ⟨S1700000x32, .f32⟩
  | 71 => ⟨S1700000x32, .f32⟩
  | 72 => ⟨S_, .f32⟩
  | 73 => ⟨S100000x32, .f32⟩
  | 74 => ⟨S1700000x1, .i32⟩
  | 75 => ⟨S100000x32, .f32⟩
  | 76 => ⟨S1x32, .f32⟩
  | 77 => ⟨S100000x32, .f32⟩
  | 78 => ⟨S100000x32, .f32⟩
  | 79 => ⟨S_, .f32⟩
  | 80 => ⟨S100000x32, .f32⟩
  | 81 => ⟨S100000x32, .f32⟩
  | 82 => ⟨S_, .f32⟩
  | 83 => ⟨S32, .f32⟩
  | 84 => ⟨S_, .f32⟩
  | 85 => ⟨S32, .f32⟩
  | 86 => ⟨S32, .f32⟩
  | 87 => ⟨S_, .i32⟩
  | 88 => ⟨S_, .f32⟩
  | 89 => ⟨S32, .f32⟩
  | 90 => ⟨S1x32, .f32⟩
  | 91 => ⟨S_, .f32⟩
  | 92 => ⟨S1x32, .f32⟩
  | 93 => ⟨S1x32, .f32⟩
  | 94 => ⟨S100000x32, .f32⟩
  | 95 => ⟨S100000x32, .f32⟩
  | 96 => ⟨S100000x32, .f32⟩
  | 97 => ⟨S_, .f32⟩
  | 98 => ⟨S_, .f32⟩
  | 99 => ⟨S_, .f32⟩
  | 100 => ⟨S_, .f32⟩
  | 101 => ⟨S32, .f32⟩
  | 102 => ⟨S32, .f32⟩
  | 103 => ⟨S32, .f32⟩
  | 104 => ⟨S_, .f32⟩
  | 105 => ⟨S_, .i1⟩
  | 106 => ⟨S_, .f32⟩
  | 107 => ⟨S_, .f32⟩
  | 108 => ⟨S32, .f32⟩
  | 109 => ⟨S32, .f32⟩
  | 110 => ⟨S1x32, .f32⟩
  | 111 => ⟨S100000x32, .f32⟩
  | 112 => ⟨S100000x32, .f32⟩
  | 113 => ⟨S_, .f32⟩
  | 114 => ⟨S32, .f32⟩
  | 115 => ⟨S32, .f32⟩
  | 116 => ⟨S32, .f32⟩
  | 117 => ⟨S1x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S1x32, .f32⟩
  | 124 => ⟨S100000x32, .f32⟩
  | 125 => ⟨S100000x32, .f32⟩
  | 126 => ⟨S100000x32, .f32⟩
  | 127 => ⟨S_, .f32⟩
  | _ => ⟨S100000x64, .f32⟩

abbrev hbmTy0_1 (i : Nat) : BufTy := match i % 128 with
  | 0 => ⟨S100000, .f32⟩
  | 1 => ⟨S1700000x1, .i32⟩
  | 2 => ⟨S100000, .f32⟩
  | 3 => ⟨S_, .f32⟩
  | 4 => ⟨S100000, .f32⟩
  | 5 => ⟨S100000, .i1⟩
  | 6 => ⟨S100000, .f32⟩
  | 7 => ⟨S_, .f32⟩
  | 8 => ⟨S_, .f32⟩
  | 9 => ⟨S100000, .f32⟩
  | 10 => ⟨S100000, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000, .f32⟩
  | 20 => ⟨S1700000, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000, .f32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000x32, .f32⟩
  | 40 => ⟨S1700000x1, .f32⟩
  | 41 => ⟨S1700000x32, .f32⟩
  | 42 => ⟨S1700000x32, .f32⟩
  | 43 => ⟨S_, .f32⟩
  | 44 => ⟨S100000x32, .f32⟩
  | 45 => ⟨S1700000x1, .i32⟩
  | 46 => ⟨S100000x32, .f32⟩
  | 47 => ⟨S1x32, .f32⟩
  | 48 => ⟨S100000x32, .f32⟩
  | 49 => ⟨S100000x32, .f32⟩
  | 50 => ⟨S_, .f32⟩
  | 51 => ⟨S100000x32, .f32⟩
  | 52 => ⟨S100000x32, .f32⟩
  | 53 => ⟨S_, .f32⟩
  | 54 => ⟨S32, .f32⟩
  | 55 => ⟨S_, .f32⟩
  | 56 => ⟨S32, .f32⟩
  | 57 => ⟨S32, .f32⟩
  | 58 => ⟨S_, .i32⟩
  | 59 => ⟨S_, .f32⟩
  | 60 => ⟨S32, .f32⟩
  | 61 => ⟨S1x32, .f32⟩
  | 62 => ⟨S_, .f32⟩
  | 63 => ⟨S1x32, .f32⟩
  | 64 => ⟨S1x32, .f32⟩
  | 65 => ⟨S100000x32, .f32⟩
  | 66 => ⟨S100000x32, .f32⟩
  | 67 => ⟨S100000x32, .f32⟩
  | 68 => ⟨S_, .f32⟩
  | 69 => ⟨S_, .f32⟩
  | 70 => ⟨S_, .f32⟩
  | 71 => ⟨S_, .f32⟩
  | 72 => ⟨S32, .f32⟩
  | 73 => ⟨S32, .f32⟩
  | 74 => ⟨S32, .f32⟩
  | 75 => ⟨S_, .f32⟩
  | 76 => ⟨S_, .i1⟩
  | 77 => ⟨S_, .f32⟩
  | 78 => ⟨S_, .f32⟩
  | 79 => ⟨S32, .f32⟩
  | 80 => ⟨S32, .f32⟩
  | 81 => ⟨S1x32, .f32⟩
  | 82 => ⟨S100000x32, .f32⟩
  | 83 => ⟨S100000x32, .f32⟩
  | 84 => ⟨S_, .f32⟩
  | 85 => ⟨S32, .f32⟩
  | 86 => ⟨S32, .f32⟩
  | 87 => ⟨S32, .f32⟩
  | 88 => ⟨S1x32, .f32⟩
  | 89 => ⟨S100000x32, .f32⟩
  | 90 => ⟨S100000x32, .f32⟩
  | 91 => ⟨S1x32, .f32⟩
  | 92 => ⟨S100000x32, .f32⟩
  | 93 => ⟨S100000x32, .f32⟩
  | 94 => ⟨S1x32, .f32⟩
  | 95 => ⟨S100000x32, .f32⟩
  | 96 => ⟨S100000x32, .f32⟩
  | 97 => ⟨S100000x32, .f32⟩
  | 98 => ⟨S_, .f32⟩
  | 99 => ⟨S100000, .f32⟩
  | 100 => ⟨S1700000x1, .i32⟩
  | 101 => ⟨S100000, .f32⟩
  | 102 => ⟨S_, .f32⟩
  | 103 => ⟨S100000, .f32⟩
  | 104 => ⟨S100000, .i1⟩
  | 105 => ⟨S100000, .f32⟩
  | 106 => ⟨S_, .f32⟩
  | 107 => ⟨S_, .f32⟩
  | 108 => ⟨S100000, .f32⟩
  | 109 => ⟨S100000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000, .f32⟩
  | 119 => ⟨S1700000, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x64, .f32⟩

abbrev hbmTy0_2 (i : Nat) : BufTy := match i % 128 with
  | 0 => ⟨S1700000, .f32⟩
  | 1 => ⟨S1700000, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x32, .f32⟩
  | 11 => ⟨S1700000x1, .f32⟩
  | 12 => ⟨S1700000x32, .f32⟩
  | 13 => ⟨S1700000x32, .f32⟩
  | 14 => ⟨S_, .f32⟩
  | 15 => ⟨S100000x32, .f32⟩
  | 16 => ⟨S1700000x1, .i32⟩
  | 17 => ⟨S100000x32, .f32⟩
  | 18 => ⟨S1x32, .f32⟩
  | 19 => ⟨S100000x32, .f32⟩
  | 20 => ⟨S100000x32, .f32⟩
  | 21 => ⟨S_, .f32⟩
  | 22 => ⟨S100000x32, .f32⟩
  | 23 => ⟨S100000x32, .f32⟩
  | 24 => ⟨S_, .f32⟩
  | 25 => ⟨S32, .f32⟩
  | 26 => ⟨S_, .f32⟩
  | 27 => ⟨S32, .f32⟩
  | 28 => ⟨S32, .f32⟩
  | 29 => ⟨S_, .i32⟩
  | 30 => ⟨S_, .f32⟩
  | 31 => ⟨S32, .f32⟩
  | 32 => ⟨S1x32, .f32⟩
  | 33 => ⟨S_, .f32⟩
  | 34 => ⟨S1x32, .f32⟩
  | 35 => ⟨S1x32, .f32⟩
  | 36 => ⟨S100000x32, .f32⟩
  | 37 => ⟨S100000x32, .f32⟩
  | 38 => ⟨S100000x32, .f32⟩
  | 39 => ⟨S_, .f32⟩
  | 40 => ⟨S_, .f32⟩
  | 41 => ⟨S_, .f32⟩
  | 42 => ⟨S_, .f32⟩
  | 43 => ⟨S32, .f32⟩
  | 44 => ⟨S32, .f32⟩
  | 45 => ⟨S32, .f32⟩
  | 46 => ⟨S_, .f32⟩
  | 47 => ⟨S_, .i1⟩
  | 48 => ⟨S_, .f32⟩
  | 49 => ⟨S_, .f32⟩
  | 50 => ⟨S32, .f32⟩
  | 51 => ⟨S32, .f32⟩
  | 52 => ⟨S1x32, .f32⟩
  | 53 => ⟨S100000x32, .f32⟩
  | 54 => ⟨S100000x32, .f32⟩
  | 55 => ⟨S_, .f32⟩
  | 56 => ⟨S32, .f32⟩
  | 57 => ⟨S32, .f32⟩
  | 58 => ⟨S32, .f32⟩
  | 59 => ⟨S1x32, .f32⟩
  | 60 => ⟨S100000x32, .f32⟩
  | 61 => ⟨S100000x32, .f32⟩
  | 62 => ⟨S1x32, .f32⟩
  | 63 => ⟨S100000x32, .f32⟩
  | 64 => ⟨S100000x32, .f32⟩
  | 65 => ⟨S1x32, .f32⟩
  | 66 => ⟨S100000x32, .f32⟩
  | 67 => ⟨S100000x32, .f32⟩
  | 68 => ⟨S100000x96, .f32⟩
  | 69 => ⟨S100000x2, .f32⟩
  | 70 => ⟨S1x2, .f32⟩
  | 71 => ⟨S100000x2, .f32⟩
  | 72 => ⟨S100000x2, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_c_11 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_cst_2 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_cst_3 : Ref sig .tc := ⟨.hbm, 104, rfl⟩
abbrev main_call2_v12 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_12 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_13 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_14 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_cst_15 : Ref sig .tc := ⟨.hbm, 135, rfl⟩
abbrev main_call3_v0 : Ref sig .tc := ⟨.hbm, 136, rfl⟩
abbrev main_call3_v1 : Ref sig .tc := ⟨.hbm, 137, rfl⟩
abbrev main_v76 : Ref sig .tc := ⟨.hbm, 138, rfl⟩
abbrev main_c_16 : Ref sig .tc := ⟨.hbm, 139, rfl⟩
abbrev main_v77 : Ref sig .tc := ⟨.hbm, 140, rfl⟩
abbrev main_v78 : Ref sig .tc := ⟨.hbm, 141, rfl⟩
abbrev main_c_17 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_c_18 : Ref sig .tc := ⟨.hbm, 149, rfl⟩
abbrev main_v85 : Ref sig .tc := ⟨.hbm, 150, rfl⟩
abbrev main_v86 : Ref sig .tc := ⟨.hbm, 151, rfl⟩
abbrev main_c_19 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_c_20 : Ref sig .tc := ⟨.hbm, 159, rfl⟩
abbrev main_v93 : Ref sig .tc := ⟨.hbm, 160, rfl⟩
abbrev main_v94 : Ref sig .tc := ⟨.hbm, 161, rfl⟩
abbrev main_c_21 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_22 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_call4_cst : Ref sig .tc := ⟨.hbm, 178, rfl⟩
abbrev main_call4_v0 : Ref sig .tc := ⟨.hbm, 179, rfl⟩
abbrev main_v109 : Ref sig .tc := ⟨.hbm, 180, rfl⟩
abbrev main_cst_23 : Ref sig .tc := ⟨.hbm, 181, rfl⟩
abbrev main_v110 : Ref sig .tc := ⟨.hbm, 182, rfl⟩
abbrev main_cst_24 : Ref sig .tc := ⟨.hbm, 183, rfl⟩
abbrev main_v111 : Ref sig .tc := ⟨.hbm, 184, rfl⟩
abbrev main_v112 : Ref sig .tc := ⟨.hbm, 185, rfl⟩
abbrev main_c_25 : Ref sig .tc := ⟨.hbm, 186, rfl⟩
abbrev main_call5_cst : Ref sig .tc := ⟨.hbm, 187, rfl⟩
abbrev main_call5_v0 : Ref sig .tc := ⟨.hbm, 188, rfl⟩
abbrev main_call5_v1 : Ref sig .tc := ⟨.hbm, 189, rfl⟩
abbrev main_call5_cst_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_v5 : Ref sig .tc := ⟨.hbm, 194, rfl⟩
abbrev main_call5_v6 : Ref sig .tc := ⟨.hbm, 195, rfl⟩
abbrev main_call5_v7 : Ref sig .tc := ⟨.hbm, 196, rfl⟩
abbrev main_call5_cst_1 : Ref sig .tc := ⟨.hbm, 197, rfl⟩
abbrev main_call5_v8 : Ref sig .tc := ⟨.hbm, 198, rfl⟩
abbrev main_call5_cst_2 : Ref sig .tc := ⟨.hbm, 199, rfl⟩
abbrev main_call5_v9 : Ref sig .tc := ⟨.hbm, 200, rfl⟩
abbrev main_call5_v10 : Ref sig .tc := ⟨.hbm, 201, rfl⟩
abbrev main_call5_v11 : Ref sig .tc := ⟨.hbm, 202, rfl⟩
abbrev main_call5_cst_3 : Ref sig .tc := ⟨.hbm, 203, rfl⟩
abbrev main_call5_v12 : Ref sig .tc := ⟨.hbm, 204, rfl⟩
abbrev main_call5_cst_4 : Ref sig .tc := ⟨.hbm, 205, rfl⟩
abbrev main_call5_call0_v0 : Ref sig .tc := ⟨.hbm, 206, rfl⟩
abbrev main_call5_call0_v1 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_26 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_cst_27 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_cst_28 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_cst_29 : Ref sig .tc := ⟨.hbm, 234, rfl⟩
abbrev main_call6_v0 : Ref sig .tc := ⟨.hbm, 235, rfl⟩
abbrev main_call6_v1 : Ref sig .tc := ⟨.hbm, 236, rfl⟩
abbrev main_v136 : Ref sig .tc := ⟨.hbm, 237, rfl⟩
abbrev main_c_30 : Ref sig .tc := ⟨.hbm, 238, rfl⟩
abbrev main_v137 : Ref sig .tc := ⟨.hbm, 239, rfl⟩
abbrev main_v138 : Ref sig .tc := ⟨.hbm, 240, rfl⟩
abbrev main_c_31 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_c_32 : Ref sig .tc := ⟨.hbm, 248, rfl⟩
abbrev main_v145 : Ref sig .tc := ⟨.hbm, 249, rfl⟩
abbrev main_v146 : Ref sig .tc := ⟨.hbm, 250, rfl⟩
abbrev main_c_33 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_c_34 : Ref sig .tc := ⟨.hbm, 258, rfl⟩
abbrev main_v153 : Ref sig .tc := ⟨.hbm, 259, rfl⟩
abbrev main_v154 : Ref sig .tc := ⟨.hbm, 260, rfl⟩
abbrev main_c_35 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_cst_36 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_call7_cst : Ref sig .tc := ⟨.hbm, 277, rfl⟩
abbrev main_call7_v0 : Ref sig .tc := ⟨.hbm, 278, rfl⟩
abbrev main_v169 : Ref sig .tc := ⟨.hbm, 279, rfl⟩
abbrev main_cst_37 : Ref sig .tc := ⟨.hbm, 280, rfl⟩
abbrev main_v170 : Ref sig .tc := ⟨.hbm, 281, rfl⟩
abbrev main_cst_38 : Ref sig .tc := ⟨.hbm, 282, rfl⟩
abbrev main_v171 : Ref sig .tc := ⟨.hbm, 283, rfl⟩
abbrev main_v172 : Ref sig .tc := ⟨.hbm, 284, rfl⟩
abbrev main_c_39 : Ref sig .tc := ⟨.hbm, 285, rfl⟩
abbrev main_call8_cst : Ref sig .tc := ⟨.hbm, 286, rfl⟩
abbrev main_call8_v0 : Ref sig .tc := ⟨.hbm, 287, rfl⟩
abbrev main_call8_v1 : Ref sig .tc := ⟨.hbm, 288, rfl⟩
abbrev main_call8_cst_0 : Ref sig .tc := ⟨.hbm, 289, rfl⟩
abbrev main_call8_v2 : Ref sig .tc := ⟨.hbm, 290, rfl⟩
abbrev main_call8_v3 : Ref sig .tc := ⟨.hbm, 291, rfl⟩
abbrev main_call8_v4 : Ref sig .tc := ⟨.hbm, 292, rfl⟩
abbrev main_call8_v5 : Ref sig .tc := ⟨.hbm, 293, rfl⟩
abbrev main_call8_v6 : Ref sig .tc := ⟨.hbm, 294, rfl⟩
abbrev main_call8_v7 : Ref sig .tc := ⟨.hbm, 295, rfl⟩
abbrev main_call8_cst_1 : Ref sig .tc := ⟨.hbm, 296, rfl⟩
abbrev main_call8_v8 : Ref sig .tc := ⟨.hbm, 297, rfl⟩
abbrev main_call8_cst_2 : Ref sig .tc := ⟨.hbm, 298, rfl⟩
abbrev main_call8_v9 : Ref sig .tc := ⟨.hbm, 299, rfl⟩
abbrev main_call8_v10 : Ref sig .tc := ⟨.hbm, 300, rfl⟩
abbrev main_call8_v11 : Ref sig .tc := ⟨.hbm, 301, rfl⟩
abbrev main_call8_cst_3 : Ref sig .tc := ⟨.hbm, 302, rfl⟩
abbrev main_call8_v12 : Ref sig .tc := ⟨.hbm, 303, rfl⟩
abbrev main_call8_cst_4 : Ref sig .tc := ⟨.hbm, 304, rfl⟩
abbrev main_call8_call0_v0 : Ref sig .tc := ⟨.hbm, 305, rfl⟩
abbrev main_call8_call0_v1 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_cst_40 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_v184 : Ref sig .tc := ⟨.hbm, 319, rfl⟩
abbrev main_v185 : Ref sig .tc := ⟨.hbm, 320, rfl⟩
abbrev main_v186 : Ref sig .tc := ⟨.hbm, 321, rfl⟩
abbrev main_v187 : Ref sig .tc := ⟨.hbm, 322, rfl⟩
abbrev main_v188 : Ref sig .tc := ⟨.hbm, 323, rfl⟩
abbrev main_v189 : Ref sig .tc := ⟨.hbm, 324, rfl⟩
abbrev main_v190 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  concatenates_S100000x32_S100000x32_S100000x32_S100000x96_d1 : Shape.Concatenates [S100000x32, S100000x32, S100000x32] S100000x96 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x64_S64x32_S100000x32_1_0_0_1_n_n_wf : DotDims.WF S100000x64 S64x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []
  dot_S100000x96_S96x2_S100000x2_1_0_0_1_n_n_wf : DotDims.WF S100000x96 S96x2 S100000x2 [1] [0] [0] [1] [] []

variable [Facts₀]

def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x96_S96x2_S100000x2_1_0_0_1_n_n : DotDims S100000x96 S96x2 S100000x2 where
  lhsContracting := [1]
  rhsContracting := [0]
  lhsNonContracting := [0]
  rhsNonContracting := [1]
  lhsBatch := []
  rhsBatch := []
  wf := dot_S100000x96_S96x2_S100000x2_1_0_0_1_n_n_wf

class Facts : Prop extends Facts₀ where

variable [Facts]
-- ==== Proof.KRun.lean ====
/-
  The idealized kernel program's run with its RESULT named.

  @main of the kernel program is twenty segments: stretches of host operations and ten pipelined regions. The buffer
  contents at each segment boundary are a fold from the launch memory: a stretch applies its operations, a region
  replaces its windows' arrays by what its write-backs leave. Every weakly fair execution terminates without a fault in
  a state whose unscoped buffers hold the last boundary's contents; read at the result buffer this names the result
  array, and read at each argument it is the launch contents.
-/
import proofs.«107356_j16226386444409_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and every argument array as launched. -/
theorem run_value : θ_run defs (onTc (τ := τ) (main (F := F))) ⟨m, fun _ => 0, ρ⟩ (fun r => ∀ c : Dev nD,
      r.2.mem ((c.tc : Thread nD τ).loc main_v129) = W20 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v129 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c)⟩)

end Cert.KernelIdeal.KRun

end
-- ==== Proof.KChain.lean ====
/-
  The kernel program's buffer contents, boundary by boundary.

  A buffer that a stretch of host operations does not write, and that is not one of a region's output arrays, holds
  after the segment what it held before it. The lemmas below walk each buffer the program reads back to the boundary
  where it was produced (or to the launch memory, for an argument).
-/
import proofs.«107356_j16226386444409_1_alg».proof.Proof.Gen.KernelIdeal.Frame

set_option maxRecDepth 16384

noncomputable section

namespace Cert.KernelIdeal.KChain

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- A buffer none of a line's operations writes keeps its contents across the line. -/
local macro "keep_host " H:ident : term => `(StableHlo.after_of_forall_not_mem _ _ (List.forall_iff_forall_mem.mp (by
  simp only [$H:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## The arguments, at the boundaries where they are read -/

theorem arg0_at (c : Dev nD) : W3 m ρ c (Proc.devRef .tc main_arg0) = m ((c : Thread nD τ).loc main_arg0) :=
  calc W3 m ρ c (Proc.devRef .tc main_arg0)
    _ = W2 m ρ c (Proc.devRef .tc main_arg0) := keep_host hostOps0_2
    _ = W1 m ρ c (Proc.devRef .tc main_arg0) := keep_host hostOps0_1
    _ = W0 m ρ c (Proc.devRef .tc main_arg0) := keep_host hostOps0
    _ = m ((c : Thread nD τ).loc main_arg0) := rfl
theorem arg3_at (c : Dev nD) : W3 m ρ c (Proc.devRef .tc main_arg3) = m ((c : Thread nD τ).loc main_arg3) :=
  calc W3 m ρ c (Proc.devRef .tc main_arg3)
    _ = W2 m ρ c (Proc.devRef .tc main_arg3) := keep_host hostOps0_2
    _ = W1 m ρ c (Proc.devRef .tc main_arg3) := keep_host hostOps0_1
    _ = W0 m ρ c (Proc.devRef .tc main_arg3) := keep_host hostOps0
    _ = m ((c : Thread nD τ).loc main_arg3) := rfl
theorem arg4_at (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := keep_host hostOps0_2
    _ = W1 m ρ c (Proc.devRef .tc main_arg4) := keep_host hostOps0_1
    _ = W0 m ρ c (Proc.devRef .tc main_arg4) := keep_host hostOps0
    _ = m ((c : Thread nD τ).loc main_arg4) := rfl
theorem arg5_at (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keep_host hostOps1
    _ = W3 m ρ c (Proc.devRef .tc main_arg5) := W4_of_ne m ρ c main_arg5 (by decide)
    _ = W2 m ρ c (Proc.devRef .tc main_arg5) := keep_host hostOps0_2
    _ = W1 m ρ c (Proc.devRef .tc main_arg5) := keep_host hostOps0_1
    _ = W0 m ρ c (Proc.devRef .tc main_arg5) := keep_host hostOps0
    _ = m ((c : Thread nD τ).loc main_arg5) := rfl
theorem arg6_at (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keep_host hostOps1
    _ = W3 m ρ c (Proc.devRef .tc main_arg6) := W4_of_ne m ρ c main_arg6 (by decide)
    _ = W2 m ρ c (Proc.devRef .tc main_arg6) := keep_host hostOps0_2
    _ = W1 m ρ c (Proc.devRef .tc main_arg6) := keep_host hostOps0_1
    _ = W0 m ρ c (Proc.devRef .tc main_arg6) := keep_host hostOps0
    _ = m ((c : Thread nD τ).loc main_arg6) := rfl
theorem arg7_at (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := keep_host hostOps2
    _ = W5 m ρ c (Proc.devRef .tc main_arg7) := W6_of_ne m ρ c main_arg7 (by decide)
    _ = W4 m ρ c (Proc.devRef .tc main_arg7) := keep_host hostOps1
    _ = W3 m ρ c (Proc.devRef .tc main_arg7) := W4_of_ne m ρ c main_arg7 (by decide)
    _ = W2 m ρ c (Proc.devRef .tc main_arg7) := keep_host hostOps0_2
    _ = W1 m ρ c (Proc.devRef .tc main_arg7) := keep_host hostOps0_1
    _ = W0 m ρ c (Proc.devRef .tc main_arg7) := keep_host hostOps0
    _ = m ((c : Thread nD τ).loc main_arg7) := rfl
theorem arg8_at (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := keep_host hostOps2
    _ = W5 m ρ c (Proc.devRef .tc main_arg8) := W6_of_ne m ρ c main_arg8 (by decide)
    _ = W4 m ρ c (Proc.devRef .tc main_arg8) := keep_host hostOps1
    _ = W3 m ρ c (Proc.devRef .tc main_arg8) := W4_of_ne m ρ c main_arg8 (by decide)
    _ = W2 m ρ c (Proc.devRef .tc main_arg8) := keep_host hostOps0_2
    _ = W1 m ρ c (Proc.devRef .tc main_arg8) := keep_host hostOps0_1
    _ = W0 m ρ c (Proc.devRef .tc main_arg8) := keep_host hostOps0
    _ = m ((c : Thread nD τ).loc main_arg8) := rfl
theorem arg9_at (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := keep_host hostOps4
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := keep_host hostOps2
    _ = W5 m ρ c (Proc.devRef .tc main_arg9) := W6_of_ne m ρ c main_arg9 (by decide)
    _ = W4 m ρ c (Proc.devRef .tc main_arg9) := keep_host hostOps1
    _ = W3 m ρ c (Proc.devRef .tc main_arg9) := W4_of_ne m ρ c main_arg9 (by decide)
    _ = W2 m ρ c (Proc.devRef .tc main_arg9) := keep_host hostOps0_2
    _ = W1 m ρ c (Proc.devRef .tc main_arg9) := keep_host hostOps0_1
    _ = W0 m ρ c (Proc.devRef .tc main_arg9) := keep_host hostOps0
    _ = m ((c : Thread nD τ).loc main_arg9) := rfl
theorem arg10_at (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := keep_host hostOps4
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := keep_host hostOps2
    _ = W5 m ρ c (Proc.devRef .tc main_arg10) := W6_of_ne m ρ c main_arg10 (by decide)
    _ = W4 m ρ c (Proc.devRef .tc main_arg10) := keep_host hostOps1
    _ = W3 m ρ c (Proc.devRef .tc main_arg10) := W4_of_ne m ρ c main_arg10 (by decide)
    _ = W2 m ρ c (Proc.devRef .tc main_arg10) := keep_host hostOps0_2
    _ = W1 m ρ c (Proc.devRef .tc main_arg10) := keep_host hostOps0_1
    _ = W0 m ρ c (Proc.devRef .tc main_arg10) := keep_host hostOps0
    _ = m ((c : Thread nD τ).loc main_arg10) := rfl
theorem arg11_at (c : Dev nD) : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := keep_host hostOps5
    _ = W10 m ρ c (Proc.devRef .tc main_arg11) := W11_of_ne m ρ c main_arg11 (by decide)
    _ = W9 m ρ c (Proc.devRef .tc main_arg11) := keep_host hostOps4
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := keep_host hostOps2
    _ = W5 m ρ c (Proc.devRef .tc main_arg11) := W6_of_ne m ρ c main_arg11 (by decide)
    _ = W4 m ρ c (Proc.devRef .tc main_arg11) := keep_host hostOps1
    _ = W3 m ρ c (Proc.devRef .tc main_arg11) := W4_of_ne m ρ c main_arg11 (by decide)
    _ = W2 m ρ c (Proc.devRef .tc main_arg11) := keep_host hostOps0_2
    _ = W1 m ρ c (Proc.devRef .tc main_arg11) := keep_host hostOps0_1
    _ = W0 m ρ c (Proc.devRef .tc main_arg11) := keep_host hostOps0
    _ = m ((c : Thread nD τ).loc main_arg11) := rfl
theorem arg12_at (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := W13_of_ne m ρ c main_arg12 (by decide)
    _ = W11 m ρ c (Proc.devRef .tc main_arg12) := keep_host hostOps5
    _ = W10 m ρ c (Proc.devRef .tc main_arg12) := W11_of_ne m ρ c main_arg12 (by decide)
    _ = W9 m ρ c (Proc.devRef .tc main_arg12) := keep_host hostOps4
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := keep_host hostOps2
    _ = W5 m ρ c (Proc.devRef .tc main_arg12) := W6_of_ne m ρ c main_arg12 (by decide)
    _ = W4 m ρ c (Proc.devRef .tc main_arg12) := keep_host hostOps1
    _ = W3 m ρ c (Proc.devRef .tc main_arg12) := W4_of_ne m ρ c main_arg12 (by decide)
    _ = W2 m ρ c (Proc.devRef .tc main_arg12) := keep_host hostOps0_2
    _ = W1 m ρ c (Proc.devRef .tc main_arg12) := keep_host hostOps0_1
    _ = W0 m ρ c (Proc.devRef .tc main_arg12) := keep_host hostOps0
    _ = m ((c : Thread nD τ).loc main_arg12) := rfl
theorem arg13_at (c : Dev nD) : W16 m ρ c (Proc.devRef .tc main_arg13) = m ((c : Thread nD τ).loc main_arg13) :=
  calc W16 m ρ c (Proc.devRef .tc main_arg13)
    _ = W15 m ρ c (Proc.devRef .tc main_arg13) := W16_of_ne m ρ c main_arg13 (by decide)
    _ = W14 m ρ c (Proc.devRef .tc main_arg13) := keep_host hostOps7
    _ = W13 m ρ c (Proc.devRef .tc main_arg13) := W14_of_ne m ρ c main_arg13 (by decide)
    _ = W12 m ρ c (Proc.devRef .tc main_arg13) := W13_of_ne m ρ c main_arg13 (by decide)
    _ = W11 m ρ c (Proc.devRef .tc main_arg13) := keep_host hostOps5
    _ = W10 m ρ c (Proc.devRef .tc main_arg13) := W11_of_ne m ρ c main_arg13 (by decide)
    _ = W9 m ρ c (Proc.devRef .tc main_arg13) := keep_host hostOps4
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := keep_host hostOps2
    _ = W5 m ρ c (Proc.devRef .tc main_arg13) := W6_of_ne m ρ c main_arg13 (by decide)
    _ = W4 m ρ c (Proc.devRef .tc main_arg13) := keep_host hostOps1
    _ = W3 m ρ c (Proc.devRef .tc main_arg13) := W4_of_ne m ρ c main_arg13 (by decide)
    _ = W2 m ρ c (Proc.devRef .tc main_arg13) := keep_host hostOps0_2
    _ = W1 m ρ c (Proc.devRef .tc main_arg13) := keep_host hostOps0_1
    _ = W0 m ρ c (Proc.devRef .tc main_arg13) := keep_host hostOps0
    _ = m ((c : Thread nD τ).loc main_arg13) := rfl
theorem arg14_at (c : Dev nD) : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = W14 m ρ c (Proc.devRef .tc main_arg14) := keep_host hostOps7
    _ = W13 m ρ c (Proc.devRef .tc main_arg14) := W14_of_ne m ρ c main_arg14 (by decide)
    _ = W12 m ρ c (Proc.devRef .tc main_arg14) := W13_of_ne m ρ c main_arg14 (by decide)
    _ = W11 m ρ c (Proc.devRef .tc main_arg14) := keep_host hostOps5
    _ = W10 m ρ c (Proc.devRef .tc main_arg14) := W11_of_ne m ρ c main_arg14 (by decide)
    _ = W9 m ρ c (Proc.devRef .tc main_arg14) := keep_host hostOps4
    _ = W8 m ρ c (Proc.devRef .tc main_arg14) := W9_of_ne m ρ c main_arg14 (by decide)
    _ = W7 m ρ c (Proc.devRef .tc main_arg14) := W8_of_ne m ρ c main_arg14 (by decide)
    _ = W6 m ρ c (Proc.devRef .tc main_arg14) := keep_host hostOps2
    _ = W5 m ρ c (Proc.devRef .tc main_arg14) := W6_of_ne m ρ c main_arg14 (by decide)
    _ = W4 m ρ c (Proc.devRef .tc main_arg14) := keep_host hostOps1
    _ = W3 m ρ c (Proc.devRef .tc main_arg14) := W4_of_ne m ρ c main_arg14 (by decide)
    _ = W2 m ρ c (Proc.devRef .tc main_arg14) := keep_host hostOps0_2
    _ = W1 m ρ c (Proc.devRef .tc main_arg14) := keep_host hostOps0_1
    _ = W0 m ρ c (Proc.devRef .tc main_arg14) := keep_host hostOps0
    _ = m ((c : Thread nD τ).loc main_arg14) := rfl
theorem arg15_at (c : Dev nD) : W18 m ρ c (Proc.devRef .tc main_arg15) = m ((c : Thread nD τ).loc main_arg15) :=
  calc W18 m ρ c (Proc.devRef .tc main_arg15)
    _ = W17 m ρ c (Proc.devRef .tc main_arg15) := W18_of_ne m ρ c main_arg15 (by decide)
    _ = W16 m ρ c (Proc.devRef .tc main_arg15) := keep_host hostOps8
    _ = W15 m ρ c (Proc.devRef .tc main_arg15) := W16_of_ne m ρ c main_arg15 (by decide)
    _ = W14 m ρ c (Proc.devRef .tc main_arg15) := keep_host hostOps7
    _ = W13 m ρ c (Proc.devRef .tc main_arg15) := W14_of_ne m ρ c main_arg15 (by decide)
    _ = W12 m ρ c (Proc.devRef .tc main_arg15) := W13_of_ne m ρ c main_arg15 (by decide)
    _ = W11 m ρ c (Proc.devRef .tc main_arg15) := keep_host hostOps5
    _ = W10 m ρ c (Proc.devRef .tc main_arg15) := W11_of_ne m ρ c main_arg15 (by decide)
    _ = W9 m ρ c (Proc.devRef .tc main_arg15) := keep_host hostOps4
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := keep_host hostOps2
    _ = W5 m ρ c (Proc.devRef .tc main_arg15) := W6_of_ne m ρ c main_arg15 (by decide)
    _ = W4 m ρ c (Proc.devRef .tc main_arg15) := keep_host hostOps1
    _ = W3 m ρ c (Proc.devRef .tc main_arg15) := W4_of_ne m ρ c main_arg15 (by decide)
    _ = W2 m ρ c (Proc.devRef .tc main_arg15) := keep_host hostOps0_2
    _ = W1 m ρ c (Proc.devRef .tc main_arg15) := keep_host hostOps0_1
    _ = W0 m ρ c (Proc.devRef .tc main_arg15) := keep_host hostOps0
    _ = m ((c : Thread nD τ).loc main_arg15) := rfl
theorem arg16_at (c : Dev nD) : W18 m ρ c (Proc.devRef .tc main_arg16) = m ((c : Thread nD τ).loc main_arg16) :=
  calc W18 m ρ c (Proc.devRef .tc main_arg16)
    _ = W17 m ρ c (Proc.devRef .tc main_arg16) := W18_of_ne m ρ c main_arg16 (by decide)
    _ = W16 m ρ c (Proc.devRef .tc main_arg16) := keep_host hostOps8
    _ = W15 m ρ c (Proc.devRef .tc main_arg16) := W16_of_ne m ρ c main_arg16 (by decide)
    _ = W14 m ρ c (Proc.devRef .tc main_arg16) := keep_host hostOps7
    _ = W13 m ρ c (Proc.devRef .tc main_arg16) := W14_of_ne m ρ c main_arg16 (by decide)
    _ = W12 m ρ c (Proc.devRef .tc main_arg16) := W13_of_ne m ρ c main_arg16 (by decide)
    _ = W11 m ρ c (Proc.devRef .tc main_arg16) := keep_host hostOps5
    _ = W10 m ρ c (Proc.devRef .tc main_arg16) := W11_of_ne m ρ c main_arg16 (by decide)
    _ = W9 m ρ c (Proc.devRef .tc main_arg16) := keep_host hostOps4
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := keep_host hostOps2
    _ = W5 m ρ c (Proc.devRef .tc main_arg16) := W6_of_ne m ρ c main_arg16 (by decide)
    _ = W4 m ρ c (Proc.devRef .tc main_arg16) := keep_host hostOps1
    _ = W3 m ρ c (Proc.devRef .tc main_arg16) := W4_of_ne m ρ c main_arg16 (by decide)
    _ = W2 m ρ c (Proc.devRef .tc main_arg16) := keep_host hostOps0_2
    _ = W1 m ρ c (Proc.devRef .tc main_arg16) := keep_host hostOps0_1
    _ = W0 m ρ c (Proc.devRef .tc main_arg16) := keep_host hostOps0
    _ = m ((c : Thread nD τ).loc main_arg16) := rfl

/-! ## The graph data and the layers' results, carried to where they are read -/

theorem keep_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := keep_host hostOps0_1
theorem keep_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := keep_host hostOps0_1
theorem keep_v8_2_1 (c : Dev nD) : W2 m ρ c (Proc.devRef .tc main_v8) = W1 m ρ c (Proc.devRef .tc main_v8) :=
  calc W2 m ρ c (Proc.devRef .tc main_v8)
    _ = W1 m ρ c (Proc.devRef .tc main_v8) := keep_host hostOps0_1
theorem keep_v3_4_2 (c : Dev nD) : W4 m ρ c (Proc.devRef .tc main_v3) = W2 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := keep_host hostOps0_2
theorem keep_v6_4_2 (c : Dev nD) : W4 m ρ c (Proc.devRef .tc main_v6) = W2 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := keep_host hostOps0_2
theorem keep_v31_4_3 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)
theorem keep_v3_9_4 (c : Dev nD) : W9 m ρ c (Proc.devRef .tc main_v3) = W4 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := keep_host hostOps2
    _ = W5 m ρ c (Proc.devRef .tc main_v3) := W6_of_ne m ρ c main_v3 (by decide)
    _ = W4 m ρ c (Proc.devRef .tc main_v3) := keep_host hostOps1
theorem keep_v6_9_4 (c : Dev nD) : W9 m ρ c (Proc.devRef .tc main_v6) = W4 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := keep_host hostOps2
    _ = W5 m ρ c (Proc.devRef .tc main_v6) := W6_of_ne m ρ c main_v6 (by decide)
    _ = W4 m ρ c (Proc.devRef .tc main_v6) := keep_host hostOps1
theorem keep_v31_9_4 (c : Dev nD) : W9 m ρ c (Proc.devRef .tc main_v31) = W4 m ρ c (Proc.devRef .tc main_v31) :=
  calc W9 m ρ c (Proc.devRef .tc main_v31)
    _ = W8 m ρ c (Proc.devRef .tc main_v31) := W9_of_ne m ρ c main_v31 (by decide)
    _ = W7 m ρ c (Proc.devRef .tc main_v31) := W8_of_ne m ρ c main_v31 (by decide)
    _ = W6 m ρ c (Proc.devRef .tc main_v31) := keep_host hostOps2
    _ = W5 m ρ c (Proc.devRef .tc main_v31) := W6_of_ne m ρ c main_v31 (by decide)
    _ = W4 m ρ c (Proc.devRef .tc main_v31) := keep_host hostOps1
theorem keep_v3_14_9 (c : Dev nD) : W14 m ρ c (Proc.devRef .tc main_v3) = W9 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := keep_host hostOps5
    _ = W10 m ρ c (Proc.devRef .tc main_v3) := W11_of_ne m ρ c main_v3 (by decide)
    _ = W9 m ρ c (Proc.devRef .tc main_v3) := keep_host hostOps4
theorem keep_v6_14_9 (c : Dev nD) : W14 m ρ c (Proc.devRef .tc main_v6) = W9 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := keep_host hostOps5
    _ = W10 m ρ c (Proc.devRef .tc main_v6) := W11_of_ne m ρ c main_v6 (by decide)
    _ = W9 m ρ c (Proc.devRef .tc main_v6) := keep_host hostOps4
theorem keep_v31_14_9 (c : Dev nD) : W14 m ρ c (Proc.devRef .tc main_v31) = W9 m ρ c (Proc.devRef .tc main_v31) :=
  calc W14 m ρ c (Proc.devRef .tc main_v31)
    _ = W13 m ρ c (Proc.devRef .tc main_v31) := W14_of_ne m ρ c main_v31 (by decide)
    _ = W12 m ρ c (Proc.devRef .tc main_v31) := W13_of_ne m ρ c main_v31 (by decide)
    _ = W11 m ρ c (Proc.devRef .tc main_v31) := keep_host hostOps5
    _ = W10 m ρ c (Proc.devRef .tc main_v31) := W11_of_ne m ρ c main_v31 (by decide)
    _ = W9 m ρ c (Proc.devRef .tc main_v31) := keep_host hostOps4
theorem keep_v47_0_7_6 (c : Dev nD) : W7 m ρ c (Proc.devRef .tc main_v47_0) = W6 m ρ c (Proc.devRef .tc main_v47_0) :=
  calc W7 m ρ c (Proc.devRef .tc main_v47_0)
    _ = W6 m ρ c (Proc.devRef .tc main_v47_0) := keep_host hostOps2
theorem keep_v78_0_12_11 (c : Dev nD) : W12 m ρ c (Proc.devRef .tc main_v78_0) = W11 m ρ c (Proc.devRef .tc main_v78_0) :=
  calc W12 m ρ c (Proc.devRef .tc main_v78_0)
    _ = W11 m ρ c (Proc.devRef .tc main_v78_0) := keep_host hostOps5
theorem keep_v109_0_17_16 (c : Dev nD) : W17 m ρ c (Proc.devRef .tc main_v109_0) = W16 m ρ c (Proc.devRef .tc main_v109_0) :=
  calc W17 m ρ c (Proc.devRef .tc main_v109_0)
    _ = W16 m ρ c (Proc.devRef .tc main_v109_0) := keep_host hostOps8
theorem keep_v62_19_8 (c : Dev nD) : W19 m ρ c (Proc.devRef .tc main_v62) = W8 m ρ c (Proc.devRef .tc main_v62) :=
  calc W19 m ρ c (Proc.devRef .tc main_v62)
    _ = W18 m ρ c (Proc.devRef .tc main_v62) := keep_host hostOps9
    _ = W17 m ρ c (Proc.devRef .tc main_v62) := W18_of_ne m ρ c main_v62 (by decide)
    _ = W16 m ρ c (Proc.devRef .tc main_v62) := keep_host hostOps8
    _ = W15 m ρ c (Proc.devRef .tc main_v62) := W16_of_ne m ρ c main_v62 (by decide)
    _ = W14 m ρ c (Proc.devRef .tc main_v62) := keep_host hostOps7
    _ = W13 m ρ c (Proc.devRef .tc main_v62) := W14_of_ne m ρ c main_v62 (by decide)
    _ = W12 m ρ c (Proc.devRef .tc main_v62) := W13_of_ne m ρ c main_v62 (by decide)
    _ = W11 m ρ c (Proc.devRef .tc main_v62) := keep_host hostOps5
    _ = W10 m ρ c (Proc.devRef .tc main_v62) := W11_of_ne m ρ c main_v62 (by decide)
    _ = W9 m ρ c (Proc.devRef .tc main_v62) := keep_host hostOps4
    _ = W8 m ρ c (Proc.devRef .tc main_v62) := (W9_arr m ρ c 0).trans (((dat3 (V8 m ρ) c).arrAt_in 0 rfl _).trans (A_eq3 (V8 m ρ) c 0))
theorem keep_v93_19_13 (c : Dev nD) : W19 m ρ c (Proc.devRef .tc main_v93) = W13 m ρ c (Proc.devRef .tc main_v93) :=
  calc W19 m ρ c (Proc.devRef .tc main_v93)
    _ = W18 m ρ c (Proc.devRef .tc main_v93) := keep_host hostOps9
    _ = W17 m ρ c (Proc.devRef .tc main_v93) := W18_of_ne m ρ c main_v93 (by decide)
    _ = W16 m ρ c (Proc.devRef .tc main_v93) := keep_host hostOps8
    _ = W15 m ρ c (Proc.devRef .tc main_v93) := W16_of_ne m ρ c main_v93 (by decide)
    _ = W14 m ρ c (Proc.devRef .tc main_v93) := keep_host hostOps7
    _ = W13 m ρ c (Proc.devRef .tc main_v93) := (W14_arr m ρ c 0).trans (((dat6 (V13 m ρ) c).arrAt_in 0 rfl _).trans (A_eq6 (V13 m ρ) c 0))
theorem keep_v124_19_18 (c : Dev nD) : W19 m ρ c (Proc.devRef .tc main_v124) = W18 m ρ c (Proc.devRef .tc main_v124) :=
  calc W19 m ρ c (Proc.devRef .tc main_v124)
    _ = W18 m ρ c (Proc.devRef .tc main_v124) := keep_host hostOps9

end Cert.KernelIdeal.KChain

end
-- ==== Proof.LibRowIdx.lean ====
/-
  Row gathers and row scatters read at an index.

  A graph layer moves rows: `h[src]` gathers row `src e` of an `[N, C]` array for every edge `e`, and a segment sum
  scatters row `e` of an `[M, C]` array onto row `dst e` of an `[N, C]` array. The start indices come as an `[M, 1]`
  array of words. A gather reads its start index as a signed integer and clamps it into `[0, N - 1]`; a scatter
  reads it signed and DROPS the row when it is outside `[0, N)`. The same for a flat `[N]` array and `[M]` updates.
  Each statement is for the dimension numbers as a record over any extents; a program's own record is one of these
  at its literal extents.
-/
import Idealize.ShloMosaic.PureOps.ShapeOps
import Idealize.ShloMosaic.Lib.ValueIdx

noncomputable section

namespace Idealize.ShloMosaic.RowIdx

open Idealize.ShloMosaic.ValueIdx

variable {α : Type}

/-- An axis is kept exactly when it is not among the removed ones. -/
theorem mem_kept {s : Shape} (axes : List (Fin s.rank)) (a : Fin s.rank) : a ∈ s.kept axes ↔ a ∉ axes := by
  simp [Shape.kept, List.mem_filter, List.mem_finRange]

theorem one_ne_zero_fin2 : (1 : Fin 2) ≠ 0 := by decide

/-! ## The four dimension-number records -/

/-- Rows of an `[N, C]` operand gathered at `[M, 1]` start indices into `[M, C]`. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Elements of an `[N]` operand gathered at `[M, 1]` start indices into `[M]`. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Rows of `[M, C]` updates scattered at `[M, 1]` indices onto an `[N, C]` operand. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Elements of `[M]` updates scattered at `[M, 1]` indices onto an `[N]` operand. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The row a gather reads for the start word `b`: `b` as a signed integer, clamped into `[0, N - 1]`. -/
def clampRow (N : Nat) {w : Nat} (hN : 0 < N) (b : BitVec w) : Fin N := ⟨min b.toInt.toNat (N - 1), by omega⟩

/-! ## The gathers -/

/-- The row gather at `(e, c)`: the operand at the clamped row of edge `e`, column `c`. -/
theorem rowGather_apply {N C M w : Nat} (hN : 0 < N) (wf) (x : (⟨2, ![N, C]⟩ : Shape).Idx → α) (idx : IVec ⟨2, ![M, 1]⟩ w)
    (e : Fin M) (c : Fin C) :
    Host.gather (rowGather N C M wf) x idx (ix2 e c) = x (ix2 (clampRow N hN (idx (ix2 e (0 : Fin 1)))) c) := by
  unfold Host.gather
  refine congrArg x (funext fun a => ?_)
  match a with
  | ⟨0, _⟩ =>
    refine Fin.ext ?_
    show (rowGather N C M wf).start (ix2 e c) idx 0 + (rowGather N C M wf).batchCoord (ix2 e c) 0
      + (rowGather N C M wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e c) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGather N C M wf).start (ix2 e c) idx 1 + (rowGather N C M wf).batchCoord (ix2 e c) 1
      + (rowGather N C M wf).offCoord (ix2 e c) 1 = c.val
    rw [GatherDims.batchCoord_eq_zero _ _ _ List.not_mem_nil]
    have hs : (rowGather N C M wf).start (ix2 e c) idx 1 = 0 := by
      unfold GatherDims.start
      rw [dif_neg (show (1 : Fin 2) ∉ (rowGather N C M wf).startIndexMap from fun h => one_ne_zero_fin2 (List.mem_singleton.mp h))]
    have ho : (rowGather N C M wf).offCoord (ix2 e c) 1 = c.val := by
      unfold GatherDims.offCoord
      rw [dif_pos ((GatherDims.mem_sKept _ _).mpr ⟨fun h => one_ne_zero_fin2 (List.mem_singleton.mp h), List.not_mem_nil⟩)]
      rfl
    rw [hs, ho]; omega

/-- The flat gather at `e`: the operand at the clamped start of edge `e`. -/
theorem vecGather_apply {N M w : Nat} (hN : 0 < N) (wf) (x : (⟨1, ![N]⟩ : Shape).Idx → α) (idx : IVec ⟨2, ![M, 1]⟩ w)
    (e : Fin M) :
    Host.gather (vecGather N M wf) x idx (ix1 e) = x (ix1 (clampRow N hN (idx (ix2 e (0 : Fin 1))))) := by
  unfold Host.gather
  refine congrArg x (funext fun a => ?_)
  match a with
  | ⟨0, _⟩ =>
    refine Fin.ext ?_
    show (vecGather N M wf).start (ix1 e) idx 0 + (vecGather N M wf).batchCoord (ix1 e) 0
      + (vecGather N M wf).offCoord (ix1 e) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N M wf).startIndexMap from List.mem_singleton.mpr rfl)]
    have hsi : (vecGather N M wf).siIdx (ix1 e) ⟨List.idxOf (0 : Fin 1) (vecGather N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The scatters -/

/-- Where row `e`, column `c` of the updates lands: on row `idx e` read signed, same column, when that row is inside
    the operand; nowhere otherwise. -/
theorem rowScatter_resultIdx? {N C M w : Nat} (wf) (idx : IVec ⟨2, ![M, 1]⟩ w) (e : Fin M) (c : Fin C) :
    (rowScatter N C M wf).resultIdx? (ix2 e c) idx =
      if h : 0 ≤ (idx (ix2 e (0 : Fin 1))).toInt ∧ (idx (ix2 e (0 : Fin 1))).toInt < (N : Int) then
        some (ix2 (⟨(idx (ix2 e (0 : Fin 1))).toInt.toNat, by omega⟩ : Fin N) c)
      else none := by
  have hsi : (rowScatter N C M wf).siIdx (ix2 e c) ⟨List.idxOf (0 : Fin 2) (rowScatter N C M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl), hsi]
  have hs1 : (rowScatter N C M wf).start (ix2 e c) idx 1 = 0 := by
    unfold ScatterDims.start
    rw [dif_neg (show (1 : Fin 2) ∉ (rowScatter N C M wf).scatterDimsToOperandDims from fun h => one_ne_zero_fin2 (List.mem_singleton.mp h))]
  have hw0 : (rowScatter N C M wf).window (ix2 e c) 0 = 0 := by
    unfold ScatterDims.window
    rw [dif_neg (show (0 : Fin 2) ∉ (rowScatter N C M wf).sKept from fun h => (mem_kept _ _).mp h (List.mem_singleton.mpr rfl))]
  have hw1 : (rowScatter N C M wf).window (ix2 e c) 1 = c.val := by
    unfold ScatterDims.window
    rw [dif_pos (show (1 : Fin 2) ∈ (rowScatter N C M wf).sKept from (mem_kept _ _).mpr fun h => one_ne_zero_fin2 (List.mem_singleton.mp h))]
    rfl
  unfold ScatterDims.resultIdx?
  by_cases h : 0 ≤ (idx (ix2 e (0 : Fin 1))).toInt ∧ (idx (ix2 e (0 : Fin 1))).toInt < (N : Int)
  · have hall : ∀ a, 0 ≤ (rowScatter N C M wf).start (ix2 e c) idx a + (rowScatter N C M wf).window (ix2 e c) a ∧
        (rowScatter N C M wf).start (ix2 e c) idx a + (rowScatter N C M wf).window (ix2 e c) a
          < (⟨2, ![N, C]⟩ : Shape).size a := by
      intro a
      match a with
      | ⟨0, _⟩ =>
        show 0 ≤ (rowScatter N C M wf).start (ix2 e c) idx 0 + ((rowScatter N C M wf).window (ix2 e c) 0 : Int) ∧
          (rowScatter N C M wf).start (ix2 e c) idx 0 + ((rowScatter N C M wf).window (ix2 e c) 0 : Int) < (N : Int)
        rw [hs0, hw0]; omega
      | ⟨1, _⟩ =>
        show 0 ≤ (rowScatter N C M wf).start (ix2 e c) idx 1 + ((rowScatter N C M wf).window (ix2 e c) 1 : Int) ∧
          (rowScatter N C M wf).start (ix2 e c) idx 1 + ((rowScatter N C M wf).window (ix2 e c) 1 : Int) < (C : Int)
        rw [hs1, hw1]; have := c.isLt; omega
    rw [dif_pos hall, dif_pos h]
    refine congrArg some (funext fun a => ?_)
    match a with
    | ⟨0, _⟩ =>
      refine Fin.ext ?_
      show ((rowScatter N C M wf).start (ix2 e c) idx 0 + ((rowScatter N C M wf).window (ix2 e c) 0 : Int)).toNat
        = (idx (ix2 e (0 : Fin 1))).toInt.toNat
      rw [hs0, hw0]; simp
    | ⟨1, _⟩ =>
      refine Fin.ext ?_
      show ((rowScatter N C M wf).start (ix2 e c) idx 1 + ((rowScatter N C M wf).window (ix2 e c) 1 : Int)).toNat = c.val
      rw [hs1, hw1]; simp
  · rw [dif_neg h, dif_neg]
    intro hall
    have h0 := hall 0
    have h0' : 0 ≤ (rowScatter N C M wf).start (ix2 e c) idx 0 + ((rowScatter N C M wf).window (ix2 e c) 0 : Int) ∧
        (rowScatter N C M wf).start (ix2 e c) idx 0 + ((rowScatter N C M wf).window (ix2 e c) 0 : Int) < (N : Int) := h0
    rw [hs0, hw0] at h0'
    exact h ⟨by omega, by omega⟩

/-- Where element `e` of the updates lands: on `idx e` read signed, when that is inside the operand. -/
theorem vecScatter_resultIdx? {N M w : Nat} (wf) (idx : IVec ⟨2, ![M, 1]⟩ w) (e : Fin M) :
    (vecScatter N M wf).resultIdx? (ix1 e) idx =
      if h : 0 ≤ (idx (ix2 e (0 : Fin 1))).toInt ∧ (idx (ix2 e (0 : Fin 1))).toInt < (N : Int) then
        some (ix1 (⟨(idx (ix2 e (0 : Fin 1))).toInt.toNat, by omega⟩ : Fin N))
      else none := by
  have hsi : (vecScatter N M wf).siIdx (ix1 e) ⟨List.idxOf (0 : Fin 1) (vecScatter N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl), hsi]
  have hw0 : (vecScatter N M wf).window (ix1 e) 0 = 0 := by
    unfold ScatterDims.window
    rw [dif_neg (show (0 : Fin 1) ∉ (vecScatter N M wf).sKept from fun h => (mem_kept _ _).mp h (List.mem_singleton.mpr rfl))]
  unfold ScatterDims.resultIdx?
  by_cases h : 0 ≤ (idx (ix2 e (0 : Fin 1))).toInt ∧ (idx (ix2 e (0 : Fin 1))).toInt < (N : Int)
  · have hall : ∀ a, 0 ≤ (vecScatter N M wf).start (ix1 e) idx a + (vecScatter N M wf).window (ix1 e) a ∧
        (vecScatter N M wf).start (ix1 e) idx a + (vecScatter N M wf).window (ix1 e) a
          < (⟨1, ![N]⟩ : Shape).size a := by
      intro a
      match a with
      | ⟨0, _⟩ =>
        show 0 ≤ (vecScatter N M wf).start (ix1 e) idx 0 + ((vecScatter N M wf).window (ix1 e) 0 : Int) ∧
          (vecScatter N M wf).start (ix1 e) idx 0 + ((vecScatter N M wf).window (ix1 e) 0 : Int) < (N : Int)
        rw [hs0, hw0]; omega
    rw [dif_pos hall, dif_pos h]
    refine congrArg some (funext fun a => ?_)
    match a with
    | ⟨0, _⟩ =>
      refine Fin.ext ?_
      show ((vecScatter N M wf).start (ix1 e) idx 0 + ((vecScatter N M wf).window (ix1 e) 0 : Int)).toNat
        = (idx (ix2 e (0 : Fin 1))).toInt.toNat
      rw [hs0, hw0]; simp
  · rw [dif_neg h, dif_neg]
    intro hall
    have h0 := hall 0
    have h0' : 0 ≤ (vecScatter N M wf).start (ix1 e) idx 0 + ((vecScatter N M wf).window (ix1 e) 0 : Int) ∧
        (vecScatter N M wf).start (ix1 e) idx 0 + ((vecScatter N M wf).window (ix1 e) 0 : Int) < (N : Int) := h0
    rw [hs0, hw0] at h0'
    exact h ⟨by omega, by omega⟩

end Idealize.ShloMosaic.RowIdx

end
-- ==== Proof.GcnDefs.lean ====
/-
  A three-layer graph convolution with batch normalisation, as whole-array terms.

  Both programs build the same graph data from the edge list: source rows and target columns with one self loop per
  node appended, the edge weights with ones appended, the weighted in-degree `deg` (a scatter-add of the weights by
  column), `dis = deg^(-1/2)` where `deg > 0` and `0` elsewhere, and the edge normalisation
  `norm e = dis (row e) · w e · dis (col e)`. A convolution aggregates: it gathers the rows of `h` at the sources,
  scales row `e` by `norm e` and scatter-adds the rows onto the targets.

  After the aggregation the two programs differ. One adds the bias, clips at zero, takes the column mean and the
  mean squared deviation, and normalises `(r − μ) · rsqrt (var + ε) · γ + β`. The other is handed the clipped
  array `r` with its column sums `s` and sums of squares `q`, forms `μ = s/N`, `var = q/N − μ·μ`,
  `scale = γ · rsqrt (var + ε)`, `shift = β − μ · scale`, and returns `r · scale + shift`.
-/
import Idealize.ShloMosaic.PureOps.Ideal
import Idealize.ShloMosaic.PureOps.ShapeOps
import proofs.«107356_j16226386444409_1_alg».proof.Proof.LibRowIdx

noncomputable section

namespace Cert.Gcn

open Idealize.ShloMosaic Idealize.ShloMosaic.RowIdx

abbrev SNx64 : Shape := ⟨2, ![100000, 64]⟩
abbrev S2xE : Shape := ⟨2, ![2, 1600000]⟩
abbrev SE : Shape := ⟨1, ![1600000]⟩
abbrev S1xE : Shape := ⟨2, ![1, 1600000]⟩
abbrev SN : Shape := ⟨1, ![100000]⟩
abbrev SM : Shape := ⟨1, ![1700000]⟩
abbrev SMx1 : Shape := ⟨2, ![1700000, 1]⟩
abbrev SMx32 : Shape := ⟨2, ![1700000, 32]⟩
abbrev SNx32 : Shape := ⟨2, ![100000, 32]⟩
abbrev S32 : Shape := ⟨1, ![32]⟩
abbrev S1x32 : Shape := ⟨2, ![1, 32]⟩
abbrev S0 : Shape := ⟨0, ![]⟩

theorem slices_row : S2xE.Slices ![0, 0] S1xE := by decide
theorem slices_col : S2xE.Slices ![1, 0] S1xE := by decide
theorem casts_1xE_E : S1xE.ShapeCasts SE := by decide
theorem concats_E_N : Shape.Concatenates [SE, SN] SM 0 := by decide
theorem bc_0_N : S0.BroadcastsInDim SN (![] : Fin 0 → Fin SN.rank) := by decide
theorem bc_0_M : S0.BroadcastsInDim SM (![] : Fin 0 → Fin SM.rank) := by decide
theorem bc_M_Mx1 : SM.BroadcastsInDim SMx1 (![0] : Fin 1 → Fin SMx1.rank) := by decide
theorem bc_Mx1_Mx32 : SMx1.BroadcastsInDim SMx32 (![0, 1] : Fin 2 → Fin SMx32.rank) := by decide
theorem bc_0_Nx32 : S0.BroadcastsInDim SNx32 (![] : Fin 0 → Fin SNx32.rank) := by decide
theorem wf_vecScatter : ScatterDims.WF SN SMx1 SM [] [0] [0] 1 := by decide
theorem wf_vecGather : GatherDims.WF SN SMx1 SM [] [0] [] [0] [] 1 ![1] := by decide
theorem wf_rowGather : GatherDims.WF SNx32 SMx1 SMx32 [1] [0] [] [0] [] 1 ![1, 32] := by decide
theorem wf_rowScatter : ScatterDims.WF SNx32 SMx1 SMx32 [1] [0] [0] 1 := by decide

/-- The flat scatter of per-edge values onto nodes. -/
abbrev sdVec : ScatterDims SN SMx1 SM := vecScatter 100000 1700000 wf_vecScatter
/-- The flat gather of per-node values at edges. -/
abbrev gdVec : GatherDims SN SMx1 SM := vecGather 100000 1700000 wf_vecGather
/-- The row gather of node features at edges. -/
abbrev gdRow : GatherDims SNx32 SMx1 SMx32 := rowGather 100000 32 1700000 wf_rowGather
/-- The row scatter of edge messages onto nodes. -/
abbrev sdRow : ScatterDims SNx32 SMx1 SMx32 := rowScatter 100000 32 1700000 wf_rowScatter

variable {F : FTy → Type} [FloatOps F]

/-- Source rows: row 0 of the edge list, then one self loop per node. -/
def rows (ei : (⟨S2xE, .i32⟩ : BufTy).Contents (Elt F)) : (⟨SM, .i32⟩ : BufTy).Contents (Elt F) :=
  concatenate SM 0 [⟨SE, fun i => shapeCast SE (extractStridedSlice S1xE ![0, 0] ei slices_row) casts_1xE_E i⟩, ⟨SN, iotaInDim SN 32 0⟩] concats_E_N

/-- Target columns: row 1 of the edge list, then one self loop per node. -/
def cols (ei : (⟨S2xE, .i32⟩ : BufTy).Contents (Elt F)) : (⟨SM, .i32⟩ : BufTy).Contents (Elt F) :=
  concatenate SM 0 [⟨SE, fun i => shapeCast SE (extractStridedSlice S1xE ![1, 0] ei slices_col) casts_1xE_E i⟩, ⟨SN, iotaInDim SN 32 0⟩] concats_E_N

/-- Edge weights, a one per self loop. -/
def wts (ew : (⟨SE, .f32⟩ : BufTy).Contents (Elt F)) : (⟨SM, .f32⟩ : BufTy).Contents (Elt F) :=
  concatenate SM 0 [⟨SE, ew⟩, ⟨SN, broadcastInDim SN ![] bc_0_N (constant S0 .f32 0x3F800000#32)⟩] concats_E_N

/-- The weighted in-degree. -/
def deg (col : (⟨SM, .i32⟩ : BufTy).Contents (Elt F)) (w : (⟨SM, .f32⟩ : BufTy).Contents (Elt F)) : (⟨SN, .f32⟩ : BufTy).Contents (Elt F) :=
  Host.scatterAdd sdVec (broadcastInDim SN ![] bc_0_N (constant S0 .f32 0x00000000#32)) (broadcastInDim SMx1 ![0] bc_M_Mx1 col) w

/-- `deg^(-1/2)` where the degree is positive, zero elsewhere. -/
def dis (d : (⟨SN, .f32⟩ : BufTy).Contents (Elt F)) : (⟨SN, .f32⟩ : BufTy).Contents (Elt F) :=
  select (cmpf .ogt d (broadcastInDim SN ![] bc_0_N (constant S0 .f32 0x00000000#32))) (Host.rsqrt d)
    (broadcastInDim SN ![] bc_0_N (id (constant S0 .f32 0x00000000#32)))

/-- An index array with negative entries wrapped once by the node count. -/
def wrap (v : (⟨SM, .i32⟩ : BufTy).Contents (Elt F)) : (⟨SM, .i32⟩ : BufTy).Contents (Elt F) :=
  select (cmpi .slt v (broadcastInDim SM ![] bc_0_M (constantI S0 32 0#32))) (addi v (broadcastInDim SM ![] bc_0_M (constantI S0 32 100000#32))) v

/-- The edge normalisation `dis (row e) · w e · dis (col e)`. -/
def norm (row col : (⟨SM, .i32⟩ : BufTy).Contents (Elt F)) (w : (⟨SM, .f32⟩ : BufTy).Contents (Elt F))
    (ds : (⟨SN, .f32⟩ : BufTy).Contents (Elt F)) : (⟨SM, .f32⟩ : BufTy).Contents (Elt F) :=
  mulf (mulf (Host.gather gdVec ds (broadcastInDim SMx1 ![0] bc_M_Mx1 (wrap row))) w)
    (Host.gather gdVec ds (broadcastInDim SMx1 ![0] bc_M_Mx1 (wrap col)))

/-- The normalisation as a function of the two graph arguments. -/
def normOf (ei : (⟨S2xE, .i32⟩ : BufTy).Contents (Elt F)) (ew : (⟨SE, .f32⟩ : BufTy).Contents (Elt F)) : (⟨SM, .f32⟩ : BufTy).Contents (Elt F) :=
  norm (rows ei) (cols ei) (wts ew) (dis (deg (cols ei) (wts ew)))

/-- The aggregation: gather rows at the sources, scale by the normalisation, scatter-add onto the targets. -/
def agg (row col : (⟨SM, .i32⟩ : BufTy).Contents (Elt F)) (nrm : (⟨SM, .f32⟩ : BufTy).Contents (Elt F))
    (h : (⟨SNx32, .f32⟩ : BufTy).Contents (Elt F)) : (⟨SNx32, .f32⟩ : BufTy).Contents (Elt F) :=
  Host.scatterAdd sdRow (broadcastInDim SNx32 ![] bc_0_Nx32 (constant S0 .f32 0x00000000#32)) (broadcastInDim SMx1 ![0] bc_M_Mx1 col)
    (mulf (Host.gather gdRow h (broadcastInDim SMx1 ![0] bc_M_Mx1 (wrap row)))
      (broadcastInDim SMx32 ![0, 1] bc_Mx1_Mx32 (broadcastInDim SMx1 ![0] bc_M_Mx1 nrm)))

end Cert.Gcn

end
-- ==== Proof.KHost.lean ====
/-
  The host operations of the kernel program, stretch by stretch.

  Between its pipelined regions the kernel program runs short lines of host operations. Each lemma below reads one
  line from ANY entry contents `V`: the buffer the line produces holds the named whole-array term of the buffers the
  line reads. The graph data are built once (three lines); before each bias/ReLU region a line aggregates the
  projected features and reshapes the bias; before each affine region a line turns the column sums and sums of
  squares into the scale and the shift; before the last region a line cuts the final weight matrix in three.
-/
import proofs.«107356_j16226386444409_1_alg».proof.Proof.Gen.KernelIdeal.Launch
import proofs.«107356_j16226386444409_1_alg».proof.Proof.GcnDefs
import Idealize.ShloMosaic.Lib.StableHlo.Run

set_option maxRecDepth 16384

noncomputable section

namespace Cert.Gcn

open Idealize.ShloMosaic

abbrev S96x2 : Shape := ⟨2, ![96, 2]⟩
abbrev S32x2 : Shape := ⟨2, ![32, 2]⟩
abbrev S2 : Shape := ⟨1, ![2]⟩
abbrev S1x2 : Shape := ⟨2, ![1, 2]⟩

theorem bc_0_1x32 : S0.BroadcastsInDim S1x32 (![] : Fin 0 → Fin S1x32.rank) := by decide
theorem casts_32_1x32 : S32.ShapeCasts S1x32 := by decide
theorem casts_2_1x2 : S2.ShapeCasts S1x2 := by decide
theorem slices_w0 : S96x2.Slices ![0, 0] S32x2 := by decide
theorem slices_w1 : S96x2.Slices ![32, 0] S32x2 := by decide
theorem slices_w2 : S96x2.Slices ![64, 0] S32x2 := by decide

variable {F : FTy → Type} [FloatOps F]

/-- A length-32 vector as one row. -/
def row32 (g : (⟨S32, .f32⟩ : BufTy).Contents (Elt F)) : (⟨S1x32, .f32⟩ : BufTy).Contents (Elt F) :=
  fun i => shapeCast S1x32 g casts_32_1x32 i

/-- A length-2 vector as one row. -/
def row2 (g : (⟨S2, .f32⟩ : BufTy).Contents (Elt F)) : (⟨S1x2, .f32⟩ : BufTy).Contents (Elt F) :=
  fun i => shapeCast S1x2 g casts_2_1x2 i

/-- The column means from the column sums. -/
def kMean (s : (⟨S1x32, .f32⟩ : BufTy).Contents (Elt F)) : (⟨S1x32, .f32⟩ : BufTy).Contents (Elt F) :=
  Host.divf s (broadcastInDim S1x32 ![] bc_0_1x32 (constant S0 .f32 0x47C35000#32))

/-- `γ · rsqrt (q/N − μ·μ + ε)`. -/
def kScale (s q : (⟨S1x32, .f32⟩ : BufTy).Contents (Elt F)) (g : (⟨S32, .f32⟩ : BufTy).Contents (Elt F)) : (⟨S1x32, .f32⟩ : BufTy).Contents (Elt F) :=
  mulf (row32 g) (Host.rsqrt (addf (subf (Host.divf q (broadcastInDim S1x32 ![] bc_0_1x32 (constant S0 .f32 0x47C35000#32))) (mulf (kMean s) (kMean s)))
    (broadcastInDim S1x32 ![] bc_0_1x32 (constant S0 .f32 0x3727C5AC#32))))

/-- `β − μ · scale`. -/
def kShift (s q : (⟨S1x32, .f32⟩ : BufTy).Contents (Elt F)) (g be : (⟨S32, .f32⟩ : BufTy).Contents (Elt F)) : (⟨S1x32, .f32⟩ : BufTy).Contents (Elt F) :=
  subf (row32 be) (mulf (kMean s) (kScale s q g))

end Cert.Gcn

namespace Cert.KernelIdeal.KHost

open Idealize.ShloMosaic Idealize.ShloMosaic.TcCoe Idealize.ShloMosaic.Tactic Idealize.SL.Sem
open Cert.KernelIdeal Cert.KernelIdeal.Gen Cert.Gcn

variable {F : FTy → Type} [FloatOps F]

/-! ## The graph data -/

set_option maxHeartbeats 4000000 in
theorem rows_eq (V : Valuation τ sig (Elt F)) :
    StableHlo.after (hostOps0 (F := F)) V (Proc.devRef .tc main_v3) = rows (V (Proc.devRef .tc main_arg1)) := by
  after_results_simp
  rfl

set_option maxHeartbeats 4000000 in
theorem cols_eq (V : Valuation τ sig (Elt F)) :
    StableHlo.after (hostOps0 (F := F)) V (Proc.devRef .tc main_v6) = cols (V (Proc.devRef .tc main_arg1)) := by
  after_results_simp
  rfl

set_option maxHeartbeats 4000000 in
theorem wts_eq (V : Valuation τ sig (Elt F)) :
    StableHlo.after (hostOps0 (F := F)) V (Proc.devRef .tc main_v8) = wts (V (Proc.devRef .tc main_arg2)) := by
  after_results_simp
  rfl

set_option maxHeartbeats 4000000 in
theorem deg_pos_eq (V : Valuation τ sig (Elt F)) :
    StableHlo.after (hostOps0 (F := F)) V (Proc.devRef .tc main_v13)
      = cmpf .ogt (deg (cols (V (Proc.devRef .tc main_arg1))) (wts (V (Proc.devRef .tc main_arg2)))) (broadcastInDim SN ![] bc_0_N (constant S0 .f32 0x00000000#32)) := by
  after_results_simp
  rfl

set_option maxHeartbeats 4000000 in
theorem deg_rsqrt_eq (V : Valuation τ sig (Elt F)) :
    StableHlo.after (hostOps0 (F := F)) V (Proc.devRef .tc main_v14) = Host.rsqrt (deg (cols (V (Proc.devRef .tc main_arg1))) (wts (V (Proc.devRef .tc main_arg2)))) := by
  after_results_simp
  rfl
set_option maxHeartbeats 4000000 in
theorem zero_eq (V : Valuation τ sig (Elt F)) :
    StableHlo.after (hostOps0 (F := F)) V (Proc.devRef .tc main_cst_2) = constant S0 .f32 0x00000000#32 := by
  after_results_simp
set_option maxHeartbeats 4000000 in
theorem dis_eq (V : Valuation τ sig (Elt F)) :
    StableHlo.after (hostOps0_1 (F := F)) V (Proc.devRef .tc main_v15) = select (V (Proc.devRef .tc main_v13)) (V (Proc.devRef .tc main_v14)) (broadcastInDim SN ![] bc_0_N (id (V (Proc.devRef .tc main_cst_2)))) := by
  after_results_simp
  rfl
set_option maxHeartbeats 4000000 in
theorem norm_eq (V : Valuation τ sig (Elt F)) :
    StableHlo.after (hostOps0_2 (F := F)) V (Proc.devRef .tc main_v31) = norm (V (Proc.devRef .tc main_v3)) (V (Proc.devRef .tc main_v6)) (V (Proc.devRef .tc main_v8)) (V (Proc.devRef .tc main_v15)) := by
  after_results_simp
  rfl

/-! ## Before each bias/ReLU region: the aggregation and the bias as a row -/

set_option maxHeartbeats 4000000 in
theorem agg1_eq (V : Valuation τ sig (Elt F)) :
    StableHlo.after (hostOps1 (F := F)) V (Proc.devRef .tc main_v45) = agg (V (Proc.devRef .tc main_v3)) (V (Proc.devRef .tc main_v6)) (V (Proc.devRef .tc main_v31)) (V (Proc.devRef .tc main_v32)) := by
  after_results_simp
  rfl
set_option maxHeartbeats 4000000 in
theorem bias1_eq (V : Valuation τ sig (Elt F)) :
    StableHlo.after (hostOps1 (F := F)) V (Proc.devRef .tc main_v46) = row32 (V (Proc.devRef .tc main_arg4)) := by
  after_results_simp
  rfl
set_option maxHeartbeats 4000000 in
theorem agg2_eq (V : Valuation τ sig (Elt F)) :
    StableHlo.after (hostOps4 (F := F)) V (Proc.devRef .tc main_v76) = agg (V (Proc.devRef .tc main_v3)) (V (Proc.devRef .tc main_v6)) (V (Proc.devRef .tc main_v31)) (V (Proc.devRef .tc main_v63)) := by
  after_results_simp
  rfl
set_option maxHeartbeats 4000000 in
theorem bias2_eq (V : Valuation τ sig (Elt F)) :
    StableHlo.after (hostOps4 (F := F)) V (Proc.devRef .tc main_v77) = row32 (V (Proc.devRef .tc main_arg8)) := by
  after_results_simp
  rfl
set_option maxHeartbeats 4000000 in
theorem agg3_eq (V : Valuation τ sig (Elt F)) :
    StableHlo.after (hostOps7 (F := F)) V (Proc.devRef .tc main_v107) = agg (V (Proc.devRef .tc main_v3)) (V (Proc.devRef .tc main_v6)) (V (Proc.devRef .tc main_v31)) (V (Proc.devRef .tc main_v94)) := by
  after_results_simp
  rfl
set_option maxHeartbeats 4000000 in
theorem bias3_eq (V : Valuation τ sig (Elt F)) :
    StableHlo.after (hostOps7 (F := F)) V (Proc.devRef .tc main_v108) = row32 (V (Proc.devRef .tc main_arg12)) := by
  after_results_simp
  rfl

/-! ## Before each affine region: the scale and the shift -/

set_option maxHeartbeats 4000000 in
theorem scale1_eq (V : Valuation τ sig (Elt F)) :
    StableHlo.after (hostOps2 (F := F)) V (Proc.devRef .tc main_v58) = kScale (V (Proc.devRef .tc main_v47_1)) (V (Proc.devRef .tc main_v47_2)) (V (Proc.devRef .tc main_arg5)) := by
  after_results_simp
  rfl
set_option maxHeartbeats 4000000 in
theorem shift1_eq (V : Valuation τ sig (Elt F)) :
    StableHlo.after (hostOps2 (F := F)) V (Proc.devRef .tc main_v61) = kShift (V (Proc.devRef .tc main_v47_1)) (V (Proc.devRef .tc main_v47_2)) (V (Proc.devRef .tc main_arg5)) (V (Proc.devRef .tc main_arg6)) := by
  after_results_simp
  rfl
set_option maxHeartbeats 4000000 in
theorem scale2_eq (V : Valuation τ sig (Elt F)) :
    StableHlo.after (hostOps5 (F := F)) V (Proc.devRef .tc main_v89) = kScale (V (Proc.devRef .tc main_v78_1)) (V (Proc.devRef .tc main_v78_2)) (V (Proc.devRef .tc main_arg9)) := by
  after_results_simp
  rfl
set_option maxHeartbeats 4000000 in
theorem shift2_eq (V : Valuation τ sig (Elt F)) :
    StableHlo.after (hostOps5 (F := F)) V (Proc.devRef .tc main_v92) = kShift (V (Proc.devRef .tc main_v78_1)) (V (Proc.devRef .tc main_v78_2)) (V (Proc.devRef .tc main_arg9)) (V (Proc.devRef .tc main_arg10)) := by
  after_results_simp
  rfl
set_option maxHeartbeats 4000000 in
theorem scale3_eq (V : Valuation τ sig (Elt F)) :
    StableHlo.after (hostOps8 (F := F)) V (Proc.devRef .tc main_v120) = kScale (V (Proc.devRef .tc main_v109_1)) (V (Proc.devRef .tc main_v109_2)) (V (Proc.devRef .tc main_arg13)) := by
  after_results_simp
  rfl
set_option maxHeartbeats 4000000 in
theorem shift3_eq (V : Valuation τ sig (Elt F)) :
    StableHlo.after (hostOps8 (F := F)) V (Proc.devRef .tc main_v123) = kShift (V (Proc.devRef .tc main_v109_1)) (V (Proc.devRef .tc main_v109_2)) (V (Proc.devRef .tc main_arg13)) (V (Proc.devRef .tc main_arg14)) := by
  after_results_simp
  rfl

/-! ## Before the last region: the three slices of the final weights and the final bias as a row -/

set_option maxHeartbeats 4000000 in
theorem wl0_eq (V : Valuation τ sig (Elt F)) :
    StableHlo.after (hostOps9 (F := F)) V (Proc.devRef .tc main_v125) = extractStridedSlice S32x2 ![0, 0] (V (Proc.devRef .tc main_arg15)) slices_w0 := by
  after_results_simp
set_option maxHeartbeats 4000000 in
theorem wl1_eq (V : Valuation τ sig (Elt F)) :
    StableHlo.after (hostOps9 (F := F)) V (Proc.devRef .tc main_v126) = extractStridedSlice S32x2 ![32, 0] (V (Proc.devRef .tc main_arg15)) slices_w1 := by
  after_results_simp
set_option maxHeartbeats 4000000 in
theorem wl2_eq (V : Valuation τ sig (Elt F)) :
    StableHlo.after (hostOps9 (F := F)) V (Proc.devRef .tc main_v127) = extractStridedSlice S32x2 ![64, 0] (V (Proc.devRef .tc main_arg15)) slices_w2 := by
  after_results_simp
set_option maxHeartbeats 4000000 in
theorem bl_eq (V : Valuation τ sig (Elt F)) :
    StableHlo.after (hostOps9 (F := F)) V (Proc.devRef .tc main_v128) = row2 (V (Proc.devRef .tc main_arg16)) := by
  after_results_simp
  rfl

end Cert.KernelIdeal.KHost

end
-- ==== Proof.KGraph.lean ====
/-
  The kernel program's graph data.

  The first three stretches of host operations build, from the edge list and the edge weights, the source rows and the
  target columns with the self loops appended and the edge normalisation; no later segment writes them, so every
  layer reads the same three arrays.
-/
import proofs.«107356_j16226386444409_1_alg».proof.Proof.KChain
import proofs.«107356_j16226386444409_1_alg».proof.Proof.KHost

set_option maxRecDepth 16384

noncomputable section

namespace Cert.KernelIdeal.KGraph

open Idealize.ShloMosaic Idealize.ShloMosaic.TcCoe Idealize.SL.Sem
open Cert.KernelIdeal Cert.KernelIdeal.Gen Cert.KernelIdeal.KChain Cert.Gcn

variable {F : FTy → Type} [FloatOps F]
variable (m : (ℓ : Loc nD τ sig) → Buf (Elt F) ℓ) (ρ : Dev nD → PrngReg)

theorem rows2 (c : Dev nD) : W2 m ρ c (Proc.devRef .tc main_v3) = rows (m ((c : Thread nD τ).loc main_arg1)) :=
  (keep_v3_2_1 m ρ c).trans (KHost.rows_eq (W0 m ρ c))

theorem cols2 (c : Dev nD) : W2 m ρ c (Proc.devRef .tc main_v6) = cols (m ((c : Thread nD τ).loc main_arg1)) :=
  (keep_v6_2_1 m ρ c).trans (KHost.cols_eq (W0 m ρ c))

theorem wts2 (c : Dev nD) : W2 m ρ c (Proc.devRef .tc main_v8) = wts (m ((c : Thread nD τ).loc main_arg2)) :=
  (keep_v8_2_1 m ρ c).trans (KHost.wts_eq (W0 m ρ c))

theorem dis2 (c : Dev nD) : W2 m ρ c (Proc.devRef .tc main_v15)
    = dis (deg (cols (m ((c : Thread nD τ).loc main_arg1))) (wts (m ((c : Thread nD τ).loc main_arg2)))) := by
  refine (KHost.dis_eq (W1 m ρ c)).trans ?_
  rw [show W1 m ρ c (Proc.devRef .tc main_v13) = _ from KHost.deg_pos_eq (W0 m ρ c),
    show W1 m ρ c (Proc.devRef .tc main_v14) = _ from KHost.deg_rsqrt_eq (W0 m ρ c),
    show W1 m ρ c (Proc.devRef .tc main_cst_2) = _ from KHost.zero_eq (W0 m ρ c)]
  rfl

/-- The edge normalisation, as every layer finds it. -/
theorem norm3 (c : Dev nD) : W3 m ρ c (Proc.devRef .tc main_v31)
    = normOf (m ((c : Thread nD τ).loc main_arg1)) (m ((c : Thread nD τ).loc main_arg2)) := by
  refine (KHost.norm_eq (W2 m ρ c)).trans ?_
  rw [rows2, cols2, wts2, dis2]
  rfl

/-- The source rows, the target columns and the normalisation at the entry of each aggregation. -/
theorem rows4 (c : Dev nD) : W4 m ρ c (Proc.devRef .tc main_v3) = rows (m ((c : Thread nD τ).loc main_arg1)) :=
  (keep_v3_4_2 m ρ c).trans (rows2 m ρ c)
theorem cols4 (c : Dev nD) : W4 m ρ c (Proc.devRef .tc main_v6) = cols (m ((c : Thread nD τ).loc main_arg1)) :=
  (keep_v6_4_2 m ρ c).trans (cols2 m ρ c)
theorem norm4 (c : Dev nD) : W4 m ρ c (Proc.devRef .tc main_v31)
    = normOf (m ((c : Thread nD τ).loc main_arg1)) (m ((c : Thread nD τ).loc main_arg2)) :=
  (keep_v31_4_3 m ρ c).trans (norm3 m ρ c)
theorem rows9 (c : Dev nD) : W9 m ρ c (Proc.devRef .tc main_v3) = rows (m ((c : Thread nD τ).loc main_arg1)) :=
  (keep_v3_9_4 m ρ c).trans (rows4 m ρ c)
theorem cols9 (c : Dev nD) : W9 m ρ c (Proc.devRef .tc main_v6) = cols (m ((c : Thread nD τ).loc main_arg1)) :=
  (keep_v6_9_4 m ρ c).trans (cols4 m ρ c)
theorem norm9 (c : Dev nD) : W9 m ρ c (Proc.devRef .tc main_v31)
    = normOf (m ((c : Thread nD τ).loc main_arg1)) (m ((c : Thread nD τ).loc main_arg2)) :=
  (keep_v31_9_4 m ρ c).trans (norm4 m ρ c)
theorem rows14 (c : Dev nD) : W14 m ρ c (Proc.devRef .tc main_v3) = rows (m ((c : Thread nD τ).loc main_arg1)) :=
  (keep_v3_14_9 m ρ c).trans (rows9 m ρ c)
theorem cols14 (c : Dev nD) : W14 m ρ c (Proc.devRef .tc main_v6) = cols (m ((c : Thread nD τ).loc main_arg1)) :=
  (keep_v6_14_9 m ρ c).trans (cols9 m ρ c)
theorem norm14 (c : Dev nD) : W14 m ρ c (Proc.devRef .tc main_v31)
    = normOf (m ((c : Thread nD τ).loc main_arg1)) (m ((c : Thread nD τ).loc main_arg2)) :=
  (keep_v31_14_9 m ρ c).trans (norm9 m ρ c)

end Cert.KernelIdeal.KGraph

end
-- ==== Proof.KFun.lean ====
/-
  What the kernel program computes after an aggregation, as functions of arrays.

  A bias/ReLU region clips `a + b` at zero and accumulates the column sums of the clipped array and of its square; the
  host turns the sums into a scale and a shift; an affine region applies them. A projection region multiplies by a
  weight matrix, row block by row block: entry `(p, q)` is the sum over `k` of `x (p, k) · w (k, q)`.
-/
import proofs.«107356_j16226386444409_1_alg».proof.Proof.KHost
import Idealize.ShloMosaic.Lib.ValueIdx

noncomputable section

namespace Cert.Gcn

open Idealize.ShloMosaic Idealize.ShloMosaic.ValueIdx
open scoped BigOperators

abbrev SNx2 : Shape := ⟨2, ![100000, 2]⟩

/-- An `[N, 32]` array from its entries. -/
def arrNx32 (f : Fin 100000 → Fin 32 → EReal) : SNx32.Idx → EReal := fun i => f (i 0) (i 1)
/-- A `[1, 32]` array from its entries. -/
def arr1x32 (f : Fin 32 → EReal) : S1x32.Idx → EReal := fun i => f (i 1)
/-- An `[N, 2]` array from its entries. -/
def arrNx2 (f : Fin 100000 → Fin 2 → EReal) : SNx2.Idx → EReal := fun i => f (i 0) (i 1)

theorem arrNx32_apply (f : Fin 100000 → Fin 32 → EReal) (p : Fin 100000) (q : Fin 32) : arrNx32 f (ix2 p q) = f p q := rfl
theorem arr1x32_apply (f : Fin 32 → EReal) (q : Fin 32) : arr1x32 f (ix2 (0 : Fin 1) q) = f q := rfl
theorem arrNx2_apply (f : Fin 100000 → Fin 2 → EReal) (p : Fin 100000) (j : Fin 2) : arrNx2 f (ix2 p j) = f p j := rfl

theorem arrNx32_ext (x : SNx32.Idx → EReal) (f : Fin 100000 → Fin 32 → EReal) (h : ∀ p q, x (ix2 p q) = f p q) : x = arrNx32 f :=
  funext fun i => by rw [eq_ix2 i]; exact h _ _
theorem arr1x32_ext (x : S1x32.Idx → EReal) (f : Fin 32 → EReal) (h : ∀ q, x (ix2 (0 : Fin 1) q) = f q) : x = arr1x32 f :=
  funext fun i => by
    have e : i = ix2 (0 : Fin 1) (i 1) := by
      rw [eq_ix2 i]; congr 1
      exact Subsingleton.elim (α := Fin 1) _ _
    rw [e]; exact h _
theorem arrNx2_ext (x : SNx2.Idx → EReal) (f : Fin 100000 → Fin 2 → EReal) (h : ∀ p j, x (ix2 p j) = f p j) : x = arrNx2 f :=
  funext fun i => by rw [eq_ix2 i]; exact h _ _

/-- The projection by a `[64, 32]` matrix. -/
def mm64 (x : SNx64.Idx → EReal) (w : (⟨2, ![64, 32]⟩ : Shape).Idx → EReal) : SNx32.Idx → EReal :=
  arrNx32 fun p q => ∑ k : Fin 64, x (ix2 p k) * w (ix2 k q)
/-- The projection by a `[32, 32]` matrix. -/
def mm32 (x : SNx32.Idx → EReal) (w : (⟨2, ![32, 32]⟩ : Shape).Idx → EReal) : SNx32.Idx → EReal :=
  arrNx32 fun p q => ∑ k : Fin 32, x (ix2 p k) * w (ix2 k q)

/-- The clipped entry `max (a + b, 0)`. -/
def reluF (a : SNx32.Idx → EReal) (b : S1x32.Idx → EReal) (p : Fin 100000) (q : Fin 32) : EReal :=
  max (a (ix2 p q) + b (ix2 (0 : Fin 1) q)) (Ideal.ofBits .f32 0x00000000#32)

/-- The column sums of the clipped array. -/
def sumF (a : SNx32.Idx → EReal) (b : S1x32.Idx → EReal) : S1x32.Idx → EReal := arr1x32 fun q => ∑ p : Fin 100000, reluF a b p q
/-- The column sums of its square. -/
def sumsqF (a : SNx32.Idx → EReal) (b : S1x32.Idx → EReal) : S1x32.Idx → EReal :=
  arr1x32 fun q => ∑ p : Fin 100000, reluF a b p q * reluF a b p q

/-- A layer's result from its aggregation: clip, column statistics, scale and shift, affine map. -/
def kLayerOut (a : SNx32.Idx → EReal) (b g be : S32.Idx → EReal) : SNx32.Idx → EReal :=
  arrNx32 fun p q => reluF a (row32 (F := Ideal) b) p q * kScale (F := Ideal) (sumF a (row32 (F := Ideal) b)) (sumsqF a (row32 (F := Ideal) b)) g (ix2 (0 : Fin 1) q)
    + kShift (F := Ideal) (sumF a (row32 (F := Ideal) b)) (sumsqF a (row32 (F := Ideal) b)) g be (ix2 (0 : Fin 1) q)

/-- The final linear map over the three layers' results, the weight matrix cut in three, plus the bias. -/
def kFinal (o1 o2 o3 : SNx32.Idx → EReal) (wl : S96x2.Idx → EReal) (bl : S2.Idx → EReal) : SNx2.Idx → EReal :=
  arrNx2 fun p j => ((∑ k : Fin 32, o1 (ix2 p k) * extractStridedSlice S32x2 ![0, 0] wl slices_w0 (ix2 k j))
      + (∑ k : Fin 32, o2 (ix2 p k) * extractStridedSlice S32x2 ![32, 0] wl slices_w1 (ix2 k j))
      + (∑ k : Fin 32, o3 (ix2 p k) * extractStridedSlice S32x2 ![64, 0] wl slices_w2 (ix2 k j)))
    + row2 (F := Ideal) bl (ix2 (0 : Fin 1) j)

end Cert.Gcn

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.Mm0.lean ====
/-
  The matrix-product kernel of layer 1, read as a whole array: after the region, entry (p, q) of the result is the sum
  over k of x (p, k) * w (k, q), where x and w are the arrays the region finds.
-/
import proofs.«107356_j16226386444409_1_alg».proof.Proof.Gen.KernelIdeal.Frame
import proofs.«107356_j16226386444409_1_alg».proof.Proof.LibTileOps
import Idealize.ShloMosaic.Lib.Pipeline.Value

noncomputable section

open scoped BigOperators

namespace Cert.KernelIdeal.Mm0

open Cert.KernelIdeal Cert.KernelIdeal.Gen Idealize.ShloMosaic Idealize.ShloMosaic.TcCoe Idealize.SL.Sem
open Idealize.ShloMosaic.ValueIdx Idealize.ShloMosaic.TileOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored tile at (p, q): the sum over k of the x tile's entry (p, k) times the w tile's entry (k, q). -/
theorem pay_apply (x0 : Vec Ideal S5000x64 .f32) (x1 : Vec Ideal S64x32 .f32) (p : Fin 5000) (q : Fin 32) :
    k0_pay1 x0 x1 (ix2 p q) = ∑ k : Fin 64, x0 (ix2 p k) * x1 (ix2 k q) := by
  unfold k0_pay1
  exact matmul_zero_apply dot_S5000x64_S64x32_S5000x32_1_0_0_1_n_n_wf none (truncf .bf16 x0 bitsLt_bf16_f32) (truncf .bf16 x1 bitsLt_bf16_f32) p q

/-- The whole result array as a function of the two arrays. -/
abbrev G (a0 : S100000x64.Idx → EReal) (a1 : S64x32.Idx → EReal) : S100000x32.Idx → EReal :=
  fun i => ∑ k : Fin 64, a0 (ix2 ⟨(i 0).val, idx2_lt0 i⟩ k) * a1 (ix2 k ⟨(i 1).val, idx2_lt1 i⟩)

/-- The printed index maps over the grid: the x and result windows sit at block row t, column block 0; w at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The arrays the region finds, and the result array after it. -/
abbrev xIn (c : Dev nD) : S100000x64.Idx → EReal := V c (Pipeline.arrRef spec0 0)
abbrev wIn (c : Dev nD) : S64x32.Idx → EReal := V c (Pipeline.arrRef spec0 1)
abbrev out (c : Dev nD) : S100000x32.Idx → EReal := (dat0 V c).arrAt 2 cfg0.N

/-- Tile t of x at (p, k) is x at row 5000 t + p. -/
theorem iblk_x (c : Dev nD) (t : Fin cfg0.N) (p : Fin 5000) (k : Fin 64) (i : S100000x64.Idx)
    (h0 : (i 0).val = 5000 * t.val + p.val) (h1 : (i 1).val = k.val) :
    (iblk0 V c 0 t : Vec Ideal S5000x64 .f32) (ix2 p k) = xIn V c i := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 64 + 1 * k.val = (i 1).val; rw [e1, h1]; omega

/-- The one tile of w is w. -/
theorem iblk_w (c : Dev nD) (t : Fin cfg0.N) (k : Fin 64) (q : Fin 32) :
    (iblk0 V c 1 t : Vec Ideal S64x32 .f32) (ix2 k q) = wIn V c (ix2 k q) := by
  obtain ⟨-, -, e2, e3, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 64 + 1 * k.val = k.val; rw [e2]; omega
  | ⟨1, _⟩ => show win0_1.index t (1 : Fin 2) * 32 + 1 * q.val = q.val; rw [e3]; omega

/-- The written-back part of a tile is the tile: the tiles are never cut at the array's edge. -/
theorem cut_apply (t : Fin cfg0.N) (X : Vec Ideal S5000x32 .f32) (p : Fin 5000) (q : Fin 32) :
    (cfg0.win 2).cut (grid0.coords t) X (ix2 p q) = X (ix2 p q) := rfl

/-- Tile t of a whole-array function, read at (p, q), is the function at row 5000 t + p. -/
theorem read_out (t : Fin cfg0.N) (Gf : S100000x32.Idx → EReal) (p : Fin 5000) (q : Fin 32) (i : S100000x32.Idx)
    (h0 : (i 0).val = 5000 * t.val + p.val) (h1 : (i 1).val = q.val) :
    ((cfg0.win 2).blk t).view.read (Elt Ideal) Gf (ix2 p q) = Gf i := by
  obtain ⟨-, -, -, -, e4, e5⟩ := idx_facts t
  rw [View.read_apply]
  show Gf _ = Gf _
  congr 1
  funext a
  apply Fin.ext
  match a with
  | ⟨0, _⟩ => show win0_2.index t (0 : Fin 2) * 5000 + 1 * p.val = (i 0).val; rw [e4, h0]; omega
  | ⟨1, _⟩ => show win0_2.index t (1 : Fin 2) * 32 + 1 * q.val = (i 1).val; rw [e5, h1]; omega

/-- What grid point t computes at (p, q) is `G` of the two arrays at row 5000 t + p. -/
theorem pt (c : Dev nD) (t : Fin cfg0.N) (p : Fin 5000) (q : Fin 32) (hp : 5000 * t.val + p.val < 100000) :
    k0_pay1 (iblk0 V c 0 t) (iblk0 V c 1 t) (ix2 p q)
      = G (V c (Pipeline.arrRef spec0 0)) (V c (Pipeline.arrRef spec0 1)) (ix2 ⟨5000 * t.val + p.val, hp⟩ q) :=
  (pay_apply (iblk0 V c 0 t) (iblk0 V c 1 t) p q).trans
    (Finset.sum_congr rfl fun k _ =>
      congrArg₂ (· * ·) (iblk_x V c t p k (ix2 ⟨5000 * t.val + p.val, hp⟩ k) rfl rfl) (iblk_w V c t k q))

/-- What grid point t writes back is tile t of `G` of the two arrays. -/
theorem flushed_eq (c : Dev nD) (t : Fin cfg0.N) :
    (dat0 V c).flushed 2 t = ((cfg0.win 2).blk t).view.read (Elt Ideal)
      (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x32) hz]
  funext j
  obtain ⟨p, q, rfl⟩ : ∃ (p : Fin 5000) (q : Fin 32), j = ix2 p q := ⟨j 0, j 1, eq_ix2 j⟩
  have hp : 5000 * t.val + p.val < 100000 := by
    have h1 := t.isLt
    have hN : cfg0.N = 20 := N_0
    have h2 := p.isLt
    omega
  refine (cut_apply t (k0_pay1 (iblk0 V c 0 t) (iblk0 V c 1 t)) p q).trans ?_
  refine (pt V c t p q hp).trans ?_
  exact (read_out t _ p q (ix2 ⟨5000 * t.val + p.val, hp⟩ q) rfl rfl).symm

/-- An index of the array is in grid point t's tile iff each coordinate is in the tile's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v32).slice (win0_2.rect t)).set ↔ _
  rw [View.set_slice_whole, Rect.mem_set_unit]
  exact Iff.rfl

/-- Row r lies in the tile of grid point r / 5000: the twenty tiles cover the array. -/
theorem cover (i : S100000x32.Idx) : ∃ t : Fin cfg0.N, (cfg0.win 2).flush t = true ∧ i ∈ ((cfg0.win 2).blk t).view.set := by
  have hi0 : (i 0).val < 100000 := idx2_lt0 i
  have hi1 : (i 1).val < 32 := idx2_lt1 i
  have ht : (i 0).val / 5000 < cfg0.N := by rw [show cfg0.N = 20 from N_0]; omega
  refine ⟨⟨(i 0).val / 5000, ht⟩, flush0_2 _, ?_⟩
  rw [mem_blk]
  obtain ⟨-, -, -, -, e4, e5⟩ := idx_facts ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; dsimp only; omega
  | ⟨1, _⟩ =>
    show win0_2.index ⟨(i 0).val / 5000, ht⟩ (1 : Fin 2) * 32 ≤ (i 1).val ∧ (i 1).val < win0_2.index ⟨(i 0).val / 5000, ht⟩ (1 : Fin 2) * 32 + 32
    rw [e5]; omega

/-- The result array after the region is `G` of the two arrays the region finds. -/
theorem arr_eq (c : Dev nD) : (dat0 V c).arrAt 2 cfg0.N
    = G (V c (Pipeline.arrRef spec0 0)) (V c (Pipeline.arrRef spec0 1)) :=
  (dat0 V c).arrAt_eq_of_cover 2 (G (V c (Pipeline.arrRef spec0 0)) (V c (Pipeline.arrRef spec0 1)))
    (fun t _ => flushed_eq V c t) cover

/-- Entry (p, q) of the result: the sum over k of x (p, k) * w (k, q). -/
theorem value (c : Dev nD) (p : Fin 100000) (q : Fin 32) :
    out V c (ix2 p q) = ∑ k : Fin 64, xIn V c (ix2 p k) * wIn V c (ix2 k q) :=
  congrFun (arr_eq V c) (ix2 p q)

end Cert.KernelIdeal.Mm0

end
-- ==== Proof.Aff2.lean ====
/-
  The affine kernel of layer 1, read as a whole array: after the region, entry (p, q) of the result is
  x (p, q) * scale (0, q) + shift (0, q), where x, scale and shift are the arrays the region finds.
-/
import proofs.«107356_j16226386444409_1_alg».proof.Proof.Gen.KernelIdeal.Frame
import proofs.«107356_j16226386444409_1_alg».proof.Proof.LibTileOps
import Idealize.ShloMosaic.Lib.Pipeline.Value

noncomputable section

open scoped BigOperators

namespace Cert.KernelIdeal.Aff2

open Cert.KernelIdeal Cert.KernelIdeal.Gen Idealize.ShloMosaic Idealize.ShloMosaic.TcCoe Idealize.SL.Sem
open Idealize.ShloMosaic.ValueIdx Idealize.ShloMosaic.TileOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored tile at (p, q): the x tile's entry times the scale row's entry q plus the shift row's entry q. -/
theorem pay_apply (x0 : Vec Ideal S5000x32 .f32) (x1 x2 : Vec Ideal S1x32 .f32) (p : Fin 5000) (q : Fin 32) :
    k2_pay1 x0 x1 x2 (ix2 p q) = x0 (ix2 p q) * x1 (ix2 (0 : Fin 1) q) + x2 (ix2 (0 : Fin 1) q) := by
  unfold k2_pay1
  rw [shapeCast_self, shapeCast_self, shapeCast_self]
  refine (addf_apply _ _ _).trans ?_
  refine congrArg₂ (· + ·) ((mulf_apply _ _ _).trans (congrArg (_ * ·) (broadcastRow_apply x1 _ p q))) (broadcastRow_apply x2 _ p q)

/-- The whole result array as a function of the three arrays. -/
abbrev G (a0 : S100000x32.Idx → EReal) (a1 a2 : S1x32.Idx → EReal) : S100000x32.Idx → EReal :=
  fun i => a0 i * a1 (ix2 (0 : Fin 1) ⟨(i 1).val, idx2_lt1 i⟩) + a2 (ix2 (0 : Fin 1) ⟨(i 1).val, idx2_lt1 i⟩)

/-- The printed index maps over the grid: the x and result windows sit at block row t, column block 0; the rows at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The arrays the region finds, and the result array after it. -/
abbrev xIn (c : Dev nD) : S100000x32.Idx → EReal := V c (Pipeline.arrRef spec2 0)
abbrev scaleIn (c : Dev nD) : S1x32.Idx → EReal := V c (Pipeline.arrRef spec2 1)
abbrev shiftIn (c : Dev nD) : S1x32.Idx → EReal := V c (Pipeline.arrRef spec2 2)
abbrev out (c : Dev nD) : S100000x32.Idx → EReal := (dat2 V c).arrAt 3 cfg2.N

/-- Tile t of x at (p, q) is x at row 5000 t + p. -/
theorem iblk_x (c : Dev nD) (t : Fin cfg2.N) (p : Fin 5000) (q : Fin 32) (i : S100000x32.Idx)
    (h0 : (i 0).val = 5000 * t.val + p.val) (h1 : (i 1).val = q.val) :
    (iblk2 V c 0 t : Vec Ideal S5000x32 .f32) (ix2 p q) = xIn V c i := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = (i 0).val; rw [e0, h0]; omega
  | ⟨1, _⟩ => show win2_0.index t (1 : Fin 2) * 32 + 1 * q.val = (i 1).val; rw [e1, h1]; omega

/-- The one tile of the scale row at (0, q) is the row's entry q. -/
theorem iblk_scale (c : Dev nD) (t : Fin cfg2.N) (q : Fin 32) :
    (iblk2 V c 1 t : Vec Ideal S1x32 .f32) (ix2 (0 : Fin 1) q) = scaleIn V c (ix2 (0 : Fin 1) q) := by
  obtain ⟨-, -, e2, e3, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 1 + 1 * 0 = 0; rw [e2]
  | ⟨1, _⟩ => show win2_1.index t (1 : Fin 2) * 32 + 1 * q.val = q.val; rw [e3]; omega

/-- The one tile of the shift row at (0, q) is the row's entry q. -/
theorem iblk_shift (c : Dev nD) (t : Fin cfg2.N) (q : Fin 32) :
    (iblk2 V c 2 t : Vec Ideal S1x32 .f32) (ix2 (0 : Fin 1) q) = shiftIn V c (ix2 (0 : Fin 1) q) := by
  obtain ⟨-, -, -, -, e4, e5, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; rw [e4]
  | ⟨1, _⟩ => show win2_2.index t (1 : Fin 2) * 32 + 1 * q.val = q.val; rw [e5]; omega

/-- The written-back part of a tile is the tile: the tiles are never cut at the array's edge. -/
theorem cut_apply (t : Fin cfg2.N) (X : Vec Ideal S5000x32 .f32) (p : Fin 5000) (q : Fin 32) :
    (cfg2.win 3).cut (grid2.coords t) X (ix2 p q) = X (ix2 p q) := rfl

/-- Tile t of a whole-array function, read at (p, q), is the function at row 5000 t + p. -/
theorem read_out (t : Fin cfg2.N) (Gf : S100000x32.Idx → EReal) (p : Fin 5000) (q : Fin 32) (i : S100000x32.Idx)
    (h0 : (i 0).val = 5000 * t.val + p.val) (h1 : (i 1).val = q.val) :
    ((cfg2.win 3).blk t).view.read (Elt Ideal) Gf (ix2 p q) = Gf i := by
  obtain ⟨-, -, -, -, -, -, e6, e7⟩ := idx_facts t
  rw [View.read_apply]
  show Gf _ = Gf _
  congr 1
  funext a
  apply Fin.ext
  match a with
  | ⟨0, _⟩ => show win2_3.index t (0 : Fin 2) * 5000 + 1 * p.val = (i 0).val; rw [e6, h0]; omega
  | ⟨1, _⟩ => show win2_3.index t (1 : Fin 2) * 32 + 1 * q.val = (i 1).val; rw [e7, h1]; omega

/-- What grid point t computes at (p, q) is `G` of the three arrays at row 5000 t + p. -/
theorem pt (c : Dev nD) (t : Fin cfg2.N) (p : Fin 5000) (q : Fin 32) (hp : 5000 * t.val + p.val < 100000) :
    k2_pay1 (iblk2 V c 0 t) (iblk2 V c 1 t) (iblk2 V c 2 t) (ix2 p q)
      = G (V c (Pipeline.arrRef spec2 0)) (V c (Pipeline.arrRef spec2 1)) (V c (Pipeline.arrRef spec2 2))
          (ix2 ⟨5000 * t.val + p.val, hp⟩ q) :=
  (pay_apply (iblk2 V c 0 t) (iblk2 V c 1 t) (iblk2 V c 2 t) p q).trans
    (congrArg₂ (· + ·)
      (congrArg₂ (· * ·) (iblk_x V c t p q (ix2 ⟨5000 * t.val + p.val, hp⟩ q) rfl rfl) (iblk_scale V c t q))
      (iblk_shift V c t q))

/-- What grid point t writes back is tile t of `G` of the three arrays. -/
theorem flushed_eq (c : Dev nD) (t : Fin cfg2.N) :
    (dat2 V c).flushed 3 t = ((cfg2.win 3).blk t).view.read (Elt Ideal)
      (G (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S5000x32) hz, View.ld_unit_zero (S := S1x32) hz]
  funext j
  obtain ⟨p, q, rfl⟩ : ∃ (p : Fin 5000) (q : Fin 32), j = ix2 p q := ⟨j 0, j 1, eq_ix2 j⟩
  have hp : 5000 * t.val + p.val < 100000 := by
    have h1 := t.isLt
    have hN : cfg2.N = 20 := N_2
    have h2 := p.isLt
    omega
  refine (cut_apply t (k2_pay1 (iblk2 V c 0 t) (iblk2 V c 1 t) (iblk2 V c 2 t)) p q).trans ?_
  refine (pt V c t p q hp).trans ?_
  exact (read_out t _ p q (ix2 ⟨5000 * t.val + p.val, hp⟩ q) rfl rfl).symm

/-- An index of the array is in grid point t's tile iff each coordinate is in the tile's range on its axis. -/
theorem mem_blk (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v62).slice (win2_3.rect t)).set ↔ _
  rw [View.set_slice_whole, Rect.mem_set_unit]
  exact Iff.rfl

/-- Row r lies in the tile of grid point r / 5000: the twenty tiles cover the array. -/
theorem cover (i : S100000x32.Idx) : ∃ t : Fin cfg2.N, (cfg2.win 3).flush t = true ∧ i ∈ ((cfg2.win 3).blk t).view.set := by
  have hi0 : (i 0).val < 100000 := idx2_lt0 i
  have hi1 : (i 1).val < 32 := idx2_lt1 i
  have ht : (i 0).val / 5000 < cfg2.N := by rw [show cfg2.N = 20 from N_2]; omega
  refine ⟨⟨(i 0).val / 5000, ht⟩, flush2_3 _, ?_⟩
  rw [mem_blk]
  obtain ⟨-, -, -, -, -, -, e6, e7⟩ := idx_facts ⟨(i 0).val / 5000, ht⟩
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; dsimp only; omega
  | ⟨1, _⟩ =>
    show win2_3.index ⟨(i 0).val / 5000, ht⟩ (1 : Fin 2) * 32 ≤ (i 1).val ∧ (i 1).val < win2_3.index ⟨(i 0).val / 5000, ht⟩ (1 : Fin 2) * 32 + 32
    rw [e7]; omega

/-- The result array after the region is `G` of the three arrays the region finds. -/
theorem arr_eq (c : Dev nD) : (dat2 V c).arrAt 3 cfg2.N
    = G (V c (Pipeline.arrRef spec2 0)) (V c (Pipeline.arrRef spec2 1)) (V c (Pipeline.arrRef spec2 2)) :=
  (dat2 V c).arrAt_eq_of_cover 3 (G (V c (Pipeline.arrRef spec2 0)) (V c (Pipeline.arrRef spec2 1)) (V c (Pipeline.arrRef spec2 2)))
    (fun t _ => flushed_eq V c t) cover

/-- Entry (p, q) of the result: x (p, q) * scale (0, q) + shift (0, q). -/
theorem value (c : Dev nD) (p : Fin 100000) (q : Fin 32) :
    out V c (ix2 p q) = xIn V c (ix2 p q) * scaleIn V c (ix2 (0 : Fin 1) q) + shiftIn V c (ix2 (0 : Fin 1) q) :=
  congrFun (arr_eq V c) (ix2 p q)

end Cert.KernelIdeal.Aff2

end
-- ==== Proof.Brs1Body.lean ====
/-
  The body of the bias + ReLU + column-statistics kernel (region 1), read as values.

  At one grid point the body holds a block `x` of 5000 rows of the [100000, 32] input, the one-row bias `b`, and the
  two one-row accumulators. It stores `r = max (x + b) 0` into the output block, and into each accumulator what it
  held plus, per column, the sum over the block's 5000 rows of `r` (of `r * r` for the second). At the first point the
  accumulators are zeroed before they are read, so there the body leaves `0 + (column sums)`.

  First part, for any float values: what each case of the body leaves in each output buffer is the payload of its one
  covering store, applied to the blocks the point holds. Second part, at the ideal values: each payload read at an index
  given by its coordinates (row `r`, column `q`).
-/
import proofs.«107356_j16226386444409_1_alg».proof.Proof.Gen.KernelIdeal.Frame
import Idealize.ShloMosaic.Lib.Pipeline.Value
import Idealize.ShloMosaic.Lib.ValueLayout
import Idealize.ShloMosaic.Lib.Tactic
import Idealize.ShloMosaic.PureOps.Ideal.Laws

noncomputable section

namespace Cert.KernelIdeal.Brs1

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

section Pieces
variable {F : FTy → Type} [FloatOps F]

/-- The zero offsets of a whole-buffer access, as a constant function. -/
theorem hz : (![0, 0] : Fin 2 → Nat) = fun _ => 0 := funext fun a => by fin_cases a <;> rfl

/-- First point: the output block is left at `max (x + b) 0`. -/
theorem outA2 (c : Dev nD) (i : grid1.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : cond1_0 i) (x0 : Vec F S5000x32 .f32) (x1 : Vec F S1x32 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  rw [View.canon_unit_zero (S := S5000x32) hz]
  simp only [View.readAt_eq_ld, h1.read_unread, h2.read_unread, h4.read_unread, h5.read_unread, View.ld_unit_zero (S := S5000x32) hz, View.ld_unit_zero (S := S1x32) hz]

/-- First point: the sum accumulator is left at the zero row plus the block's column sums (the zero row is stored, then
    read back). -/
theorem outA3 (c : Dev nD) (i : grid1.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : cond1_0 i) (x0 : Vec F S5000x32 .f32) (x1 : Vec F S1x32 .f32) :
    out1_A_3 c i a1 h1 a2 h2 a3 h3 a4 h4 a5 h5 hc x0 x1 = k1_pay4 x0 x1 k1_pay1 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x32) hz, View.readCov_unit_zero (S := S1x32) _ hz]
  simp only [View.readAt_eq_ld, h1.read_unread, h2.read_unread, h4.read_unread, h5.read_unread, View.ld_unit_zero (S := S5000x32) hz, View.ld_unit_zero (S := S1x32) hz]

/-- First point: the same for the accumulator of squares. -/
theorem outA4 (c : Dev nD) (i : grid1.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : cond1_0 i) (x0 : Vec F S5000x32 .f32) (x1 : Vec F S1x32 .f32) :
    out1_A_4 c i a1 h1 a2 h2 a3 h3 a4 h4 a5 h5 hc x0 x1 = k1_pay5 x0 x1 k1_pay2 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x32) hz, View.readCov_unit_zero (S := S1x32) _ hz]
  simp only [View.readAt_eq_ld, h1.read_unread, h2.read_unread, h4.read_unread, h5.read_unread, View.ld_unit_zero (S := S5000x32) hz, View.ld_unit_zero (S := S1x32) hz]

/-- A later point: the output block is left at `max (x + b) 0`. -/
theorem outB2 (c : Dev nD) (i : grid1.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : ¬cond1_0 i) (x0 : Vec F S5000x32 .f32) (x1 : Vec F S1x32 .f32) (xo3 xo4 : Vec F S1x32 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero (S := S5000x32) hz]
  simp only [View.readAt_eq_ld, h1.read_unread, h2.read_unread, h4.read_unread, h5.read_unread, View.ld_unit_zero (S := S5000x32) hz, View.ld_unit_zero (S := S1x32) hz]

/-- A later point: the sum accumulator is left at what it held plus the block's column sums. -/
theorem outB3 (c : Dev nD) (i : grid1.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : ¬cond1_0 i) (x0 : Vec F S5000x32 .f32) (x1 : Vec F S1x32 .f32) (xo3 xo4 : Vec F S1x32 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  rw [View.canon_unit_zero (S := S1x32) hz]
  simp only [View.readAt_eq_ld, h1.read_unread, h2.read_unread, h4.read_unread, h5.read_unread, View.ld_unit_zero (S := S5000x32) hz, View.ld_unit_zero (S := S1x32) hz]

/-- A later point: the same for the accumulator of squares. -/
theorem outB4 (c : Dev nD) (i : grid1.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : ¬cond1_0 i) (x0 : Vec F S5000x32 .f32) (x1 : Vec F S1x32 .f32) (xo3 xo4 : Vec F S1x32 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  rw [View.canon_unit_zero (S := S1x32) hz]
  simp only [View.readAt_eq_ld, h1.read_unread, h2.read_unread, h4.read_unread, h5.read_unread, View.ld_unit_zero (S := S5000x32) hz, View.ld_unit_zero (S := S1x32) hz]

end Pieces

section Payloads

/-- The zero row, at a column. -/
theorem pay1_apply (q : Fin 32) : (k1_pay1 (F := Ideal)) (ix2 (0 : Fin 1) q) = Ideal.ofBits .f32 0x00000000#32 := rfl
/-- The second zero row, at a column. -/
theorem pay2_apply (q : Fin 32) : (k1_pay2 (F := Ideal)) (ix2 (0 : Fin 1) q) = Ideal.ofBits .f32 0x00000000#32 := rfl

/-- `max (x + b) 0` at row `r`, column `q`: the bias row is broadcast over the rows. -/
theorem pay3_apply (x0 : Vec Ideal S5000x32 .f32) (x1 : Vec Ideal S1x32 .f32) (r : Fin 5000) (q : Fin 32) :
    k1_pay3 x0 x1 (ix2 r q) = max (x0 (ix2 r q) + x1 (ix2 (0 : Fin 1) q)) (Ideal.ofBits .f32 0x00000000#32) := by
  unfold k1_pay3
  (try dsimp only)
  rw [maximumf_apply, addf_apply, shapeCast_self, shapeCast_self, broadcastTo_1b_ab_apply]
  rfl

/-- The new sum accumulator at column `q`: the old one plus the sum over the block's rows of `max (x + b) 0`. -/
theorem pay4_apply (x0 : Vec Ideal S5000x32 .f32) (x1 : Vec Ideal S1x32 .f32) (acc : Vec Ideal S1x32 .f32) (q : Fin 32) :
    k1_pay4 x0 x1 acc (ix2 (0 : Fin 1) q) = acc (ix2 (0 : Fin 1) q) + ∑ r : Fin 5000, k1_pay3 x0 x1 (ix2 r q) := by
  unfold k1_pay4
  (try dsimp only)
  rw [addf_apply, shapeCast_self, shapeCast_a_1a_apply]
  refine congrArg (acc (ix2 (0 : Fin 1) q) + ·) ?_
  refine (Ideal.multiReduction_add_single (k1_pay3 x0 x1) 0x00000000#32 reduces_S5000x32_S32 (.inl rfl) rfl (ix1 q)).trans ?_
  show (∑ r : Fin 5000, k1_pay3 x0 x1 (reduces_S5000x32_S32.lift (ix1 q) r)) = _
  refine Finset.sum_congr rfl fun r _ => congrArg (k1_pay3 x0 x1) ?_
  funext a
  match a with
  | ⟨0, _⟩ => rfl
  | ⟨1, _⟩ => rfl

/-- The new accumulator of squares at column `q`: the old one plus the sum over the block's rows of the squares. -/
theorem pay5_apply (x0 : Vec Ideal S5000x32 .f32) (x1 : Vec Ideal S1x32 .f32) (acc : Vec Ideal S1x32 .f32) (q : Fin 32) :
    k1_pay5 x0 x1 acc (ix2 (0 : Fin 1) q)
      = acc (ix2 (0 : Fin 1) q) + ∑ r : Fin 5000, k1_pay3 x0 x1 (ix2 r q) * k1_pay3 x0 x1 (ix2 r q) := by
  unfold k1_pay5
  (try dsimp only)
  rw [addf_apply, shapeCast_self, shapeCast_a_1a_apply]
  refine congrArg (acc (ix2 (0 : Fin 1) q) + ·) ?_
  refine (Ideal.multiReduction_add_single (mulf (k1_pay3 x0 x1) (k1_pay3 x0 x1)) 0x00000000#32 reduces_S5000x32_S32 (.inl rfl) rfl (ix1 q)).trans ?_
  show (∑ r : Fin 5000, mulf (k1_pay3 x0 x1) (k1_pay3 x0 x1) (reduces_S5000x32_S32.lift (ix1 q) r)) = _
  refine Finset.sum_congr rfl fun r _ => ?_
  have e : reduces_S5000x32_S32.lift (ix1 q) r = ix2 r q := by
    funext a
    match a with
    | ⟨0, _⟩ => rfl
    | ⟨1, _⟩ => rfl
  rw [e]
  rfl

end Payloads

end Cert.KernelIdeal.Brs1
-- ==== Proof.BrsSum.lean ====
/-
  Sums over the rows of an array cut into consecutive blocks of rows.

  An array of `N = T * B` rows is cut into `T` blocks of `B` consecutive rows; row `r` of block `s` is row
  `s * B + r` of the array. A sum taken block after block, inside each block row after row, is the sum over all
  rows: the map `(s, r) ↦ s * B + r` is a bijection from `Fin T × Fin B` onto `Fin N`. The blocks are counted by a
  natural number below `T` (a range sum, the form an accumulation over a grid's points produces); a row number that
  would fall outside the array reads `0`, which never happens below `T`.
-/
import Mathlib.Algebra.BigOperators.Fin
import Mathlib.Logic.Equiv.Fin.Basic

namespace Cert.KernelIdeal.BrsSum

open scoped BigOperators

/-- A function of the row, read at a natural row number: the function there when the number is a row, else `0`. -/
def atNat {M : Type*} [Zero M] {N : ℕ} (f : Fin N → M) (p : ℕ) : M := if h : p < N then f ⟨p, h⟩ else 0

theorem atNat_of_lt {M : Type*} [Zero M] {N : ℕ} (f : Fin N → M) (p : ℕ) (h : p < N) : atNat f p = f ⟨p, h⟩ := dif_pos h

/-- The sum block after block is the sum over all rows. -/
theorem sum_blocks {M : Type*} [AddCommMonoid M] (T B N : ℕ) (hN : T * B = N) (f : Fin N → M) :
    ∑ s ∈ Finset.range T, ∑ r : Fin B, atNat f (s * B + r.val) = ∑ p, f p := by
  subst hN
  rw [Finset.sum_range fun s => ∑ r : Fin B, atNat f (s * B + r.val), ← Fintype.sum_prod_type']
  refine Fintype.sum_equiv finProdFinEquiv _ _ fun x => ?_
  have hlt : x.1.val * B + x.2.val < T * B := by
    have h1 := x.1.isLt
    have h2 := x.2.isLt
    calc x.1.val * B + x.2.val < x.1.val * B + B := by omega
      _ = (x.1.val + 1) * B := (Nat.succ_mul _ _).symm
      _ ≤ T * B := Nat.mul_le_mul_right B h1
  rw [atNat_of_lt f _ hlt]
  refine congrArg f (Fin.ext ?_)
  show x.1.val * B + x.2.val = x.2.val + B * x.1.val
  rw [Nat.mul_comm, Nat.add_comm]

end Cert.KernelIdeal.BrsSum
-- ==== Proof.Brs1.lean ====
/-
  The value of the bias + ReLU + column-statistics region (region 1): what its three output arrays hold after the
  region's run, as functions of the two input arrays as the region finds them.

  The region walks the [100000, 32] input `x` in 20 blocks of 5000 rows. With `b` the [1, 32] bias and
  `relu p q = max (x[p, q] + b[0, q]) 0`:
    • the [100000, 32] output holds `relu p q` at `(p, q)` — point `t` writes rows `5000 t … 5000 t + 4999`, and the
      20 blocks tile the array;
    • the first [1, 32] accumulator holds at column `q` the sum of `relu p q` over all 100000 rows `p`;
    • the second holds the sum of `relu p q * relu p q`.
  The accumulators live in one block that is carried from point to point and written back after the last point only.
  By induction on the point, after point `n` an accumulator holds the sum of the column sums of blocks `0 … n` (the
  first point starts from the zero row, and `0 + s = s`); after point 19 that is the sum block after block over all
  blocks, which is the sum over all rows. The extended reals are an additive commutative monoid, so regrouping the
  sum needs no finiteness.
-/
import proofs.«107356_j16226386444409_1_alg».proof.Proof.Brs1Body
import proofs.«107356_j16226386444409_1_alg».proof.Proof.BrsSum

noncomputable section

namespace Cert.KernelIdeal.Brs1

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

-- the buffer contents when the region is entered
variable (V : (c : Dev nD) → (b : Ref sig .tc) → Buf (Elt Ideal) ((c : Thread nD τ).loc b))

/-- The index maps over the grid: the input and output blocks of point `t` start at row block `t`, column block 0; the bias
    block is the whole bias row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input array `x`, -/
abbrev xArr (c : Dev nD) : S100000x32.Idx → EReal := V c (Pipeline.arrRef spec1 0)
/-- and the bias row `b`, as the region finds them. -/
abbrev bArr (c : Dev nD) : S1x32.Idx → EReal := V c (Pipeline.arrRef spec1 1)

/-- `max (x[p, q] + b[0, q]) 0`. -/
def relu (c : Dev nD) (p : Fin 100000) (q : Fin 32) : EReal :=
  max (xArr V c (ix2 p q) + bArr V c (ix2 (0 : Fin 1) q)) (Ideal.ofBits .f32 0x00000000#32)

/-- The two arrays and `relu`, spelt out. -/
theorem xArr_eq (c : Dev nD) : xArr V c = V c (Pipeline.arrRef spec1 0) := rfl
theorem bArr_eq (c : Dev nD) : bArr V c = V c (Pipeline.arrRef spec1 1) := rfl
theorem relu_eq (c : Dev nD) (p : Fin 100000) (q : Fin 32) :
    relu V c p q = max (xArr V c (ix2 p q) + bArr V c (ix2 (0 : Fin 1) q)) (Ideal.ofBits .f32 0x00000000#32) := rfl

/-- Row `r` of the input block at point `t` is row `5000 t + r` of `x`. -/
theorem xblk_apply (c : Dev nD) (t : Fin cfg1.N) (r : Fin 5000) (q : Fin 32) (p : Fin 100000) (hp : p.val = t.val * 5000 + r.val) :
    (iblk1 V c 0 t : Vec Ideal S5000x32 .f32) (ix2 r q) = xArr V c (ix2 p q) := by
  obtain ⟨e0, e1, -⟩ := idx_facts t
  unfold iblk1
  rw [View.read_apply]
  show xArr V c _ = _
  refine congrArg (xArr V c) (funext fun a => Fin.ext ?_)
  match a with
  | ⟨0, _⟩ => show win1_0.index t 0 * 5000 + 1 * r.val = p.val; rw [e0, hp]; omega
  | ⟨1, _⟩ => show win1_0.index t 1 * 32 + 1 * q.val = q.val; rw [e1]; omega

/-- The bias block at any point is the bias row. -/
theorem bblk_apply (c : Dev nD) (t : Fin cfg1.N) (q : Fin 32) :
    (iblk1 V c 1 t : Vec Ideal S1x32 .f32) (ix2 (0 : Fin 1) q) = bArr V c (ix2 (0 : Fin 1) q) := by
  obtain ⟨-, -, e2, e3, -⟩ := idx_facts t
  unfold iblk1
  rw [View.read_apply]
  show bArr V c _ = _
  refine congrArg (bArr V c) (funext fun a => Fin.ext ?_)
  match a with
  | ⟨0, _⟩ => show win1_1.index t 0 * 1 + 1 * 0 = 0; rw [e2]
  | ⟨1, _⟩ => show win1_1.index t 1 * 32 + 1 * q.val = q.val; rw [e3]; omega

/-- So what the body stores into the output block at point `t`, at row `r` and column `q`, is `relu (5000 t + r) q`. -/
theorem pay3_blk (c : Dev nD) (t : Fin cfg1.N) (r : Fin 5000) (q : Fin 32) (p : Fin 100000) (hp : p.val = t.val * 5000 + r.val) :
    k1_pay3 (iblk1 V c 0 t) (iblk1 V c 1 t) (ix2 r q) = relu V c p q := by
  refine (pay3_apply (iblk1 V c 0 t) (iblk1 V c 1 t) r q).trans ?_
  rw [xblk_apply V c t r q p hp, bblk_apply V c t q]
  rfl

/-- In both cases of the body the output block is left at `max (x + b) 0` of the point's blocks. -/
theorem after2 (c : Dev nD) (t : Fin cfg1.N) : (dat1 V c).after 2 t = k1_pay3 (iblk1 V c 0 t) (iblk1 V c 1 t) := by
  rw [after1_2]
  by_cases h0 : t.val % 20 = 0
  · rw [outsAt1_A V c t h0]
    dsimp only
    exact outA2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · rw [outsAt1_B V c t h0]
    dsimp only
    exact outB2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2

/-- The sum accumulator after the first point: the zero row plus the block's column sums. -/
theorem acc3_A (c : Dev nD) (t : Fin cfg1.N) (h0 : t.val % 20 = 0) :
    (outsAt1 V c t.val t.isLt).2.1 = k1_pay4 (iblk1 V c 0 t) (iblk1 V c 1 t) (k1_pay1 (F := Ideal)) := by
  rw [outsAt1_A V c t h0]
  dsimp only
  exact outA3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)

/-- The sum accumulator after a later point: what the point before left plus the block's column sums. -/
theorem acc3_B (c : Dev nD) (t : Fin cfg1.N) (h0 : ¬t.val % 20 = 0) :
    (outsAt1 V c t.val t.isLt).2.1 = k1_pay4 (iblk1 V c 0 t) (iblk1 V c 1 t)
      (outsAt1 V c (t.val - 1) (Nat.lt_of_le_of_lt (Nat.sub_le _ _) t.isLt)).2.1 := by
  rw [outsAt1_B V c t h0]
  dsimp only
  exact outB3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2

/-- The same two facts for the accumulator of squares. -/
theorem acc4_A (c : Dev nD) (t : Fin cfg1.N) (h0 : t.val % 20 = 0) :
    (outsAt1 V c t.val t.isLt).2.2 = k1_pay5 (iblk1 V c 0 t) (iblk1 V c 1 t) (k1_pay2 (F := Ideal)) := by
  rw [outsAt1_A V c t h0]
  dsimp only
  exact outA4 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)

theorem acc4_B (c : Dev nD) (t : Fin cfg1.N) (h0 : ¬t.val % 20 = 0) :
    (outsAt1 V c t.val t.isLt).2.2 = k1_pay5 (iblk1 V c 0 t) (iblk1 V c 1 t)
      (outsAt1 V c (t.val - 1) (Nat.lt_of_le_of_lt (Nat.sub_le _ _) t.isLt)).2.2 := by
  rw [outsAt1_B V c t h0]
  dsimp only
  exact outB4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2

/-- The sum of `relu · q` over the rows of block `s`. -/
def colsum (c : Dev nD) (s : ℕ) (q : Fin 32) : EReal :=
  ∑ r : Fin 5000, BrsSum.atNat (fun p : Fin 100000 => relu V c p q) (s * 5000 + r.val)

/-- The sum of the squares of `relu · q` over the rows of block `s`. -/
def colsumsq (c : Dev nD) (s : ℕ) (q : Fin 32) : EReal :=
  ∑ r : Fin 5000, BrsSum.atNat (fun p : Fin 100000 => relu V c p q * relu V c p q) (s * 5000 + r.val)

/-- The column sum the body forms at point `t` is block `t`'s. -/
theorem blk_sum (c : Dev nD) (t : Fin cfg1.N) (q : Fin 32) :
    ∑ r : Fin 5000, k1_pay3 (iblk1 V c 0 t) (iblk1 V c 1 t) (ix2 r q) = colsum V c t.val q := by
  have hN : t.val < 20 := lt_of_lt_of_eq t.isLt (show cfg1.N = 20 from N_1)
  refine Finset.sum_congr rfl fun r _ => ?_
  have hlt : t.val * 5000 + r.val < 100000 := by have := r.isLt; omega
  rw [BrsSum.atNat_of_lt _ _ hlt]
  exact pay3_blk V c t r q ⟨_, hlt⟩ rfl

/-- The column sum of squares the body forms at point `t` is block `t`'s. -/
theorem blk_sumsq (c : Dev nD) (t : Fin cfg1.N) (q : Fin 32) :
    ∑ r : Fin 5000, k1_pay3 (iblk1 V c 0 t) (iblk1 V c 1 t) (ix2 r q) * k1_pay3 (iblk1 V c 0 t) (iblk1 V c 1 t) (ix2 r q)
      = colsumsq V c t.val q := by
  have hN : t.val < 20 := lt_of_lt_of_eq t.isLt (show cfg1.N = 20 from N_1)
  refine Finset.sum_congr rfl fun r _ => ?_
  have hlt : t.val * 5000 + r.val < 100000 := by have := r.isLt; omega
  rw [BrsSum.atNat_of_lt _ _ hlt, pay3_blk V c t r q ⟨_, hlt⟩ rfl]

/-- After point `n` the sum accumulator holds, at column `q`, the sum of the column sums of blocks `0 … n`: by induction
    on the point. -/
theorem acc3_eq (c : Dev nD) : ∀ (n : ℕ) (h : n < cfg1.N) (q : Fin 32),
    ((outsAt1 V c n h).2.1 : Vec Ideal S1x32 .f32) (ix2 (0 : Fin 1) q) = ∑ s ∈ Finset.range (n + 1), colsum V c s q
  | 0, h, q => by
    rw [acc3_A V c ⟨0, h⟩ rfl]
    refine (pay4_apply (iblk1 V c 0 ⟨0, h⟩) (iblk1 V c 1 ⟨0, h⟩) (k1_pay1 (F := Ideal)) q).trans ?_
    rw [pay1_apply, Ideal.ofBits_zero_f32, zero_add, blk_sum V c ⟨0, h⟩ q, Finset.sum_range_one]
  | n + 1, h, q => by
    have hN : cfg1.N = 20 := N_1
    have hB : ¬(⟨n + 1, h⟩ : Fin cfg1.N).val % 20 = 0 := by dsimp only; omega
    rw [acc3_B V c ⟨n + 1, h⟩ hB]
    refine (pay4_apply (iblk1 V c 0 ⟨n + 1, h⟩) (iblk1 V c 1 ⟨n + 1, h⟩) _ q).trans ?_
    rw [blk_sum V c ⟨n + 1, h⟩ q, Finset.sum_range_succ _ (n + 1)]
    refine congrArg (· + colsum V c (n + 1) q) ?_
    exact acc3_eq c n (Nat.lt_of_succ_lt h) q

/-- After point `n` the accumulator of squares holds the sum of the column sums of squares of blocks `0 … n`. -/
theorem acc4_eq (c : Dev nD) : ∀ (n : ℕ) (h : n < cfg1.N) (q : Fin 32),
    ((outsAt1 V c n h).2.2 : Vec Ideal S1x32 .f32) (ix2 (0 : Fin 1) q) = ∑ s ∈ Finset.range (n + 1), colsumsq V c s q
  | 0, h, q => by
    rw [acc4_A V c ⟨0, h⟩ rfl]
    refine (pay5_apply (iblk1 V c 0 ⟨0, h⟩) (iblk1 V c 1 ⟨0, h⟩) (k1_pay2 (F := Ideal)) q).trans ?_
    rw [pay2_apply, Ideal.ofBits_zero_f32, zero_add, blk_sumsq V c ⟨0, h⟩ q, Finset.sum_range_one]
  | n + 1, h, q => by
    have hN : cfg1.N = 20 := N_1
    have hB : ¬(⟨n + 1, h⟩ : Fin cfg1.N).val % 20 = 0 := by dsimp only; omega
    rw [acc4_B V c ⟨n + 1, h⟩ hB]
    refine (pay5_apply (iblk1 V c 0 ⟨n + 1, h⟩) (iblk1 V c 1 ⟨n + 1, h⟩) _ q).trans ?_
    rw [blk_sumsq V c ⟨n + 1, h⟩ q, Finset.sum_range_succ _ (n + 1)]
    refine congrArg (· + colsumsq V c (n + 1) q) ?_
    exact acc4_eq c n (Nat.lt_of_succ_lt h) q

/-- The last point. -/
def tLast : Fin cfg1.N := ⟨19, by rw [show cfg1.N = 20 from N_1]; decide⟩

/-- What the accumulators hold after the last point, as contents of their arrays (one block is the whole array). -/
abbrev result3 (c : Dev nD) : Buf (Elt Ideal) ((c : Thread nD τ).loc main_v47_1) := (outsAt1 V c tLast.val tLast.isLt).2.1
abbrev result4 (c : Dev nD) : Buf (Elt Ideal) ((c : Thread nD τ).loc main_v47_2) := (outsAt1 V c tLast.val tLast.isLt).2.2

/-- The one write-back of the sum accumulator, after the last point, writes the whole array. -/
theorem flushed3_eq (c : Dev nD) (t : Fin cfg1.N) (hf : (cfg1.win 3).flush t = true) :
    (dat1 V c).flushed 3 t = ((cfg1.win 3).blk t).view.read (Elt Ideal) (result3 V c) := by
  have hN : cfg1.N = 20 := N_1
  have h19 : t.val = 19 := by have := (flush1_3 t).mp hf; have := t.isLt; omega
  obtain rfl : t = tLast := Fin.ext h19
  show (cfg1.win 3).cut (grid1.coords tLast) ((dat1 V c).after 3 tLast) = _
  rw [after1_3]
  have hz' : (fun a => win1_3.index tLast a * main_v47_1.ty.shape.size a) = fun _ => 0 := funext fun a => by fin_cases a <;> decide +kernel
  exact (Memref.read_access_unit_zero (Elt Ideal) main_v47_1 hz' (fun a => by rw [congrFun hz' a]; simp) (result3 V c)).symm

/-- So the sum array ends holding what the accumulator holds after the last point. -/
theorem final3 (c : Dev nD) : (dat1 V c).arrAt 3 cfg1.N = result3 V c :=
  (dat1 V c).arrAt_eq_of_cover 3 (result3 V c) (flushed3_eq V c) fun i =>
    ⟨tLast, (flush1_3 tLast).mpr rfl, by
      show i ∈ ((View.whole main_v47_1).slice (win1_3.rect tLast)).set
      rw [View.set_slice_whole, Rect.mem_set_unit]
      intro a
      have h0 : (i 0 : Nat) < 1 := (i 0).isLt
      have h1 : (i 1 : Nat) < 32 := (i 1).isLt
      match a with
      | ⟨0, _⟩ => show win1_3.index tLast 0 * win1_3.size 0 ≤ (i 0 : Nat) ∧ (i 0 : Nat) < win1_3.index tLast 0 * win1_3.size 0 + win1_3.xsize (grid1.coords tLast) 0
                  rw [show win1_3.index tLast 0 * win1_3.size 0 = 0 from by decide +kernel, show win1_3.xsize (grid1.coords tLast) 0 = 1 from by decide +kernel]; omega
      | ⟨1, _⟩ => show win1_3.index tLast 1 * win1_3.size 1 ≤ (i 1 : Nat) ∧ (i 1 : Nat) < win1_3.index tLast 1 * win1_3.size 1 + win1_3.xsize (grid1.coords tLast) 1
                  rw [show win1_3.index tLast 1 * win1_3.size 1 = 0 from by decide +kernel, show win1_3.xsize (grid1.coords tLast) 1 = 32 from by decide +kernel]; omega⟩

/-- The same for the accumulator of squares. -/
theorem flushed4_eq (c : Dev nD) (t : Fin cfg1.N) (hf : (cfg1.win 4).flush t = true) :
    (dat1 V c).flushed 4 t = ((cfg1.win 4).blk t).view.read (Elt Ideal) (result4 V c) := by
  have hN : cfg1.N = 20 := N_1
  have h19 : t.val = 19 := by have := (flush1_4 t).mp hf; have := t.isLt; omega
  obtain rfl : t = tLast := Fin.ext h19
  show (cfg1.win 4).cut (grid1.coords tLast) ((dat1 V c).after 4 tLast) = _
  rw [after1_4]
  have hz' : (fun a => win1_4.index tLast a * main_v47_2.ty.shape.size a) = fun _ => 0 := funext fun a => by fin_cases a <;> decide +kernel
  exact (Memref.read_access_unit_zero (Elt Ideal) main_v47_2 hz' (fun a => by rw [congrFun hz' a]; simp) (result4 V c)).symm

/-- So the array of sums of squares ends holding what its accumulator holds after the last point. -/
theorem final4 (c : Dev nD) : (dat1 V c).arrAt 4 cfg1.N = result4 V c :=
  (dat1 V c).arrAt_eq_of_cover 4 (result4 V c) (flushed4_eq V c) fun i =>
    ⟨tLast, (flush1_4 tLast).mpr rfl, by
      show i ∈ ((View.whole main_v47_2).slice (win1_4.rect tLast)).set
      rw [View.set_slice_whole, Rect.mem_set_unit]
      intro a
      have h0 : (i 0 : Nat) < 1 := (i 0).isLt
      have h1 : (i 1 : Nat) < 32 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 1 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 32 from by decide +kernel]; omega⟩

/-- The [100000, 32] array of `relu`. -/
def reluArr (c : Dev nD) : S100000x32.Idx → EReal := fun i => relu V c (i 0) (i 1)

/-- It reads `relu p q` at any index whose coordinates are `p` and `q`. -/
theorem reluArr_apply (c : Dev nD) (i : S100000x32.Idx) (p : Fin 100000) (q : Fin 32) (h0 : (i 0).val = p.val) (h1 : (i 1).val = q.val) :
    reluArr V c i = relu V c p q := by
  obtain rfl : i = ix2 p q := funext fun a => by
    match a with
    | ⟨0, _⟩ => exact Fin.ext h0
    | ⟨1, _⟩ => exact Fin.ext h1
  rfl

/-- An index of the output block, as an index of the staging buffer, has the same coordinates. -/
theorem xinj2 (t : Fin cfg1.N) (r : Fin 5000) (q : Fin 32) :
    ((cfg1.win 2).xinj (grid1.coords t) (ix2 r q) : S5000x32.Idx) = ix2 r q := funext fun a => by
  match a with
  | ⟨0, _⟩ => rfl
  | ⟨1, _⟩ => rfl

/-- What point `t` writes back is block `t` of the array of `relu`. -/
theorem flushed2_eq (c : Dev nD) (t : Fin cfg1.N) :
    (dat1 V c).flushed 2 t = ((cfg1.win 2).blk t).view.read (Elt Ideal) (reluArr V c) := by
  show (cfg1.win 2).cut (grid1.coords t) ((dat1 V c).after 2 t) = _
  rw [after2 V c t]
  obtain ⟨-, -, -, -, e4, e5⟩ := idx_facts t
  have hN : t.val < 20 := lt_of_lt_of_eq t.isLt (show cfg1.N = 20 from N_1)
  funext j
  obtain ⟨r, q, rfl⟩ : ∃ (r : Fin 5000) (q : Fin 32), j = ix2 r q := ⟨j 0, j 1, eq_ix2 j⟩
  have hlt : t.val * 5000 + r.val < 100000 := by have := r.isLt; omega
  refine Eq.trans (b := relu V c ⟨_, hlt⟩ q) ?_ ?_
  · show k1_pay3 (iblk1 V c 0 t) (iblk1 V c 1 t) ((cfg1.win 2).xinj (grid1.coords t) (ix2 r q)) = _
    rw [xinj2 t r q]
    exact pay3_blk V c t r q ⟨_, hlt⟩ rfl
  · rw [View.read_apply]
    refine (reluArr_apply V c _ ⟨_, hlt⟩ q ?_ ?_).symm
    · show win1_2.index t 0 * 5000 + 1 * r.val = t.val * 5000 + r.val
      rw [e4]; omega
    · show win1_2.index t 1 * 32 + 1 * q.val = q.val
      rw [e5]; omega

/-- An index of the output array is in point `t`'s block iff each coordinate is in the block's range on its axis. -/
theorem mem_blk2 (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v47_0).slice (win1_2.rect t)).set ↔ _
  rw [View.set_slice_whole, Rect.mem_set_unit]
  exact Iff.rfl

/-- Every index is in some point's block: row `p` is in block `p / 5000`. -/
theorem cover2 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e4, e5⟩ := idx_facts t
  refine ⟨t, flush1_2 t, ?_⟩
  rw [mem_blk2]
  intro a
  match a with
  | ⟨0, _⟩ => show win1_2.index t 0 * 5000 ≤ (i 0).val ∧ (i 0).val < win1_2.index t 0 * 5000 + 5000; rw [e4, ht]; omega
  | ⟨1, _⟩ => show win1_2.index t 1 * 32 ≤ (i 1).val ∧ (i 1).val < win1_2.index t 1 * 32 + 32; rw [e5]; omega

/-- So the output array ends holding `relu` everywhere. -/
theorem final2 (c : Dev nD) : (dat1 V c).arrAt 2 cfg1.N = reluArr V c :=
  (dat1 V c).arrAt_eq_of_cover 2 (reluArr V c) (fun t _ => flushed2_eq V c t) cover2

/-- THE OUTPUT: `relu p q` at `(p, q)`. -/
theorem relu_value (c : Dev nD) (p : Fin 100000) (q : Fin 32) :
    ((dat1 V c).arrAt 2 cfg1.N : S100000x32.Idx → EReal) (ix2 p q) = relu V c p q := by
  rw [final2 V c]; rfl

/-- THE COLUMN SUMS: at column `q`, the sum of `relu p q` over all rows. -/
theorem sum_value (c : Dev nD) (q : Fin 32) :
    ((dat1 V c).arrAt 3 cfg1.N : S1x32.Idx → EReal) (ix2 (0 : Fin 1) q) = ∑ p : Fin 100000, relu V c p q := by
  rw [final3 V c]
  refine (acc3_eq V c tLast.val tLast.isLt q).trans ?_
  exact BrsSum.sum_blocks 20 5000 100000 (by norm_num) (fun p => relu V c p q)

/-- THE COLUMN SUMS OF SQUARES: at column `q`, the sum of `relu p q * relu p q` over all rows. -/
theorem sumsq_value (c : Dev nD) (q : Fin 32) :
    ((dat1 V c).arrAt 4 cfg1.N : S1x32.Idx → EReal) (ix2 (0 : Fin 1) q) = ∑ p : Fin 100000, relu V c p q * relu V c p q := by
  rw [final4 V c]
  refine (acc4_eq V c tLast.val tLast.isLt q).trans ?_
  exact BrsSum.sum_blocks 20 5000 100000 (by norm_num) (fun p => relu V c p q * relu V c p q)

end Cert.KernelIdeal.Brs1
-- ==== Proof.KLayer1.lean ====
/-
  The kernel program's first layer, in closed form.

  Region 0 projects the node features; the host aggregates; region 1 clips and accumulates the column statistics; the
  host forms the scale and the shift; region 2 applies them. Read through the boundary contents, the array region 2
  leaves is the layer function of the aggregation of the projected features.
-/
import proofs.«107356_j16226386444409_1_alg».proof.Proof.KGraph
import proofs.«107356_j16226386444409_1_alg».proof.Proof.KFun
import proofs.«107356_j16226386444409_1_alg».proof.Proof.Mm0
import proofs.«107356_j16226386444409_1_alg».proof.Proof.Aff2
import proofs.«107356_j16226386444409_1_alg».proof.Proof.Brs1

set_option maxRecDepth 16384

noncomputable section

namespace Cert.KernelIdeal.KLayer1

open Idealize.ShloMosaic Idealize.ShloMosaic.TcCoe Idealize.SL.Sem Idealize.ShloMosaic.ValueIdx
open Cert.KernelIdeal Cert.KernelIdeal.Gen Cert.KernelIdeal.KChain Cert.KernelIdeal.KGraph Cert.Gcn

variable (m : (ℓ : Loc nD τ sig) → Buf (Elt Ideal) ℓ) (ρ : Dev nD → PrngReg)

/-- The projected features. -/
theorem proj (c : Dev nD) : W4 m ρ c (Proc.devRef .tc main_v32)
    = mm64 (m ((c : Thread nD τ).loc main_arg0)) (m ((c : Thread nD τ).loc main_arg3)) := by
  refine (W4_arr m ρ c 2).trans ?_
  refine arrNx32_ext _ _ fun p q => ?_
  refine (Mm0.value (V3 m ρ) c p q).trans ?_
  have e0 : Mm0.xIn (V3 m ρ) c = (m ((c : Thread nD τ).loc main_arg0) : SNx64.Idx → EReal) := arg0_at m ρ c
  have e3 : Mm0.wIn (V3 m ρ) c = (m ((c : Thread nD τ).loc main_arg3) : (⟨2, ![64, 32]⟩ : Shape).Idx → EReal) := arg3_at m ρ c
  rw [e0, e3]

/-- The aggregation. -/
theorem aggr (c : Dev nD) : W5 m ρ c (Proc.devRef .tc main_v45)
    = agg (rows (m ((c : Thread nD τ).loc main_arg1))) (cols (m ((c : Thread nD τ).loc main_arg1)))
        (normOf (m ((c : Thread nD τ).loc main_arg1)) (m ((c : Thread nD τ).loc main_arg2)))
        (mm64 (m ((c : Thread nD τ).loc main_arg0)) (m ((c : Thread nD τ).loc main_arg3))) := by
  refine (KHost.agg1_eq (W4 m ρ c)).trans ?_
  rw [rows4, cols4, norm4, proj]

/-- The bias as a row. -/
theorem bias (c : Dev nD) : W5 m ρ c (Proc.devRef .tc main_v46) = row32 (m ((c : Thread nD τ).loc main_arg4)) := by
  refine (KHost.bias1_eq (W4 m ρ c)).trans ?_
  rw [arg4_at]

/-- The aggregation of the projected features, named. -/
def aggArr (c : Dev nD) : SNx32.Idx → EReal :=
  agg (rows (m ((c : Thread nD τ).loc main_arg1))) (cols (m ((c : Thread nD τ).loc main_arg1))) (normOf (m ((c : Thread nD τ).loc main_arg1)) (m ((c : Thread nD τ).loc main_arg2))) (mm64 (m ((c : Thread nD τ).loc main_arg0)) (m ((c : Thread nD τ).loc main_arg3)))

theorem xArr_eq (c : Dev nD) : Brs1.xArr (V5 m ρ) c = aggArr m c := aggr m ρ c
theorem bArr_eq (c : Dev nD) : Brs1.bArr (V5 m ρ) c = row32 (F := Ideal) (m ((c : Thread nD τ).loc main_arg4)) := bias m ρ c

theorem relu_eq (c : Dev nD) (p : Fin 100000) (q : Fin 32) :
    Brs1.relu (V5 m ρ) c p q = reluF (aggArr m c) (row32 (F := Ideal) (m ((c : Thread nD τ).loc main_arg4))) p q := by
  unfold Brs1.relu reluF
  rw [xArr_eq, bArr_eq]

/-- The clipped array. -/
theorem clipped (c : Dev nD) : W6 m ρ c (Proc.devRef .tc main_v47_0)
    = arrNx32 (reluF (aggArr m c) (row32 (F := Ideal) (m ((c : Thread nD τ).loc main_arg4)))) := by
  refine (W6_arr m ρ c 2).trans ?_
  refine arrNx32_ext _ _ fun p q => ?_
  exact (Brs1.relu_value (V5 m ρ) c p q).trans (relu_eq m ρ c p q)

/-- The column sums. -/
theorem sums (c : Dev nD) : W6 m ρ c (Proc.devRef .tc main_v47_1) = sumF (aggArr m c) (row32 (F := Ideal) (m ((c : Thread nD τ).loc main_arg4))) := by
  refine (W6_arr m ρ c 3).trans ?_
  refine arr1x32_ext _ _ fun q => ?_
  have e : (∑ p : Fin 100000, Brs1.relu (V5 m ρ) c p q)
      = ∑ p : Fin 100000, reluF (aggArr m c) (row32 (F := Ideal) (m ((c : Thread nD τ).loc main_arg4))) p q :=
    Finset.sum_congr rfl fun p _ => relu_eq m ρ c p q
  exact (Brs1.sum_value (V5 m ρ) c q).trans e

/-- The column sums of squares. -/
theorem sumsqs (c : Dev nD) : W6 m ρ c (Proc.devRef .tc main_v47_2) = sumsqF (aggArr m c) (row32 (F := Ideal) (m ((c : Thread nD τ).loc main_arg4))) := by
  refine (W6_arr m ρ c 4).trans ?_
  refine arr1x32_ext _ _ fun q => ?_
  have e : (∑ p : Fin 100000, Brs1.relu (V5 m ρ) c p q * Brs1.relu (V5 m ρ) c p q)
      = ∑ p : Fin 100000, reluF (aggArr m c) (row32 (F := Ideal) (m ((c : Thread nD τ).loc main_arg4))) p q * reluF (aggArr m c) (row32 (F := Ideal) (m ((c : Thread nD τ).loc main_arg4))) p q :=
    Finset.sum_congr rfl fun p _ => by rw [relu_eq m ρ c p q]
  exact (Brs1.sumsq_value (V5 m ρ) c q).trans e

/-- The scale and the shift. -/
theorem scale (c : Dev nD) : W7 m ρ c (Proc.devRef .tc main_v58)
    = kScale (F := Ideal) (sumF (aggArr m c) (row32 (F := Ideal) (m ((c : Thread nD τ).loc main_arg4)))) (sumsqF (aggArr m c) (row32 (F := Ideal) (m ((c : Thread nD τ).loc main_arg4)))) (m ((c : Thread nD τ).loc main_arg5)) := by
  refine (KHost.scale1_eq (W6 m ρ c)).trans ?_
  rw [sums, sumsqs, arg5_at]

theorem shift (c : Dev nD) : W7 m ρ c (Proc.devRef .tc main_v61)
    = kShift (F := Ideal) (sumF (aggArr m c) (row32 (F := Ideal) (m ((c : Thread nD τ).loc main_arg4)))) (sumsqF (aggArr m c) (row32 (F := Ideal) (m ((c : Thread nD τ).loc main_arg4)))) (m ((c : Thread nD τ).loc main_arg5)) (m ((c : Thread nD τ).loc main_arg6)) := by
  refine (KHost.shift1_eq (W6 m ρ c)).trans ?_
  rw [sums, sumsqs, arg5_at, arg6_at]

/-- The layer's result. -/
theorem out (c : Dev nD) : W8 m ρ c (Proc.devRef .tc main_v62)
    = kLayerOut (aggArr m c) (m ((c : Thread nD τ).loc main_arg4)) (m ((c : Thread nD τ).loc main_arg5)) (m ((c : Thread nD τ).loc main_arg6)) := by
  refine (W8_arr m ρ c 3).trans ?_
  refine arrNx32_ext _ _ fun p q => ?_
  refine (Aff2.value (V7 m ρ) c p q).trans ?_
  have ex : Aff2.xIn (V7 m ρ) c = arrNx32 (reluF (aggArr m c) (row32 (F := Ideal) (m ((c : Thread nD τ).loc main_arg4)))) :=
    (keep_v47_0_7_6 m ρ c).trans (clipped m ρ c)
  have es : Aff2.scaleIn (V7 m ρ) c = _ := scale m ρ c
  have eh : Aff2.shiftIn (V7 m ρ) c = _ := shift m ρ c
  rw [ex, es, eh]
  rfl

end Cert.KernelIdeal.KLayer1

end
-- ==== Proof.Mm3.lean ====
/-
  The matrix-product kernel of layer 2, read as a whole array: after the region, entry (p, q) of the result is the sum
  over k of x (p, k) * w (k, q), where x and w are the arrays the region finds.
-/
import proofs.«107356_j16226386444409_1_alg».proof.Proof.Gen.KernelIdeal.Frame
import proofs.«107356_j16226386444409_1_alg».proof.Proof.LibTileOps
import Idealize.ShloMosaic.Lib.Pipeline.Value

noncomputable section

open scoped BigOperators

namespace Cert.KernelIdeal.Mm3

open Cert.KernelIdeal Cert.KernelIdeal.Gen Idealize.ShloMosaic Idealize.ShloMosaic.TcCoe Idealize.SL.Sem
open Idealize.ShloMosaic.ValueIdx Idealize.ShloMosaic.TileOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored tile at (p, q): the sum over k of the x tile's entry (p, k) times the w tile's entry (k, q). -/
theorem pay_apply (x0 : Vec Ideal S5000x32 .f32) (x1 : Vec Ideal S32x32 .f32) (p : Fin 5000) (q : Fin 32) :
    k3_pay1 x0 x1 (ix2 p q) = ∑ k : Fin 32, x0 (ix2 p k) * x1 (ix2 k q) := by
  unfold k3_pay1
  rw [shapeCast_self]
  exact matmul_zero_apply dot_S5000x32_S32x32_S5000x32_1_0_0_1_n_n_wf none (truncf .bf16 x0 bitsLt_bf16_f32) (truncf .bf16 x1 bitsLt_bf16_f32) p q

/-- The whole result array as a function of the two arrays. -/
abbrev G (a0 : S100000x32.Idx → EReal) (a1 : S32x32.Idx → EReal) : S100000x32.Idx → EReal :=
  fun i => ∑ k : Fin 32, a0 (ix2 ⟨(i 0).val, idx2_lt0 i⟩ k) * a1 (ix2 k ⟨(i 1).val, idx2_lt1 i⟩)

/-- The printed index maps over the grid: the x and result windows sit at block row t, column block 0; w at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The arrays the region finds, and the result array after it. -/
abbrev xIn (c : Dev nD) : S100000x32.Idx → EReal := V c (Pipeline.arrRef spec3 0)
abbrev wIn (c : Dev nD) : S32x32.Idx → EReal := V c (Pipeline.arrRef spec3 1)
abbrev out (c : Dev nD) : S100000x32.Idx → EReal := (dat3 V c).arrAt 2 cfg3.N

/-- Tile t of x at (p, k) is x at row 5000 t + p. -/
theorem iblk_x (c : Dev nD) (t : Fin cfg3.N) (p : Fin 5000) (k : Fin 32) (i : S100000x32.Idx)
    (h0 : (i 0).val = 5000 * t.val + p.val) (h1 : (i 1).val = k.val) :
    (iblk3 V c 0 t : Vec Ideal S5000x32 .f32) (ix2 p k) = xIn V c i := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = (i 0).val; rw [e0, h0]; omega
  | ⟨1, _⟩ => show win3_0.index t (1 : Fin 2) * 32 + 1 * k.val = (i 1).val; rw [e1, h1]; omega

/-- The one tile of w is w. -/
theorem iblk_w (c : Dev nD) (t : Fin cfg3.N) (k : Fin 32) (q : Fin 32) :
    (iblk3 V c 1 t : Vec Ideal S32x32 .f32) (ix2 k q) = wIn V c (ix2 k q) := by
  obtain ⟨-, -, e2, e3, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 32 + 1 * k.val = k.val; rw [e2]; omega
  | ⟨1, _⟩ => show win3_1.index t (1 : Fin 2) * 32 + 1 * q.val = q.val; rw [e3]; omega

/-- The written-back part of a tile is the tile: the tiles are never cut at the array's edge. -/
theorem cut_apply (t : Fin cfg3.N) (X : Vec Ideal S5000x32 .f32) (p : Fin 5000) (q : Fin 32) :
    (cfg3.win 2).cut (grid3.coords t) X (ix2 p q) = X (ix2 p q) := rfl

/-- Tile t of a whole-array function, read at (p, q), is the function at row 5000 t + p. -/
theorem read_out (t : Fin cfg3.N) (Gf : S100000x32.Idx → EReal) (p : Fin 5000) (q : Fin 32) (i : S100000x32.Idx)
    (h0 : (i 0).val = 5000 * t.val + p.val) (h1 : (i 1).val = q.val) :
    ((cfg3.win 2).blk t).view.read (Elt Ideal) Gf (ix2 p q) = Gf i := by
  obtain ⟨-, -, -, -, e4, e5⟩ := idx_facts t
  rw [View.read_apply]
  show Gf _ = Gf _
  congr 1
  funext a
  apply Fin.ext
  match a with
  | ⟨0, _⟩ => show win3_2.index t (0 : Fin 2) * 5000 + 1 * p.val = (i 0).val; rw [e4, h0]; omega
  | ⟨1, _⟩ => show win3_2.index t (1 : Fin 2) * 32 + 1 * q.val = (i 1).val; rw [e5, h1]; omega

/-- What grid point t computes at (p, q) is `G` of the two arrays at row 5000 t + p. -/
theorem pt (c : Dev nD) (t : Fin cfg3.N) (p : Fin 5000) (q : Fin 32) (hp : 5000 * t.val + p.val < 100000) :
    k3_pay1 (iblk3 V c 0 t) (iblk3 V c 1 t) (ix2 p q)
      = G (V c (Pipeline.arrRef spec3 0)) (V c (Pipeline.arrRef spec3 1)) (ix2 ⟨5000 * t.val + p.val, hp⟩ q) :=
  (pay_apply (iblk3 V c 0 t) (iblk3 V c 1 t) p q).trans
    (Finset.sum_congr rfl fun k _ =>
      congrArg₂ (· * ·) (iblk_x V c t p k (ix2 ⟨5000 * t.val + p.val, hp⟩ k) rfl rfl) (iblk_w V c t k q))

/-- What grid point t writes back is tile t of `G` of the two arrays. -/
theorem flushed_eq (c : Dev nD) (t : Fin cfg3.N) :
    (dat3 V c).flushed 2 t = ((cfg3.win 2).blk t).view.read (Elt Ideal)
      (G (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x32) hz, View.ld_unit_zero (S := S32x32) hz]
  funext j
  obtain ⟨p, q, rfl⟩ : ∃ (p : Fin 5000) (q : Fin 32), j = ix2 p q := ⟨j 0, j 1, eq_ix2 j⟩
  have hp : 5000 * t.val + p.val < 100000 := by
    have h1 := t.isLt
    have hN : cfg3.N = 20 := N_3
    have h2 := p.isLt
    omega
  refine (cut_apply t (k3_pay1 (iblk3 V c 0 t) (iblk3 V c 1 t)) p q).trans ?_
  refine (pt V c t p q hp).trans ?_
  exact (read_out t _ p q (ix2 ⟨5000 * t.val + p.val, hp⟩ q) rfl rfl).symm

/-- An index of the array is in grid point t's tile iff each coordinate is in the tile's range on its axis. -/
theorem mem_blk (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v63).slice (win3_2.rect t)).set ↔ _
  rw [View.set_slice_whole, Rect.mem_set_unit]
  exact Iff.rfl

/-- Row r lies in the tile of grid point r / 5000: the twenty tiles cover the array. -/
theorem cover (i : S100000x32.Idx) : ∃ t : Fin cfg3.N, (cfg3.win 2).flush t = true ∧ i ∈ ((cfg3.win 2).blk t).view.set := by
  have hi0 : (i 0).val < 100000 := idx2_lt0 i
  have hi1 : (i 1).val < 32 := idx2_lt1 i
  have ht : (i 0).val / 5000 < cfg3.N := by rw [show cfg3.N = 20 from N_3]; omega
  refine ⟨⟨(i 0).val / 5000, ht⟩, flush3_2 _, ?_⟩
  rw [mem_blk]
  obtain ⟨-, -, -, -, e4, e5⟩ := idx_facts ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; dsimp only; omega
  | ⟨1, _⟩ =>
    show win3_2.index ⟨(i 0).val / 5000, ht⟩ (1 : Fin 2) * 32 ≤ (i 1).val ∧ (i 1).val < win3_2.index ⟨(i 0).val / 5000, ht⟩ (1 : Fin 2) * 32 + 32
    rw [e5]; omega

/-- The result array after the region is `G` of the two arrays the region finds. -/
theorem arr_eq (c : Dev nD) : (dat3 V c).arrAt 2 cfg3.N
    = G (V c (Pipeline.arrRef spec3 0)) (V c (Pipeline.arrRef spec3 1)) :=
  (dat3 V c).arrAt_eq_of_cover 2 (G (V c (Pipeline.arrRef spec3 0)) (V c (Pipeline.arrRef spec3 1)))
    (fun t _ => flushed_eq V c t) cover

/-- Entry (p, q) of the result: the sum over k of x (p, k) * w (k, q). -/
theorem value (c : Dev nD) (p : Fin 100000) (q : Fin 32) :
    out V c (ix2 p q) = ∑ k : Fin 32, xIn V c (ix2 p k) * wIn V c (ix2 k q) :=
  congrFun (arr_eq V c) (ix2 p q)

end Cert.KernelIdeal.Mm3

end
-- ==== Proof.Aff5.lean ====
/-
  The affine kernel of layer 2, read as a whole array: after the region, entry (p, q) of the result is
  x (p, q) * scale (0, q) + shift (0, q), where x, scale and shift are the arrays the region finds.
-/
import proofs.«107356_j16226386444409_1_alg».proof.Proof.Gen.KernelIdeal.Frame
import proofs.«107356_j16226386444409_1_alg».proof.Proof.LibTileOps
import Idealize.ShloMosaic.Lib.Pipeline.Value

noncomputable section

open scoped BigOperators

namespace Cert.KernelIdeal.Aff5

open Cert.KernelIdeal Cert.KernelIdeal.Gen Idealize.ShloMosaic Idealize.ShloMosaic.TcCoe Idealize.SL.Sem
open Idealize.ShloMosaic.ValueIdx Idealize.ShloMosaic.TileOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored tile at (p, q): the x tile's entry times the scale row's entry q plus the shift row's entry q. -/
theorem pay_apply (x0 : Vec Ideal S5000x32 .f32) (x1 x2 : Vec Ideal S1x32 .f32) (p : Fin 5000) (q : Fin 32) :
    k5_pay1 x0 x1 x2 (ix2 p q) = x0 (ix2 p q) * x1 (ix2 (0 : Fin 1) q) + x2 (ix2 (0 : Fin 1) q) := by
  unfold k5_pay1
  rw [shapeCast_self, shapeCast_self, shapeCast_self]
  refine (addf_apply _ _ _).trans ?_
  refine congrArg₂ (· + ·) ((mulf_apply _ _ _).trans (congrArg (_ * ·) (broadcastRow_apply x1 _ p q))) (broadcastRow_apply x2 _ p q)

/-- The whole result array as a function of the three arrays. -/
abbrev G (a0 : S100000x32.Idx → EReal) (a1 a2 : S1x32.Idx → EReal) : S100000x32.Idx → EReal :=
  fun i => a0 i * a1 (ix2 (0 : Fin 1) ⟨(i 1).val, idx2_lt1 i⟩) + a2 (ix2 (0 : Fin 1) ⟨(i 1).val, idx2_lt1 i⟩)

/-- The printed index maps over the grid: the x and result windows sit at block row t, column block 0; the rows at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The arrays the region finds, and the result array after it. -/
abbrev xIn (c : Dev nD) : S100000x32.Idx → EReal := V c (Pipeline.arrRef spec5 0)
abbrev scaleIn (c : Dev nD) : S1x32.Idx → EReal := V c (Pipeline.arrRef spec5 1)
abbrev shiftIn (c : Dev nD) : S1x32.Idx → EReal := V c (Pipeline.arrRef spec5 2)
abbrev out (c : Dev nD) : S100000x32.Idx → EReal := (dat5 V c).arrAt 3 cfg5.N

/-- Tile t of x at (p, q) is x at row 5000 t + p. -/
theorem iblk_x (c : Dev nD) (t : Fin cfg5.N) (p : Fin 5000) (q : Fin 32) (i : S100000x32.Idx)
    (h0 : (i 0).val = 5000 * t.val + p.val) (h1 : (i 1).val = q.val) :
    (iblk5 V c 0 t : Vec Ideal S5000x32 .f32) (ix2 p q) = xIn V c i := by
  obtain ⟨e0, e1, -⟩ := idx_facts t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * p.val = (i 0).val; rw [e0, h0]; omega
  | ⟨1, _⟩ => show win5_0.index t (1 : Fin 2) * 32 + 1 * q.val = (i 1).val; rw [e1, h1]; omega

/-- The one tile of the scale row at (0, q) is the row's entry q. -/
theorem iblk_scale (c : Dev nD) (t : Fin cfg5.N) (q : Fin 32) :
    (iblk5 V c 1 t : Vec Ideal S1x32 .f32) (ix2 (0 : Fin 1) q) = scaleIn V c (ix2 (0 : Fin 1) q) := by
  obtain ⟨-, -, e2, e3, -⟩ := idx_facts t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * 0 = 0; rw [e2]
  | ⟨1, _⟩ => show win5_1.index t (1 : Fin 2) * 32 + 1 * q.val = q.val; rw [e3]; omega

/-- The one tile of the shift row at (0, q) is the row's entry q. -/
theorem iblk_shift (c : Dev nD) (t : Fin cfg5.N) (q : Fin 32) :
    (iblk5 V c 2 t : Vec Ideal S1x32 .f32) (ix2 (0 : Fin 1) q) = shiftIn V c (ix2 (0 : Fin 1) q) := by
  obtain ⟨-, -, -, -, e4, e5, -⟩ := idx_facts t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * 0 = 0; rw [e4]
  | ⟨1, _⟩ => show win5_2.index t (1 : Fin 2) * 32 + 1 * q.val = q.val; rw [e5]; omega

/-- The written-back part of a tile is the tile: the tiles are never cut at the array's edge. -/
theorem cut_apply (t : Fin cfg5.N) (X : Vec Ideal S5000x32 .f32) (p : Fin 5000) (q : Fin 32) :
    (cfg5.win 3).cut (grid5.coords t) X (ix2 p q) = X (ix2 p q) := rfl

/-- Tile t of a whole-array function, read at (p, q), is the function at row 5000 t + p. -/
theorem read_out (t : Fin cfg5.N) (Gf : S100000x32.Idx → EReal) (p : Fin 5000) (q : Fin 32) (i : S100000x32.Idx)
    (h0 : (i 0).val = 5000 * t.val + p.val) (h1 : (i 1).val = q.val) :
    ((cfg5.win 3).blk t).view.read (Elt Ideal) Gf (ix2 p q) = Gf i := by
  obtain ⟨-, -, -, -, -, -, e6, e7⟩ := idx_facts t
  rw [View.read_apply]
  show Gf _ = Gf _
  congr 1
  funext a
  apply Fin.ext
  match a with
  | ⟨0, _⟩ => show win5_3.index t (0 : Fin 2) * 5000 + 1 * p.val = (i 0).val; rw [e6, h0]; omega
  | ⟨1, _⟩ => show win5_3.index t (1 : Fin 2) * 32 + 1 * q.val = (i 1).val; rw [e7, h1]; omega

/-- What grid point t computes at (p, q) is `G` of the three arrays at row 5000 t + p. -/
theorem pt (c : Dev nD) (t : Fin cfg5.N) (p : Fin 5000) (q : Fin 32) (hp : 5000 * t.val + p.val < 100000) :
    k5_pay1 (iblk5 V c 0 t) (iblk5 V c 1 t) (iblk5 V c 2 t) (ix2 p q)
      = G (V c (Pipeline.arrRef spec5 0)) (V c (Pipeline.arrRef spec5 1)) (V c (Pipeline.arrRef spec5 2))
          (ix2 ⟨5000 * t.val + p.val, hp⟩ q) :=
  (pay_apply (iblk5 V c 0 t) (iblk5 V c 1 t) (iblk5 V c 2 t) p q).trans
    (congrArg₂ (· + ·)
      (congrArg₂ (· * ·) (iblk_x V c t p q (ix2 ⟨5000 * t.val + p.val, hp⟩ q) rfl rfl) (iblk_scale V c t q))
      (iblk_shift V c t q))

/-- What grid point t writes back is tile t of `G` of the three arrays. -/
theorem flushed_eq (c : Dev nD) (t : Fin cfg5.N) :
    (dat5 V c).flushed 3 t = ((cfg5.win 3).blk t).view.read (Elt Ideal)
      (G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S5000x32) hz, View.ld_unit_zero (S := S1x32) hz]
  funext j
  obtain ⟨p, q, rfl⟩ : ∃ (p : Fin 5000) (q : Fin 32), j = ix2 p q := ⟨j 0, j 1, eq_ix2 j⟩
  have hp : 5000 * t.val + p.val < 100000 := by
    have h1 := t.isLt
    have hN : cfg5.N = 20 := N_5
    have h2 := p.isLt
    omega
  refine (cut_apply t (k5_pay1 (iblk5 V c 0 t) (iblk5 V c 1 t) (iblk5 V c 2 t)) p q).trans ?_
  refine (pt V c t p q hp).trans ?_
  exact (read_out t _ p q (ix2 ⟨5000 * t.val + p.val, hp⟩ q) rfl rfl).symm

/-- An index of the array is in grid point t's tile iff each coordinate is in the tile's range on its axis. -/
theorem mem_blk (t : Fin cfg5.N) (i : S100000x32.Idx) :
    i ∈ ((cfg5.win 3).blk t).view.set ↔ ∀ a : Fin 2, win5_3.index t a * S5000x32.size a ≤ (i a).val ∧ (i a).val < win5_3.index t a * S5000x32.size a + S5000x32.size a := by
  show i ∈ ((View.whole main_v93).slice (win5_3.rect t)).set ↔ _
  rw [View.set_slice_whole, Rect.mem_set_unit]
  exact Iff.rfl

/-- Row r lies in the tile of grid point r / 5000: the twenty tiles cover the array. -/
theorem cover (i : S100000x32.Idx) : ∃ t : Fin cfg5.N, (cfg5.win 3).flush t = true ∧ i ∈ ((cfg5.win 3).blk t).view.set := by
  have hi0 : (i 0).val < 100000 := idx2_lt0 i
  have hi1 : (i 1).val < 32 := idx2_lt1 i
  have ht : (i 0).val / 5000 < cfg5.N := by rw [show cfg5.N = 20 from N_5]; omega
  refine ⟨⟨(i 0).val / 5000, ht⟩, flush5_3 _, ?_⟩
  rw [mem_blk]
  obtain ⟨-, -, -, -, -, -, e6, e7⟩ := idx_facts ⟨(i 0).val / 5000, ht⟩
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e6]; dsimp only; omega
  | ⟨1, _⟩ =>
    show win5_3.index ⟨(i 0).val / 5000, ht⟩ (1 : Fin 2) * 32 ≤ (i 1).val ∧ (i 1).val < win5_3.index ⟨(i 0).val / 5000, ht⟩ (1 : Fin 2) * 32 + 32
    rw [e7]; omega

/-- The result array after the region is `G` of the three arrays the region finds. -/
theorem arr_eq (c : Dev nD) : (dat5 V c).arrAt 3 cfg5.N
    = G (V c (Pipeline.arrRef spec5 0)) (V c (Pipeline.arrRef spec5 1)) (V c (Pipeline.arrRef spec5 2)) :=
  (dat5 V c).arrAt_eq_of_cover 3 (G (V c (Pipeline.arrRef spec5 0)) (V c (Pipeline.arrRef spec5 1)) (V c (Pipeline.arrRef spec5 2)))
    (fun t _ => flushed_eq V c t) cover

/-- Entry (p, q) of the result: x (p, q) * scale (0, q) + shift (0, q). -/
theorem value (c : Dev nD) (p : Fin 100000) (q : Fin 32) :
    out V c (ix2 p q) = xIn V c (ix2 p q) * scaleIn V c (ix2 (0 : Fin 1) q) + shiftIn V c (ix2 (0 : Fin 1) q) :=
  congrFun (arr_eq V c) (ix2 p q)

end Cert.KernelIdeal.Aff5

end
-- ==== Proof.Brs4Body.lean ====
/-
  The body of the bias + ReLU + column-statistics kernel (region 4), read as values.

  At one grid point the body holds a block `x` of 5000 rows of the [100000, 32] input, the one-row bias `b`, and the
  two one-row accumulators. It stores `r = max (x + b) 0` into the output block, and into each accumulator what it
  held plus, per column, the sum over the block's 5000 rows of `r` (of `r * r` for the second). At the first point the
  accumulators are zeroed before they are read, so there the body leaves `0 + (column sums)`.

  First part, for any float values: what each case of the body leaves in each output buffer is the payload of its one
  covering store, applied to the blocks the point holds. Second part, at the ideal values: each payload read at an index
  given by its coordinates (row `r`, column `q`).
-/
import proofs.«107356_j16226386444409_1_alg».proof.Proof.Gen.KernelIdeal.Frame
import Idealize.ShloMosaic.Lib.Pipeline.Value
import Idealize.ShloMosaic.Lib.ValueLayout
import Idealize.ShloMosaic.Lib.Tactic
import Idealize.ShloMosaic.PureOps.Ideal.Laws

noncomputable section

namespace Cert.KernelIdeal.Brs4

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

section Pieces
variable {F : FTy → Type} [FloatOps F]

/-- The zero offsets of a whole-buffer access, as a constant function. -/
theorem hz : (![0, 0] : Fin 2 → Nat) = fun _ => 0 := funext fun a => by fin_cases a <;> rfl

/-- First point: the output block is left at `max (x + b) 0`. -/
theorem outA2 (c : Dev nD) (i : grid4.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : cond4_0 i) (x0 : Vec F S5000x32 .f32) (x1 : Vec F S1x32 .f32) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  rw [View.canon_unit_zero (S := S5000x32) hz]
  simp only [View.readAt_eq_ld, h1.read_unread, h2.read_unread, h4.read_unread, h5.read_unread, View.ld_unit_zero (S := S5000x32) hz, View.ld_unit_zero (S := S1x32) hz]

/-- First point: the sum accumulator is left at the zero row plus the block's column sums (the zero row is stored, then
    read back). -/
theorem outA3 (c : Dev nD) (i : grid4.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : cond4_0 i) (x0 : Vec F S5000x32 .f32) (x1 : Vec F S1x32 .f32) :
    out4_A_3 c i a1 h1 a2 h2 a3 h3 a4 h4 a5 h5 hc x0 x1 = k4_pay4 x0 x1 k4_pay1 := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x32) hz, View.readCov_unit_zero (S := S1x32) _ hz]
  simp only [View.readAt_eq_ld, h1.read_unread, h2.read_unread, h4.read_unread, h5.read_unread, View.ld_unit_zero (S := S5000x32) hz, View.ld_unit_zero (S := S1x32) hz]

/-- First point: the same for the accumulator of squares. -/
theorem outA4 (c : Dev nD) (i : grid4.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : cond4_0 i) (x0 : Vec F S5000x32 .f32) (x1 : Vec F S1x32 .f32) :
    out4_A_4 c i a1 h1 a2 h2 a3 h3 a4 h4 a5 h5 hc x0 x1 = k4_pay5 x0 x1 k4_pay2 := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x32) hz, View.readCov_unit_zero (S := S1x32) _ hz]
  simp only [View.readAt_eq_ld, h1.read_unread, h2.read_unread, h4.read_unread, h5.read_unread, View.ld_unit_zero (S := S5000x32) hz, View.ld_unit_zero (S := S1x32) hz]

/-- A later point: the output block is left at `max (x + b) 0`. -/
theorem outB2 (c : Dev nD) (i : grid4.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : ¬cond4_0 i) (x0 : Vec F S5000x32 .f32) (x1 : Vec F S1x32 .f32) (xo3 xo4 : Vec F S1x32 .f32) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  rw [View.canon_unit_zero (S := S5000x32) hz]
  simp only [View.readAt_eq_ld, h1.read_unread, h2.read_unread, h4.read_unread, h5.read_unread, View.ld_unit_zero (S := S5000x32) hz, View.ld_unit_zero (S := S1x32) hz]

/-- A later point: the sum accumulator is left at what it held plus the block's column sums. -/
theorem outB3 (c : Dev nD) (i : grid4.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : ¬cond4_0 i) (x0 : Vec F S5000x32 .f32) (x1 : Vec F S1x32 .f32) (xo3 xo4 : Vec F S1x32 .f32) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  rw [View.canon_unit_zero (S := S1x32) hz]
  simp only [View.readAt_eq_ld, h1.read_unread, h2.read_unread, h4.read_unread, h5.read_unread, View.ld_unit_zero (S := S5000x32) hz, View.ld_unit_zero (S := S1x32) hz]

/-- A later point: the same for the accumulator of squares. -/
theorem outB4 (c : Dev nD) (i : grid4.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : ¬cond4_0 i) (x0 : Vec F S5000x32 .f32) (x1 : Vec F S1x32 .f32) (xo3 xo4 : Vec F S1x32 .f32) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  rw [View.canon_unit_zero (S := S1x32) hz]
  simp only [View.readAt_eq_ld, h1.read_unread, h2.read_unread, h4.read_unread, h5.read_unread, View.ld_unit_zero (S := S5000x32) hz, View.ld_unit_zero (S := S1x32) hz]

end Pieces

section Payloads

/-- The zero row, at a column. -/
theorem pay1_apply (q : Fin 32) : (k4_pay1 (F := Ideal)) (ix2 (0 : Fin 1) q) = Ideal.ofBits .f32 0x00000000#32 := rfl
/-- The second zero row, at a column. -/
theorem pay2_apply (q : Fin 32) : (k4_pay2 (F := Ideal)) (ix2 (0 : Fin 1) q) = Ideal.ofBits .f32 0x00000000#32 := rfl

/-- `max (x + b) 0` at row `r`, column `q`: the bias row is broadcast over the rows. -/
theorem pay3_apply (x0 : Vec Ideal S5000x32 .f32) (x1 : Vec Ideal S1x32 .f32) (r : Fin 5000) (q : Fin 32) :
    k4_pay3 x0 x1 (ix2 r q) = max (x0 (ix2 r q) + x1 (ix2 (0 : Fin 1) q)) (Ideal.ofBits .f32 0x00000000#32) := by
  unfold k4_pay3
  (try dsimp only)
  rw [maximumf_apply, addf_apply, shapeCast_self, shapeCast_self, broadcastTo_1b_ab_apply]
  rfl

/-- The new sum accumulator at column `q`: the old one plus the sum over the block's rows of `max (x + b) 0`. -/
theorem pay4_apply (x0 : Vec Ideal S5000x32 .f32) (x1 : Vec Ideal S1x32 .f32) (acc : Vec Ideal S1x32 .f32) (q : Fin 32) :
    k4_pay4 x0 x1 acc (ix2 (0 : Fin 1) q) = acc (ix2 (0 : Fin 1) q) + ∑ r : Fin 5000, k4_pay3 x0 x1 (ix2 r q) := by
  unfold k4_pay4
  (try dsimp only)
  rw [addf_apply, shapeCast_self, shapeCast_a_1a_apply]
  refine congrArg (acc (ix2 (0 : Fin 1) q) + ·) ?_
  refine (Ideal.multiReduction_add_single (k4_pay3 x0 x1) 0x00000000#32 reduces_S5000x32_S32 (.inl rfl) rfl (ix1 q)).trans ?_
  show (∑ r : Fin 5000, k4_pay3 x0 x1 (reduces_S5000x32_S32.lift (ix1 q) r)) = _
  refine Finset.sum_congr rfl fun r _ => congrArg (k4_pay3 x0 x1) ?_
  funext a
  match a with
  | ⟨0, _⟩ => rfl
  | ⟨1, _⟩ => rfl

/-- The new accumulator of squares at column `q`: the old one plus the sum over the block's rows of the squares. -/
theorem pay5_apply (x0 : Vec Ideal S5000x32 .f32) (x1 : Vec Ideal S1x32 .f32) (acc : Vec Ideal S1x32 .f32) (q : Fin 32) :
    k4_pay5 x0 x1 acc (ix2 (0 : Fin 1) q)
      = acc (ix2 (0 : Fin 1) q) + ∑ r : Fin 5000, k4_pay3 x0 x1 (ix2 r q) * k4_pay3 x0 x1 (ix2 r q) := by
  unfold k4_pay5
  (try dsimp only)
  rw [addf_apply, shapeCast_self, shapeCast_a_1a_apply]
  refine congrArg (acc (ix2 (0 : Fin 1) q) + ·) ?_
  refine (Ideal.multiReduction_add_single (mulf (k4_pay3 x0 x1) (k4_pay3 x0 x1)) 0x00000000#32 reduces_S5000x32_S32 (.inl rfl) rfl (ix1 q)).trans ?_
  show (∑ r : Fin 5000, mulf (k4_pay3 x0 x1) (k4_pay3 x0 x1) (reduces_S5000x32_S32.lift (ix1 q) r)) = _
  refine Finset.sum_congr rfl fun r _ => ?_
  have e : reduces_S5000x32_S32.lift (ix1 q) r = ix2 r q := by
    funext a
    match a with
    | ⟨0, _⟩ => rfl
    | ⟨1, _⟩ => rfl
  rw [e]
  rfl

end Payloads

end Cert.KernelIdeal.Brs4
-- ==== Proof.Brs4.lean ====
/-
  The value of the bias + ReLU + column-statistics region (region 4): what its three output arrays hold after the
  region's run, as functions of the two input arrays as the region finds them.

  The region walks the [100000, 32] input `x` in 20 blocks of 5000 rows. With `b` the [1, 32] bias and
  `relu p q = max (x[p, q] + b[0, q]) 0`:
    • the [100000, 32] output holds `relu p q` at `(p, q)` — point `t` writes rows `5000 t … 5000 t + 4999`, and the
      20 blocks tile the array;
    • the first [1, 32] accumulator holds at column `q` the sum of `relu p q` over all 100000 rows `p`;
    • the second holds the sum of `relu p q * relu p q`.
  The accumulators live in one block that is carried from point to point and written back after the last point only.
  By induction on the point, after point `n` an accumulator holds the sum of the column sums of blocks `0 … n` (the
  first point starts from the zero row, and `0 + s = s`); after point 19 that is the sum block after block over all
  blocks, which is the sum over all rows. The extended reals are an additive commutative monoid, so regrouping the
  sum needs no finiteness.
-/
import proofs.«107356_j16226386444409_1_alg».proof.Proof.Brs4Body
import proofs.«107356_j16226386444409_1_alg».proof.Proof.BrsSum

noncomputable section

namespace Cert.KernelIdeal.Brs4

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

-- the buffer contents when the region is entered
variable (V : (c : Dev nD) → (b : Ref sig .tc) → Buf (Elt Ideal) ((c : Thread nD τ).loc b))

/-- The index maps over the grid: the input and output blocks of point `t` start at row block `t`, column block 0; the bias
    block is the whole bias row. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The input array `x`, -/
abbrev xArr (c : Dev nD) : S100000x32.Idx → EReal := V c (Pipeline.arrRef spec4 0)
/-- and the bias row `b`, as the region finds them. -/
abbrev bArr (c : Dev nD) : S1x32.Idx → EReal := V c (Pipeline.arrRef spec4 1)

/-- `max (x[p, q] + b[0, q]) 0`. -/
def relu (c : Dev nD) (p : Fin 100000) (q : Fin 32) : EReal :=
  max (xArr V c (ix2 p q) + bArr V c (ix2 (0 : Fin 1) q)) (Ideal.ofBits .f32 0x00000000#32)

/-- The two arrays and `relu`, spelt out. -/
theorem xArr_eq (c : Dev nD) : xArr V c = V c (Pipeline.arrRef spec4 0) := rfl
theorem bArr_eq (c : Dev nD) : bArr V c = V c (Pipeline.arrRef spec4 1) := rfl
theorem relu_eq (c : Dev nD) (p : Fin 100000) (q : Fin 32) :
    relu V c p q = max (xArr V c (ix2 p q) + bArr V c (ix2 (0 : Fin 1) q)) (Ideal.ofBits .f32 0x00000000#32) := rfl

/-- Row `r` of the input block at point `t` is row `5000 t + r` of `x`. -/
theorem xblk_apply (c : Dev nD) (t : Fin cfg4.N) (r : Fin 5000) (q : Fin 32) (p : Fin 100000) (hp : p.val = t.val * 5000 + r.val) :
    (iblk4 V c 0 t : Vec Ideal S5000x32 .f32) (ix2 r q) = xArr V c (ix2 p q) := by
  obtain ⟨e0, e1, -⟩ := idx_facts t
  unfold iblk4
  rw [View.read_apply]
  show xArr V c _ = _
  refine congrArg (xArr V c) (funext fun a => Fin.ext ?_)
  match a with
  | ⟨0, _⟩ => show win4_0.index t 0 * 5000 + 1 * r.val = p.val; rw [e0, hp]; omega
  | ⟨1, _⟩ => show win4_0.index t 1 * 32 + 1 * q.val = q.val; rw [e1]; omega

/-- The bias block at any point is the bias row. -/
theorem bblk_apply (c : Dev nD) (t : Fin cfg4.N) (q : Fin 32) :
    (iblk4 V c 1 t : Vec Ideal S1x32 .f32) (ix2 (0 : Fin 1) q) = bArr V c (ix2 (0 : Fin 1) q) := by
  obtain ⟨-, -, e2, e3, -⟩ := idx_facts t
  unfold iblk4
  rw [View.read_apply]
  show bArr V c _ = _
  refine congrArg (bArr V c) (funext fun a => Fin.ext ?_)
  match a with
  | ⟨0, _⟩ => show win4_1.index t 0 * 1 + 1 * 0 = 0; rw [e2]
  | ⟨1, _⟩ => show win4_1.index t 1 * 32 + 1 * q.val = q.val; rw [e3]; omega

/-- So what the body stores into the output block at point `t`, at row `r` and column `q`, is `relu (5000 t + r) q`. -/
theorem pay3_blk (c : Dev nD) (t : Fin cfg4.N) (r : Fin 5000) (q : Fin 32) (p : Fin 100000) (hp : p.val = t.val * 5000 + r.val) :
    k4_pay3 (iblk4 V c 0 t) (iblk4 V c 1 t) (ix2 r q) = relu V c p q := by
  refine (pay3_apply (iblk4 V c 0 t) (iblk4 V c 1 t) r q).trans ?_
  rw [xblk_apply V c t r q p hp, bblk_apply V c t q]
  rfl

/-- In both cases of the body the output block is left at `max (x + b) 0` of the point's blocks. -/
theorem after2 (c : Dev nD) (t : Fin cfg4.N) : (dat4 V c).after 2 t = k4_pay3 (iblk4 V c 0 t) (iblk4 V c 1 t) := by
  rw [after4_2]
  by_cases h0 : t.val % 20 = 0
  · rw [outsAt4_A V c t h0]
    dsimp only
    exact outA2 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  · rw [outsAt4_B V c t h0]
    dsimp only
    exact outB2 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2

/-- The sum accumulator after the first point: the zero row plus the block's column sums. -/
theorem acc3_A (c : Dev nD) (t : Fin cfg4.N) (h0 : t.val % 20 = 0) :
    (outsAt4 V c t.val t.isLt).2.1 = k4_pay4 (iblk4 V c 0 t) (iblk4 V c 1 t) (k4_pay1 (F := Ideal)) := by
  rw [outsAt4_A V c t h0]
  dsimp only
  exact outA3 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)

/-- The sum accumulator after a later point: what the point before left plus the block's column sums. -/
theorem acc3_B (c : Dev nD) (t : Fin cfg4.N) (h0 : ¬t.val % 20 = 0) :
    (outsAt4 V c t.val t.isLt).2.1 = k4_pay4 (iblk4 V c 0 t) (iblk4 V c 1 t)
      (outsAt4 V c (t.val - 1) (Nat.lt_of_le_of_lt (Nat.sub_le _ _) t.isLt)).2.1 := by
  rw [outsAt4_B V c t h0]
  dsimp only
  exact outB3 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2

/-- The same two facts for the accumulator of squares. -/
theorem acc4_A (c : Dev nD) (t : Fin cfg4.N) (h0 : t.val % 20 = 0) :
    (outsAt4 V c t.val t.isLt).2.2 = k4_pay5 (iblk4 V c 0 t) (iblk4 V c 1 t) (k4_pay2 (F := Ideal)) := by
  rw [outsAt4_A V c t h0]
  dsimp only
  exact outA4 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)

theorem acc4_B (c : Dev nD) (t : Fin cfg4.N) (h0 : ¬t.val % 20 = 0) :
    (outsAt4 V c t.val t.isLt).2.2 = k4_pay5 (iblk4 V c 0 t) (iblk4 V c 1 t)
      (outsAt4 V c (t.val - 1) (Nat.lt_of_le_of_lt (Nat.sub_le _ _) t.isLt)).2.2 := by
  rw [outsAt4_B V c t h0]
  dsimp only
  exact outB4 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2

/-- The sum of `relu · q` over the rows of block `s`. -/
def colsum (c : Dev nD) (s : ℕ) (q : Fin 32) : EReal :=
  ∑ r : Fin 5000, BrsSum.atNat (fun p : Fin 100000 => relu V c p q) (s * 5000 + r.val)

/-- The sum of the squares of `relu · q` over the rows of block `s`. -/
def colsumsq (c : Dev nD) (s : ℕ) (q : Fin 32) : EReal :=
  ∑ r : Fin 5000, BrsSum.atNat (fun p : Fin 100000 => relu V c p q * relu V c p q) (s * 5000 + r.val)

/-- The column sum the body forms at point `t` is block `t`'s. -/
theorem blk_sum (c : Dev nD) (t : Fin cfg4.N) (q : Fin 32) :
    ∑ r : Fin 5000, k4_pay3 (iblk4 V c 0 t) (iblk4 V c 1 t) (ix2 r q) = colsum V c t.val q := by
  have hN : t.val < 20 := lt_of_lt_of_eq t.isLt (show cfg4.N = 20 from N_4)
  refine Finset.sum_congr rfl fun r _ => ?_
  have hlt : t.val * 5000 + r.val < 100000 := by have := r.isLt; omega
  rw [BrsSum.atNat_of_lt _ _ hlt]
  exact pay3_blk V c t r q ⟨_, hlt⟩ rfl

/-- The column sum of squares the body forms at point `t` is block `t`'s. -/
theorem blk_sumsq (c : Dev nD) (t : Fin cfg4.N) (q : Fin 32) :
    ∑ r : Fin 5000, k4_pay3 (iblk4 V c 0 t) (iblk4 V c 1 t) (ix2 r q) * k4_pay3 (iblk4 V c 0 t) (iblk4 V c 1 t) (ix2 r q)
      = colsumsq V c t.val q := by
  have hN : t.val < 20 := lt_of_lt_of_eq t.isLt (show cfg4.N = 20 from N_4)
  refine Finset.sum_congr rfl fun r _ => ?_
  have hlt : t.val * 5000 + r.val < 100000 := by have := r.isLt; omega
  rw [BrsSum.atNat_of_lt _ _ hlt, pay3_blk V c t r q ⟨_, hlt⟩ rfl]

/-- After point `n` the sum accumulator holds, at column `q`, the sum of the column sums of blocks `0 … n`: by induction
    on the point. -/
theorem acc3_eq (c : Dev nD) : ∀ (n : ℕ) (h : n < cfg4.N) (q : Fin 32),
    ((outsAt4 V c n h).2.1 : Vec Ideal S1x32 .f32) (ix2 (0 : Fin 1) q) = ∑ s ∈ Finset.range (n + 1), colsum V c s q
  | 0, h, q => by
    rw [acc3_A V c ⟨0, h⟩ rfl]
    refine (pay4_apply (iblk4 V c 0 ⟨0, h⟩) (iblk4 V c 1 ⟨0, h⟩) (k4_pay1 (F := Ideal)) q).trans ?_
    rw [pay1_apply, Ideal.ofBits_zero_f32, zero_add, blk_sum V c ⟨0, h⟩ q, Finset.sum_range_one]
  | n + 1, h, q => by
    have hN : cfg4.N = 20 := N_4
    have hB : ¬(⟨n + 1, h⟩ : Fin cfg4.N).val % 20 = 0 := by dsimp only; omega
    rw [acc3_B V c ⟨n + 1, h⟩ hB]
    refine (pay4_apply (iblk4 V c 0 ⟨n + 1, h⟩) (iblk4 V c 1 ⟨n + 1, h⟩) _ q).trans ?_
    rw [blk_sum V c ⟨n + 1, h⟩ q, Finset.sum_range_succ _ (n + 1)]
    refine congrArg (· + colsum V c (n + 1) q) ?_
    exact acc3_eq c n (Nat.lt_of_succ_lt h) q

/-- After point `n` the accumulator of squares holds the sum of the column sums of squares of blocks `0 … n`. -/
theorem acc4_eq (c : Dev nD) : ∀ (n : ℕ) (h : n < cfg4.N) (q : Fin 32),
    ((outsAt4 V c n h).2.2 : Vec Ideal S1x32 .f32) (ix2 (0 : Fin 1) q) = ∑ s ∈ Finset.range (n + 1), colsumsq V c s q
  | 0, h, q => by
    rw [acc4_A V c ⟨0, h⟩ rfl]
    refine (pay5_apply (iblk4 V c 0 ⟨0, h⟩) (iblk4 V c 1 ⟨0, h⟩) (k4_pay2 (F := Ideal)) q).trans ?_
    rw [pay2_apply, Ideal.ofBits_zero_f32, zero_add, blk_sumsq V c ⟨0, h⟩ q, Finset.sum_range_one]
  | n + 1, h, q => by
    have hN : cfg4.N = 20 := N_4
    have hB : ¬(⟨n + 1, h⟩ : Fin cfg4.N).val % 20 = 0 := by dsimp only; omega
    rw [acc4_B V c ⟨n + 1, h⟩ hB]
    refine (pay5_apply (iblk4 V c 0 ⟨n + 1, h⟩) (iblk4 V c 1 ⟨n + 1, h⟩) _ q).trans ?_
    rw [blk_sumsq V c ⟨n + 1, h⟩ q, Finset.sum_range_succ _ (n + 1)]
    refine congrArg (· + colsumsq V c (n + 1) q) ?_
    exact acc4_eq c n (Nat.lt_of_succ_lt h) q

/-- The last point. -/
def tLast : Fin cfg4.N := ⟨19, by rw [show cfg4.N = 20 from N_4]; decide⟩

/-- What the accumulators hold after the last point, as contents of their arrays (one block is the whole array). -/
abbrev result3 (c : Dev nD) : Buf (Elt Ideal) ((c : Thread nD τ).loc main_v78_1) := (outsAt4 V c tLast.val tLast.isLt).2.1
abbrev result4 (c : Dev nD) : Buf (Elt Ideal) ((c : Thread nD τ).loc main_v78_2) := (outsAt4 V c tLast.val tLast.isLt).2.2

/-- The one write-back of the sum accumulator, after the last point, writes the whole array. -/
theorem flushed3_eq (c : Dev nD) (t : Fin cfg4.N) (hf : (cfg4.win 3).flush t = true) :
    (dat4 V c).flushed 3 t = ((cfg4.win 3).blk t).view.read (Elt Ideal) (result3 V c) := by
  have hN : cfg4.N = 20 := N_4
  have h19 : t.val = 19 := by have := (flush4_3 t).mp hf; have := t.isLt; omega
  obtain rfl : t = tLast := Fin.ext h19
  show (cfg4.win 3).cut (grid4.coords tLast) ((dat4 V c).after 3 tLast) = _
  rw [after4_3]
  have hz' : (fun a => win4_3.index tLast a * main_v78_1.ty.shape.size a) = fun _ => 0 := funext fun a => by fin_cases a <;> decide +kernel
  exact (Memref.read_access_unit_zero (Elt Ideal) main_v78_1 hz' (fun a => by rw [congrFun hz' a]; simp) (result3 V c)).symm

/-- So the sum array ends holding what the accumulator holds after the last point. -/
theorem final3 (c : Dev nD) : (dat4 V c).arrAt 3 cfg4.N = result3 V c :=
  (dat4 V c).arrAt_eq_of_cover 3 (result3 V c) (flushed3_eq V c) fun i =>
    ⟨tLast, (flush4_3 tLast).mpr rfl, by
      show i ∈ ((View.whole main_v78_1).slice (win4_3.rect tLast)).set
      rw [View.set_slice_whole, Rect.mem_set_unit]
      intro a
      have h0 : (i 0 : Nat) < 1 := (i 0).isLt
      have h1 : (i 1 : Nat) < 32 := (i 1).isLt
      match a with
      | ⟨0, _⟩ => show win4_3.index tLast 0 * win4_3.size 0 ≤ (i 0 : Nat) ∧ (i 0 : Nat) < win4_3.index tLast 0 * win4_3.size 0 + win4_3.xsize (grid4.coords tLast) 0
                  rw [show win4_3.index tLast 0 * win4_3.size 0 = 0 from by decide +kernel, show win4_3.xsize (grid4.coords tLast) 0 = 1 from by decide +kernel]; omega
      | ⟨1, _⟩ => show win4_3.index tLast 1 * win4_3.size 1 ≤ (i 1 : Nat) ∧ (i 1 : Nat) < win4_3.index tLast 1 * win4_3.size 1 + win4_3.xsize (grid4.coords tLast) 1
                  rw [show win4_3.index tLast 1 * win4_3.size 1 = 0 from by decide +kernel, show win4_3.xsize (grid4.coords tLast) 1 = 32 from by decide +kernel]; omega⟩

/-- The same for the accumulator of squares. -/
theorem flushed4_eq (c : Dev nD) (t : Fin cfg4.N) (hf : (cfg4.win 4).flush t = true) :
    (dat4 V c).flushed 4 t = ((cfg4.win 4).blk t).view.read (Elt Ideal) (result4 V c) := by
  have hN : cfg4.N = 20 := N_4
  have h19 : t.val = 19 := by have := (flush4_4 t).mp hf; have := t.isLt; omega
  obtain rfl : t = tLast := Fin.ext h19
  show (cfg4.win 4).cut (grid4.coords tLast) ((dat4 V c).after 4 tLast) = _
  rw [after4_4]
  have hz' : (fun a => win4_4.index tLast a * main_v78_2.ty.shape.size a) = fun _ => 0 := funext fun a => by fin_cases a <;> decide +kernel
  exact (Memref.read_access_unit_zero (Elt Ideal) main_v78_2 hz' (fun a => by rw [congrFun hz' a]; simp) (result4 V c)).symm

/-- So the array of sums of squares ends holding what its accumulator holds after the last point. -/
theorem final4 (c : Dev nD) : (dat4 V c).arrAt 4 cfg4.N = result4 V c :=
  (dat4 V c).arrAt_eq_of_cover 4 (result4 V c) (flushed4_eq V c) fun i =>
    ⟨tLast, (flush4_4 tLast).mpr rfl, by
      show i ∈ ((View.whole main_v78_2).slice (win4_4.rect tLast)).set
      rw [View.set_slice_whole, Rect.mem_set_unit]
      intro a
      have h0 : (i 0 : Nat) < 1 := (i 0).isLt
      have h1 : (i 1 : Nat) < 32 := (i 1).isLt
      match a with
      | ⟨0, _⟩ => show win4_4.index tLast 0 * win4_4.size 0 ≤ (i 0 : Nat) ∧ (i 0 : Nat) < win4_4.index tLast 0 * win4_4.size 0 + win4_4.xsize (grid4.coords tLast) 0
                  rw [show win4_4.index tLast 0 * win4_4.size 0 = 0 from by decide +kernel, show win4_4.xsize (grid4.coords tLast) 0 = 1 from by decide +kernel]; omega
      | ⟨1, _⟩ => show win4_4.index tLast 1 * win4_4.size 1 ≤ (i 1 : Nat) ∧ (i 1 : Nat) < win4_4.index tLast 1 * win4_4.size 1 + win4_4.xsize (grid4.coords tLast) 1
                  rw [show win4_4.index tLast 1 * win4_4.size 1 = 0 from by decide +kernel, show win4_4.xsize (grid4.coords tLast) 1 = 32 from by decide +kernel]; omega⟩

/-- The [100000, 32] array of `relu`. -/
def reluArr (c : Dev nD) : S100000x32.Idx → EReal := fun i => relu V c (i 0) (i 1)

/-- It reads `relu p q` at any index whose coordinates are `p` and `q`. -/
theorem reluArr_apply (c : Dev nD) (i : S100000x32.Idx) (p : Fin 100000) (q : Fin 32) (h0 : (i 0).val = p.val) (h1 : (i 1).val = q.val) :
    reluArr V c i = relu V c p q := by
  obtain rfl : i = ix2 p q := funext fun a => by
    match a with
    | ⟨0, _⟩ => exact Fin.ext h0
    | ⟨1, _⟩ => exact Fin.ext h1
  rfl

/-- An index of the output block, as an index of the staging buffer, has the same coordinates. -/
theorem xinj2 (t : Fin cfg4.N) (r : Fin 5000) (q : Fin 32) :
    ((cfg4.win 2).xinj (grid4.coords t) (ix2 r q) : S5000x32.Idx) = ix2 r q := funext fun a => by
  match a with
  | ⟨0, _⟩ => rfl
  | ⟨1, _⟩ => rfl

/-- What point `t` writes back is block `t` of the array of `relu`. -/
theorem flushed2_eq (c : Dev nD) (t : Fin cfg4.N) :
    (dat4 V c).flushed 2 t = ((cfg4.win 2).blk t).view.read (Elt Ideal) (reluArr V c) := by
  show (cfg4.win 2).cut (grid4.coords t) ((dat4 V c).after 2 t) = _
  rw [after2 V c t]
  obtain ⟨-, -, -, -, e4, e5⟩ := idx_facts t
  have hN : t.val < 20 := lt_of_lt_of_eq t.isLt (show cfg4.N = 20 from N_4)
  funext j
  obtain ⟨r, q, rfl⟩ : ∃ (r : Fin 5000) (q : Fin 32), j = ix2 r q := ⟨j 0, j 1, eq_ix2 j⟩
  have hlt : t.val * 5000 + r.val < 100000 := by have := r.isLt; omega
  refine Eq.trans (b := relu V c ⟨_, hlt⟩ q) ?_ ?_
  · show k4_pay3 (iblk4 V c 0 t) (iblk4 V c 1 t) ((cfg4.win 2).xinj (grid4.coords t) (ix2 r q)) = _
    rw [xinj2 t r q]
    exact pay3_blk V c t r q ⟨_, hlt⟩ rfl
  · rw [View.read_apply]
    refine (reluArr_apply V c _ ⟨_, hlt⟩ q ?_ ?_).symm
    · show win4_2.index t 0 * 5000 + 1 * r.val = t.val * 5000 + r.val
      rw [e4]; omega
    · show win4_2.index t 1 * 32 + 1 * q.val = q.val
      rw [e5]; omega

/-- An index of the output array is in point `t`'s block iff each coordinate is in the block's range on its axis. -/
theorem mem_blk2 (t : Fin cfg4.N) (i : S100000x32.Idx) :
    i ∈ ((cfg4.win 2).blk t).view.set ↔ ∀ a : Fin 2, win4_2.index t a * S5000x32.size a ≤ (i a).val ∧ (i a).val < win4_2.index t a * S5000x32.size a + S5000x32.size a := by
  show i ∈ ((View.whole main_v78_0).slice (win4_2.rect t)).set ↔ _
  rw [View.set_slice_whole, Rect.mem_set_unit]
  exact Iff.rfl

/-- Every index is in some point's block: row `p` is in block `p / 5000`. -/
theorem cover2 (i : S100000x32.Idx) : ∃ t : Fin cfg4.N, (cfg4.win 2).flush t = true ∧ i ∈ ((cfg4.win 2).blk t).view.set := by
  have hi0 : (i 0).val < 100000 := (i 0).isLt
  have hi1 : (i 1).val < 32 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, e4, e5⟩ := idx_facts t
  refine ⟨t, flush4_2 t, ?_⟩
  rw [mem_blk2]
  intro a
  match a with
  | ⟨0, _⟩ => show win4_2.index t 0 * 5000 ≤ (i 0).val ∧ (i 0).val < win4_2.index t 0 * 5000 + 5000; rw [e4, ht]; omega
  | ⟨1, _⟩ => show win4_2.index t 1 * 32 ≤ (i 1).val ∧ (i 1).val < win4_2.index t 1 * 32 + 32; rw [e5]; omega

/-- So the output array ends holding `relu` everywhere. -/
theorem final2 (c : Dev nD) : (dat4 V c).arrAt 2 cfg4.N = reluArr V c :=
  (dat4 V c).arrAt_eq_of_cover 2 (reluArr V c) (fun t _ => flushed2_eq V c t) cover2

/-- THE OUTPUT: `relu p q` at `(p, q)`. -/
theorem relu_value (c : Dev nD) (p : Fin 100000) (q : Fin 32) :
    ((dat4 V c).arrAt 2 cfg4.N : S100000x32.Idx → EReal) (ix2 p q) = relu V c p q := by
  rw [final2 V c]; rfl

/-- THE COLUMN SUMS: at column `q`, the sum of `relu p q` over all rows. -/
theorem sum_value (c : Dev nD) (q : Fin 32) :
    ((dat4 V c).arrAt 3 cfg4.N : S1x32.Idx → EReal) (ix2 (0 : Fin 1) q) = ∑ p : Fin 100000, relu V c p q := by
  rw [final3 V c]
  refine (acc3_eq V c tLast.val tLast.isLt q).trans ?_
  exact BrsSum.sum_blocks 20 5000 100000 (by norm_num) (fun p => relu V c p q)

/-- THE COLUMN SUMS OF SQUARES: at column `q`, the sum of `relu p q * relu p q` over all rows. -/
theorem sumsq_value (c : Dev nD) (q : Fin 32) :
    ((dat4 V c).arrAt 4 cfg4.N : S1x32.Idx → EReal) (ix2 (0 : Fin 1) q) = ∑ p : Fin 100000, relu V c p q * relu V c p q := by
  rw [final4 V c]
  refine (acc4_eq V c tLast.val tLast.isLt q).trans ?_
  exact BrsSum.sum_blocks 20 5000 100000 (by norm_num) (fun p => relu V c p q * relu V c p q)

end Cert.KernelIdeal.Brs4
-- ==== Proof.KLayer2.lean ====
/-
  The kernel program's second layer, in closed form: regions 3, 4 and 5 and the host operations between them, read through
  the boundary contents as the layer function of the aggregation of the projected previous layer.
-/
import proofs.«107356_j16226386444409_1_alg».proof.Proof.KLayer1
import proofs.«107356_j16226386444409_1_alg».proof.Proof.Mm3
import proofs.«107356_j16226386444409_1_alg».proof.Proof.Aff5
import proofs.«107356_j16226386444409_1_alg».proof.Proof.Brs4

set_option maxRecDepth 16384

noncomputable section

namespace Cert.KernelIdeal.KLayer2

open Idealize.ShloMosaic Idealize.ShloMosaic.TcCoe Idealize.SL.Sem Idealize.ShloMosaic.ValueIdx
open Cert.KernelIdeal Cert.KernelIdeal.Gen Cert.KernelIdeal.KChain Cert.KernelIdeal.KGraph Cert.Gcn

variable (m : (ℓ : Loc nD τ sig) → Buf (Elt Ideal) ℓ) (ρ : Dev nD → PrngReg)

/-- The previous layer's result. -/
def prev (c : Dev nD) : SNx32.Idx → EReal := kLayerOut (KLayer1.aggArr m c) (m ((c : Thread nD τ).loc main_arg4)) (m ((c : Thread nD τ).loc main_arg5)) (m ((c : Thread nD τ).loc main_arg6))

/-- The projected features. -/
theorem proj (c : Dev nD) : W9 m ρ c (Proc.devRef .tc main_v63)
    = mm32 (prev m c) (m ((c : Thread nD τ).loc main_arg7)) := by
  refine (W9_arr m ρ c 2).trans ?_
  refine arrNx32_ext _ _ fun p q => ?_
  refine (Mm3.value (V8 m ρ) c p q).trans ?_
  have e0 : Mm3.xIn (V8 m ρ) c = prev m c := KLayer1.out m ρ c
  have e3 : Mm3.wIn (V8 m ρ) c = ((m ((c : Thread nD τ).loc main_arg7)) : (⟨2, ![32, 32]⟩ : Shape).Idx → EReal) := arg7_at m ρ c
  rw [e0, e3]

/-- The aggregation. -/
theorem aggr (c : Dev nD) : W10 m ρ c (Proc.devRef .tc main_v76)
    = agg (rows (m ((c : Thread nD τ).loc main_arg1))) (cols (m ((c : Thread nD τ).loc main_arg1)))
        (normOf (m ((c : Thread nD τ).loc main_arg1)) (m ((c : Thread nD τ).loc main_arg2)))
        (mm32 (prev m c) (m ((c : Thread nD τ).loc main_arg7))) := by
  refine (KHost.agg2_eq (W9 m ρ c)).trans ?_
  rw [rows9, cols9, norm9, proj]

/-- The bias as a row. -/
theorem bias (c : Dev nD) : W10 m ρ c (Proc.devRef .tc main_v77) = row32 (m ((c : Thread nD τ).loc main_arg8)) := by
  refine (KHost.bias2_eq (W9 m ρ c)).trans ?_
  rw [arg8_at]

/-- The aggregation of the projected features, named. -/
def aggArr (c : Dev nD) : SNx32.Idx → EReal :=
  agg (rows (m ((c : Thread nD τ).loc main_arg1))) (cols (m ((c : Thread nD τ).loc main_arg1))) (normOf (m ((c : Thread nD τ).loc main_arg1)) (m ((c : Thread nD τ).loc main_arg2))) (mm32 (prev m c) (m ((c : Thread nD τ).loc main_arg7)))

theorem xArr_eq (c : Dev nD) : Brs4.xArr (V10 m ρ) c = aggArr m c := aggr m ρ c
theorem bArr_eq (c : Dev nD) : Brs4.bArr (V10 m ρ) c = row32 (F := Ideal) (m ((c : Thread nD τ).loc main_arg8)) := bias m ρ c

theorem relu_eq (c : Dev nD) (p : Fin 100000) (q : Fin 32) :
    Brs4.relu (V10 m ρ) c p q = reluF (aggArr m c) (row32 (F := Ideal) (m ((c : Thread nD τ).loc main_arg8))) p q := by
  unfold Brs4.relu reluF
  rw [xArr_eq, bArr_eq]

/-- The clipped array. -/
theorem clipped (c : Dev nD) : W11 m ρ c (Proc.devRef .tc main_v78_0)
    = arrNx32 (reluF (aggArr m c) (row32 (F := Ideal) (m ((c : Thread nD τ).loc main_arg8)))) := by
  refine (W11_arr m ρ c 2).trans ?_
  refine arrNx32_ext _ _ fun p q => ?_
  exact (Brs4.relu_value (V10 m ρ) c p q).trans (relu_eq m ρ c p q)

/-- The column sums. -/
theorem sums (c : Dev nD) : W11 m ρ c (Proc.devRef .tc main_v78_1) = sumF (aggArr m c) (row32 (F := Ideal) (m ((c : Thread nD τ).loc main_arg8))) := by
  refine (W11_arr m ρ c 3).trans ?_
  refine arr1x32_ext _ _ fun q => ?_
  have e : (∑ p : Fin 100000, Brs4.relu (V10 m ρ) c p q)
      = ∑ p : Fin 100000, reluF (aggArr m c) (row32 (F := Ideal) (m ((c : Thread nD τ).loc main_arg8))) p q :=
    Finset.sum_congr rfl fun p _ => relu_eq m ρ c p q
  exact (Brs4.sum_value (V10 m ρ) c q).trans e

/-- The column sums of squares. -/
theorem sumsqs (c : Dev nD) : W11 m ρ c (Proc.devRef .tc main_v78_2) = sumsqF (aggArr m c) (row32 (F := Ideal) (m ((c : Thread nD τ).loc main_arg8))) := by
  refine (W11_arr m ρ c 4).trans ?_
  refine arr1x32_ext _ _ fun q => ?_
  have e : (∑ p : Fin 100000, Brs4.relu (V10 m ρ) c p q * Brs4.relu (V10 m ρ) c p q)
      = ∑ p : Fin 100000, reluF (aggArr m c) (row32 (F := Ideal) (m ((c : Thread nD τ).loc main_arg8))) p q * reluF (aggArr m c) (row32 (F := Ideal) (m ((c : Thread nD τ).loc main_arg8))) p q :=
    Finset.sum_congr rfl fun p _ => by rw [relu_eq m ρ c p q]
  exact (Brs4.sumsq_value (V10 m ρ) c q).trans e

/-- The scale and the shift. -/
theorem scale (c : Dev nD) : W12 m ρ c (Proc.devRef .tc main_v89)
    = kScale (F := Ideal) (sumF (aggArr m c) (row32 (F := Ideal) (m ((c : Thread nD τ).loc main_arg8)))) (sumsqF (aggArr m c) (row32 (F := Ideal) (m ((c : Thread nD τ).loc main_arg8)))) (m ((c : Thread nD τ).loc main_arg9)) := by
  refine (KHost.scale2_eq (W11 m ρ c)).trans ?_
  rw [sums, sumsqs, arg9_at]

theorem shift (c : Dev nD) : W12 m ρ c (Proc.devRef .tc main_v92)
    = kShift (F := Ideal) (sumF (aggArr m c) (row32 (F := Ideal) (m ((c : Thread nD τ).loc main_arg8)))) (sumsqF (aggArr m c) (row32 (F := Ideal) (m ((c : Thread nD τ).loc main_arg8)))) (m ((c : Thread nD τ).loc main_arg9)) (m ((c : Thread nD τ).loc main_arg10)) := by
  refine (KHost.shift2_eq (W11 m ρ c)).trans ?_
  rw [sums, sumsqs, arg9_at, arg10_at]

/-- The layer's result. -/
theorem out (c : Dev nD) : W13 m ρ c (Proc.devRef .tc main_v93)
    = kLayerOut (aggArr m c) (m ((c : Thread nD τ).loc main_arg8)) (m ((c : Thread nD τ).loc main_arg9)) (m ((c : Thread nD τ).loc main_arg10)) := by
  refine (W13_arr m ρ c 3).trans ?_
  refine arrNx32_ext _ _ fun p q => ?_
  refine (Aff5.value (V12 m ρ) c p q).trans ?_
  have ex : Aff5.xIn (V12 m ρ) c = arrNx32 (reluF (aggArr m c) (row32 (F := Ideal) (m ((c : Thread nD τ).loc main_arg8)))) :=
    (keep_v78_0_12_11 m ρ c).trans (clipped m ρ c)
  have es : Aff5.scaleIn (V12 m ρ) c = _ := scale m ρ c
  have eh : Aff5.shiftIn (V12 m ρ) c = _ := shift m ρ c
  rw [ex, es, eh]
  rfl

end Cert.KernelIdeal.KLayer2

end
-- ==== Proof.Mm6.lean ====
/-
  The matrix-product kernel of layer 3, read as a whole array: after the region, entry (p, q) of the result is the sum
  over k of x (p, k) * w (k, q), where x and w are the arrays the region finds.
-/
import proofs.«107356_j16226386444409_1_alg».proof.Proof.Gen.KernelIdeal.Frame
import proofs.«107356_j16226386444409_1_alg».proof.Proof.LibTileOps
import Idealize.ShloMosaic.Lib.Pipeline.Value

noncomputable section

open scoped BigOperators

namespace Cert.KernelIdeal.Mm6

open Cert.KernelIdeal Cert.KernelIdeal.Gen Idealize.ShloMosaic Idealize.ShloMosaic.TcCoe Idealize.SL.Sem
open Idealize.ShloMosaic.ValueIdx Idealize.ShloMosaic.TileOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored tile at (p, q): the sum over k of the x tile's entry (p, k) times the w tile's entry (k, q). -/
theorem pay_apply (x0 : Vec Ideal S5000x32 .f32) (x1 : Vec Ideal S32x32 .f32) (p : Fin 5000) (q : Fin 32) :
    k6_pay1 x0 x1 (ix2 p q) = ∑ k : Fin 32, x0 (ix2 p k) * x1 (ix2 k q) := by
  unfold k6_pay1
  rw [shapeCast_self]
  exact matmul_zero_apply dot_S5000x32_S32x32_S5000x32_1_0_0_1_n_n_wf none (truncf .bf16 x0 bitsLt_bf16_f32) (truncf .bf16 x1 bitsLt_bf16_f32) p q

/-- The whole result array as a function of the two arrays. -/
abbrev G (a0 : S100000x32.Idx → EReal) (a1 : S32x32.Idx → EReal) : S100000x32.Idx → EReal :=
  fun i => ∑ k : Fin 32, a0 (ix2 ⟨(i 0).val, idx2_lt0 i⟩ k) * a1 (ix2 k ⟨(i 1).val, idx2_lt1 i⟩)

/-- The printed index maps over the grid: the x and result windows sit at block row t, column block 0; w at block (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The arrays the region finds, and the result array after it. -/
abbrev xIn (c : Dev nD) : S100000x32.Idx → EReal := V c (Pipeline.arrRef spec6 0)
abbrev wIn (c : Dev nD) : S32x32.Idx → EReal := V c (Pipeline.arrRef spec6 1)
abbrev out (c : Dev nD) : S100000x32.Idx → EReal := (dat6 V c).arrAt 2 cfg6.N

/-- Tile t of x at (p, k) is x at row 5000 t + p. -/
theorem iblk_x (c : Dev nD) (t : Fin cfg6.N) (p : Fin 5000) (k : Fin 32) (i : S100000x32.Idx)
    (h0 : (i 0).val = 5000 * t.val + p.val) (h1 : (i 1).val = k.val) :
    (iblk6 V c 0 t : Vec Ideal S5000x32 .f32) (ix2 p k) = xIn V c i := by
  obtain ⟨e0, e1, -⟩ := idx_facts t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * p.val = (i 0).val; rw [e0, h0]; omega
  | ⟨1, _⟩ => show win6_0.index t (1 : Fin 2) * 32 + 1 * k.val = (i 1).val; rw [e1, h1]; omega

/-- The one tile of w is w. -/
theorem iblk_w (c : Dev nD) (t : Fin cfg6.N) (k : Fin 32) (q : Fin 32) :
    (iblk6 V c 1 t : Vec Ideal S32x32 .f32) (ix2 k q) = wIn V c (ix2 k q) := by
  obtain ⟨-, -, e2, e3, -⟩ := idx_facts t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 32 + 1 * k.val = k.val; rw [e2]; omega
  | ⟨1, _⟩ => show win6_1.index t (1 : Fin 2) * 32 + 1 * q.val = q.val; rw [e3]; omega

/-- The written-back part of a tile is the tile: the tiles are never cut at the array's edge. -/
theorem cut_apply (t : Fin cfg6.N) (X : Vec Ideal S5000x32 .f32) (p : Fin 5000) (q : Fin 32) :
    (cfg6.win 2).cut (grid6.coords t) X (ix2 p q) = X (ix2 p q) := rfl

/-- Tile t of a whole-array function, read at (p, q), is the function at row 5000 t + p. -/
theorem read_out (t : Fin cfg6.N) (Gf : S100000x32.Idx → EReal) (p : Fin 5000) (q : Fin 32) (i : S100000x32.Idx)
    (h0 : (i 0).val = 5000 * t.val + p.val) (h1 : (i 1).val = q.val) :
    ((cfg6.win 2).blk t).view.read (Elt Ideal) Gf (ix2 p q) = Gf i := by
  obtain ⟨-, -, -, -, e4, e5⟩ := idx_facts t
  rw [View.read_apply]
  show Gf _ = Gf _
  congr 1
  funext a
  apply Fin.ext
  match a with
  | ⟨0, _⟩ => show win6_2.index t (0 : Fin 2) * 5000 + 1 * p.val = (i 0).val; rw [e4, h0]; omega
  | ⟨1, _⟩ => show win6_2.index t (1 : Fin 2) * 32 + 1 * q.val = (i 1).val; rw [e5, h1]; omega

/-- What grid point t computes at (p, q) is `G` of the two arrays at row 5000 t + p. -/
theorem pt (c : Dev nD) (t : Fin cfg6.N) (p : Fin 5000) (q : Fin 32) (hp : 5000 * t.val + p.val < 100000) :
    k6_pay1 (iblk6 V c 0 t) (iblk6 V c 1 t) (ix2 p q)
      = G (V c (Pipeline.arrRef spec6 0)) (V c (Pipeline.arrRef spec6 1)) (ix2 ⟨5000 * t.val + p.val, hp⟩ q) :=
  (pay_apply (iblk6 V c 0 t) (iblk6 V c 1 t) p q).trans
    (Finset.sum_congr rfl fun k _ =>
      congrArg₂ (· * ·) (iblk_x V c t p k (ix2 ⟨5000 * t.val + p.val, hp⟩ k) rfl rfl) (iblk_w V c t k q))

/-- What grid point t writes back is tile t of `G` of the two arrays. -/
theorem flushed_eq (c : Dev nD) (t : Fin cfg6.N) :
    (dat6 V c).flushed 2 t = ((cfg6.win 2).blk t).view.read (Elt Ideal)
      (G (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S5000x32) hz, View.ld_unit_zero (S := S32x32) hz]
  funext j
  obtain ⟨p, q, rfl⟩ : ∃ (p : Fin 5000) (q : Fin 32), j = ix2 p q := ⟨j 0, j 1, eq_ix2 j⟩
  have hp : 5000 * t.val + p.val < 100000 := by
    have h1 := t.isLt
    have hN : cfg6.N = 20 := N_6
    have h2 := p.isLt
    omega
  refine (cut_apply t (k6_pay1 (iblk6 V c 0 t) (iblk6 V c 1 t)) p q).trans ?_
  refine (pt V c t p q hp).trans ?_
  exact (read_out t _ p q (ix2 ⟨5000 * t.val + p.val, hp⟩ q) rfl rfl).symm

/-- An index of the array is in grid point t's tile iff each coordinate is in the tile's range on its axis. -/
theorem mem_blk (t : Fin cfg6.N) (i : S100000x32.Idx) :
    i ∈ ((cfg6.win 2).blk t).view.set ↔ ∀ a : Fin 2, win6_2.index t a * S5000x32.size a ≤ (i a).val ∧ (i a).val < win6_2.index t a * S5000x32.size a + S5000x32.size a := by
  show i ∈ ((View.whole main_v94).slice (win6_2.rect t)).set ↔ _
  rw [View.set_slice_whole, Rect.mem_set_unit]
  exact Iff.rfl

/-- Row r lies in the tile of grid point r / 5000: the twenty tiles cover the array. -/
theorem cover (i : S100000x32.Idx) : ∃ t : Fin cfg6.N, (cfg6.win 2).flush t = true ∧ i ∈ ((cfg6.win 2).blk t).view.set := by
  have hi0 : (i 0).val < 100000 := idx2_lt0 i
  have hi1 : (i 1).val < 32 := idx2_lt1 i
  have ht : (i 0).val / 5000 < cfg6.N := by rw [show cfg6.N = 20 from N_6]; omega
  refine ⟨⟨(i 0).val / 5000, ht⟩, flush6_2 _, ?_⟩
  rw [mem_blk]
  obtain ⟨-, -, -, -, e4, e5⟩ := idx_facts ⟨(i 0).val / 5000, ht⟩
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    rw [e4]; dsimp only; omega
  | ⟨1, _⟩ =>
    show win6_2.index ⟨(i 0).val / 5000, ht⟩ (1 : Fin 2) * 32 ≤ (i 1).val ∧ (i 1).val < win6_2.index ⟨(i 0).val / 5000, ht⟩ (1 : Fin 2) * 32 + 32
    rw [e5]; omega

/-- The result array after the region is `G` of the two arrays the region finds. -/
theorem arr_eq (c : Dev nD) : (dat6 V c).arrAt 2 cfg6.N
    = G (V c (Pipeline.arrRef spec6 0)) (V c (Pipeline.arrRef spec6 1)) :=
  (dat6 V c).arrAt_eq_of_cover 2 (G (V c (Pipeline.arrRef spec6 0)) (V c (Pipeline.arrRef spec6 1)))
    (fun t _ => flushed_eq V c t) cover

/-- Entry (p, q) of the result: the sum over k of x (p, k) * w (k, q). -/
theorem value (c : Dev nD) (p : Fin 100000) (q : Fin 32) :
    out V c (ix2 p q) = ∑ k : Fin 32, xIn V c (ix2 p k) * wIn V c (ix2 k q) :=
  congrFun (arr_eq V c) (ix2 p q)

end Cert.KernelIdeal.Mm6

end
-- ==== Proof.Aff8.lean ====
/-
  The affine kernel of layer 3, read as a whole array: after the region, entry (p, q) of the result is
  x (p, q) * scale (0, q) + shift (0, q), where x, scale and shift are the arrays the region finds.
-/
import proofs.«107356_j16226386444409_1_alg».proof.Proof.Gen.KernelIdeal.Frame
import proofs.«107356_j16226386444409_1_alg».proof.Proof.LibTileOps
import Idealize.ShloMosaic.Lib.Pipeline.Value

noncomputable section

open scoped BigOperators

namespace Cert.KernelIdeal.Aff8

open Cert.KernelIdeal Cert.KernelIdeal.Gen Idealize.ShloMosaic Idealize.ShloMosaic.TcCoe Idealize.SL.Sem
open Idealize.ShloMosaic.ValueIdx Idealize.ShloMosaic.TileOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored tile at (p, q): the x tile's entry times the scale row's entry q plus the shift row's entry q. -/
theorem pay_apply (x0 : Vec Ideal S5000x32 .f32) (x1 x2 : Vec Ideal S1x32 .f32) (p : Fin 5000) (q : Fin 32) :
    k8_pay1 x0 x1 x2 (ix2 p q) = x0 (ix2 p q) * x1 (ix2 (0 : Fin 1) q) + x2 (ix2 (0 : Fin 1) q) := by
  unfold k8_pay1
  rw [shapeCast_self, shapeCast_self, shapeCast_self]
  refine (addf_apply _ _ _).trans ?_
  refine congrArg₂ (· + ·) ((mulf_apply _ _ _).trans (congrArg (_ * ·) (broadcastRow_apply x1 _ p q))) (broadcastRow_apply x2 _ p q)

/-- The whole result array as a function of the three arrays. -/
abbrev G (a0 : S100000x32.Idx → EReal) (a1 a2 : S1x32.Idx → EReal) : S100000x32.Idx → EReal :=
  fun i => a0 i * a1 (ix2 (0 : Fin 1) ⟨(i 1).val, idx2_lt1 i⟩) + a2 (ix2 (0 : Fin 1) ⟨(i 1).val, idx2_lt1 i⟩)

/-- The printed index maps over the grid: the x and result windows sit at block row t, column block 0; the rows at block (0, 0). -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The arrays the region finds, and the result array after it. -/
abbrev xIn (c : Dev nD) : S100000x32.Idx → EReal := V c (Pipeline.arrRef spec8 0)
abbrev scaleIn (c : Dev nD) : S1x32.Idx → EReal := V c (Pipeline.arrRef spec8 1)
abbrev shiftIn (c : Dev nD) : S1x32.Idx → EReal := V c (Pipeline.arrRef spec8 2)
abbrev out (c : Dev nD) : S100000x32.Idx → EReal := (dat8 V c).arrAt 3 cfg8.N

/-- Tile t of x at (p, q) is x at row 5000 t + p. -/
theorem iblk_x (c : Dev nD) (t : Fin cfg8.N) (p : Fin 5000) (q : Fin 32) (i : S100000x32.Idx)
    (h0 : (i 0).val = 5000 * t.val + p.val) (h1 : (i 1).val = q.val) :
    (iblk8 V c 0 t : Vec Ideal S5000x32 .f32) (ix2 p q) = xIn V c i := by
  obtain ⟨e0, e1, -⟩ := idx_facts t
  unfold iblk8
  rw [View.read_apply]
  show V c (Pipeline.arrRef spec8 0) _ = V c (Pipeline.arrRef spec8 0) _
  congr 1
  funext a
  apply Fin.ext
  match a with
  | ⟨0, _⟩ => show win8_0.index t (0 : Fin 2) * 5000 + 1 * p.val = (i 0).val; rw [e0, h0]; omega
  | ⟨1, _⟩ => show win8_0.index t (1 : Fin 2) * 32 + 1 * q.val = (i 1).val; rw [e1, h1]; omega

/-- The one tile of the scale row at (0, q) is the row's entry q. -/
theorem iblk_scale (c : Dev nD) (t : Fin cfg8.N) (q : Fin 32) :
    (iblk8 V c 1 t : Vec Ideal S1x32 .f32) (ix2 (0 : Fin 1) q) = scaleIn V c (ix2 (0 : Fin 1) q) := by
  obtain ⟨-, -, e2, e3, -⟩ := idx_facts t
  unfold iblk8
  rw [View.read_apply]
  show V c (Pipeline.arrRef spec8 1) _ = V c (Pipeline.arrRef spec8 1) _
  congr 1
  funext a
  apply Fin.ext
  match a with
  | ⟨0, _⟩ => show win8_1.index t (0 : Fin 2) * 1 + 1 * 0 = 0; rw [e2]
  | ⟨1, _⟩ => show win8_1.index t (1 : Fin 2) * 32 + 1 * q.val = q.val; rw [e3]; omega

/-- The one tile of the shift row at (0, q) is the row's entry q. -/
theorem iblk_shift (c : Dev nD) (t : Fin cfg8.N) (q : Fin 32) :
    (iblk8 V c 2 t : Vec Ideal S1x32 .f32) (ix2 (0 : Fin 1) q) = shiftIn V c (ix2 (0 : Fin 1) q) := by
  obtain ⟨-, -, -, -, e4, e5, -⟩ := idx_facts t
  unfold iblk8
  rw [View.read_apply]
  show V c (Pipeline.arrRef spec8 2) _ = V c (Pipeline.arrRef spec8 2) _
  congr 1
  funext a
  apply Fin.ext
  match a with
  | ⟨0, _⟩ => show win8_2.index t (0 : Fin 2) * 1 + 1 * 0 = 0; rw [e4]
  | ⟨1, _⟩ => show win8_2.index t (1 : Fin 2) * 32 + 1 * q.val = q.val; rw [e5]; omega

/-- The written-back part of a tile is the tile: the tiles are never cut at the array's edge. -/
theorem cut_apply (t : Fin cfg8.N) (X : Vec Ideal S5000x32 .f32) (p : Fin 5000) (q : Fin 32) :
    (cfg8.win 3).cut (grid8.coords t) X (ix2 p q) = X (ix2 p q) := rfl

/-- Tile t of a whole-array function, read at (p, q), is the function at row 5000 t + p. -/
theorem read_out (t : Fin cfg8.N) (Gf : S100000x32.Idx → EReal) (p : Fin 5000) (q : Fin 32) (i : S100000x32.Idx)
    (h0 : (i 0).val = 5000 * t.val + p.val) (h1 : (i 1).val = q.val) :
    ((cfg8.win 3).blk t).view.read (Elt Ideal) Gf (ix2 p q) = Gf i := by
  obtain ⟨-, -, -, -, -, -, e6, e7⟩ := idx_facts t
  rw [View.read_apply]
  show Gf _ = Gf _
  congr 1
  funext a
  apply Fin.ext
  match a with
  | ⟨0, _⟩ => show win8_3.index t (0 : Fin 2) * 5000 + 1 * p.val = (i 0).val; rw [e6, h0]; omega
  | ⟨1, _⟩ => show win8_3.index t (1 : Fin 2) * 32 + 1 * q.val = (i 1).val; rw [e7, h1]; omega

/-- What grid point t computes at (p, q) is `G` of the three arrays at row 5000 t + p. -/
theorem pt (c : Dev nD) (t : Fin cfg8.N) (p : Fin 5000) (q : Fin 32) (hp : 5000 * t.val + p.val < 100000) :
    k8_pay1 (iblk8 V c 0 t) (iblk8 V c 1 t) (iblk8 V c 2 t) (ix2 p q)
      = G (V c (Pipeline.arrRef spec8 0)) (V c (Pipeline.arrRef spec8 1)) (V c (Pipeline.arrRef spec8 2))
          (ix2 ⟨5000 * t.val + p.val, hp⟩ q) :=
  (pay_apply (iblk8 V c 0 t) (iblk8 V c 1 t) (iblk8 V c 2 t) p q).trans
    (congrArg₂ (· + ·)
      (congrArg₂ (· * ·) (iblk_x V c t p q (ix2 ⟨5000 * t.val + p.val, hp⟩ q) rfl rfl) (iblk_scale V c t q))
      (iblk_shift V c t q))

/-- What grid point t writes back is tile t of `G` of the three arrays. -/
theorem flushed_eq (c : Dev nD) (t : Fin cfg8.N) :
    (dat8 V c).flushed 3 t = ((cfg8.win 3).blk t).view.read (Elt Ideal)
      (G (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz]
  simp only [View.ld_unit_zero (S := S5000x32) hz, View.ld_unit_zero (S := S1x32) hz]
  funext j
  obtain ⟨p, q, rfl⟩ : ∃ (p : Fin 5000) (q : Fin 32), j = ix2 p q := ⟨j 0, j 1, eq_ix2 j⟩
  have hp : 5000 * t.val + p.val < 100000 := by
    have h1 := t.isLt
    have hN : cfg8.N = 20 := N_8
    have h2 := p.isLt
    omega
  refine (cut_apply t (k8_pay1 (iblk8 V c 0 t) (iblk8 V c 1 t) (iblk8 V c 2 t)) p q).trans ?_
  refine (pt V c t p q hp).trans ?_
  exact (read_out t _ p q (ix2 ⟨5000 * t.val + p.val, hp⟩ q) rfl rfl).symm

/-- An index of the array is in grid point t's tile iff each coordinate is in the tile's range on its axis. -/
theorem mem_blk (t : Fin cfg8.N) (i : S100000x32.Idx) :
    i ∈ ((cfg8.win 3).blk t).view.set ↔ ∀ a : Fin 2, win8_3.index t a * S5000x32.size a ≤ (i a).val ∧ (i a).val < win8_3.index t a * S5000x32.size a + S5000x32.size a := by
  show i ∈ ((View.whole main_v124).slice (win8_3.rect t)).set ↔ _
  rw [View.set_slice_whole, Rect.mem_set_unit]
  exact Iff.rfl

/-- Row r lies in the tile of grid point r / 5000: the twenty tiles cover the array. -/
theorem cover (i : S100000x32.Idx) : ∃ t : Fin cfg8.N, (cfg8.win 3).flush t = true ∧ i ∈ ((cfg8.win 3).blk t).view.set := by
  have hi0 : (i 0).val < 100000 := idx2_lt0 i
  have hi1 : (i 1).val < 32 := idx2_lt1 i
  have ht : (i 0).val / 5000 < cfg8.N := by rw [show cfg8.N = 20 from N_8]; omega
  refine ⟨⟨(i 0).val / 5000, ht⟩, flush8_3 _, ?_⟩
  rw [mem_blk]
  obtain ⟨-, -, -, -, -, -, e6, e7⟩ := idx_facts ⟨(i 0).val / 5000, ht⟩
  intro a
  match a with
  | ⟨0, _⟩ =>
    show win8_3.index ⟨(i 0).val / 5000, ht⟩ (0 : Fin 2) * 5000 ≤ (i 0).val ∧ (i 0).val < win8_3.index ⟨(i 0).val / 5000, ht⟩ (0 : Fin 2) * 5000 + 5000
    rw [e6]; dsimp only; omega
  | ⟨1, _⟩ =>
    show win8_3.index ⟨(i 0).val / 5000, ht⟩ (1 : Fin 2) * 32 ≤ (i 1).val ∧ (i 1).val < win8_3.index ⟨(i 0).val / 5000, ht⟩ (1 : Fin 2) * 32 + 32
    rw [e7]; omega

/-- The result array after the region is `G` of the three arrays the region finds. -/
theorem arr_eq (c : Dev nD) : (dat8 V c).arrAt 3 cfg8.N
    = G (V c (Pipeline.arrRef spec8 0)) (V c (Pipeline.arrRef spec8 1)) (V c (Pipeline.arrRef spec8 2)) :=
  (dat8 V c).arrAt_eq_of_cover 3 (G (V c (Pipeline.arrRef spec8 0)) (V c (Pipeline.arrRef spec8 1)) (V c (Pipeline.arrRef spec8 2)))
    (fun t _ => flushed_eq V c t) cover

/-- Entry (p, q) of the result: x (p, q) * scale (0, q) + shift (0, q). -/
theorem value (c : Dev nD) (p : Fin 100000) (q : Fin 32) :
    out V c (ix2 p q) = xIn V c (ix2 p q) * scaleIn V c (ix2 (0 : Fin 1) q) + shiftIn V c (ix2 (0 : Fin 1) q) :=
  congrFun (arr_eq V c) (ix2 p q)

end Cert.KernelIdeal.Aff8

end
-- ==== Proof.Brs7Body.lean ====
/-
  The body of the bias + ReLU + column-statistics kernel (region 7), read as values.

  At one grid point the body holds a block `x` of 5000 rows of the [100000, 32] input, the one-row bias `b`, and the
  two one-row accumulators. It stores `r = max (x + b) 0` into the output block, and into each accumulator what it
  held plus, per column, the sum over the block's 5000 rows of `r` (of `r * r` for the second). At the first point the
  accumulators are zeroed before they are read, so there the body leaves `0 + (column sums)`.

  First part, for any float values: what each case of the body leaves in each output buffer is the payload of its one
  covering store, applied to the blocks the point holds. Second part, at the ideal values: each payload read at an index
  given by its coordinates (row `r`, column `q`).
-/
import proofs.«107356_j16226386444409_1_alg».proof.Proof.Gen.KernelIdeal.Frame
import Idealize.ShloMosaic.Lib.Pipeline.Value
import Idealize.ShloMosaic.Lib.ValueLayout
import Idealize.ShloMosaic.Lib.Tactic
import Idealize.ShloMosaic.PureOps.Ideal.Laws

noncomputable section

namespace Cert.KernelIdeal.Brs7

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

section Pieces
variable {F : FTy → Type} [FloatOps F]

/-- The zero offsets of a whole-buffer access, as a constant function. -/
theorem hz : (![0, 0] : Fin 2 → Nat) = fun _ => 0 := funext fun a => by fin_cases a <;> rfl

/-- First point: the output block is left at `max (x + b) 0`. -/
theorem outA2 (c : Dev nD) (i : grid7.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : cond7_0 i) (x0 : Vec F S5000x32 .f32) (x1 : Vec F S1x32 .f32) :
    out7_A_2 c i a1 h1 a2 h2 a3 h3 a4 h4 a5 h5 hc x0 x1 = k7_pay3 x0 x1 := by
  unfold out7_A_2
  rw [View.read_writes_eq_canon _ _ _ (cover7_A_2 c i a1 h1 a2 h2 a3 h3 a4 h4 a5 h5 hc x0 x1)]
  unfold kernelRun7_A
  dsimp only
  rw [View.canon_unit_zero (S := S5000x32) hz]
  simp only [View.readAt_eq_ld, h1.read_unread, h2.read_unread, h4.read_unread, h5.read_unread, View.ld_unit_zero (S := S5000x32) hz, View.ld_unit_zero (S := S1x32) hz]

/-- First point: the sum accumulator is left at the zero row plus the block's column sums (the zero row is stored, then
    read back). -/
theorem outA3 (c : Dev nD) (i : grid7.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : cond7_0 i) (x0 : Vec F S5000x32 .f32) (x1 : Vec F S1x32 .f32) :
    out7_A_3 c i a1 h1 a2 h2 a3 h3 a4 h4 a5 h5 hc x0 x1 = k7_pay4 x0 x1 k7_pay1 := by
  unfold out7_A_3
  rw [View.read_writes_eq_canon _ _ _ (cover7_A_3 c i a1 h1 a2 h2 a3 h3 a4 h4 a5 h5 hc x0 x1)]
  unfold kernelRun7_A
  dsimp only
  sl_unfold_words
  rw [View.canon_cons_unit_zero (S := S1x32) hz, View.readCov_unit_zero (S := S1x32) _ hz]
  simp only [View.readAt_eq_ld, h1.read_unread, h2.read_unread, h4.read_unread, h5.read_unread, View.ld_unit_zero (S := S5000x32) hz, View.ld_unit_zero (S := S1x32) hz]

/-- First point: the same for the accumulator of squares. -/
theorem outA4 (c : Dev nD) (i : grid7.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : cond7_0 i) (x0 : Vec F S5000x32 .f32) (x1 : Vec F S1x32 .f32) :
    out7_A_4 c i a1 h1 a2 h2 a3 h3 a4 h4 a5 h5 hc x0 x1 = k7_pay5 x0 x1 k7_pay2 := by
  unfold out7_A_4
  rw [View.read_writes_eq_canon _ _ _ (cover7_A_4 c i a1 h1 a2 h2 a3 h3 a4 h4 a5 h5 hc x0 x1)]
  unfold kernelRun7_A
  dsimp only
  sl_unfold_words
  rw [View.canon_cons_unit_zero (S := S1x32) hz, View.readCov_unit_zero (S := S1x32) _ hz]
  simp only [View.readAt_eq_ld, h1.read_unread, h2.read_unread, h4.read_unread, h5.read_unread, View.ld_unit_zero (S := S5000x32) hz, View.ld_unit_zero (S := S1x32) hz]

/-- A later point: the output block is left at `max (x + b) 0`. -/
theorem outB2 (c : Dev nD) (i : grid7.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : ¬cond7_0 i) (x0 : Vec F S5000x32 .f32) (x1 : Vec F S1x32 .f32) (xo3 xo4 : Vec F S1x32 .f32) :
    out7_B_2 c i a1 h1 a2 h2 a3 h3 a4 h4 a5 h5 hc x0 x1 xo3 xo4 = k7_pay3 x0 x1 := by
  unfold out7_B_2
  rw [View.read_writes_eq_canon _ _ _ (cover7_B_2 c i a1 h1 a2 h2 a3 h3 a4 h4 a5 h5 hc x0 x1 xo3 xo4)]
  unfold kernelRun7_B
  dsimp only
  rw [View.canon_unit_zero (S := S5000x32) hz]
  simp only [View.readAt_eq_ld, h1.read_unread, h2.read_unread, h4.read_unread, h5.read_unread, View.ld_unit_zero (S := S5000x32) hz, View.ld_unit_zero (S := S1x32) hz]

/-- A later point: the sum accumulator is left at what it held plus the block's column sums. -/
theorem outB3 (c : Dev nD) (i : grid7.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : ¬cond7_0 i) (x0 : Vec F S5000x32 .f32) (x1 : Vec F S1x32 .f32) (xo3 xo4 : Vec F S1x32 .f32) :
    out7_B_3 c i a1 h1 a2 h2 a3 h3 a4 h4 a5 h5 hc x0 x1 xo3 xo4 = k7_pay4 x0 x1 xo3 := by
  unfold out7_B_3
  rw [View.read_writes_eq_canon _ _ _ (cover7_B_3 c i a1 h1 a2 h2 a3 h3 a4 h4 a5 h5 hc x0 x1 xo3 xo4)]
  unfold kernelRun7_B
  dsimp only
  rw [View.canon_unit_zero (S := S1x32) hz]
  simp only [View.readAt_eq_ld, h1.read_unread, h2.read_unread, h4.read_unread, h5.read_unread, View.ld_unit_zero (S := S5000x32) hz, View.ld_unit_zero (S := S1x32) hz]

/-- A later point: the same for the accumulator of squares. -/
theorem outB4 (c : Dev nD) (i : grid7.Coords) (a1 : Memref sig .tc .vmem S5000x32 .f32) (h1 : a1.IsWhole)
    (a2 : Memref sig .tc .vmem S1x32 .f32) (h2 : a2.IsWhole) (a3 : Memref sig .tc .vmem S5000x32 .f32) (h3 : a3.IsWhole)
    (a4 : Memref sig .tc .vmem S1x32 .f32) (h4 : a4.IsWhole) (a5 : Memref sig .tc .vmem S1x32 .f32) (h5 : a5.IsWhole)
    (hc : ¬cond7_0 i) (x0 : Vec F S5000x32 .f32) (x1 : Vec F S1x32 .f32) (xo3 xo4 : Vec F S1x32 .f32) :
    out7_B_4 c i a1 h1 a2 h2 a3 h3 a4 h4 a5 h5 hc x0 x1 xo3 xo4 = k7_pay5 x0 x1 xo4 := by
  unfold out7_B_4
  rw [View.read_writes_eq_canon _ _ _ (cover7_B_4 c i a1 h1 a2 h2 a3 h3 a4 h4 a5 h5 hc x0 x1 xo3 xo4)]
  unfold kernelRun7_B
  dsimp only
  rw [View.canon_unit_zero (S := S1x32) hz]
  simp only [View.readAt_eq_ld, h1.read_unread, h2.read_unread, h4.read_unread, h5.read_unread, View.ld_unit_zero (S := S5000x32) hz, View.ld_unit_zero (S := S1x32) hz]

end Pieces

section Payloads

/-- The zero row, at a column. -/
theorem pay1_apply (q : Fin 32) : (k7_pay1 (F := Ideal)) (ix2 (0 : Fin 1) q) = Ideal.ofBits .f32 0x00000000#32 := rfl
/-- The second zero row, at a column. -/
theorem pay2_apply (q : Fin 32) : (k7_pay2 (F := Ideal)) (ix2 (0 : Fin 1) q) = Ideal.ofBits .f32 0x00000000#32 := rfl

/-- `max (x + b) 0` at row `r`, column `q`: the bias row is broadcast over the rows. -/
theorem pay3_apply (x0 : Vec Ideal S5000x32 .f32) (x1 : Vec Ideal S1x32 .f32) (r : Fin 5000) (q : Fin 32) :
    k7_pay3 x0 x1 (ix2 r q) = max (x0 (ix2 r q) + x1 (ix2 (0 : Fin 1) q)) (Ideal.ofBits .f32 0x00000000#32) := by
  unfold k7_pay3
  (try dsimp only)
  rw [maximumf_apply, addf_apply, shapeCast_self, shapeCast_self, broadcastTo_1b_ab_apply]
  rfl

/-- The new sum accumulator at column `q`: the old one plus the sum over the block's rows of `max (x + b) 0`. -/
theorem pay4_apply (x0 : Vec Ideal S5000x32 .f32) (x1 : Vec Ideal S1x32 .f32) (acc : Vec Ideal S1x32 .f32) (q : Fin 32) :
    k7_pay4 x0 x1 acc (ix2 (0 : Fin 1) q) = acc (ix2 (0 : Fin 1) q) + ∑ r : Fin 5000, k7_pay3 x0 x1 (ix2 r q) := by
  unfold k7_pay4
  (try dsimp only)
  rw [addf_apply, shapeCast_self, shapeCast_a_1a_apply]
  refine congrArg (acc (ix2 (0 : Fin 1) q) + ·) ?_
  refine (Ideal.multiReduction_add_single (k7_pay3 x0 x1) 0x00000000#32 reduces_S5000x32_S32 (.inl rfl) rfl (ix1 q)).trans ?_
  show (∑ r : Fin 5000, k7_pay3 x0 x1 (reduces_S5000x32_S32.lift (ix1 q) r)) = _
  refine Finset.sum_congr rfl fun r _ => congrArg (k7_pay3 x0 x1) ?_
  funext a
  match a with
  | ⟨0, _⟩ => rfl
  | ⟨1, _⟩ => rfl

/-- The new accumulator of squares at column `q`: the old one plus the sum over the block's rows of the squares. -/
theorem pay5_apply (x0 : Vec Ideal S5000x32 .f32) (x1 : Vec Ideal S1x32 .f32) (acc : Vec Ideal S1x32 .f32) (q : Fin 32) :
    k7_pay5 x0 x1 acc (ix2 (0 : Fin 1) q)
      = acc (ix2 (0 : Fin 1) q) + ∑ r : Fin 5000, k7_pay3 x0 x1 (ix2 r q) * k7_pay3 x0 x1 (ix2 r q) := by
  unfold k7_pay5
  (try dsimp only)
  rw [addf_apply, shapeCast_self, shapeCast_a_1a_apply]
  refine congrArg (acc (ix2 (0 : Fin 1) q) + ·) ?_
  refine (Ideal.multiReduction_add_single (mulf (k7_pay3 x0 x1) (k7_pay3 x0 x1)) 0x00000000#32 reduces_S5000x32_S32 (.inl rfl) rfl (ix1 q)).trans ?_
  show (∑ r : Fin 5000, mulf (k7_pay3 x0 x1) (k7_pay3 x0 x1) (reduces_S5000x32_S32.lift (ix1 q) r)) = _
  refine Finset.sum_congr rfl fun r _ => ?_
  have e : reduces_S5000x32_S32.lift (ix1 q) r = ix2 r q := by
    funext a
    match a with
    | ⟨0, _⟩ => rfl
    | ⟨1, _⟩ => rfl
  rw [e]
  rfl

end Payloads

end Cert.KernelIdeal.Brs7
-- ==== Proof.Brs7.lean ====
/-
  The value of the bias + ReLU + column-statistics region (region 7): what its three output arrays hold after the
  region's run, as functions of the two input arrays as the region finds them.

  The region walks the [100000, 32] input `x` in 20 blocks of 5000 rows. With `b` the [1, 32] bias and
  `relu p q = max (x[p, q] + b[0, q]) 0`:
    • the [100000, 32] output holds `relu p q` at `(p, q)` — point `t` writes rows `5000 t … 5000 t + 4999`, and the
      20 blocks tile the array;
    • the first [1, 32] accumulator holds at column `q` the sum of `relu p q` over all 100000 rows `p`;
    • the second holds the sum of `relu p q * relu p q`.
  The accumulators live in one block that is carried from point to point and written back after the last point only.
  By induction on the point, after point `n` an accumulator holds the sum of the column sums of blocks `0 … n` (the
  first point starts from the zero row, and `0 + s = s`); after point 19 that is the sum block after block over all
  blocks, which is the sum over all rows. The extended reals are an additive commutative monoid, so regrouping the
  sum needs no finiteness.
-/
import proofs.«107356_j16226386444409_1_alg».proof.Proof.Brs7Body
import proofs.«107356_j16226386444409_1_alg».proof.Proof.BrsSum

noncomputable section

namespace Cert.KernelIdeal.Brs7

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

-- the buffer contents when the region is entered
variable (V : (c : Dev nD) → (b : Ref sig .tc) → Buf (Elt Ideal) ((c : Thread nD τ).loc b))

/-- The index maps over the grid: the input and output blocks of point `t` start at row block `t`, column block 0; the bias
    block is the whole bias row. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The input array `x`, -/
abbrev xArr (c : Dev nD) : S100000x32.Idx → EReal := V c (Pipeline.arrRef spec7 0)
/-- and the bias row `b`, as the region finds them. -/
abbrev bArr (c : Dev nD) : S1x32.Idx → EReal := V c (Pipeline.arrRef spec7 1)

/-- `max (x[p, q] + b[0, q]) 0`. -/
def relu (c : Dev nD) (p : Fin 100000) (q : Fin 32) : EReal :=
  max (xArr V c (ix2 p q) + bArr V c (ix2 (0 : Fin 1) q)) (Ideal.ofBits .f32 0x00000000#32)

/-- The two arrays and `relu`, spelt out. -/
theorem xArr_eq (c : Dev nD) : xArr V c = V c (Pipeline.arrRef spec7 0) := rfl
theorem bArr_eq (c : Dev nD) : bArr V c = V c (Pipeline.arrRef spec7 1) := rfl
theorem relu_eq (c : Dev nD) (p : Fin 100000) (q : Fin 32) :
    relu V c p q = max (xArr V c (ix2 p q) + bArr V c (ix2 (0 : Fin 1) q)) (Ideal.ofBits .f32 0x00000000#32) := rfl

/-- Row `r` of the input block at point `t` is row `5000 t + r` of `x`. -/
theorem xblk_apply (c : Dev nD) (t : Fin cfg7.N) (r : Fin 5000) (q : Fin 32) (p : Fin 100000) (hp : p.val = t.val * 5000 + r.val) :
    (iblk7 V c 0 t : Vec Ideal S5000x32 .f32) (ix2 r q) = xArr V c (ix2 p q) := by
  obtain ⟨e0, e1, -⟩ := idx_facts t
  unfold iblk7
  rw [View.read_apply]
  show xArr V c _ = _
  refine congrArg (xArr V c) (funext fun a => Fin.ext ?_)
  match a with
  | ⟨0, _⟩ => show win7_0.index t 0 * 5000 + 1 * r.val = p.val; rw [e0, hp]; omega
  | ⟨1, _⟩ => show win7_0.index t 1 * 32 + 1 * q.val = q.val; rw [e1]; omega

/-- The bias block at any point is the bias row. -/
theorem bblk_apply (c : Dev nD) (t : Fin cfg7.N) (q : Fin 32) :
    (iblk7 V c 1 t : Vec Ideal S1x32 .f32) (ix2 (0 : Fin 1) q) = bArr V c (ix2 (0 : Fin 1) q) := by
  obtain ⟨-, -, e2, e3, -⟩ := idx_facts t
  unfold iblk7
  rw [View.read_apply]
  show bArr V c _ = _
  refine congrArg (bArr V c) (funext fun a => Fin.ext ?_)
  match a with
  | ⟨0, _⟩ => show win7_1.index t 0 * 1 + 1 * 0 = 0; rw [e2]
  | ⟨1, _⟩ => show win7_1.index t 1 * 32 + 1 * q.val = q.val; rw [e3]; omega

/-- So what the body stores into the output block at point `t`, at row `r` and column `q`, is `relu (5000 t + r) q`. -/
theorem pay3_blk (c : Dev nD) (t : Fin cfg7.N) (r : Fin 5000) (q : Fin 32) (p : Fin 100000) (hp : p.val = t.val * 5000 + r.val) :
    k7_pay3 (iblk7 V c 0 t) (iblk7 V c 1 t) (ix2 r q) = relu V c p q := by
  refine (pay3_apply (iblk7 V c 0 t) (iblk7 V c 1 t) r q).trans ?_
  rw [xblk_apply V c t r q p hp, bblk_apply V c t q]
  rfl

/-- In both cases of the body the output block is left at `max (x + b) 0` of the point's blocks. -/
theorem after2 (c : Dev nD) (t : Fin cfg7.N) : (dat7 V c).after 2 t = k7_pay3 (iblk7 V c 0 t) (iblk7 V c 1 t) := by
  rw [after7_2]
  by_cases h0 : t.val % 20 = 0
  · rw [outsAt7_A V c t h0]
    dsimp only
    exact outA2 (F := Ideal) c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)
  · rw [outsAt7_B V c t h0]
    dsimp only
    exact outB2 (F := Ideal) c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2

/-- The sum accumulator after the first point: the zero row plus the block's column sums. -/
theorem acc3_A (c : Dev nD) (t : Fin cfg7.N) (h0 : t.val % 20 = 0) :
    (outsAt7 V c t.val t.isLt).2.1 = k7_pay4 (iblk7 V c 0 t) (iblk7 V c 1 t) (k7_pay1 (F := Ideal)) := by
  rw [outsAt7_A V c t h0]
  dsimp only
  exact outA3 (F := Ideal) c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)

/-- The sum accumulator after a later point: what the point before left plus the block's column sums. -/
theorem acc3_B (c : Dev nD) (t : Fin cfg7.N) (h0 : ¬t.val % 20 = 0) :
    (outsAt7 V c t.val t.isLt).2.1 = k7_pay4 (iblk7 V c 0 t) (iblk7 V c 1 t)
      (outsAt7 V c (t.val - 1) (Nat.lt_of_le_of_lt (Nat.sub_le _ _) t.isLt)).2.1 := by
  rw [outsAt7_B V c t h0]
  dsimp only
  exact outB3 (F := Ideal) c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2

/-- The same two facts for the accumulator of squares. -/
theorem acc4_A (c : Dev nD) (t : Fin cfg7.N) (h0 : t.val % 20 = 0) :
    (outsAt7 V c t.val t.isLt).2.2 = k7_pay5 (iblk7 V c 0 t) (iblk7 V c 1 t) (k7_pay2 (F := Ideal)) := by
  rw [outsAt7_A V c t h0]
  dsimp only
  exact outA4 (F := Ideal) c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)

theorem acc4_B (c : Dev nD) (t : Fin cfg7.N) (h0 : ¬t.val % 20 = 0) :
    (outsAt7 V c t.val t.isLt).2.2 = k7_pay5 (iblk7 V c 0 t) (iblk7 V c 1 t)
      (outsAt7 V c (t.val - 1) (Nat.lt_of_le_of_lt (Nat.sub_le _ _) t.isLt)).2.2 := by
  rw [outsAt7_B V c t h0]
  dsimp only
  exact outB4 (F := Ideal) c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2

/-- The sum of `relu · q` over the rows of block `s`. -/
def colsum (c : Dev nD) (s : ℕ) (q : Fin 32) : EReal :=
  ∑ r : Fin 5000, BrsSum.atNat (fun p : Fin 100000 => relu V c p q) (s * 5000 + r.val)

/-- The sum of the squares of `relu · q` over the rows of block `s`. -/
def colsumsq (c : Dev nD) (s : ℕ) (q : Fin 32) : EReal :=
  ∑ r : Fin 5000, BrsSum.atNat (fun p : Fin 100000 => relu V c p q * relu V c p q) (s * 5000 + r.val)

/-- The column sum the body forms at point `t` is block `t`'s. -/
theorem blk_sum (c : Dev nD) (t : Fin cfg7.N) (q : Fin 32) :
    ∑ r : Fin 5000, k7_pay3 (iblk7 V c 0 t) (iblk7 V c 1 t) (ix2 r q) = colsum V c t.val q := by
  have hN : t.val < 20 := lt_of_lt_of_eq t.isLt (show cfg7.N = 20 from N_7)
  refine Finset.sum_congr rfl fun r _ => ?_
  have hlt : t.val * 5000 + r.val < 100000 := by have := r.isLt; omega
  rw [BrsSum.atNat_of_lt _ _ hlt]
  exact pay3_blk V c t r q ⟨_, hlt⟩ rfl

/-- The column sum of squares the body forms at point `t` is block `t`'s. -/
theorem blk_sumsq (c : Dev nD) (t : Fin cfg7.N) (q : Fin 32) :
    ∑ r : Fin 5000, k7_pay3 (iblk7 V c 0 t) (iblk7 V c 1 t) (ix2 r q) * k7_pay3 (iblk7 V c 0 t) (iblk7 V c 1 t) (ix2 r q)
      = colsumsq V c t.val q := by
  have hN : t.val < 20 := lt_of_lt_of_eq t.isLt (show cfg7.N = 20 from N_7)
  refine Finset.sum_congr rfl fun r _ => ?_
  have hlt : t.val * 5000 + r.val < 100000 := by have := r.isLt; omega
  rw [BrsSum.atNat_of_lt _ _ hlt, pay3_blk V c t r q ⟨_, hlt⟩ rfl]

/-- After point `n` the sum accumulator holds, at column `q`, the sum of the column sums of blocks `0 … n`: by induction
    on the point. -/
theorem acc3_eq (c : Dev nD) : ∀ (n : ℕ) (h : n < cfg7.N) (q : Fin 32),
    ((outsAt7 V c n h).2.1 : Vec Ideal S1x32 .f32) (ix2 (0 : Fin 1) q) = ∑ s ∈ Finset.range (n + 1), colsum V c s q
  | 0, h, q => by
    rw [acc3_A V c ⟨0, h⟩ rfl]
    refine (pay4_apply (iblk7 V c 0 ⟨0, h⟩) (iblk7 V c 1 ⟨0, h⟩) (k7_pay1 (F := Ideal)) q).trans ?_
    rw [pay1_apply, Ideal.ofBits_zero_f32, zero_add, blk_sum V c ⟨0, h⟩ q, Finset.sum_range_one]
  | n + 1, h, q => by
    have hN : cfg7.N = 20 := N_7
    have hB : ¬(⟨n + 1, h⟩ : Fin cfg7.N).val % 20 = 0 := by dsimp only; omega
    rw [acc3_B V c ⟨n + 1, h⟩ hB]
    refine (pay4_apply (iblk7 V c 0 ⟨n + 1, h⟩) (iblk7 V c 1 ⟨n + 1, h⟩) _ q).trans ?_
    rw [blk_sum V c ⟨n + 1, h⟩ q, Finset.sum_range_succ _ (n + 1)]
    refine congrArg (· + colsum V c (n + 1) q) ?_
    exact acc3_eq c n (Nat.lt_of_succ_lt h) q

/-- After point `n` the accumulator of squares holds the sum of the column sums of squares of blocks `0 … n`. -/
theorem acc4_eq (c : Dev nD) : ∀ (n : ℕ) (h : n < cfg7.N) (q : Fin 32),
    ((outsAt7 V c n h).2.2 : Vec Ideal S1x32 .f32) (ix2 (0 : Fin 1) q) = ∑ s ∈ Finset.range (n + 1), colsumsq V c s q
  | 0, h, q => by
    rw [acc4_A V c ⟨0, h⟩ rfl]
    refine (pay5_apply (iblk7 V c 0 ⟨0, h⟩) (iblk7 V c 1 ⟨0, h⟩) (k7_pay2 (F := Ideal)) q).trans ?_
    rw [pay2_apply, Ideal.ofBits_zero_f32, zero_add, blk_sumsq V c ⟨0, h⟩ q, Finset.sum_range_one]
  | n + 1, h, q => by
    have hN : cfg7.N = 20 := N_7
    have hB : ¬(⟨n + 1, h⟩ : Fin cfg7.N).val % 20 = 0 := by dsimp only; omega
    rw [acc4_B V c ⟨n + 1, h⟩ hB]
    refine (pay5_apply (iblk7 V c 0 ⟨n + 1, h⟩) (iblk7 V c 1 ⟨n + 1, h⟩) _ q).trans ?_
    rw [blk_sumsq V c ⟨n + 1, h⟩ q, Finset.sum_range_succ _ (n + 1)]
    refine congrArg (· + colsumsq V c (n + 1) q) ?_
    exact acc4_eq c n (Nat.lt_of_succ_lt h) q

/-- The last point. -/
def tLast : Fin cfg7.N := ⟨19, by rw [show cfg7.N = 20 from N_7]; decide⟩

/-- What the accumulators hold after the last point, as contents of their arrays (one block is the whole array). -/
abbrev result3 (c : Dev nD) : Buf (Elt Ideal) ((c : Thread nD τ).loc main_v109_1) := (outsAt7 V c tLast.val tLast.isLt).2.1
abbrev result4 (c : Dev nD) : Buf (Elt Ideal) ((c : Thread nD τ).loc main_v109_2) := (outsAt7 V c tLast.val tLast.isLt).2.2

/-- The one write-back of the sum accumulator, after the last point, writes the whole array. -/
theorem flushed3_eq (c : Dev nD) (t : Fin cfg7.N) (hf : (cfg7.win 3).flush t = true) :
    (dat7 V c).flushed 3 t = ((cfg7.win 3).blk t).view.read (Elt Ideal) (result3 V c) := by
  have hN : cfg7.N = 20 := N_7
  have h19 : t.val = 19 := by have := (flush7_3 t).mp hf; have := t.isLt; omega
  obtain rfl : t = tLast := Fin.ext h19
  show (cfg7.win 3).cut (grid7.coords tLast) ((dat7 V c).after 3 tLast) = _
  rw [after7_3]
  have hz' : (fun a => win7_3.index tLast a * main_v109_1.ty.shape.size a) = fun _ => 0 := funext fun a => by fin_cases a <;> decide +kernel
  exact (Memref.read_access_unit_zero (Elt Ideal) main_v109_1 hz' (fun a => by rw [congrFun hz' a]; simp) (result3 V c)).symm

/-- So the sum array ends holding what the accumulator holds after the last point. -/
theorem final3 (c : Dev nD) : (dat7 V c).arrAt 3 cfg7.N = result3 V c :=
  (dat7 V c).arrAt_eq_of_cover 3 (result3 V c) (flushed3_eq V c) fun i =>
    ⟨tLast, (flush7_3 tLast).mpr rfl, by
      show i ∈ ((View.whole main_v109_1).slice (win7_3.rect tLast)).set
      rw [View.set_slice_whole, Rect.mem_set_unit]
      intro a
      have h0 : (i 0 : Nat) < 1 := (i 0).isLt
      have h1 : (i 1 : Nat) < 32 := (i 1).isLt
      match a with
      | ⟨0, _⟩ => show win7_3.index tLast 0 * win7_3.size 0 ≤ (i 0 : Nat) ∧ (i 0 : Nat) < win7_3.index tLast 0 * win7_3.size 0 + win7_3.xsize (grid7.coords tLast) 0
                  rw [show win7_3.index tLast 0 * win7_3.size 0 = 0 from by decide +kernel, show win7_3.xsize (grid7.coords tLast) 0 = 1 from by decide +kernel]; omega
      | ⟨1, _⟩ => show win7_3.index tLast 1 * win7_3.size 1 ≤ (i 1 : Nat) ∧ (i 1 : Nat) < win7_3.index tLast 1 * win7_3.size 1 + win7_3.xsize (grid7.coords tLast) 1
                  rw [show win7_3.index tLast 1 * win7_3.size 1 = 0 from by decide +kernel, show win7_3.xsize (grid7.coords tLast) 1 = 32 from by decide +kernel]; omega⟩

/-- The same for the accumulator of squares. -/
theorem flushed4_eq (c : Dev nD) (t : Fin cfg7.N) (hf : (cfg7.win 4).flush t = true) :
    (dat7 V c).flushed 4 t = ((cfg7.win 4).blk t).view.read (Elt Ideal) (result4 V c) := by
  have hN : cfg7.N = 20 := N_7
  have h19 : t.val = 19 := by have := (flush7_4 t).mp hf; have := t.isLt; omega
  obtain rfl : t = tLast := Fin.ext h19
  show (cfg7.win 4).cut (grid7.coords tLast) ((dat7 V c).after 4 tLast) = _
  rw [after7_4]
  have hz' : (fun a => win7_4.index tLast a * main_v109_2.ty.shape.size a) = fun _ => 0 := funext fun a => by fin_cases a <;> decide +kernel
  exact (Memref.read_access_unit_zero (Elt Ideal) main_v109_2 hz' (fun a => by rw [congrFun hz' a]; simp) (result4 V c)).symm

/-- So the array of sums of squares ends holding what its accumulator holds after the last point. -/
theorem final4 (c : Dev nD) : (dat7 V c).arrAt 4 cfg7.N = result4 V c :=
  (dat7 V c).arrAt_eq_of_cover 4 (result4 V c) (flushed4_eq V c) fun i =>
    ⟨tLast, (flush7_4 tLast).mpr rfl, by
      show i ∈ ((View.whole main_v109_2).slice (win7_4.rect tLast)).set
      rw [View.set_slice_whole, Rect.mem_set_unit]
      intro a
      have h0 : (i 0 : Nat) < 1 := (i 0).isLt
      have h1 : (i 1 : Nat) < 32 := (i 1).isLt
      match a with
      | ⟨0, _⟩ => show win7_4.index tLast 0 * win7_4.size 0 ≤ (i 0 : Nat) ∧ (i 0 : Nat) < win7_4.index tLast 0 * win7_4.size 0 + win7_4.xsize (grid7.coords tLast) 0
                  rw [show win7_4.index tLast 0 * win7_4.size 0 = 0 from by decide +kernel, show win7_4.xsize (grid7.coords tLast) 0 = 1 from by decide +kernel]; omega
      | ⟨1, _⟩ => show win7_4.index tLast 1 * win7_4.size 1 ≤ (i 1 : Nat) ∧ (i 1 : Nat) < win7_4.index tLast 1 * win7_4.size 1 + win7_4.xsize (grid7.coords tLast) 1
                  rw [show win7_4.index tLast 1 * win7_4.size 1 = 0 from by decide +kernel, show win7_4.xsize (grid7.coords tLast) 1 = 32 from by decide +kernel]; omega⟩

/-- The [100000, 32] array of `relu`. -/
def reluArr (c : Dev nD) : S100000x32.Idx → EReal := fun i => relu V c (i 0) (i 1)

/-- It reads `relu p q` at any index whose coordinates are `p` and `q`. -/
theorem reluArr_apply (c : Dev nD) (i : S100000x32.Idx) (p : Fin 100000) (q : Fin 32) (h0 : (i 0).val = p.val) (h1 : (i 1).val = q.val) :
    reluArr V c i = relu V c p q := by
  obtain rfl : i = ix2 p q := funext fun a => by
    match a with
    | ⟨0, _⟩ => exact Fin.ext h0
    | ⟨1, _⟩ => exact Fin.ext h1
  rfl

/-- An index of the output block, as an index of the staging buffer, has the same coordinates. -/
theorem xinj2 (t : Fin cfg7.N) (r : Fin 5000) (q : Fin 32) :
    ((cfg7.win 2).xinj (grid7.coords t) (ix2 r q) : S5000x32.Idx) = ix2 r q := funext fun a => by
  match a with
  | ⟨0, _⟩ => rfl
  | ⟨1, _⟩ => rfl

/-- What point `t` writes back is block `t` of the array of `relu`. -/
theorem flushed2_eq (c : Dev nD) (t : Fin cfg7.N) :
    (dat7 V c).flushed 2 t = ((cfg7.win 2).blk t).view.read (Elt Ideal) (reluArr V c) := by
  show (cfg7.win 2).cut (grid7.coords t) ((dat7 V c).after 2 t) = _
  rw [after2 V c t]
  obtain ⟨-, -, -, -, e4, e5⟩ := idx_facts t
  have hN : t.val < 20 := lt_of_lt_of_eq t.isLt (show cfg7.N = 20 from N_7)
  funext j
  obtain ⟨r, q, rfl⟩ : ∃ (r : Fin 5000) (q : Fin 32), j = ix2 r q := ⟨j 0, j 1, eq_ix2 j⟩
  have hlt : t.val * 5000 + r.val < 100000 := by have := r.isLt; omega
  refine Eq.trans (b := relu V c ⟨_, hlt⟩ q) ?_ ?_
  · show k7_pay3 (iblk7 V c 0 t) (iblk7 V c 1 t) ((cfg7.win 2).xinj (grid7.coords t) (ix2 r q)) = _
    rw [xinj2 t r q]
    exact pay3_blk V c t r q ⟨_, hlt⟩ rfl
  · rw [View.read_apply]
    refine (reluArr_apply V c _ ⟨_, hlt⟩ q ?_ ?_).symm
    · show win7_2.index t 0 * 5000 + 1 * r.val = t.val * 5000 + r.val
      rw [e4]; omega
    · show win7_2.index t 1 * 32 + 1 * q.val = q.val
      rw [e5]; omega

/-- An index of the output array is in point `t`'s block iff each coordinate is in the block's range on its axis. -/
theorem mem_blk2 (t : Fin cfg7.N) (i : S100000x32.Idx) :
    i ∈ ((cfg7.win 2).blk t).view.set ↔ ∀ a : Fin 2, win7_2.index t a * S5000x32.size a ≤ (i a).val ∧ (i a).val < win7_2.index t a * S5000x32.size a + S5000x32.size a := by
  show i ∈ ((View.whole main_v109_0).slice (win7_2.rect t)).set ↔ _
  rw [View.set_slice_whole, Rect.mem_set_unit]
  exact Iff.rfl

/-- Every index is in some point's block: row `p` is in block `p / 5000`. -/
theorem cover2 (i : S100000x32.Idx) : ∃ t : Fin cfg7.N, (cfg7.win 2).flush t = true ∧ i ∈ ((cfg7.win 2).blk t).view.set := by
  have hi0 : (i 0).val < 100000 := (i 0).isLt
  have hi1 : (i 1).val < 32 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨-, -, -, -, e4, e5⟩ := idx_facts t
  refine ⟨t, flush7_2 t, ?_⟩
  rw [mem_blk2]
  intro a
  match a with
  | ⟨0, _⟩ => show win7_2.index t 0 * 5000 ≤ (i 0).val ∧ (i 0).val < win7_2.index t 0 * 5000 + 5000; rw [e4, ht]; omega
  | ⟨1, _⟩ => show win7_2.index t 1 * 32 ≤ (i 1).val ∧ (i 1).val < win7_2.index t 1 * 32 + 32; rw [e5]; omega

/-- So the output array ends holding `relu` everywhere. -/
theorem final2 (c : Dev nD) : (dat7 V c).arrAt 2 cfg7.N = reluArr V c :=
  (dat7 V c).arrAt_eq_of_cover 2 (reluArr V c) (fun t _ => flushed2_eq V c t) cover2

/-- THE OUTPUT: `relu p q` at `(p, q)`. -/
theorem relu_value (c : Dev nD) (p : Fin 100000) (q : Fin 32) :
    ((dat7 V c).arrAt 2 cfg7.N : S100000x32.Idx → EReal) (ix2 p q) = relu V c p q := by
  rw [final2 V c]; rfl

/-- THE COLUMN SUMS: at column `q`, the sum of `relu p q` over all rows. -/
theorem sum_value (c : Dev nD) (q : Fin 32) :
    ((dat7 V c).arrAt 3 cfg7.N : S1x32.Idx → EReal) (ix2 (0 : Fin 1) q) = ∑ p : Fin 100000, relu V c p q := by
  rw [final3 V c]
  refine (acc3_eq V c tLast.val tLast.isLt q).trans ?_
  exact BrsSum.sum_blocks 20 5000 100000 (by norm_num) (fun p => relu V c p q)

/-- THE COLUMN SUMS OF SQUARES: at column `q`, the sum of `relu p q * relu p q` over all rows. -/
theorem sumsq_value (c : Dev nD) (q : Fin 32) :
    ((dat7 V c).arrAt 4 cfg7.N : S1x32.Idx → EReal) (ix2 (0 : Fin 1) q) = ∑ p : Fin 100000, relu V c p q * relu V c p q := by
  rw [final4 V c]
  refine (acc4_eq V c tLast.val tLast.isLt q).trans ?_
  exact BrsSum.sum_blocks 20 5000 100000 (by norm_num) (fun p => relu V c p q * relu V c p q)

end Cert.KernelIdeal.Brs7
-- ==== Proof.KLayer3.lean ====
/-
  The kernel program's third layer, in closed form: regions 6, 7 and 8 and the host operations between them, read through
  the boundary contents as the layer function of the aggregation of the projected previous layer.
-/
import proofs.«107356_j16226386444409_1_alg».proof.Proof.KLayer2
import proofs.«107356_j16226386444409_1_alg».proof.Proof.Mm6
import proofs.«107356_j16226386444409_1_alg».proof.Proof.Aff8
import proofs.«107356_j16226386444409_1_alg».proof.Proof.Brs7

set_option maxRecDepth 16384

noncomputable section

namespace Cert.KernelIdeal.KLayer3

open Idealize.ShloMosaic Idealize.ShloMosaic.TcCoe Idealize.SL.Sem Idealize.ShloMosaic.ValueIdx
open Cert.KernelIdeal Cert.KernelIdeal.Gen Cert.KernelIdeal.KChain Cert.KernelIdeal.KGraph Cert.Gcn

variable (m : (ℓ : Loc nD τ sig) → Buf (Elt Ideal) ℓ) (ρ : Dev nD → PrngReg)

/-- The previous layer's result. -/
def prev (c : Dev nD) : SNx32.Idx → EReal := kLayerOut (KLayer2.aggArr m c) (m ((c : Thread nD τ).loc main_arg8)) (m ((c : Thread nD τ).loc main_arg9)) (m ((c : Thread nD τ).loc main_arg10))

/-- The projected features. -/
theorem proj (c : Dev nD) : W14 m ρ c (Proc.devRef .tc main_v94)
    = mm32 (prev m c) (m ((c : Thread nD τ).loc main_arg11)) := by
  refine (W14_arr m ρ c 2).trans ?_
  refine arrNx32_ext _ _ fun p q => ?_
  refine (Mm6.value (V13 m ρ) c p q).trans ?_
  have e0 : Mm6.xIn (V13 m ρ) c = prev m c := KLayer2.out m ρ c
  have e3 : Mm6.wIn (V13 m ρ) c = ((m ((c : Thread nD τ).loc main_arg11)) : (⟨2, ![32, 32]⟩ : Shape).Idx → EReal) := arg11_at m ρ c
  rw [e0, e3]

/-- The aggregation. -/
theorem aggr (c : Dev nD) : W15 m ρ c (Proc.devRef .tc main_v107)
    = agg (rows (m ((c : Thread nD τ).loc main_arg1))) (cols (m ((c : Thread nD τ).loc main_arg1)))
        (normOf (m ((c : Thread nD τ).loc main_arg1)) (m ((c : Thread nD τ).loc main_arg2)))
        (mm32 (prev m c) (m ((c : Thread nD τ).loc main_arg11))) := by
  refine (KHost.agg3_eq (W14 m ρ c)).trans ?_
  rw [rows14, cols14, norm14, proj]

/-- The bias as a row. -/
theorem bias (c : Dev nD) : W15 m ρ c (Proc.devRef .tc main_v108) = row32 (m ((c : Thread nD τ).loc main_arg12)) := by
  refine (KHost.bias3_eq (W14 m ρ c)).trans ?_
  rw [arg12_at]

/-- The aggregation of the projected features, named. -/
def aggArr (c : Dev nD) : SNx32.Idx → EReal :=
  agg (rows (m ((c : Thread nD τ).loc main_arg1))) (cols (m ((c : Thread nD τ).loc main_arg1))) (normOf (m ((c : Thread nD τ).loc main_arg1)) (m ((c : Thread nD τ).loc main_arg2))) (mm32 (prev m c) (m ((c : Thread nD τ).loc main_arg11)))

theorem xArr_eq (c : Dev nD) : Brs7.xArr (V15 m ρ) c = aggArr m c := aggr m ρ c
theorem bArr_eq (c : Dev nD) : Brs7.bArr (V15 m ρ) c = row32 (F := Ideal) (m ((c : Thread nD τ).loc main_arg12)) := bias m ρ c

theorem relu_eq (c : Dev nD) (p : Fin 100000) (q : Fin 32) :
    Brs7.relu (V15 m ρ) c p q = reluF (aggArr m c) (row32 (F := Ideal) (m ((c : Thread nD τ).loc main_arg12))) p q := by
  unfold Brs7.relu reluF
  rw [xArr_eq, bArr_eq]

/-- The clipped array. -/
theorem clipped (c : Dev nD) : W16 m ρ c (Proc.devRef .tc main_v109_0)
    = arrNx32 (reluF (aggArr m c) (row32 (F := Ideal) (m ((c : Thread nD τ).loc main_arg12)))) := by
  refine (W16_arr m ρ c 2).trans ?_
  refine arrNx32_ext _ _ fun p q => ?_
  exact (Brs7.relu_value (V15 m ρ) c p q).trans (relu_eq m ρ c p q)

/-- The column sums. -/
theorem sums (c : Dev nD) : W16 m ρ c (Proc.devRef .tc main_v109_1) = sumF (aggArr m c) (row32 (F := Ideal) (m ((c : Thread nD τ).loc main_arg12))) := by
  refine (W16_arr m ρ c 3).trans ?_
  refine arr1x32_ext _ _ fun q => ?_
  have e : (∑ p : Fin 100000, Brs7.relu (V15 m ρ) c p q)
      = ∑ p : Fin 100000, reluF (aggArr m c) (row32 (F := Ideal) (m ((c : Thread nD τ).loc main_arg12))) p q :=
    Finset.sum_congr rfl fun p _ => relu_eq m ρ c p q
  exact (Brs7.sum_value (V15 m ρ) c q).trans e

/-- The column sums of squares. -/
theorem sumsqs (c : Dev nD) : W16 m ρ c (Proc.devRef .tc main_v109_2) = sumsqF (aggArr m c) (row32 (F := Ideal) (m ((c : Thread nD τ).loc main_arg12))) := by
  refine (W16_arr m ρ c 4).trans ?_
  refine arr1x32_ext _ _ fun q => ?_
  have e : (∑ p : Fin 100000, Brs7.relu (V15 m ρ) c p q * Brs7.relu (V15 m ρ) c p q)
      = ∑ p : Fin 100000, reluF (aggArr m c) (row32 (F := Ideal) (m ((c : Thread nD τ).loc main_arg12))) p q * reluF (aggArr m c) (row32 (F := Ideal) (m ((c : Thread nD τ).loc main_arg12))) p q :=
    Finset.sum_congr rfl fun p _ => by rw [relu_eq m ρ c p q]
  exact (Brs7.sumsq_value (V15 m ρ) c q).trans e

/-- The scale and the shift. -/
theorem scale (c : Dev nD) : W17 m ρ c (Proc.devRef .tc main_v120)
    = kScale (F := Ideal) (sumF (aggArr m c) (row32 (F := Ideal) (m ((c : Thread nD τ).loc main_arg12)))) (sumsqF (aggArr m c) (row32 (F := Ideal) (m ((c : Thread nD τ).loc main_arg12)))) (m ((c : Thread nD τ).loc main_arg13)) := by
  refine (KHost.scale3_eq (W16 m ρ c)).trans ?_
  rw [sums, sumsqs, arg13_at]

theorem shift (c : Dev nD) : W17 m ρ c (Proc.devRef .tc main_v123)
    = kShift (F := Ideal) (sumF (aggArr m c) (row32 (F := Ideal) (m ((c : Thread nD τ).loc main_arg12)))) (sumsqF (aggArr m c) (row32 (F := Ideal) (m ((c : Thread nD τ).loc main_arg12)))) (m ((c : Thread nD τ).loc main_arg13)) (m ((c : Thread nD τ).loc main_arg14)) := by
  refine (KHost.shift3_eq (W16 m ρ c)).trans ?_
  rw [sums, sumsqs, arg13_at, arg14_at]

/-- The layer's result. -/
theorem out (c : Dev nD) : W18 m ρ c (Proc.devRef .tc main_v124)
    = kLayerOut (aggArr m c) (m ((c : Thread nD τ).loc main_arg12)) (m ((c : Thread nD τ).loc main_arg13)) (m ((c : Thread nD τ).loc main_arg14)) := by
  refine (W18_arr m ρ c 3).trans ?_
  refine arrNx32_ext _ _ fun p q => ?_
  refine (Aff8.value (V17 m ρ) c p q).trans ?_
  have ex : Aff8.xIn (V17 m ρ) c = arrNx32 (reluF (aggArr m c) (row32 (F := Ideal) (m ((c : Thread nD τ).loc main_arg12)))) :=
    (keep_v109_0_17_16 m ρ c).trans (clipped m ρ c)
  have es : Aff8.scaleIn (V17 m ρ) c = _ := scale m ρ c
  have eh : Aff8.shiftIn (V17 m ρ) c = _ := shift m ρ c
  rw [ex, es, eh]
  rfl

end Cert.KernelIdeal.KLayer3

end
-- ==== Proof.Lin9.lean ====
/-
  The concatenate-and-project kernel, read as a whole array: after the region, entry (p, j) of the result is
  ((∑ k, o1 (p, k) * w1 (k, j)) + (∑ k, o2 (p, k) * w2 (k, j)) + (∑ k, o3 (p, k) * w3 (k, j))) + bias (0, j), where the
  three layer outputs o, the three weight slices w and the bias row are the arrays the region finds.
-/
import proofs.«107356_j16226386444409_1_alg».proof.Proof.Gen.KernelIdeal.Frame
import proofs.«107356_j16226386444409_1_alg».proof.Proof.LibTileOps
import Idealize.ShloMosaic.Lib.Pipeline.Value

noncomputable section

open scoped BigOperators

namespace Cert.KernelIdeal.Lin9

open Cert.KernelIdeal Cert.KernelIdeal.Gen Idealize.ShloMosaic Idealize.ShloMosaic.TcCoe Idealize.SL.Sem
open Idealize.ShloMosaic.ValueIdx Idealize.ShloMosaic.TileOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored tile at (p, j): the three tile products added in order, plus the bias row's entry j. -/
theorem pay_apply (x0 x1 x2 : Vec Ideal S5000x32 .f32) (u0 u1 u2 : Vec Ideal S32x2 .f32) (b : Vec Ideal S1x2 .f32)
    (p : Fin 5000) (j : Fin 2) :
    k9_pay1 x0 x1 x2 u0 u1 u2 b (ix2 p j)
      = ((∑ k : Fin 32, x0 (ix2 p k) * u0 (ix2 k j)) + (∑ k : Fin 32, x1 (ix2 p k) * u1 (ix2 k j))
          + (∑ k : Fin 32, x2 (ix2 p k) * u2 (ix2 k j))) + b (ix2 (0 : Fin 1) j) := by
  unfold k9_pay1
  simp only [shapeCast_self]
  refine (addf_apply _ _ _).trans ?_
  refine congrArg₂ (· + ·) ?_ (broadcastRow_apply b _ p j)
  refine (addf_apply _ _ _).trans ?_
  refine congrArg₂ (· + ·) ?_
    (matmul_zero_apply dot_S5000x32_S32x2_S5000x2_1_0_0_1_n_n_wf none (truncf .bf16 x2 bitsLt_bf16_f32) (truncf .bf16 u2 bitsLt_bf16_f32) p j)
  refine (addf_apply _ _ _).trans ?_
  exact congrArg₂ (· + ·)
    (matmul_zero_apply dot_S5000x32_S32x2_S5000x2_1_0_0_1_n_n_wf none (truncf .bf16 x0 bitsLt_bf16_f32) (truncf .bf16 u0 bitsLt_bf16_f32) p j)
    (matmul_zero_apply dot_S5000x32_S32x2_S5000x2_1_0_0_1_n_n_wf none (truncf .bf16 x1 bitsLt_bf16_f32) (truncf .bf16 u1 bitsLt_bf16_f32) p j)

/-- The whole result array as a function of the seven arrays. -/
abbrev G (a0 a1 a2 : S100000x32.Idx → EReal) (u0 u1 u2 : S32x2.Idx → EReal) (b : S1x2.Idx → EReal) : S100000x2.Idx → EReal :=
  fun i => ((∑ k : Fin 32, a0 (ix2 ⟨(i 0).val, idx2_lt0 i⟩ k) * u0 (ix2 k ⟨(i 1).val, idx2_lt1 i⟩))
      + (∑ k : Fin 32, a1 (ix2 ⟨(i 0).val, idx2_lt0 i⟩ k) * u1 (ix2 k ⟨(i 1).val, idx2_lt1 i⟩))
      + (∑ k : Fin 32, a2 (ix2 ⟨(i 0).val, idx2_lt0 i⟩ k) * u2 (ix2 k ⟨(i 1).val, idx2_lt1 i⟩)))
    + b (ix2 (0 : Fin 1) ⟨(i 1).val, idx2_lt1 i⟩)

/-! The printed index maps over the grid: the o and result windows sit at block row t, column block 0; the weight slices
    and the bias row at block (0, 0). -/
theorem idx_0 : ∀ t : Fin cfg9.N, win9_0.index t (0 : Fin 2) = t.val ∧ win9_0.index t (1 : Fin 2) = 0 :=
  (by decide +kernel : ∀ t : Fin grid9.N, _)
theorem idx_1 : ∀ t : Fin cfg9.N, win9_1.index t (0 : Fin 2) = t.val ∧ win9_1.index t (1 : Fin 2) = 0 :=
  (by decide +kernel : ∀ t : Fin grid9.N, _)
theorem idx_2 : ∀ t : Fin cfg9.N, win9_2.index t (0 : Fin 2) = t.val ∧ win9_2.index t (1 : Fin 2) = 0 :=
  (by decide +kernel : ∀ t : Fin grid9.N, _)
theorem idx_7 : ∀ t : Fin cfg9.N, win9_7.index t (0 : Fin 2) = t.val ∧ win9_7.index t (1 : Fin 2) = 0 :=
  (by decide +kernel : ∀ t : Fin grid9.N, _)
theorem idx_3 : ∀ t : Fin cfg9.N, win9_3.index t (0 : Fin 2) = 0 ∧ win9_3.index t (1 : Fin 2) = 0 :=
  (by decide +kernel : ∀ t : Fin grid9.N, _)
theorem idx_4 : ∀ t : Fin cfg9.N, win9_4.index t (0 : Fin 2) = 0 ∧ win9_4.index t (1 : Fin 2) = 0 :=
  (by decide +kernel : ∀ t : Fin grid9.N, _)
theorem idx_5 : ∀ t : Fin cfg9.N, win9_5.index t (0 : Fin 2) = 0 ∧ win9_5.index t (1 : Fin 2) = 0 :=
  (by decide +kernel : ∀ t : Fin grid9.N, _)
theorem idx_6 : ∀ t : Fin cfg9.N, win9_6.index t (0 : Fin 2) = 0 ∧ win9_6.index t (1 : Fin 2) = 0 :=
  (by decide +kernel : ∀ t : Fin grid9.N, _)

/-- The arrays the region finds, and the result array after it. -/
abbrev o1In (c : Dev nD) : S100000x32.Idx → EReal := V c (Pipeline.arrRef spec9 0)
abbrev o2In (c : Dev nD) : S100000x32.Idx → EReal := V c (Pipeline.arrRef spec9 1)
abbrev o3In (c : Dev nD) : S100000x32.Idx → EReal := V c (Pipeline.arrRef spec9 2)
abbrev w1In (c : Dev nD) : S32x2.Idx → EReal := V c (Pipeline.arrRef spec9 3)
abbrev w2In (c : Dev nD) : S32x2.Idx → EReal := V c (Pipeline.arrRef spec9 4)
abbrev w3In (c : Dev nD) : S32x2.Idx → EReal := V c (Pipeline.arrRef spec9 5)
abbrev biasIn (c : Dev nD) : S1x2.Idx → EReal := V c (Pipeline.arrRef spec9 6)
abbrev out (c : Dev nD) : S100000x2.Idx → EReal := (dat9 V c).arrAt 7 cfg9.N

/-- Tile t of o1 at (p, k) is o1 at row 5000 t + p. -/
theorem iblk_o1 (c : Dev nD) (t : Fin cfg9.N) (p : Fin 5000) (k : Fin 32) (i : S100000x32.Idx)
    (h0 : (i 0).val = 5000 * t.val + p.val) (h1 : (i 1).val = k.val) :
    (iblk9 V c 0 t : Vec Ideal S5000x32 .f32) (ix2 p k) = o1In V c i := by
  obtain ⟨e0, e1⟩ := idx_0 t
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 5000 + 1 * p.val = (i 0).val; rw [e0, h0]; omega
  | ⟨1, _⟩ => show win9_0.index t (1 : Fin 2) * 32 + 1 * k.val = (i 1).val; rw [e1, h1]; omega

/-- Tile t of o2 at (p, k) is o2 at row 5000 t + p. -/
theorem iblk_o2 (c : Dev nD) (t : Fin cfg9.N) (p : Fin 5000) (k : Fin 32) (i : S100000x32.Idx)
    (h0 : (i 0).val = 5000 * t.val + p.val) (h1 : (i 1).val = k.val) :
    (iblk9 V c 1 t : Vec Ideal S5000x32 .f32) (ix2 p k) = o2In V c i := by
  obtain ⟨e0, e1⟩ := idx_1 t
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 5000 + 1 * p.val = (i 0).val; rw [e0, h0]; omega
  | ⟨1, _⟩ => show win9_1.index t (1 : Fin 2) * 32 + 1 * k.val = (i 1).val; rw [e1, h1]; omega

/-- Tile t of o3 at (p, k) is o3 at row 5000 t + p. -/
theorem iblk_o3 (c : Dev nD) (t : Fin cfg9.N) (p : Fin 5000) (k : Fin 32) (i : S100000x32.Idx)
    (h0 : (i 0).val = 5000 * t.val + p.val) (h1 : (i 1).val = k.val) :
    (iblk9 V c 2 t : Vec Ideal S5000x32 .f32) (ix2 p k) = o3In V c i := by
  obtain ⟨e0, e1⟩ := idx_2 t
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 5000 + 1 * p.val = (i 0).val; rw [e0, h0]; omega
  | ⟨1, _⟩ => show win9_2.index t (1 : Fin 2) * 32 + 1 * k.val = (i 1).val; rw [e1, h1]; omega

/-- The one tile of w1 is w1. -/
theorem iblk_w1 (c : Dev nD) (t : Fin cfg9.N) (k : Fin 32) (j : Fin 2) :
    (iblk9 V c 3 t : Vec Ideal S32x2 .f32) (ix2 k j) = w1In V c (ix2 k j) := by
  obtain ⟨e0, e1⟩ := idx_3 t
  unfold iblk9
  rw [View.read_apply]
  show V c (Pipeline.arrRef spec9 3) _ = V c (Pipeline.arrRef spec9 3) _
  congr 1
  funext a
  apply Fin.ext
  match a with
  | ⟨0, _⟩ => show win9_3.index t (0 : Fin 2) * 32 + 1 * k.val = k.val; rw [e0]; omega
  | ⟨1, _⟩ => show win9_3.index t (1 : Fin 2) * 2 + 1 * j.val = j.val; rw [e1]; omega

/-- The one tile of w2 is w2. -/
theorem iblk_w2 (c : Dev nD) (t : Fin cfg9.N) (k : Fin 32) (j : Fin 2) :
    (iblk9 V c 4 t : Vec Ideal S32x2 .f32) (ix2 k j) = w2In V c (ix2 k j) := by
  obtain ⟨e0, e1⟩ := idx_4 t
  unfold iblk9
  rw [View.read_apply]
  show V c (Pipeline.arrRef spec9 4) _ = V c (Pipeline.arrRef spec9 4) _
  congr 1
  funext a
  apply Fin.ext
  match a with
  | ⟨0, _⟩ => show win9_4.index t (0 : Fin 2) * 32 + 1 * k.val = k.val; rw [e0]; omega
  | ⟨1, _⟩ => show win9_4.index t (1 : Fin 2) * 2 + 1 * j.val = j.val; rw [e1]; omega

/-- The one tile of w3 is w3. -/
theorem iblk_w3 (c : Dev nD) (t : Fin cfg9.N) (k : Fin 32) (j : Fin 2) :
    (iblk9 V c 5 t : Vec Ideal S32x2 .f32) (ix2 k j) = w3In V c (ix2 k j) := by
  obtain ⟨e0, e1⟩ := idx_5 t
  unfold iblk9
  rw [View.read_apply]
  show V c (Pipeline.arrRef spec9 5) _ = V c (Pipeline.arrRef spec9 5) _
  congr 1
  funext a
  apply Fin.ext
  match a with
  | ⟨0, _⟩ => show win9_5.index t (0 : Fin 2) * 32 + 1 * k.val = k.val; rw [e0]; omega
  | ⟨1, _⟩ => show win9_5.index t (1 : Fin 2) * 2 + 1 * j.val = j.val; rw [e1]; omega

/-- The one tile of the bias row at (0, j) is the row's entry j. -/
theorem iblk_bias (c : Dev nD) (t : Fin cfg9.N) (j : Fin 2) :
    (iblk9 V c 6 t : Vec Ideal S1x2 .f32) (ix2 (0 : Fin 1) j) = biasIn V c (ix2 (0 : Fin 1) j) := by
  obtain ⟨e0, e1⟩ := idx_6 t
  unfold iblk9
  rw [View.read_apply]
  show V c (Pipeline.arrRef spec9 6) _ = V c (Pipeline.arrRef spec9 6) _
  congr 1
  funext a
  apply Fin.ext
  match a with
  | ⟨0, _⟩ => show win9_6.index t (0 : Fin 2) * 1 + 1 * 0 = 0; rw [e0]
  | ⟨1, _⟩ => show win9_6.index t (1 : Fin 2) * 2 + 1 * j.val = j.val; rw [e1]; omega

/-- The written-back part of a tile is the tile: the tiles are never cut at the array's edge. -/
theorem cut_apply (t : Fin cfg9.N) (X : Vec Ideal S5000x2 .f32) (p : Fin 5000) (j : Fin 2) :
    (cfg9.win 7).cut (grid9.coords t) X (ix2 p j) = X (ix2 p j) := rfl

/-- Tile t of a whole-array function, read at (p, j), is the function at row 5000 t + p. -/
theorem read_out (t : Fin cfg9.N) (Gf : S100000x2.Idx → EReal) (p : Fin 5000) (j : Fin 2) (i : S100000x2.Idx)
    (h0 : (i 0).val = 5000 * t.val + p.val) (h1 : (i 1).val = j.val) :
    ((cfg9.win 7).blk t).view.read (Elt Ideal) Gf (ix2 p j) = Gf i := by
  obtain ⟨e0, e1⟩ := idx_7 t
  rw [View.read_apply]
  show Gf _ = Gf _
  congr 1
  funext a
  apply Fin.ext
  match a with
  | ⟨0, _⟩ => show win9_7.index t (0 : Fin 2) * 5000 + 1 * p.val = (i 0).val; rw [e0, h0]; omega
  | ⟨1, _⟩ => show win9_7.index t (1 : Fin 2) * 2 + 1 * j.val = (i 1).val; rw [e1, h1]; omega

/-- What grid point t computes at (p, j) is `G` of the seven arrays at row 5000 t + p. -/
theorem pt (c : Dev nD) (t : Fin cfg9.N) (p : Fin 5000) (j : Fin 2) (hp : 5000 * t.val + p.val < 100000) :
    k9_pay1 (iblk9 V c 0 t) (iblk9 V c 1 t) (iblk9 V c 2 t) (iblk9 V c 3 t) (iblk9 V c 4 t) (iblk9 V c 5 t) (iblk9 V c 6 t) (ix2 p j)
      = G (V c (Pipeline.arrRef spec9 0)) (V c (Pipeline.arrRef spec9 1)) (V c (Pipeline.arrRef spec9 2))
          (V c (Pipeline.arrRef spec9 3)) (V c (Pipeline.arrRef spec9 4)) (V c (Pipeline.arrRef spec9 5))
          (V c (Pipeline.arrRef spec9 6)) (ix2 ⟨5000 * t.val + p.val, hp⟩ j) :=
  (pay_apply (iblk9 V c 0 t) (iblk9 V c 1 t) (iblk9 V c 2 t) (iblk9 V c 3 t) (iblk9 V c 4 t) (iblk9 V c 5 t) (iblk9 V c 6 t) p j).trans
    (congrArg₂ (· + ·)
      (congrArg₂ (· + ·)
        (congrArg₂ (· + ·)
          (Finset.sum_congr rfl fun k _ =>
            congrArg₂ (· * ·) (iblk_o1 V c t p k (ix2 ⟨5000 * t.val + p.val, hp⟩ k) rfl rfl) (iblk_w1 V c t k j))
          (Finset.sum_congr rfl fun k _ =>
            congrArg₂ (· * ·) (iblk_o2 V c t p k (ix2 ⟨5000 * t.val + p.val, hp⟩ k) rfl rfl) (iblk_w2 V c t k j)))
        (Finset.sum_congr rfl fun k _ =>
          congrArg₂ (· * ·) (iblk_o3 V c t p k (ix2 ⟨5000 * t.val + p.val, hp⟩ k) rfl rfl) (iblk_w3 V c t k j)))
      (iblk_bias V c t j))

/-- What grid point t writes back is tile t of `G` of the seven arrays. -/
theorem flushed_eq (c : Dev nD) (t : Fin cfg9.N) :
    (dat9 V c).flushed 7 t = ((cfg9.win 7).blk t).view.read (Elt Ideal)
      (G (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))
        (V c (Pipeline.arrRef spec9 6))) := by
  show (cfg9.win 7).cut (grid9.coords t) ((dat9 V c).after 7 t) = _
  rw [after9_7]
  unfold out9_7
  rw [View.canon_unit_zero hz]
  simp only [View.ld_unit_zero (S := S5000x32) hz, View.ld_unit_zero (S := S32x2) hz, View.ld_unit_zero (S := S1x2) hz]
  funext i
  obtain ⟨p, j, rfl⟩ : ∃ (p : Fin 5000) (j : Fin 2), i = ix2 p j := ⟨i 0, i 1, eq_ix2 i⟩
  have hp : 5000 * t.val + p.val < 100000 := by
    have h1 := t.isLt
    have hN : cfg9.N = 20 := N_9
    have h2 := p.isLt
    omega
  refine (cut_apply t (k9_pay1 (iblk9 V c 0 t) (iblk9 V c 1 t) (iblk9 V c 2 t) (iblk9 V c 3 t) (iblk9 V c 4 t) (iblk9 V c 5 t) (iblk9 V c 6 t)) p j).trans ?_
  refine (pt V c t p j hp).trans ?_
  exact (read_out t _ p j (ix2 ⟨5000 * t.val + p.val, hp⟩ j) rfl rfl).symm

/-- An index of the array is in grid point t's tile iff each coordinate is in the tile's range on its axis. -/
theorem mem_blk (t : Fin cfg9.N) (i : S100000x2.Idx) :
    i ∈ ((cfg9.win 7).blk t).view.set ↔ ∀ a : Fin 2, win9_7.index t a * S5000x2.size a ≤ (i a).val ∧ (i a).val < win9_7.index t a * S5000x2.size a + S5000x2.size a := by
  show i ∈ ((View.whole main_v129).slice (win9_7.rect t)).set ↔ _
  rw [View.set_slice_whole, Rect.mem_set_unit]
  exact Iff.rfl

/-- Row r lies in the tile of grid point r / 5000: the twenty tiles cover the array. -/
theorem cover (i : S100000x2.Idx) : ∃ t : Fin cfg9.N, (cfg9.win 7).flush t = true ∧ i ∈ ((cfg9.win 7).blk t).view.set := by
  have hi0 : (i 0).val < 100000 := idx2_lt0 i
  have hi1 : (i 1).val < 2 := idx2_lt1 i
  have ht : (i 0).val / 5000 < cfg9.N := by rw [show cfg9.N = 20 from N_9]; omega
  refine ⟨⟨(i 0).val / 5000, ht⟩, flush9_7 _, ?_⟩
  rw [mem_blk]
  obtain ⟨e0, e1⟩ := idx_7 ⟨(i 0).val / 5000, ht⟩
  intro a
  match a with
  | ⟨0, _⟩ =>
    show win9_7.index ⟨(i 0).val / 5000, ht⟩ (0 : Fin 2) * 5000 ≤ (i 0).val ∧ (i 0).val < win9_7.index ⟨(i 0).val / 5000, ht⟩ (0 : Fin 2) * 5000 + 5000
    rw [e0]; dsimp only; omega
  | ⟨1, _⟩ =>
    show win9_7.index ⟨(i 0).val / 5000, ht⟩ (1 : Fin 2) * 2 ≤ (i 1).val ∧ (i 1).val < win9_7.index ⟨(i 0).val / 5000, ht⟩ (1 : Fin 2) * 2 + 2
    rw [e1]; omega

/-- The result array after the region is `G` of the seven arrays the region finds. -/
theorem arr_eq (c : Dev nD) : (dat9 V c).arrAt 7 cfg9.N
    = G (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))
        (V c (Pipeline.arrRef spec9 6)) :=
  (dat9 V c).arrAt_eq_of_cover 7
    (G (V c (Pipeline.arrRef spec9 0)) (V c (Pipeline.arrRef spec9 1)) (V c (Pipeline.arrRef spec9 2))
      (V c (Pipeline.arrRef spec9 3)) (V c (Pipeline.arrRef spec9 4)) (V c (Pipeline.arrRef spec9 5))
      (V c (Pipeline.arrRef spec9 6)))
    (fun t _ => flushed_eq V c t) cover

/-- Entry (p, j) of the result: the three products added in order, plus the bias. -/
theorem value (c : Dev nD) (p : Fin 100000) (j : Fin 2) :
    out V c (ix2 p j)
      = ((∑ k : Fin 32, o1In V c (ix2 p k) * w1In V c (ix2 k j)) + (∑ k : Fin 32, o2In V c (ix2 p k) * w2In V c (ix2 k j))
          + (∑ k : Fin 32, o3In V c (ix2 p k) * w3In V c (ix2 k j))) + biasIn V c (ix2 (0 : Fin 1) j) :=
  congrFun (arr_eq V c) (ix2 p j)

end Cert.KernelIdeal.Lin9

end
-- ==== Proof.KFinal.lean ====
/-
  The kernel program's last region, in closed form.

  The host cuts the [96, 2] weight matrix into three [32, 2] slices and turns the length-2 bias into a row; the last
  region multiplies each layer's result by its slice, adds the three products in order and adds the bias row. Read
  through the boundary contents, the array it leaves is the final linear map of the three layers' results.
-/
import proofs.«107356_j16226386444409_1_alg».proof.Proof.KLayer3
import proofs.«107356_j16226386444409_1_alg».proof.Proof.Lin9

set_option maxRecDepth 16384

noncomputable section

namespace Cert.KernelIdeal.KFinal

open Idealize.ShloMosaic Idealize.ShloMosaic.TcCoe Idealize.SL.Sem Idealize.ShloMosaic.ValueIdx
open Cert.KernelIdeal Cert.KernelIdeal.Gen Cert.KernelIdeal.KChain Cert.KernelIdeal.KGraph Cert.Gcn

variable (m : (ℓ : Loc nD τ sig) → Buf (Elt Ideal) ℓ) (ρ : Dev nD → PrngReg)

/-- The three layers' results, as the last region finds them. -/
theorem o1_eq (c : Dev nD) : Lin9.o1In (V19 m ρ) c = (kLayerOut (KLayer1.aggArr m c) (m ((c : Thread nD τ).loc main_arg4)) (m ((c : Thread nD τ).loc main_arg5)) (m ((c : Thread nD τ).loc main_arg6))) :=
  (keep_v62_19_8 m ρ c).trans (KLayer1.out m ρ c)
theorem o2_eq (c : Dev nD) : Lin9.o2In (V19 m ρ) c = (kLayerOut (KLayer2.aggArr m c) (m ((c : Thread nD τ).loc main_arg8)) (m ((c : Thread nD τ).loc main_arg9)) (m ((c : Thread nD τ).loc main_arg10))) :=
  (keep_v93_19_13 m ρ c).trans (KLayer2.out m ρ c)
theorem o3_eq (c : Dev nD) : Lin9.o3In (V19 m ρ) c = (kLayerOut (KLayer3.aggArr m c) (m ((c : Thread nD τ).loc main_arg12)) (m ((c : Thread nD τ).loc main_arg13)) (m ((c : Thread nD τ).loc main_arg14))) :=
  (keep_v124_19_18 m ρ c).trans (KLayer3.out m ρ c)

/-- The three slices of the weight matrix, -/
theorem w1_eq (c : Dev nD) : Lin9.w1In (V19 m ρ) c = extractStridedSlice S32x2 ![0, 0] (m ((c : Thread nD τ).loc main_arg15)) slices_w0 :=
  (KHost.wl0_eq (W18 m ρ c)).trans (by rw [arg15_at])
theorem w2_eq (c : Dev nD) : Lin9.w2In (V19 m ρ) c = extractStridedSlice S32x2 ![32, 0] (m ((c : Thread nD τ).loc main_arg15)) slices_w1 :=
  (KHost.wl1_eq (W18 m ρ c)).trans (by rw [arg15_at])
theorem w3_eq (c : Dev nD) : Lin9.w3In (V19 m ρ) c = extractStridedSlice S32x2 ![64, 0] (m ((c : Thread nD τ).loc main_arg15)) slices_w2 :=
  (KHost.wl2_eq (W18 m ρ c)).trans (by rw [arg15_at])

/-- and the bias as a row. -/
theorem bias_eq (c : Dev nD) : Lin9.biasIn (V19 m ρ) c = row2 (F := Ideal) (m ((c : Thread nD τ).loc main_arg16)) :=
  (KHost.bl_eq (W18 m ρ c)).trans (by rw [arg16_at])

/-- The program's result. -/
theorem out (c : Dev nD) : W20 m ρ c (Proc.devRef .tc main_v129)
    = kFinal (kLayerOut (KLayer1.aggArr m c) (m ((c : Thread nD τ).loc main_arg4)) (m ((c : Thread nD τ).loc main_arg5)) (m ((c : Thread nD τ).loc main_arg6)))
        (kLayerOut (KLayer2.aggArr m c) (m ((c : Thread nD τ).loc main_arg8)) (m ((c : Thread nD τ).loc main_arg9)) (m ((c : Thread nD τ).loc main_arg10)))
        (kLayerOut (KLayer3.aggArr m c) (m ((c : Thread nD τ).loc main_arg12)) (m ((c : Thread nD τ).loc main_arg13)) (m ((c : Thread nD τ).loc main_arg14)))
        (m ((c : Thread nD τ).loc main_arg15)) (m ((c : Thread nD τ).loc main_arg16)) := by
  refine (W20_arr m ρ c 7).trans ?_
  refine arrNx2_ext _ _ fun p j => ?_
  refine (Lin9.value (V19 m ρ) c p j).trans ?_
  rw [o1_eq, o2_eq, o3_eq, w1_eq, w2_eq, w3_eq, bias_eq]

end Cert.KernelIdeal.KFinal

end
-- ==== Proof.RefRunOps.lean ====
/-
  The reference program's @main as four consecutive lists of host operations, the outlined functions' bodies written
  at their call sites over the calls' buffer records; each window of @main is the straight line of its list.
-/
import proofs.«107356_j16226386444409_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem
open Cert.ReferenceIdeal.Facts₀

variable {F : FTy → Type} [FloatOps F]

/-- Statements of window 0 of @main, in order (62 operations). -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.binary main_arg0 main_arg3 main_v9 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v6 main_v11 (broadcastInDim S1700000x1 ![0] bcast_S1700000_S1700000x1_0 : (⟨S1700000, .i32⟩ : BufTy).Contents (Elt F) → (⟨S1700000x1, .i32⟩ : BufTy).Contents (Elt F)),
    StableHlo.ternary main_v10 main_v11 main_v8 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.unary main_v12 main_v15 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v14 : StableHlo.TRef sig ⟨S100000, .i1⟩) (.of main_v15 : StableHlo.TRef sig ⟨S100000, .f32⟩) main_call0.v1 main_call0.v2 select,
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v8 main_v24 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v25 (broadcastInDim S1700000 ![] bcast_S_S1700000 : (⟨S_, .i32⟩ : BufTy).Contents (Elt F) → (⟨S1700000, .i32⟩ : BufTy).Contents (Elt F)),
    StableHlo.binary main_v6 main_v25 main_v26 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v27 (broadcastInDim S1700000 ![] bcast_S_S1700000 : (⟨S_, .i32⟩ : BufTy).Contents (Elt F) → (⟨S1700000, .i32⟩ : BufTy).Contents (Elt F)),
    StableHlo.binary main_v6 main_v27 main_v28 (addi : (⟨S1700000, .i32⟩ : BufTy).Contents (Elt F) → (⟨S1700000, .i32⟩ : BufTy).Contents (Elt F) → (⟨S1700000, .i32⟩ : BufTy).Contents (Elt F)),
    StableHlo.ternary main_v26 main_v28 main_v6 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v29 main_v30 (broadcastInDim S1700000x1 ![0] bcast_S1700000_S1700000x1_0 : (⟨S1700000, .i32⟩ : BufTy).Contents (Elt F) → (⟨S1700000x1, .i32⟩ : BufTy).Contents (Elt F)),
    StableHlo.binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v31 main_v32 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v9 main_v38 main_v39 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v32 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v39 main_v41 main_v42 (mulf : (⟨S1700000x32, .f32⟩ : BufTy).Contents (Elt F) → (⟨S1700000x32, .f32⟩ : BufTy).Contents (Elt F) → (⟨S1700000x32, .f32⟩ : BufTy).Contents (Elt F)),
    StableHlo.nullary main_cst_8 (constant S_ .f32 0x00000000#32),
    StableHlo.unary main_cst_8 main_v43 (broadcastInDim S100000x32 ![] bcast_S_S100000x32 : (⟨S_, .f32⟩ : BufTy).Contents (Elt F) → (⟨S100000x32, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg4 main_v46 (broadcastInDim S1x32 ![1] bcast_S32_S1x32_1 : (⟨S32, .f32⟩ : BufTy).Contents (Elt F) → (⟨S1x32, .f32⟩ : BufTy).Contents (Elt F)),
    StableHlo.unary main_v46 main_v47 (broadcastInDim S100000x32 ![0, 1] bcast_S1x32_S100000x32_0_1 : (⟨S1x32, .f32⟩ : BufTy).Contents (Elt F) → (⟨S100000x32, .f32⟩ : BufTy).Contents (Elt F)),
    StableHlo.binary main_v45 main_v47 main_v48 (addf : (⟨S100000x32, .f32⟩ : BufTy).Contents (Elt F) → (⟨S100000x32, .f32⟩ : BufTy).Contents (Elt F) → (⟨S100000x32, .f32⟩ : BufTy).Contents (Elt F)) ]

set_option maxRecDepth 8192 in
set_option maxHeartbeats 4000000 in
/-- Window 0 is that straight line: the functions' definitions unfolded at their calls, sequencing reassociated. -/
theorem main_part0_eq (c : Dev nD) : main_part0 (F := F) c = StableHlo.seq ops0 := by
  simp only [main_part0, fn_where.body, fn_relu.body, fn_var.body, fn_where_0.body, StableHlo.seq, bind_assoc, pure_bind]
  rfl

theorem ops0_sub : (ops0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Statements of window 1 of @main, in order (85 operations). -/
abbrev ops1 : List (HloOp τ sig (Elt F)) :=
  [ StableHlo.TRef.nullary main_call1.cst (constant S_ .f32 0x00000000#32),
    StableHlo.TRef.unary main_call1.cst main_call1.v0 (broadcastInDim S100000x32 ![] bcast_S_S100000x32),
    StableHlo.TRef.binary (.of main_v48 : StableHlo.TRef sig ⟨S100000x32, .f32⟩) main_call1.v0 main_call1.v1 maximumf,
    StableHlo.nullary main_cst_9 (constant S_ .f32 0x00000000#32),
    StableHlo.binary main_v49 main_cst_9 main_v50 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_10 (constant S_ .f32 0x47C35000#32),
    StableHlo.unary main_cst_10 main_v51 (broadcastInDim S32 ![] bcast_S_S32 : (⟨S_, .f32⟩ : BufTy).Contents (Elt F) → (⟨S32, .f32⟩ : BufTy).Contents (Elt F)),
    StableHlo.binary main_v50 main_v51 main_v52 (Host.divf : (⟨S32, .f32⟩ : BufTy).Contents (Elt F) → (⟨S32, .f32⟩ : BufTy).Contents (Elt F) → (⟨S32, .f32⟩ : BufTy).Contents (Elt F)),
    StableHlo.nullary main_c_11 (constantI S_ 32 0#32),
    StableHlo.TRef.nullary main_call2.cst (constant S_ .f32 0x00000000#32),
    StableHlo.TRef.binary (.of main_v49 : StableHlo.TRef sig ⟨S100000x32, .f32⟩) main_call2.cst main_call2.v0 (fun x v => Host.reduceAdd x v reducesTo_S100000x32_S32_d0 h_S_),
    StableHlo.TRef.unary main_call2.v0 main_call2.v1 (broadcastInDim S1x32 ![1] bcast_S32_S1x32_1),
    StableHlo.TRef.nullary main_call2.cst_0 (constant S_ .f32 0x47C35000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S100000x32 ![0, 1] bcast_S1x32_S100000x32_0_1),
    StableHlo.TRef.binary (.of main_v49 : StableHlo.TRef sig ⟨S100000x32, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v52 main_v54 (broadcastInDim S1x32 ![1] bcast_S32_S1x32_1 : (⟨S32, .f32⟩ : BufTy).Contents (Elt F) → (⟨S1x32, .f32⟩ : BufTy).Contents (Elt F)),
    StableHlo.unary main_v54 main_v55 (broadcastInDim S100000x32 ![0, 1] bcast_S1x32_S100000x32_0_1 : (⟨S1x32, .f32⟩ : BufTy).Contents (Elt F) → (⟨S100000x32, .f32⟩ : BufTy).Contents (Elt F)),
    StableHlo.binary main_v49 main_v55 main_v56 (subf : (⟨S100000x32, .f32⟩ : BufTy).Contents (Elt F) → (⟨S100000x32, .f32⟩ : BufTy).Contents (Elt F) → (⟨S100000x32, .f32⟩ : BufTy).Contents (Elt F)),
    StableHlo.nullary main_cst_12 (constant S_ .f32 0x3727C5AC#32),
    StableHlo.unary main_cst_12 main_v57 (broadcastInDim S32 ![] bcast_S_S32 : (⟨S_, .f32⟩ : BufTy).Contents (Elt F) → (⟨S32, .f32⟩ : BufTy).Contents (Elt F)),
    StableHlo.binary main_v53 main_v57 main_v58 (addf : (⟨S32, .f32⟩ : BufTy).Contents (Elt F) → (⟨S32, .f32⟩ : BufTy).Contents (Elt F) → (⟨S32, .f32⟩ : BufTy).Contents (Elt F)),
    StableHlo.unary main_v58 main_v59 (Host.rsqrt : (⟨S32, .f32⟩ : BufTy).Contents (Elt F) → (⟨S32, .f32⟩ : BufTy).Contents (Elt F)),
    StableHlo.unary main_v59 main_v60 (broadcastInDim S1x32 ![1] bcast_S32_S1x32_1 : (⟨S32, .f32⟩ : BufTy).Contents (Elt F) → (⟨S1x32, .f32⟩ : BufTy).Contents (Elt F)),
    StableHlo.unary main_v60 main_v61 (broadcastInDim S100000x32 ![0, 1] bcast_S1x32_S100000x32_0_1 : (⟨S1x32, .f32⟩ : BufTy).Contents (Elt F) → (⟨S100000x32, .f32⟩ : BufTy).Contents (Elt F)),
    StableHlo.binary main_v56 main_v61 main_v62 (mulf : (⟨S100000x32, .f32⟩ : BufTy).Contents (Elt F) → (⟨S100000x32, .f32⟩ : BufTy).Contents (Elt F) → (⟨S100000x32, .f32⟩ : BufTy).Contents (Elt F)),
    StableHlo.unary main_arg5 main_v63 (broadcastInDim S1x32 ![1] bcast_S32_S1x32_1 : (⟨S32, .f32⟩ : BufTy).Contents (Elt F) → (⟨S1x32, .f32⟩ : BufTy).Contents (Elt F)),
    StableHlo.unary main_v63 main_v64 (broadcastInDim S100000x32 ![0, 1] bcast_S1x32_S100000x32_0_1 : (⟨S1x32, .f32⟩ : BufTy).Contents (Elt F) → (⟨S100000x32, .f32⟩ : BufTy).Contents (Elt F)),
    StableHlo.binary main_v62 main_v64 main_v65 (mulf : (⟨S100000x32, .f32⟩ : BufTy).Contents (Elt F) → (⟨S100000x32, .f32⟩ : BufTy).Contents (Elt F) → (⟨S100000x32, .f32⟩ : BufTy).Contents (Elt F)),
    StableHlo.unary main_arg6 main_v66 (broadcastInDim S1x32 ![1] bcast_S32_S1x32_1 : (⟨S32, .f32⟩ : BufTy).Contents (Elt F) → (⟨S1x32, .f32⟩ : BufTy).Contents (Elt F)),
    StableHlo.unary main_v66 main_v67 (broadcastInDim S100000x32 ![0, 1] bcast_S1x32_S100000x32_0_1 : (⟨S1x32, .f32⟩ : BufTy).Contents (Elt F) → (⟨S100000x32, .f32⟩ : BufTy).Contents (Elt F)),
    StableHlo.binary main_v65 main_v67 main_v68 (addf : (⟨S100000x32, .f32⟩ : BufTy).Contents (Elt F) → (⟨S100000x32, .f32⟩ : BufTy).Contents (Elt F) → (⟨S100000x32, .f32⟩ : BufTy).Contents (Elt F)),
    StableHlo.binary main_v68 main_arg7 main_v69 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_cst_13 (constant S_ .f32 0x00000000#32),
    StableHlo.unary main_cst_13 main_v70 (broadcastInDim S100000 ![] bcast_S_S100000 : (⟨S_, .f32⟩ : BufTy).Contents (Elt F) → (⟨S100000, .f32⟩ : BufTy).Contents (Elt F)),
    StableHlo.unary main_v6 main_v71 (broadcastInDim S1700000x1 ![0] bcast_S1700000_S1700000x1_0 : (⟨S1700000, .i32⟩ : BufTy).Contents (Elt F) → (⟨S1700000x1, .i32⟩ : BufTy).Contents (Elt F)),
    StableHlo.ternary main_v70 main_v71 main_v8 main_v72 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_14 (constant S_ .f32 0x00000000#32),
    StableHlo.unary main_cst_14 main_v73 (broadcastInDim S100000 ![] bcast_S_S100000 : (⟨S_, .f32⟩ : BufTy).Contents (Elt F) → (⟨S100000, .f32⟩ : BufTy).Contents (Elt F)),
    StableHlo.binary main_v72 main_v73 main_v74 (cmpf .ogt : (⟨S100000, .f32⟩ : BufTy).Contents (Elt F) → (⟨S100000, .f32⟩ : BufTy).Contents (Elt F) → (⟨S100000, .i1⟩ : BufTy).Contents (Elt F)),
    StableHlo.unary main_v72 main_v75 (Host.rsqrt : (⟨S100000, .f32⟩ : BufTy).Contents (Elt F) → (⟨S100000, .f32⟩ : BufTy).Contents (Elt F)),
    StableHlo.nullary main_cst_15 (constant S_ .f32 0x00000000#32),
    StableHlo.TRef.unary (.of main_cst_15 : StableHlo.TRef sig ⟨S_, .f32⟩) main_call3.v0 id,
    StableHlo.TRef.unary main_call3.v0 main_call3.v1 (broadcastInDim S100000 ![] bcast_S_S100000),
    StableHlo.TRef.ternary (.of main_v74 : StableHlo.TRef sig ⟨S100000, .i1⟩) (.of main_v75 : StableHlo.TRef sig ⟨S100000, .f32⟩) main_call3.v1 main_call3.v2 select,
    StableHlo.nullary main_c_16 (constantI S_ 32 0#32),
    StableHlo.unary main_c_16 main_v77 (broadcastInDim S1700000 ![] bcast_S_S1700000 : (⟨S_, .i32⟩ : BufTy).Contents (Elt F) → (⟨S1700000, .i32⟩ : BufTy).Contents (Elt F)),
    StableHlo.binary main_v3 main_v77 main_v78 (cmpi .slt : (⟨S1700000, .i32⟩ : BufTy).Contents (Elt F) → (⟨S1700000, .i32⟩ : BufTy).Contents (Elt F) → (⟨S1700000, .i1⟩ : BufTy).Contents (Elt F)),
    StableHlo.nullary main_c_17 (constantI S_ 32 100000#32),
    StableHlo.unary main_c_17 main_v79 (broadcastInDim S1700000 ![] bcast_S_S1700000 : (⟨S_, .i32⟩ : BufTy).Contents (Elt F) → (⟨S1700000, .i32⟩ : BufTy).Contents (Elt F)),
    StableHlo.binary main_v3 main_v79 main_v80 (addi : (⟨S1700000, .i32⟩ : BufTy).Contents (Elt F) → (⟨S1700000, .i32⟩ : BufTy).Contents (Elt F) → (⟨S1700000, .i32⟩ : BufTy).Contents (Elt F)),
    StableHlo.ternary main_v78 main_v80 main_v3 main_v81 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v81 main_v82 (broadcastInDim S1700000x1 ![0] bcast_S1700000_S1700000x1_0 : (⟨S1700000, .i32⟩ : BufTy).Contents (Elt F) → (⟨S1700000x1, .i32⟩ : BufTy).Contents (Elt F)),
    StableHlo.binary main_v76 main_v82 main_v83 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v83 main_v8 main_v84 (mulf : (⟨S1700000, .f32⟩ : BufTy).Contents (Elt F) → (⟨S1700000, .f32⟩ : BufTy).Contents (Elt F) → (⟨S1700000, .f32⟩ : BufTy).Contents (Elt F)),
    StableHlo.nullary main_c_18 (constantI S_ 32 0#32),
    StableHlo.unary main_c_18 main_v85 (broadcastInDim S1700000 ![] bcast_S_S1700000 : (⟨S_, .i32⟩ : BufTy).Contents (Elt F) → (⟨S1700000, .i32⟩ : BufTy).Contents (Elt F)),
    StableHlo.binary main_v6 main_v85 main_v86 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v87 (broadcastInDim S1700000 ![] bcast_S_S1700000 : (⟨S_, .i32⟩ : BufTy).Contents (Elt F) → (⟨S1700000, .i32⟩ : BufTy).Contents (Elt F)),
    StableHlo.binary main_v6 main_v87 main_v88 (addi : (⟨S1700000, .i32⟩ : BufTy).Contents (Elt F) → (⟨S1700000, .i32⟩ : BufTy).Contents (Elt F) → (⟨S1700000, .i32⟩ : BufTy).Contents (Elt F)),
    StableHlo.ternary main_v86 main_v88 main_v6 main_v89 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v89 main_v90 (broadcastInDim S1700000x1 ![0] bcast_S1700000_S1700000x1_0 : (⟨S1700000, .i32⟩ : BufTy).Contents (Elt F) → (⟨S1700000x1, .i32⟩ : BufTy).Contents (Elt F)),
    StableHlo.binary main_v76 main_v90 main_v91 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v84 main_v91 main_v92 (mulf : (⟨S1700000, .f32⟩ : BufTy).Contents (Elt F) → (⟨S1700000, .f32⟩ : BufTy).Contents (Elt F) → (⟨S1700000, .f32⟩ : BufTy).Contents (Elt F)),
    StableHlo.nullary main_c_20 (constantI S_ 32 0#32),
    StableHlo.unary main_c_20 main_v93 (broadcastInDim S1700000 ![] bcast_S_S1700000 : (⟨S_, .i32⟩ : BufTy).Contents (Elt F) → (⟨S1700000, .i32⟩ : BufTy).Contents (Elt F)),
    StableHlo.binary main_v3 main_v93 main_v94 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v95 (broadcastInDim S1700000 ![] bcast_S_S1700000 : (⟨S_, .i32⟩ : BufTy).Contents (Elt F) → (⟨S1700000, .i32⟩ : BufTy).Contents (Elt F)) ]

set_option maxRecDepth 8192 in
set_option maxHeartbeats 4000000 in
/-- Window 1 is that straight line: the functions' definitions unfolded at their calls, sequencing reassociated. -/
theorem main_part1_eq (c : Dev nD) : main_part1 (F := F) c = StableHlo.seq ops1 := by
  simp only [main_part1, fn_where.body, fn_relu.body, fn_var.body, fn_where_0.body, StableHlo.seq, bind_assoc, pure_bind]
  rfl

theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Statements of window 2 of @main, in order (85 operations). -/
abbrev ops2 : List (HloOp τ sig (Elt F)) :=
  [ StableHlo.binary main_v3 main_v95 main_v96 (addi : (⟨S1700000, .i32⟩ : BufTy).Contents (Elt F) → (⟨S1700000, .i32⟩ : BufTy).Contents (Elt F) → (⟨S1700000, .i32⟩ : BufTy).Contents (Elt F)),
    StableHlo.ternary main_v94 main_v96 main_v3 main_v97 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v97 main_v98 (broadcastInDim S1700000x1 ![0] bcast_S1700000_S1700000x1_0 : (⟨S1700000, .i32⟩ : BufTy).Contents (Elt F) → (⟨S1700000x1, .i32⟩ : BufTy).Contents (Elt F)),
    StableHlo.binary main_v69 main_v98 main_v99 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v92 main_v100 (broadcastInDim S1700000x1 ![0] bcast_S1700000_S1700000x1_0 : (⟨S1700000, .f32⟩ : BufTy).Contents (Elt F) → (⟨S1700000x1, .f32⟩ : BufTy).Contents (Elt F)),
    StableHlo.unary main_v100 main_v101 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v99 main_v101 main_v102 (mulf : (⟨S1700000x32, .f32⟩ : BufTy).Contents (Elt F) → (⟨S1700000x32, .f32⟩ : BufTy).Contents (Elt F) → (⟨S1700000x32, .f32⟩ : BufTy).Contents (Elt F)),
    StableHlo.nullary main_cst_22 (constant S_ .f32 0x00000000#32),
    StableHlo.unary main_cst_22 main_v103 (broadcastInDim S100000x32 ![] bcast_S_S100000x32 : (⟨S_, .f32⟩ : BufTy).Contents (Elt F) → (⟨S100000x32, .f32⟩ : BufTy).Contents (Elt F)),
    StableHlo.unary main_v6 main_v104 (broadcastInDim S1700000x1 ![0] bcast_S1700000_S1700000x1_0 : (⟨S1700000, .i32⟩ : BufTy).Contents (Elt F) → (⟨S1700000x1, .i32⟩ : BufTy).Contents (Elt F)),
    StableHlo.ternary main_v103 main_v104 main_v102 main_v105 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg8 main_v106 (broadcastInDim S1x32 ![1] bcast_S32_S1x32_1 : (⟨S32, .f32⟩ : BufTy).Contents (Elt F) → (⟨S1x32, .f32⟩ : BufTy).Contents (Elt F)),
    StableHlo.unary main_v106 main_v107 (broadcastInDim S100000x32 ![0, 1] bcast_S1x32_S100000x32_0_1 : (⟨S1x32, .f32⟩ : BufTy).Contents (Elt F) → (⟨S100000x32, .f32⟩ : BufTy).Contents (Elt F)),
    StableHlo.binary main_v105 main_v107 main_v108 (addf : (⟨S100000x32, .f32⟩ : BufTy).Contents (Elt F) → (⟨S100000x32, .f32⟩ : BufTy).Contents (Elt F) → (⟨S100000x32, .f32⟩ : BufTy).Contents (Elt F)),
    StableHlo.TRef.nullary main_call4.cst (constant S_ .f32 0x00000000#32),
    StableHlo.TRef.unary main_call4.cst main_call4.v0 (broadcastInDim S100000x32 ![] bcast_S_S100000x32),
    StableHlo.TRef.binary (.of main_v108 : StableHlo.TRef sig ⟨S100000x32, .f32⟩) main_call4.v0 main_call4.v1 maximumf,
    StableHlo.nullary main_cst_23 (constant S_ .f32 0x00000000#32),
    StableHlo.binary main_v109 main_cst_23 main_v110 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_24 (constant S_ .f32 0x47C35000#32),
    StableHlo.unary main_cst_24 main_v111 (broadcastInDim S32 ![] bcast_S_S32 : (⟨S_, .f32⟩ : BufTy).Contents (Elt F) → (⟨S32, .f32⟩ : BufTy).Contents (Elt F)),
    StableHlo.binary main_v110 main_v111 main_v112 (Host.divf : (⟨S32, .f32⟩ : BufTy).Contents (Elt F) → (⟨S32, .f32⟩ : BufTy).Contents (Elt F) → (⟨S32, .f32⟩ : BufTy).Contents (Elt F)),
    StableHlo.nullary main_c_25 (constantI S_ 32 0#32),
    StableHlo.TRef.nullary main_call5.cst (constant S_ .f32 0x00000000#32),
    StableHlo.TRef.binary (.of main_v109 : StableHlo.TRef sig ⟨S100000x32, .f32⟩) main_call5.cst main_call5.v0 (fun x v => Host.reduceAdd x v reducesTo_S100000x32_S32_d0 h_S_),
    StableHlo.TRef.unary main_call5.v0 main_call5.v1 (broadcastInDim S1x32 ![1] bcast_S32_S1x32_1),
    StableHlo.TRef.nullary main_call5.cst_0 (constant S_ .f32 0x47C35000#32),
    StableHlo.TRef.unary main_call5.cst_0 main_call5.v2 (broadcastInDim S1x32 ![] bcast_S_S1x32),
    StableHlo.TRef.binary main_call5.v1 main_call5.v2 main_call5.v3 Host.divf,
    StableHlo.TRef.unary main_call5.v3 main_call5.v4 (broadcastInDim S100000x32 ![0, 1] bcast_S1x32_S100000x32_0_1),
    StableHlo.TRef.binary (.of main_v109 : StableHlo.TRef sig ⟨S100000x32, .f32⟩) main_call5.v4 main_call5.v5 subf,
    StableHlo.TRef.binary main_call5.v5 main_call5.v5 main_call5.v6 mulf,
    StableHlo.TRef.unary (.of main_c_25 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x32_S32_d0 h_S_),
    StableHlo.TRef.unary main_call5.v8 main_call5.v10 (broadcastInDim S32 ![] bcast_S_S32),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S32 ![] bcast_S_S32),
    StableHlo.TRef.ternary main_call5.v12 main_call5.v11 main_call5.call0.v1 main_call5.call0.v2 (fun p a b => select (broadcastInDim S32 ![] bcast_S_S32 p) a b),
    StableHlo.unary main_v112 main_v114 (broadcastInDim S1x32 ![1] bcast_S32_S1x32_1 : (⟨S32, .f32⟩ : BufTy).Contents (Elt F) → (⟨S1x32, .f32⟩ : BufTy).Contents (Elt F)),
    StableHlo.unary main_v114 main_v115 (broadcastInDim S100000x32 ![0, 1] bcast_S1x32_S100000x32_0_1 : (⟨S1x32, .f32⟩ : BufTy).Contents (Elt F) → (⟨S100000x32, .f32⟩ : BufTy).Contents (Elt F)),
    StableHlo.binary main_v109 main_v115 main_v116 (subf : (⟨S100000x32, .f32⟩ : BufTy).Contents (Elt F) → (⟨S100000x32, .f32⟩ : BufTy).Contents (Elt F) → (⟨S100000x32, .f32⟩ : BufTy).Contents (Elt F)),
    StableHlo.nullary main_cst_26 (constant S_ .f32 0x3727C5AC#32),
    StableHlo.unary main_cst_26 main_v117 (broadcastInDim S32 ![] bcast_S_S32 : (⟨S_, .f32⟩ : BufTy).Contents (Elt F) → (⟨S32, .f32⟩ : BufTy).Contents (Elt F)),
    StableHlo.binary main_v113 main_v117 main_v118 (addf : (⟨S32, .f32⟩ : BufTy).Contents (Elt F) → (⟨S32, .f32⟩ : BufTy).Contents (Elt F) → (⟨S32, .f32⟩ : BufTy).Contents (Elt F)),
    StableHlo.unary main_v118 main_v119 (Host.rsqrt : (⟨S32, .f32⟩ : BufTy).Contents (Elt F) → (⟨S32, .f32⟩ : BufTy).Contents (Elt F)),
    StableHlo.unary main_v119 main_v120 (broadcastInDim S1x32 ![1] bcast_S32_S1x32_1 : (⟨S32, .f32⟩ : BufTy).Contents (Elt F) → (⟨S1x32, .f32⟩ : BufTy).Contents (Elt F)),
    StableHlo.unary main_v120 main_v121 (broadcastInDim S100000x32 ![0, 1] bcast_S1x32_S100000x32_0_1 : (⟨S1x32, .f32⟩ : BufTy).Contents (Elt F) → (⟨S100000x32, .f32⟩ : BufTy).Contents (Elt F)),
    StableHlo.binary main_v116 main_v121 main_v122 (mulf : (⟨S100000x32, .f32⟩ : BufTy).Contents (Elt F) → (⟨S100000x32, .f32⟩ : BufTy).Contents (Elt F) → (⟨S100000x32, .f32⟩ : BufTy).Contents (Elt F)),
    StableHlo.unary main_arg9 main_v123 (broadcastInDim S1x32 ![1] bcast_S32_S1x32_1 : (⟨S32, .f32⟩ : BufTy).Contents (Elt F) → (⟨S1x32, .f32⟩ : BufTy).Contents (Elt F)),
    StableHlo.unary main_v123 main_v124 (broadcastInDim S100000x32 ![0, 1] bcast_S1x32_S100000x32_0_1 : (⟨S1x32, .f32⟩ : BufTy).Contents (Elt F) → (⟨S100000x32, .f32⟩ : BufTy).Contents (Elt F)),
    StableHlo.binary main_v122 main_v124 main_v125 (mulf : (⟨S100000x32, .f32⟩ : BufTy).Contents (Elt F) → (⟨S100000x32, .f32⟩ : BufTy).Contents (Elt F) → (⟨S100000x32, .f32⟩ : BufTy).Contents (Elt F)),
    StableHlo.unary main_arg10 main_v126 (broadcastInDim S1x32 ![1] bcast_S32_S1x32_1 : (⟨S32, .f32⟩ : BufTy).Contents (Elt F) → (⟨S1x32, .f32⟩ : BufTy).Contents (Elt F)),
    StableHlo.unary main_v126 main_v127 (broadcastInDim S100000x32 ![0, 1] bcast_S1x32_S100000x32_0_1 : (⟨S1x32, .f32⟩ : BufTy).Contents (Elt F) → (⟨S100000x32, .f32⟩ : BufTy).Contents (Elt F)),
    StableHlo.binary main_v125 main_v127 main_v128 (addf : (⟨S100000x32, .f32⟩ : BufTy).Contents (Elt F) → (⟨S100000x32, .f32⟩ : BufTy).Contents (Elt F) → (⟨S100000x32, .f32⟩ : BufTy).Contents (Elt F)),
    StableHlo.binary main_v128 main_arg11 main_v129 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_cst_27 (constant S_ .f32 0x00000000#32),
    StableHlo.unary main_cst_27 main_v130 (broadcastInDim S100000 ![] bcast_S_S100000 : (⟨S_, .f32⟩ : BufTy).Contents (Elt F) → (⟨S100000, .f32⟩ : BufTy).Contents (Elt F)),
    StableHlo.unary main_v6 main_v131 (broadcastInDim S1700000x1 ![0] bcast_S1700000_S1700000x1_0 : (⟨S1700000, .i32⟩ : BufTy).Contents (Elt F) → (⟨S1700000x1, .i32⟩ : BufTy).Contents (Elt F)),
    StableHlo.ternary main_v130 main_v131 main_v8 main_v132 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_28 (constant S_ .f32 0x00000000#32),
    StableHlo.unary main_cst_28 main_v133 (broadcastInDim S100000 ![] bcast_S_S100000 : (⟨S_, .f32⟩ : BufTy).Contents (Elt F) → (⟨S100000, .f32⟩ : BufTy).Contents (Elt F)),
    StableHlo.binary main_v132 main_v133 main_v134 (cmpf .ogt : (⟨S100000, .f32⟩ : BufTy).Contents (Elt F) → (⟨S100000, .f32⟩ : BufTy).Contents (Elt F) → (⟨S100000, .i1⟩ : BufTy).Contents (Elt F)),
    StableHlo.unary main_v132 main_v135 (Host.rsqrt : (⟨S100000, .f32⟩ : BufTy).Contents (Elt F) → (⟨S100000, .f32⟩ : BufTy).Contents (Elt F)),
    StableHlo.nullary main_cst_29 (constant S_ .f32 0x00000000#32),
    StableHlo.TRef.unary (.of main_cst_29 : StableHlo.TRef sig ⟨S_, .f32⟩) main_call6.v0 id,
    StableHlo.TRef.unary main_call6.v0 main_call6.v1 (broadcastInDim S100000 ![] bcast_S_S100000),
    StableHlo.TRef.ternary (.of main_v134 : StableHlo.TRef sig ⟨S100000, .i1⟩) (.of main_v135 : StableHlo.TRef sig ⟨S100000, .f32⟩) main_call6.v1 main_call6.v2 select,
    StableHlo.nullary main_c_30 (constantI S_ 32 0#32),
    StableHlo.unary main_c_30 main_v137 (broadcastInDim S1700000 ![] bcast_S_S1700000 : (⟨S_, .i32⟩ : BufTy).Contents (Elt F) → (⟨S1700000, .i32⟩ : BufTy).Contents (Elt F)),
    StableHlo.binary main_v3 main_v137 main_v138 (cmpi .slt : (⟨S1700000, .i32⟩ : BufTy).Contents (Elt F) → (⟨S1700000, .i32⟩ : BufTy).Contents (Elt F) → (⟨S1700000, .i1⟩ : BufTy).Contents (Elt F)),
    StableHlo.nullary main_c_31 (constantI S_ 32 100000#32),
    StableHlo.unary main_c_31 main_v139 (broadcastInDim S1700000 ![] bcast_S_S1700000 : (⟨S_, .i32⟩ : BufTy).Contents (Elt F) → (⟨S1700000, .i32⟩ : BufTy).Contents (Elt F)),
    StableHlo.binary main_v3 main_v139 main_v140 (addi : (⟨S1700000, .i32⟩ : BufTy).Contents (Elt F) → (⟨S1700000, .i32⟩ : BufTy).Contents (Elt F) → (⟨S1700000, .i32⟩ : BufTy).Contents (Elt F)),
    StableHlo.ternary main_v138 main_v140 main_v3 main_v141 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v141 main_v142 (broadcastInDim S1700000x1 ![0] bcast_S1700000_S1700000x1_0 : (⟨S1700000, .i32⟩ : BufTy).Contents (Elt F) → (⟨S1700000x1, .i32⟩ : BufTy).Contents (Elt F)),
    StableHlo.binary main_v136 main_v142 main_v143 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v143 main_v8 main_v144 (mulf : (⟨S1700000, .f32⟩ : BufTy).Contents (Elt F) → (⟨S1700000, .f32⟩ : BufTy).Contents (Elt F) → (⟨S1700000, .f32⟩ : BufTy).Contents (Elt F)),
    StableHlo.nullary main_c_32 (constantI S_ 32 0#32) ]

set_option maxRecDepth 8192 in
set_option maxHeartbeats 4000000 in
/-- Window 2 is that straight line: the functions' definitions unfolded at their calls, sequencing reassociated. -/
theorem main_part2_eq (c : Dev nD) : main_part2 (F := F) c = StableHlo.seq ops2 := by
  simp only [main_part2, fn_where.body, fn_relu.body, fn_var.body, fn_where_0.body, StableHlo.seq, bind_assoc, pure_bind]
  rfl

theorem ops2_sub : (ops2 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Statements of window 3 of @main, in order (80 operations). -/
abbrev ops3 : List (HloOp τ sig (Elt F)) :=
  [ StableHlo.unary main_c_32 main_v145 (broadcastInDim S1700000 ![] bcast_S_S1700000 : (⟨S_, .i32⟩ : BufTy).Contents (Elt F) → (⟨S1700000, .i32⟩ : BufTy).Contents (Elt F)),
    StableHlo.binary main_v6 main_v145 main_v146 (cmpi .slt : (⟨S1700000, .i32⟩ : BufTy).Contents (Elt F) → (⟨S1700000, .i32⟩ : BufTy).Contents (Elt F) → (⟨S1700000, .i1⟩ : BufTy).Contents (Elt F)),
    StableHlo.nullary main_c_33 (constantI S_ 32 100000#32),
    StableHlo.unary main_c_33 main_v147 (broadcastInDim S1700000 ![] bcast_S_S1700000 : (⟨S_, .i32⟩ : BufTy).Contents (Elt F) → (⟨S1700000, .i32⟩ : BufTy).Contents (Elt F)),
    StableHlo.binary main_v6 main_v147 main_v148 (addi : (⟨S1700000, .i32⟩ : BufTy).Contents (Elt F) → (⟨S1700000, .i32⟩ : BufTy).Contents (Elt F) → (⟨S1700000, .i32⟩ : BufTy).Contents (Elt F)),
    StableHlo.ternary main_v146 main_v148 main_v6 main_v149 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v149 main_v150 (broadcastInDim S1700000x1 ![0] bcast_S1700000_S1700000x1_0 : (⟨S1700000, .i32⟩ : BufTy).Contents (Elt F) → (⟨S1700000x1, .i32⟩ : BufTy).Contents (Elt F)),
    StableHlo.binary main_v136 main_v150 main_v151 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v144 main_v151 main_v152 (mulf : (⟨S1700000, .f32⟩ : BufTy).Contents (Elt F) → (⟨S1700000, .f32⟩ : BufTy).Contents (Elt F) → (⟨S1700000, .f32⟩ : BufTy).Contents (Elt F)),
    StableHlo.nullary main_c_34 (constantI S_ 32 0#32),
    StableHlo.unary main_c_34 main_v153 (broadcastInDim S1700000 ![] bcast_S_S1700000 : (⟨S_, .i32⟩ : BufTy).Contents (Elt F) → (⟨S1700000, .i32⟩ : BufTy).Contents (Elt F)),
    StableHlo.binary main_v3 main_v153 main_v154 (cmpi .slt : (⟨S1700000, .i32⟩ : BufTy).Contents (Elt F) → (⟨S1700000, .i32⟩ : BufTy).Contents (Elt F) → (⟨S1700000, .i1⟩ : BufTy).Contents (Elt F)),
    StableHlo.nullary main_c_35 (constantI S_ 32 100000#32),
    StableHlo.unary main_c_35 main_v155 (broadcastInDim S1700000 ![] bcast_S_S1700000 : (⟨S_, .i32⟩ : BufTy).Contents (Elt F) → (⟨S1700000, .i32⟩ : BufTy).Contents (Elt F)),
    StableHlo.binary main_v3 main_v155 main_v156 (addi : (⟨S1700000, .i32⟩ : BufTy).Contents (Elt F) → (⟨S1700000, .i32⟩ : BufTy).Contents (Elt F) → (⟨S1700000, .i32⟩ : BufTy).Contents (Elt F)),
    StableHlo.ternary main_v154 main_v156 main_v3 main_v157 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v157 main_v158 (broadcastInDim S1700000x1 ![0] bcast_S1700000_S1700000x1_0 : (⟨S1700000, .i32⟩ : BufTy).Contents (Elt F) → (⟨S1700000x1, .i32⟩ : BufTy).Contents (Elt F)),
    StableHlo.binary main_v129 main_v158 main_v159 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v152 main_v160 (broadcastInDim S1700000x1 ![0] bcast_S1700000_S1700000x1_0 : (⟨S1700000, .f32⟩ : BufTy).Contents (Elt F) → (⟨S1700000x1, .f32⟩ : BufTy).Contents (Elt F)),
    StableHlo.unary main_v160 main_v161 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v159 main_v161 main_v162 (mulf : (⟨S1700000x32, .f32⟩ : BufTy).Contents (Elt F) → (⟨S1700000x32, .f32⟩ : BufTy).Contents (Elt F) → (⟨S1700000x32, .f32⟩ : BufTy).Contents (Elt F)),
    StableHlo.nullary main_cst_36 (constant S_ .f32 0x00000000#32),
    StableHlo.unary main_cst_36 main_v163 (broadcastInDim S100000x32 ![] bcast_S_S100000x32 : (⟨S_, .f32⟩ : BufTy).Contents (Elt F) → (⟨S100000x32, .f32⟩ : BufTy).Contents (Elt F)),
    StableHlo.unary main_v6 main_v164 (broadcastInDim S1700000x1 ![0] bcast_S1700000_S1700000x1_0 : (⟨S1700000, .i32⟩ : BufTy).Contents (Elt F) → (⟨S1700000x1, .i32⟩ : BufTy).Contents (Elt F)),
    StableHlo.ternary main_v163 main_v164 main_v162 main_v165 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg12 main_v166 (broadcastInDim S1x32 ![1] bcast_S32_S1x32_1 : (⟨S32, .f32⟩ : BufTy).Contents (Elt F) → (⟨S1x32, .f32⟩ : BufTy).Contents (Elt F)),
    StableHlo.unary main_v166 main_v167 (broadcastInDim S100000x32 ![0, 1] bcast_S1x32_S100000x32_0_1 : (⟨S1x32, .f32⟩ : BufTy).Contents (Elt F) → (⟨S100000x32, .f32⟩ : BufTy).Contents (Elt F)),
    StableHlo.binary main_v165 main_v167 main_v168 (addf : (⟨S100000x32, .f32⟩ : BufTy).Contents (Elt F) → (⟨S100000x32, .f32⟩ : BufTy).Contents (Elt F) → (⟨S100000x32, .f32⟩ : BufTy).Contents (Elt F)),
    StableHlo.TRef.nullary main_call7.cst (constant S_ .f32 0x00000000#32),
    StableHlo.TRef.unary main_call7.cst main_call7.v0 (broadcastInDim S100000x32 ![] bcast_S_S100000x32),
    StableHlo.TRef.binary (.of main_v168 : StableHlo.TRef sig ⟨S100000x32, .f32⟩) main_call7.v0 main_call7.v1 maximumf,
    StableHlo.nullary main_cst_37 (constant S_ .f32 0x00000000#32),
    StableHlo.binary main_v169 main_cst_37 main_v170 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_38 (constant S_ .f32 0x47C35000#32),
    StableHlo.unary main_cst_38 main_v171 (broadcastInDim S32 ![] bcast_S_S32 : (⟨S_, .f32⟩ : BufTy).Contents (Elt F) → (⟨S32, .f32⟩ : BufTy).Contents (Elt F)),
    StableHlo.binary main_v170 main_v171 main_v172 (Host.divf : (⟨S32, .f32⟩ : BufTy).Contents (Elt F) → (⟨S32, .f32⟩ : BufTy).Contents (Elt F) → (⟨S32, .f32⟩ : BufTy).Contents (Elt F)),
    StableHlo.nullary main_c_39 (constantI S_ 32 0#32),
    StableHlo.TRef.nullary main_call8.cst (constant S_ .f32 0x00000000#32),
    StableHlo.TRef.binary (.of main_v169 : StableHlo.TRef sig ⟨S100000x32, .f32⟩) main_call8.cst main_call8.v0 (fun x v => Host.reduceAdd x v reducesTo_S100000x32_S32_d0 h_S_),
    StableHlo.TRef.unary main_call8.v0 main_call8.v1 (broadcastInDim S1x32 ![1] bcast_S32_S1x32_1),
    StableHlo.TRef.nullary main_call8.cst_0 (constant S_ .f32 0x47C35000#32),
    StableHlo.TRef.unary main_call8.cst_0 main_call8.v2 (broadcastInDim S1x32 ![] bcast_S_S1x32),
    StableHlo.TRef.binary main_call8.v1 main_call8.v2 main_call8.v3 Host.divf,
    StableHlo.TRef.unary main_call8.v3 main_call8.v4 (broadcastInDim S100000x32 ![0, 1] bcast_S1x32_S100000x32_0_1),
    StableHlo.TRef.binary (.of main_v169 : StableHlo.TRef sig ⟨S100000x32, .f32⟩) main_call8.v4 main_call8.v5 subf,
    StableHlo.TRef.binary main_call8.v5 main_call8.v5 main_call8.v6 mulf,
    StableHlo.TRef.unary (.of main_c_39 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x32_S32_d0 h_S_),
    StableHlo.TRef.unary main_call8.v8 main_call8.v10 (broadcastInDim S32 ![] bcast_S_S32),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S32 ![] bcast_S_S32),
    StableHlo.TRef.ternary main_call8.v12 main_call8.v11 main_call8.call0.v1 main_call8.call0.v2 (fun p a b => select (broadcastInDim S32 ![] bcast_S_S32 p) a b),
    StableHlo.unary main_v172 main_v174 (broadcastInDim S1x32 ![1] bcast_S32_S1x32_1 : (⟨S32, .f32⟩ : BufTy).Contents (Elt F) → (⟨S1x32, .f32⟩ : BufTy).Contents (Elt F)),
    StableHlo.unary main_v174 main_v175 (broadcastInDim S100000x32 ![0, 1] bcast_S1x32_S100000x32_0_1 : (⟨S1x32, .f32⟩ : BufTy).Contents (Elt F) → (⟨S100000x32, .f32⟩ : BufTy).Contents (Elt F)),
    StableHlo.binary main_v169 main_v175 main_v176 (subf : (⟨S100000x32, .f32⟩ : BufTy).Contents (Elt F) → (⟨S100000x32, .f32⟩ : BufTy).Contents (Elt F) → (⟨S100000x32, .f32⟩ : BufTy).Contents (Elt F)),
    StableHlo.nullary main_cst_40 (constant S_ .f32 0x3727C5AC#32),
    StableHlo.unary main_cst_40 main_v177 (broadcastInDim S32 ![] bcast_S_S32 : (⟨S_, .f32⟩ : BufTy).Contents (Elt F) → (⟨S32, .f32⟩ : BufTy).Contents (Elt F)),
    StableHlo.binary main_v173 main_v177 main_v178 (addf : (⟨S32, .f32⟩ : BufTy).Contents (Elt F) → (⟨S32, .f32⟩ : BufTy).Contents (Elt F) → (⟨S32, .f32⟩ : BufTy).Contents (Elt F)),
    StableHlo.unary main_v178 main_v179 (Host.rsqrt : (⟨S32, .f32⟩ : BufTy).Contents (Elt F) → (⟨S32, .f32⟩ : BufTy).Contents (Elt F)),
    StableHlo.unary main_v179 main_v180 (broadcastInDim S1x32 ![1] bcast_S32_S1x32_1 : (⟨S32, .f32⟩ : BufTy).Contents (Elt F) → (⟨S1x32, .f32⟩ : BufTy).Contents (Elt F)),
    StableHlo.unary main_v180 main_v181 (broadcastInDim S100000x32 ![0, 1] bcast_S1x32_S100000x32_0_1 : (⟨S1x32, .f32⟩ : BufTy).Contents (Elt F) → (⟨S100000x32, .f32⟩ : BufTy).Contents (Elt F)),
    StableHlo.binary main_v176 main_v181 main_v182 (mulf : (⟨S100000x32, .f32⟩ : BufTy).Contents (Elt F) → (⟨S100000x32, .f32⟩ : BufTy).Contents (Elt F) → (⟨S100000x32, .f32⟩ : BufTy).Contents (Elt F)),
    StableHlo.unary main_arg13 main_v183 (broadcastInDim S1x32 ![1] bcast_S32_S1x32_1 : (⟨S32, .f32⟩ : BufTy).Contents (Elt F) → (⟨S1x32, .f32⟩ : BufTy).Contents (Elt F)),
    StableHlo.unary main_v183 main_v184 (broadcastInDim S100000x32 ![0, 1] bcast_S1x32_S100000x32_0_1 : (⟨S1x32, .f32⟩ : BufTy).Contents (Elt F) → (⟨S100000x32, .f32⟩ : BufTy).Contents (Elt F)),
    StableHlo.binary main_v182 main_v184 main_v185 (mulf : (⟨S100000x32, .f32⟩ : BufTy).Contents (Elt F) → (⟨S100000x32, .f32⟩ : BufTy).Contents (Elt F) → (⟨S100000x32, .f32⟩ : BufTy).Contents (Elt F)),
    StableHlo.unary main_arg14 main_v186 (broadcastInDim S1x32 ![1] bcast_S32_S1x32_1 : (⟨S32, .f32⟩ : BufTy).Contents (Elt F) → (⟨S1x32, .f32⟩ : BufTy).Contents (Elt F)),
    StableHlo.unary main_v186 main_v187 (broadcastInDim S100000x32 ![0, 1] bcast_S1x32_S100000x32_0_1 : (⟨S1x32, .f32⟩ : BufTy).Contents (Elt F) → (⟨S100000x32, .f32⟩ : BufTy).Contents (Elt F)),
    StableHlo.binary main_v185 main_v187 main_v188 (addf : (⟨S100000x32, .f32⟩ : BufTy).Contents (Elt F) → (⟨S100000x32, .f32⟩ : BufTy).Contents (Elt F) → (⟨S100000x32, .f32⟩ : BufTy).Contents (Elt F)),
    StableHlo.nary ![main_v68, main_v128, main_v188] main_v189 (fun u => concatenate S100000x96 1 [⟨S100000x32, u 0⟩, ⟨S100000x32, u 1⟩, ⟨S100000x32, u 2⟩] concatenates_S100000x32_S100000x32_S100000x32_S100000x96_d1),
    StableHlo.binary main_v189 main_arg15 main_v190 ((fun l r => Host.dotGeneral dot_S100000x96_S96x2_S100000x2_1_0_0_1_n_n none l r) : (⟨S100000x96, .f32⟩ : BufTy).Contents (Elt F) → (⟨S96x2, .f32⟩ : BufTy).Contents (Elt F) → (⟨S100000x2, .f32⟩ : BufTy).Contents (Elt F)),
    StableHlo.unary main_arg16 main_v191 (broadcastInDim S1x2 ![1] bcast_S2_S1x2_1 : (⟨S2, .f32⟩ : BufTy).Contents (Elt F) → (⟨S1x2, .f32⟩ : BufTy).Contents (Elt F)),
    StableHlo.unary main_v191 main_v192 (broadcastInDim S100000x2 ![0, 1] bcast_S1x2_S100000x2_0_1 : (⟨S1x2, .f32⟩ : BufTy).Contents (Elt F) → (⟨S100000x2, .f32⟩ : BufTy).Contents (Elt F)),
    StableHlo.binary main_v190 main_v192 main_v193 (addf : (⟨S100000x2, .f32⟩ : BufTy).Contents (Elt F) → (⟨S100000x2, .f32⟩ : BufTy).Contents (Elt F) → (⟨S100000x2, .f32⟩ : BufTy).Contents (Elt F)) ]

set_option maxRecDepth 8192 in
set_option maxHeartbeats 4000000 in
/-- Window 3 is that straight line: the functions' definitions unfolded at their calls, sequencing reassociated. -/
theorem main_part3_eq (c : Dev nD) : main_part3 (F := F) c = StableHlo.seq ops3 := by
  simp only [main_part3, fn_where.body, fn_relu.body, fn_var.body, fn_where_0.body, StableHlo.seq, bind_assoc, pure_bind]

theorem ops3_sub : (ops3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nary_bufs_sub .., StableHlo.binary_bufs_sub .., StableHlo.unary_bufs_sub .., StableHlo.unary_bufs_sub .., StableHlo.binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.LibSsa.lean ====
/-
  A line of host operations in single-assignment form, read one operation at a time.

  `after ops V` is what the buffers hold once the operations `ops` have run in order from the contents `V`. Suppose each
  operation writes one buffer, operation `k` the reference `W[k]` (`WritesIn ops W`). Then

    * a reference that is not among `W[k], W[k+1], …` is written by no operation from position `k` on, so after the whole
      line it holds what it held after the first `k` operations (`after_eq_take`);
    * the reference operation `k` writes, if no LATER operation writes it again, holds after the whole line that
      operation's result from the contents after the first `k` operations (`after_out`).

  Together: when every operand of operation `k` was written before `k` (or never) and nothing is written twice, the
  final contents `R := after ops V` satisfy the operation's own equation `R y = f (R a) (R b) …` — one small fact per
  operation, whose proof mentions two positions of the list and never the composed term of the whole line. The
  equations are stated for the builders a printed program uses.
-/
import Idealize.ShloMosaic.Lib.StableHlo.Run

noncomputable section

namespace Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Operation `k` of the line writes (at most) the reference `W[k]`, for every `k`. -/
def WritesIn (ops : List (HloOp τ sig Val)) (W : List (Ref sig .tc)) : Prop :=
  List.Forall₂ (fun op w => op.writes ⊆ ({Proc.devRef (τ := τ) .tc w} : Finset (DevRef τ sig))) ops W

theorem WritesIn.nil : WritesIn ([] : List (HloOp τ sig Val)) [] := List.Forall₂.nil

theorem WritesIn.cons {op : HloOp τ sig Val} {w : Ref sig .tc} {ops : List (HloOp τ sig Val)} {W : List (Ref sig .tc)}
    (h : op.writes ⊆ ({Proc.devRef (τ := τ) .tc w} : Finset (DevRef τ sig))) (t : WritesIn ops W) :
    WritesIn (op :: ops) (w :: W) := List.Forall₂.cons h t

/-- The same holds of the line and the list from position `k` on. -/
theorem WritesIn.drop {ops : List (HloOp τ sig Val)} {W : List (Ref sig .tc)} (h : WritesIn ops W) :
    ∀ k, WritesIn (ops.drop k) (W.drop k) := by
  induction h with
  | nil => intro k; simp only [List.drop_nil]; exact List.Forall₂.nil
  | cons hd tl ih =>
    intro k
    cases k with
    | zero => exact List.Forall₂.cons hd tl
    | succ k => exact ih k

/-- Two lines one after the other, each with its list. -/
theorem WritesIn.append {a b : List (HloOp τ sig Val)} {A B : List (Ref sig .tc)} (h1 : WritesIn a A) (h2 : WritesIn b B) :
    WritesIn (a ++ b) (A ++ B) := by
  induction h1 with
  | nil => exact h2
  | cons hd _ ih => exact List.Forall₂.cons hd ih

/-- In a list without repetition, the entry at position `j` does not occur from a later position `k` on. -/
theorem not_mem_drop_of_pos {W : List (Ref sig .tc)} (hnd : W.Nodup) {j k : Nat} {x : Ref sig .tc}
    (e : W[j]? = some x) (hjk : j < k) : x ∉ W.drop k := by
  intro hmem
  obtain ⟨i, hi, ei⟩ := List.getElem_of_mem hmem
  rw [List.getElem_drop] at ei
  have hj : j < W.length := by
    by_contra hcon
    rw [List.getElem?_eq_none (Nat.le_of_not_lt hcon)] at e
    cases e
  rw [List.getElem?_eq_getElem hj] at e
  have e' : W[j] = x := Option.some.inj e
  have hki : k + i < W.length := by
    have := hi; rw [List.length_drop] at this; omega
  have : k + i = j := (List.Nodup.getElem_inj_iff hnd).mp (ei.trans e'.symm)
  omega

/-- A reference that does not occur in the list does not occur from position `k` on. -/
theorem not_mem_drop_of_not_mem {W : List (Ref sig .tc)} {x : Ref sig .tc} (h : x ∉ W) (k : Nat) : x ∉ W.drop k :=
  fun hm => h (List.mem_of_mem_drop hm)

/-- Every operation of the line writes only references of the list. -/
theorem WritesIn.forall_sub {ops : List (HloOp τ sig Val)} {W : List (Ref sig .tc)} (h : WritesIn ops W) :
    ops.Forall fun op => op.writes ⊆ (W.map (Proc.devRef (τ := τ) .tc)).toFinset := by
  induction h with
  | nil => exact trivial
  | @cons op w ops W hd _ ih =>
    rw [List.forall_cons]
    refine ⟨fun b hb => ?_, ?_⟩
    · have := Finset.mem_singleton.mp (hd hb)
      rw [this, List.mem_toFinset, List.map_cons]
      exact List.mem_cons_self
    · refine (List.forall_iff_forall_mem.mpr fun o ho b hb => ?_)
      have := (List.forall_iff_forall_mem.mp ih) o ho hb
      rw [List.mem_toFinset, List.map_cons]
      exact List.mem_cons_of_mem _ (List.mem_toFinset.mp this)

/-- A reference written by no operation from position `k` on holds, after the line, what it held after the first `k`
    operations. -/
theorem after_eq_take {ops : List (HloOp τ sig Val)} {W : List (Ref sig .tc)} (hW : WritesIn ops W)
    (V : Valuation τ sig Val) (k : Nat) (x : Ref sig .tc) (hx : x ∉ W.drop k) :
    after ops V (Proc.devRef .tc x) = after (ops.take k) V (Proc.devRef .tc x) := by
  have e : after ops V = after (ops.drop k) (after (ops.take k) V) := by
    rw [← after_append, List.take_append_drop]
  rw [e]
  exact after_of_writes_sub (ops.drop k) _ (hW.drop k).forall_sub hx

/-- The reference operation `k` writes, not written again later, holds after the line that operation's result from the
    contents after the first `k` operations. -/
theorem after_out {ops : List (HloOp τ sig Val)} {W : List (Ref sig .tc)} (hW : WritesIn ops W)
    (V : Valuation τ sig Val) (k : Nat) (hk : k < ops.length) (y : Ref sig .tc) (hy : y ∉ W.drop (k + 1)) :
    after ops V (Proc.devRef .tc y) = (ops[k]).result (after (ops.take k) V) (Proc.devRef .tc y) := by
  have e : after ops V = after (ops.drop (k + 1)) ((ops[k]).result (after (ops.take k) V)) := by
    conv_lhs => rw [← List.take_append_drop k ops, after_append, List.drop_eq_getElem_cons hk, after_cons]
  rw [e]
  exact after_of_writes_sub (ops.drop (k + 1)) _ (hW.drop (k + 1)).forall_sub hy

/-! ## The builders' equations -/

section Equations

variable {ops : List (HloOp τ sig Val)} {W : List (Ref sig .tc)}

/-- `%y = ‹constant›` at position `k`. -/
theorem eq_nullary (hW : WritesIn ops W) (V : Valuation τ sig Val) (k : Nat) (hk : k < ops.length) {y : Ref sig .tc} (v : y.ty.Contents Val) (hy)
    (hop : ops[k] = nullary y v hy) (hyW : y ∉ W.drop (k + 1)) :
    after ops V (Proc.devRef .tc y) = v := by
  rw [after_out hW V k hk y hyW, hop, nullary_result]

/-- `%y = ‹op› %x` at position `k`. -/
theorem eq_unary (hW : WritesIn ops W) (V : Valuation τ sig Val) (k : Nat) (hk : k < ops.length) {x y : Ref sig .tc} (f : x.ty.Contents Val → y.ty.Contents Val) (hx hy)
    (hop : ops[k] = unary x y f hx hy) (hxW : x ∉ W.drop k) (hyW : y ∉ W.drop (k + 1)) :
    after ops V (Proc.devRef .tc y) = f (after ops V (Proc.devRef .tc x)) := by
  rw [after_out hW V k hk y hyW, hop, unary_result, ← after_eq_take hW V k x hxW]

/-- `%y = ‹op› %a, %b` at position `k`. -/
theorem eq_binary (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1)) :
    after ops V (Proc.devRef .tc y) = f (after ops V (Proc.devRef .tc a)) (after ops V (Proc.devRef .tc b)) := by
  rw [after_out hW V k hk y hyW, hop, binary_result, ← after_eq_take hW V k a haW, ← after_eq_take hW V k b hbW]

/-- `%y = ‹op› %c, %a, %b` at position `k`. -/
theorem eq_ternary (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) :
    after ops V (Proc.devRef .tc y)
      = f (after ops V (Proc.devRef .tc c)) (after ops V (Proc.devRef .tc a)) (after ops V (Proc.devRef .tc b)) := by
  rw [after_out hW V k hk y hyW, hop, ternary_result, ← after_eq_take hW V k c hcW, ← after_eq_take hW V k a haW,
    ← after_eq_take hW V k b hbW]

/-! The same with the operands' values already known: the form a stage-by-stage reading uses. -/

theorem eq_unary' (hW : WritesIn ops W) (V : Valuation τ sig Val) (k : Nat) (hk : k < ops.length) {x y : Ref sig .tc}
    (f : x.ty.Contents Val → y.ty.Contents Val) (hx hy) (hop : ops[k] = unary x y f hx hy)
    (hxW : x ∉ W.drop k) (hyW : y ∉ W.drop (k + 1)) {vx : x.ty.Contents Val}
    (ex : after ops V (Proc.devRef .tc x) = vx) :
    after ops V (Proc.devRef .tc y) = f vx := by
  rw [eq_unary hW V k hk f hx hy hop hxW hyW, ex]

theorem eq_binary' (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1))
    {va : a.ty.Contents Val} {vb : b.ty.Contents Val}
    (ea : after ops V (Proc.devRef .tc a) = va) (eb : after ops V (Proc.devRef .tc b) = vb) :
    after ops V (Proc.devRef .tc y) = f va vb := by
  rw [eq_binary hW V k hk f ha hb hy hop haW hbW hyW, ea, eb]

theorem eq_ternary' (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) {vc : c.ty.Contents Val} {va : a.ty.Contents Val} {vb : b.ty.Contents Val}
    (ec : after ops V (Proc.devRef .tc c) = vc) (ea : after ops V (Proc.devRef .tc a) = va)
    (eb : after ops V (Proc.devRef .tc b) = vb) :
    after ops V (Proc.devRef .tc y) = f vc va vb := by
  rw [eq_ternary hW V k hk f hc ha hb hy hop hcW haW hbW hyW, ec, ea, eb]

/-- A reference no operation of the line writes keeps its launch contents. -/
theorem after_kept (hW : WritesIn ops W) (V : Valuation τ sig Val) (x : Ref sig .tc) (hx : x ∉ W) :
    after ops V (Proc.devRef .tc x) = V (Proc.devRef .tc x) :=
  after_of_writes_sub ops V hW.forall_sub hx

end Equations

end Idealize.ShloMosaic.StableHlo

end
-- ==== Proof.RefRun.lean ====
/-
  The reference program's run. @main is the straight line of its 312 host operations (four windows appended); every
  operation writes one buffer of its own, none of them an argument's. From any memory with zero counters every weakly
  fair execution terminates, the result buffer holds the fold of the operations over the launch contents, and the
  seventeen argument buffers hold what they held.
-/
import proofs.«107356_j16226386444409_1_alg».proof.Proof.RefRunOps
import proofs.«107356_j16226386444409_1_alg».proof.Proof.LibSsa

noncomputable section

namespace Cert.ReferenceIdeal.RefRun

open Cert.ReferenceIdeal Idealize.ShloMosaic Idealize.ShloMosaic.TcCoe Idealize.SL.Sem

variable {F : FTy → Type} [FloatOps F]

/-- @main's operations, in order. -/
abbrev ops : List (HloOp τ sig (Elt F)) := ops0 ++ (ops1 ++ (ops2 ++ ops3))

/-- @main runs its four windows in order, each the straight line of its list; lines run one after the other are their concatenation. -/
theorem main_eq (c : Dev nD) : main (F := F) c = StableHlo.seq ops := by
  show _ = StableHlo.seq (ops0 ++ (ops1 ++ (ops2 ++ ops3)))
  rw [StableHlo.seq_append, StableHlo.seq_append, StableHlo.seq_append, ← main_part0_eq c, ← main_part1_eq c, ← main_part2_eq c,
    ← main_part3_eq c]
  rfl

theorem forall_append {α : Type} {p : α → Prop} {l₁ l₂ : List α} (h1 : l₁.Forall p) (h2 : l₂.Forall p) : (l₁ ++ l₂).Forall p :=
  List.forall_iff_forall_mem.mpr fun x hx =>
    (List.mem_append.mp hx).elim (List.forall_iff_forall_mem.mp h1 x) (List.forall_iff_forall_mem.mp h2 x)

theorem ops_sub : (ops : List (HloOp τ sig (Elt F))).Forall fun op => op.bufs ⊆ StableHlo.tcRefs τ sig :=
  forall_append ops0_sub (forall_append ops1_sub (forall_append ops2_sub ops3_sub))

theorem ops_fresh : ∀ op ∈ (ops : List (HloOp τ sig (Elt F))), op.fresh = ∅ :=
  List.forall_iff_forall_mem.mp (forall_append ops0_fresh (forall_append ops1_fresh (forall_append ops2_fresh ops3_fresh)))

/-- The buffer each operation of window 0 writes, in order. -/
abbrev W0 : List (Ref sig .tc) :=
  [main_v0, main_v1, main_v2, main_v3, main_v4, main_v5, main_v6, main_cst, main_v7, main_v8, main_v9, main_cst_0, main_v10, main_v11, main_v12, main_cst_1, main_v13, main_v14, main_v15, main_cst_2, main_call0_v0, main_call0_v1, main_v16, main_c, main_v17, main_v18, main_c_3, main_v19, main_v20, main_v21, main_v22, main_v23, main_v24, main_c_4, main_v25, main_v26, main_c_5, main_v27, main_v28, main_v29, main_v30, main_v31, main_v32, main_c_6, main_v33, main_v34, main_c_7, main_v35, main_v36, main_v37, main_v38, main_v39, main_v40, main_v41, main_v42, main_cst_8, main_v43, main_v44, main_v45, main_v46, main_v47, main_v48]

set_option maxRecDepth 8192 in
theorem writes0 : StableHlo.WritesIn (τ := τ) (ops0 : List (HloOp τ sig (Elt F))) W0 :=
  .cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.nil))))))))))))))))))))))))))))))))))))))))))))))))))))))))))))))

/-- The buffer each operation of window 1 writes, in order. -/
abbrev W1 : List (Ref sig .tc) :=
  [main_call1_cst, main_call1_v0, main_v49, main_cst_9, main_v50, main_cst_10, main_v51, main_v52, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v53, main_v54, main_v55, main_v56, main_cst_12, main_v57, main_v58, main_v59, main_v60, main_v61, main_v62, main_v63, main_v64, main_v65, main_v66, main_v67, main_v68, main_v69, main_cst_13, main_v70, main_v71, main_v72, main_cst_14, main_v73, main_v74, main_v75, main_cst_15, main_call3_v0, main_call3_v1, main_v76, main_c_16, main_v77, main_v78, main_c_17, main_v79, main_v80, main_v81, main_v82, main_v83, main_v84, main_c_18, main_v85, main_v86, main_c_19, main_v87, main_v88, main_v89, main_v90, main_v91, main_v92, main_c_20, main_v93, main_v94, main_c_21, main_v95]

set_option maxRecDepth 8192 in
theorem writes1 : StableHlo.WritesIn (τ := τ) (ops1 : List (HloOp τ sig (Elt F))) W1 :=
  .cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.nil)))))))))))))))))))))))))))))))))))))))))))))))))))))))))))))))))))))))))))))))))))))

/-- The buffer each operation of window 2 writes, in order. -/
abbrev W2 : List (Ref sig .tc) :=
  [main_v96, main_v97, main_v98, main_v99, main_v100, main_v101, main_v102, main_cst_22, main_v103, main_v104, main_v105, main_v106, main_v107, main_v108, main_call4_cst, main_call4_v0, main_v109, main_cst_23, main_v110, main_cst_24, main_v111, main_v112, main_c_25, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v113, main_v114, main_v115, main_v116, main_cst_26, main_v117, main_v118, main_v119, main_v120, main_v121, main_v122, main_v123, main_v124, main_v125, main_v126, main_v127, main_v128, main_v129, main_cst_27, main_v130, main_v131, main_v132, main_cst_28, main_v133, main_v134, main_v135, main_cst_29, main_call6_v0, main_call6_v1, main_v136, main_c_30, main_v137, main_v138, main_c_31, main_v139, main_v140, main_v141, main_v142, main_v143, main_v144, main_c_32]

set_option maxRecDepth 8192 in
theorem writes2 : StableHlo.WritesIn (τ := τ) (ops2 : List (HloOp τ sig (Elt F))) W2 :=
  .cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.nil)))))))))))))))))))))))))))))))))))))))))))))))))))))))))))))))))))))))))))))))))))))

/-- The buffer each operation of window 3 writes, in order. -/
abbrev W3 : List (Ref sig .tc) :=
  [main_v145, main_v146, main_c_33, main_v147, main_v148, main_v149, main_v150, main_v151, main_v152, main_c_34, main_v153, main_v154, main_c_35, main_v155, main_v156, main_v157, main_v158, main_v159, main_v160, main_v161, main_v162, main_cst_36, main_v163, main_v164, main_v165, main_v166, main_v167, main_v168, main_call7_cst, main_call7_v0, main_v169, main_cst_37, main_v170, main_cst_38, main_v171, main_v172, main_c_39, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v173, main_v174, main_v175, main_v176, main_cst_40, main_v177, main_v178, main_v179, main_v180, main_v181, main_v182, main_v183, main_v184, main_v185, main_v186, main_v187, main_v188, main_v189, main_v190, main_v191, main_v192, main_v193]

set_option maxRecDepth 8192 in
theorem writes3 : StableHlo.WritesIn (τ := τ) (ops3 : List (HloOp τ sig (Elt F))) W3 :=
  .cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.nil))))))))))))))))))))))))))))))))))))))))))))))))))))))))))))))))))))))))))))))))

/-- The buffer each operation writes, in order. -/
abbrev W : List (Ref sig .tc) := W0 ++ (W1 ++ (W2 ++ W3))

theorem writes : StableHlo.WritesIn (τ := τ) (ops : List (HloOp τ sig (Elt F))) W :=
  writes0.append (writes1.append (writes2.append writes3))

theorem scopedRefs_eq : (Finset.univ.filter fun b : Ref sig .tc => b.isScoped) = ∅ := by decide
theorem scopedSems_eq : (Finset.univ.filter fun sm : SemLoc sig => sm.isScoped .tc) = ∅ := by decide

/-- An argument's buffer is written by no operation: it keeps its launch contents. -/
theorem arg_kept (V : Valuation τ sig (Elt F)) (r : Ref sig .tc) (hr : r ∉ W) :
    StableHlo.after ops V (Proc.devRef .tc r) = V (Proc.devRef .tc r) :=
  StableHlo.after_kept writes V r hr

set_option maxRecDepth 8192 in
/-- On every device, for any float values, from any memory with zero counters: every weakly fair execution of @main
    terminates with the result buffer at the operations' fold over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v193) = StableHlo.after ops (fun b => m (c, b)) (Proc.devRef .tc main_v193)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨h c main_v193,
      (h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide)),
      (h c main_arg8).trans (arg_kept _ main_arg8 (by decide)),
      (h c main_arg9).trans (arg_kept _ main_arg9 (by decide)),
      (h c main_arg10).trans (arg_kept _ main_arg10 (by decide)),
      (h c main_arg11).trans (arg_kept _ main_arg11 (by decide)),
      (h c main_arg12).trans (arg_kept _ main_arg12 (by decide)),
      (h c main_arg13).trans (arg_kept _ main_arg13 (by decide)),
      (h c main_arg14).trans (arg_kept _ main_arg14 (by decide)),
      (h c main_arg15).trans (arg_kept _ main_arg15 (by decide)),
      (h c main_arg16).trans (arg_kept _ main_arg16 (by decide))⟩)
    (StableHlo.run_seq scopedRefs_eq scopedSems_eq defs main (fun _ => ops) main_eq (fun _ => ops_sub) m ρ (fun _ => ops_fresh))

end Cert.ReferenceIdeal.RefRun

end
-- ==== Proof.RefRunDefs.lean ====
/-
  The reference function, stage by stage, as whole-array terms: the edge lists with their self loops, the degree
  normalisation, one graph convolution, the rectifier, batch normalisation, and the final linear layer. Each definition is
  the composition of the program's own whole-array operations, in the program's order.
-/
import proofs.«107356_j16226386444409_1_alg».proof.Proof.Gen.ReferenceIdeal

noncomputable section

namespace Cert.ReferenceIdeal.RefRun

open Cert.ReferenceIdeal Idealize.ShloMosaic Idealize.SL.Sem
open Cert.ReferenceIdeal.Facts₀

variable {F : FTy → Type} [FloatOps F]

/-- The edges' source nodes, the self loops after them. -/
def rows (ei : (⟨S2x1600000, .i32⟩ : BufTy).Contents (Elt F)) :
    (⟨S1700000, .i32⟩ : BufTy).Contents (Elt F) :=
  concatenate S1700000 0 [⟨S1600000, (shapeCast S1600000 (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' target nodes, the self loops after them. -/
def cols (ei : (⟨S2x1600000, .i32⟩ : BufTy).Contents (Elt F)) :
    (⟨S1700000, .i32⟩ : BufTy).Contents (Elt F) :=
  concatenate S1700000 0 [⟨S1600000, (shapeCast S1600000 (extractStridedSlice S1x1600000 ![1, 0] ei slices_S2x1600000_S1x1600000_1_0) shapeCasts_S1x1600000_S1600000)⟩, ⟨S100000, (iotaInDim S100000 32 0)⟩] concatenates_S1600000_S100000_S1700000_d0

/-- The edges' weights, a one for each self loop after them. -/
def wts (ew : (⟨S1600000, .f32⟩ : BufTy).Contents (Elt F)) :
    (⟨S1700000, .f32⟩ : BufTy).Contents (Elt F) :=
  concatenate S1700000 0 [⟨S1600000, ew⟩, ⟨S100000, (broadcastInDim S100000 ![] bcast_S_S100000 (constant S_ .f32 0x3F800000#32))⟩] concatenates_S1600000_S100000_S1700000_d0

/-- Each node's weighted in-degree: the weights scatter-added at the targets. -/
def deg (c : (⟨S1700000, .i32⟩ : BufTy).Contents (Elt F)) (w : (⟨S1700000, .f32⟩ : BufTy).Contents (Elt F)) :
    (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 c) w

/-- The degree's inverse square root where the degree is positive, zero elsewhere. -/
def dis (c : (⟨S1700000, .i32⟩ : BufTy).Contents (Elt F)) (w : (⟨S1700000, .f32⟩ : BufTy).Contents (Elt F)) :
    (⟨S100000, .f32⟩ : BufTy).Contents (Elt F) :=
  select (cmpf .ogt (deg c w : (⟨S100000, .f32⟩ : BufTy).Contents (Elt F)) (broadcastInDim S100000 ![] bcast_S_S100000 (constant S_ .f32 0x00000000#32))) (Host.rsqrt (deg c w)) (broadcastInDim S100000 ![] bcast_S_S100000 (id (constant S_ .f32 0x00000000#32)))

/-- A node index as a gather index: a negative one shifted up by the node count, then a column. -/
def widx (i : (⟨S1700000, .i32⟩ : BufTy).Contents (Elt F)) :
    (⟨S1700000x1, .i32⟩ : BufTy).Contents (Elt F) :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- The symmetric normalisation of each edge: dis[source] * weight * dis[target]. -/
def norm (r : (⟨S1700000, .i32⟩ : BufTy).Contents (Elt F)) (c : (⟨S1700000, .i32⟩ : BufTy).Contents (Elt F)) (w : (⟨S1700000, .f32⟩ : BufTy).Contents (Elt F)) :
    (⟨S1700000, .f32⟩ : BufTy).Contents (Elt F) :=
  mulf (mulf (Host.gather gather_S100000_S1700000x1_S1700000_n_0_n_n_0_1_1 (dis c w) (widx r)) w) (Host.gather gather_S100000_S1700000x1_S1700000_n_0_n_n_0_1_1 (dis c w) (widx c))

/-- One graph convolution of the projected features h: rows gathered at the sources, scaled by the normalisation, scatter-added at the targets, plus the bias. -/
def gcn (h : (⟨S100000x32, .f32⟩ : BufTy).Contents (Elt F)) (b : (⟨S32, .f32⟩ : BufTy).Contents (Elt F)) (r : (⟨S1700000, .i32⟩ : BufTy).Contents (Elt F)) (c : (⟨S1700000, .i32⟩ : BufTy).Contents (Elt F)) (w : (⟨S1700000, .f32⟩ : BufTy).Contents (Elt F)) :
    (⟨S100000x32, .f32⟩ : BufTy).Contents (Elt F) :=
  addf (Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 c) (mulf (Host.gather gather_S100000x32_S1700000x1_S1700000x32_1_0_n_n_0_1_132 h (widx r)) (broadcastInDim S1700000x32 ![0, 1] bcast_S1700000x1_S1700000x32_0_1 (broadcastInDim S1700000x1 ![0] bcast_S1700000_S1700000x1_0 (norm r c w))))) (broadcastInDim S100000x32 ![0, 1] bcast_S1x32_S100000x32_0_1 (broadcastInDim S1x32 ![1] bcast_S32_S1x32_1 b))

/-- The maximum with zero. -/
def relu (x : (⟨S100000x32, .f32⟩ : BufTy).Contents (Elt F)) :
    (⟨S100000x32, .f32⟩ : BufTy).Contents (Elt F) :=
  maximumf x (broadcastInDim S100000x32 ![] bcast_S_S100000x32 (constant S_ .f32 0x00000000#32))

/-- The column means: the column sums divided by the row count. -/
def mean (x : (⟨S100000x32, .f32⟩ : BufTy).Contents (Elt F)) :
    (⟨S32, .f32⟩ : BufTy).Contents (Elt F) :=
  Host.divf (Host.reduceAdd x (constant S_ .f32 0x00000000#32) reducesTo_S100000x32_S32_d0 h_S_) (broadcastInDim S32 ![] bcast_S_S32 (constant S_ .f32 0x47C35000#32))

/-- The columns' biased variances (divisor: row count minus zero), a NaN where that divisor is not positive. -/
def var (x : (⟨S100000x32, .f32⟩ : BufTy).Contents (Elt F)) :
    (⟨S32, .f32⟩ : BufTy).Contents (Elt F) :=
  select (broadcastInDim S32 ![] bcast_S_S32 (cmpf .ogt (subf (constant S_ .f32 0x47C35000#32) (sitofp .f32 (constantI S_ 32 0#32)) : (⟨S_, .f32⟩ : BufTy).Contents (Elt F)) (constant S_ .f32 0x00000000#32))) (Host.divf (Host.reduceAdd (mulf (subf x (broadcastInDim S100000x32 ![0, 1] bcast_S1x32_S100000x32_0_1 (Host.divf (broadcastInDim S1x32 ![1] bcast_S32_S1x32_1 (Host.reduceAdd x (constant S_ .f32 0x00000000#32) reducesTo_S100000x32_S32_d0 h_S_)) (broadcastInDim S1x32 ![] bcast_S_S1x32 (constant S_ .f32 0x47C35000#32))))) (subf x (broadcastInDim S100000x32 ![0, 1] bcast_S1x32_S100000x32_0_1 (Host.divf (broadcastInDim S1x32 ![1] bcast_S32_S1x32_1 (Host.reduceAdd x (constant S_ .f32 0x00000000#32) reducesTo_S100000x32_S32_d0 h_S_)) (broadcastInDim S1x32 ![] bcast_S_S1x32 (constant S_ .f32 0x47C35000#32)))))) (constant S_ .f32 0x00000000#32) reducesTo_S100000x32_S32_d0 h_S_) (broadcastInDim S32 ![] bcast_S_S32 (subf (constant S_ .f32 0x47C35000#32) (sitofp .f32 (constantI S_ 32 0#32))))) (broadcastInDim S32 ![] bcast_S_S32 (id (constant S_ .f32 0x7FC00000#32)))

/-- Batch normalisation with batch statistics: (x - mean) * rsqrt(var + eps) * gamma + beta. -/
def bn (x : (⟨S100000x32, .f32⟩ : BufTy).Contents (Elt F)) (g : (⟨S32, .f32⟩ : BufTy).Contents (Elt F)) (be : (⟨S32, .f32⟩ : BufTy).Contents (Elt F)) :
    (⟨S100000x32, .f32⟩ : BufTy).Contents (Elt F) :=
  addf (mulf (mulf (subf x (broadcastInDim S100000x32 ![0, 1] bcast_S1x32_S100000x32_0_1 (broadcastInDim S1x32 ![1] bcast_S32_S1x32_1 (mean x)))) (broadcastInDim S100000x32 ![0, 1] bcast_S1x32_S100000x32_0_1 (broadcastInDim S1x32 ![1] bcast_S32_S1x32_1 (Host.rsqrt (addf (var x) (broadcastInDim S32 ![] bcast_S_S32 (constant S_ .f32 0x3727C5AC#32))))))) (broadcastInDim S100000x32 ![0, 1] bcast_S1x32_S100000x32_0_1 (broadcastInDim S1x32 ![1] bcast_S32_S1x32_1 g))) (broadcastInDim S100000x32 ![0, 1] bcast_S1x32_S100000x32_0_1 (broadcastInDim S1x32 ![1] bcast_S32_S1x32_1 be))

/-- The three layers' outputs side by side, times the last weights, plus the last bias. -/
def final (o1 : (⟨S100000x32, .f32⟩ : BufTy).Contents (Elt F)) (o2 : (⟨S100000x32, .f32⟩ : BufTy).Contents (Elt F)) (o3 : (⟨S100000x32, .f32⟩ : BufTy).Contents (Elt F)) (wl : (⟨S96x2, .f32⟩ : BufTy).Contents (Elt F)) (bl : (⟨S2, .f32⟩ : BufTy).Contents (Elt F)) :
    (⟨S100000x2, .f32⟩ : BufTy).Contents (Elt F) :=
  addf (Host.dotGeneral dot_S100000x96_S96x2_S100000x2_1_0_0_1_n_n none (concatenate S100000x96 1 [⟨S100000x32, o1⟩, ⟨S100000x32, o2⟩, ⟨S100000x32, o3⟩] concatenates_S100000x32_S100000x32_S100000x32_S100000x96_d1) wl) (broadcastInDim S100000x2 ![0, 1] bcast_S1x2_S100000x2_0_1 (broadcastInDim S1x2 ![1] bcast_S2_S1x2_1 bl))

end Cert.ReferenceIdeal.RefRun

end
-- ==== Proof.RefRunVal.lean ====
/-
  The reference's result as a whole-array term of its arguments. The operations are in single-assignment form (each writes
  a buffer of its own, before every operation that reads it), so the final contents satisfy each
  operation's own equation; reading the equations in order, each buffer's final contents are the composition of the
  stage definitions applied to the arguments' launch contents.
-/
import proofs.«107356_j16226386444409_1_alg».proof.Proof.RefRun
import proofs.«107356_j16226386444409_1_alg».proof.Proof.RefRunDefs

noncomputable section

namespace Idealize.ShloMosaic.StableHlo

variable {τ : Topo} {sig : RefSig} {Val : EltTy → Type} {ops : List (HloOp τ sig Val)} {W : List (Ref sig .tc)}

/-- A reshape at position k, its operand's value known. -/
theorem eq_reshape' (hW : WritesIn ops W) (V : Valuation τ sig Val) (k : Nat) (hk : k < ops.length) {x y : Ref sig .tc}
    (he : x.ty.elt = y.ty.elt) (hn : x.ty.shape.ShapeCasts y.ty.shape) (hx hy) (hop : ops[k] = reshape x y he hn hx hy)
    (hxW : x ∉ W.drop k) (hyW : y ∉ W.drop (k + 1)) {vx : x.ty.Contents Val} (ex : after ops V (Proc.devRef .tc x) = vx) :
    after ops V (Proc.devRef .tc y) = fun i => he ▸ shapeCast y.ty.shape vx hn i := by
  rw [after_out hW V k hk y hyW, hop, reshape_result, ← after_eq_take hW V k x hxW, ex]

/-- An operation of three operands given as a family, at position k. -/
theorem eq_nary3 (hW : WritesIn ops W) (V : Valuation τ sig Val) (k : Nat) (hk : k < ops.length) {x0 x1 x2 y : Ref sig .tc}
    (f : ((j : Fin 3) → ((![x0, x1, x2] : Fin 3 → Ref sig .tc) j).ty.Contents Val) → y.ty.Contents Val) (hxs hy)
    (hop : ops[k] = nary ![x0, x1, x2] y f hxs hy) (h0 : x0 ∉ W.drop k) (h1 : x1 ∉ W.drop k) (h2 : x2 ∉ W.drop k)
    (hyW : y ∉ W.drop (k + 1)) :
    after ops V (Proc.devRef .tc y) = f (fun j => after ops V (Proc.devRef .tc ((![x0, x1, x2] : Fin 3 → Ref sig .tc) j))) := by
  have hall : ∀ j : Fin 3, (![x0, x1, x2] : Fin 3 → Ref sig .tc) j ∉ W.drop k := by
    intro j; fin_cases j
    · exact h0
    · exact h1
    · exact h2
  rw [after_out hW V k hk y hyW, hop, nary_result]
  congr 1; funext j
  exact (after_eq_take hW V k _ (hall j)).symm

end Idealize.ShloMosaic.StableHlo

namespace Cert.ReferenceIdeal.RefRun

open Cert.ReferenceIdeal Idealize.ShloMosaic Idealize.ShloMosaic.TcCoe Idealize.SL.Sem
open Cert.ReferenceIdeal.Facts₀

variable {F : FTy → Type} [FloatOps F]

set_option maxRecDepth 100000 in
/-- No buffer is written twice. -/
theorem W_nodup : (W : List (Ref sig .tc)).Nodup := by decide +kernel

theorem ops_length : (ops : List (HloOp τ sig (Elt F))).length = 312 := rfl
theorem lt_len (k : Nat) (h : k < 312) : k < (ops : List (HloOp τ sig (Elt F))).length := ops_length (F := F) ▸ h
theorem nw (k : Nat) (y : Ref sig .tc) (e : W[k]? = some y) : y ∉ W.drop (k + 1) :=
  StableHlo.not_mem_drop_of_pos W_nodup e (Nat.lt_succ_self k)
theorem nr (j k : Nat) (x : Ref sig .tc) (e : W[j]? = some x) (h : j < k) : x ∉ W.drop k :=
  StableHlo.not_mem_drop_of_pos W_nodup e h
theorem na (x : Ref sig .tc) (h : x ∉ W) (k : Nat) : x ∉ W.drop k := StableHlo.not_mem_drop_of_not_mem h k

theorem arg0_notW : main_arg0 ∉ W := by decide
theorem arg1_notW : main_arg1 ∉ W := by decide
theorem arg2_notW : main_arg2 ∉ W := by decide
theorem arg3_notW : main_arg3 ∉ W := by decide
theorem arg4_notW : main_arg4 ∉ W := by decide
theorem arg5_notW : main_arg5 ∉ W := by decide
theorem arg6_notW : main_arg6 ∉ W := by decide
theorem arg7_notW : main_arg7 ∉ W := by decide
theorem arg8_notW : main_arg8 ∉ W := by decide
theorem arg9_notW : main_arg9 ∉ W := by decide
theorem arg10_notW : main_arg10 ∉ W := by decide
theorem arg11_notW : main_arg11 ∉ W := by decide
theorem arg12_notW : main_arg12 ∉ W := by decide
theorem arg13_notW : main_arg13 ∉ W := by decide
theorem arg14_notW : main_arg14 ∉ W := by decide
theorem arg15_notW : main_arg15 ∉ W := by decide
theorem arg16_notW : main_arg16 ∉ W := by decide

section

variable (V : Valuation τ sig (Elt F))

theorem val_main_arg0 : StableHlo.after ops V (Proc.devRef .tc main_arg0) = V (Proc.devRef .tc main_arg0) :=
  arg_kept V main_arg0 arg0_notW
theorem val_main_arg1 : StableHlo.after ops V (Proc.devRef .tc main_arg1) = V (Proc.devRef .tc main_arg1) :=
  arg_kept V main_arg1 arg1_notW
theorem val_main_arg2 : StableHlo.after ops V (Proc.devRef .tc main_arg2) = V (Proc.devRef .tc main_arg2) :=
  arg_kept V main_arg2 arg2_notW
theorem val_main_arg3 : StableHlo.after ops V (Proc.devRef .tc main_arg3) = V (Proc.devRef .tc main_arg3) :=
  arg_kept V main_arg3 arg3_notW
theorem val_main_arg4 : StableHlo.after ops V (Proc.devRef .tc main_arg4) = V (Proc.devRef .tc main_arg4) :=
  arg_kept V main_arg4 arg4_notW
theorem val_main_arg5 : StableHlo.after ops V (Proc.devRef .tc main_arg5) = V (Proc.devRef .tc main_arg5) :=
  arg_kept V main_arg5 arg5_notW
theorem val_main_arg6 : StableHlo.after ops V (Proc.devRef .tc main_arg6) = V (Proc.devRef .tc main_arg6) :=
  arg_kept V main_arg6 arg6_notW
theorem val_main_arg7 : StableHlo.after ops V (Proc.devRef .tc main_arg7) = V (Proc.devRef .tc main_arg7) :=
  arg_kept V main_arg7 arg7_notW
theorem val_main_arg8 : StableHlo.after ops V (Proc.devRef .tc main_arg8) = V (Proc.devRef .tc main_arg8) :=
  arg_kept V main_arg8 arg8_notW
theorem val_main_arg9 : StableHlo.after ops V (Proc.devRef .tc main_arg9) = V (Proc.devRef .tc main_arg9) :=
  arg_kept V main_arg9 arg9_notW
theorem val_main_arg10 : StableHlo.after ops V (Proc.devRef .tc main_arg10) = V (Proc.devRef .tc main_arg10) :=
  arg_kept V main_arg10 arg10_notW
theorem val_main_arg11 : StableHlo.after ops V (Proc.devRef .tc main_arg11) = V (Proc.devRef .tc main_arg11) :=
  arg_kept V main_arg11 arg11_notW
theorem val_main_arg12 : StableHlo.after ops V (Proc.devRef .tc main_arg12) = V (Proc.devRef .tc main_arg12) :=
  arg_kept V main_arg12 arg12_notW
theorem val_main_arg13 : StableHlo.after ops V (Proc.devRef .tc main_arg13) = V (Proc.devRef .tc main_arg13) :=
  arg_kept V main_arg13 arg13_notW
theorem val_main_arg14 : StableHlo.after ops V (Proc.devRef .tc main_arg14) = V (Proc.devRef .tc main_arg14) :=
  arg_kept V main_arg14 arg14_notW
theorem val_main_arg15 : StableHlo.after ops V (Proc.devRef .tc main_arg15) = V (Proc.devRef .tc main_arg15) :=
  arg_kept V main_arg15 arg15_notW
theorem val_main_arg16 : StableHlo.after ops V (Proc.devRef .tc main_arg16) = V (Proc.devRef .tc main_arg16) :=
  arg_kept V main_arg16 arg16_notW

theorem val_main_v0 : StableHlo.after ops V (Proc.devRef .tc main_v0) = iotaInDim S100000 32 0 :=
  StableHlo.eq_nullary (y := main_v0) writes V 0 (lt_len 0 (by decide)) _ ⟨by decide, rfl⟩ rfl (nw 0 main_v0 rfl)

theorem val_main_v1 : StableHlo.after ops V (Proc.devRef .tc main_v1) = extractStridedSlice S1x1600000 ![0, 0] (V (Proc.devRef .tc main_arg1)) slices_S2x1600000_S1x1600000_0_0 :=
  StableHlo.eq_unary' (x := main_arg1) (y := main_v1) writes V 1 (lt_len 1 (by decide)) ((extractStridedSlice S1x1600000 ![0, 0] · slices_S2x1600000_S1x1600000_0_0) : (⟨S2x1600000, .i32⟩ : BufTy).Contents (Elt F) → (⟨S1x1600000, .i32⟩ : BufTy).Contents (Elt F)) ⟨by decide, rfl⟩ ⟨by decide, rfl⟩ rfl (na main_arg1 arg1_notW 1) (nw 1 main_v1 rfl) (val_main_arg1 V)

theorem val_main_v2 : StableHlo.after ops V (Proc.devRef .tc main_v2) = shapeCast S1600000 (extractStridedSlice S1x1600000 ![0, 0] (V (Proc.devRef .tc main_arg1)) slices_S2x1600000_S1x1600000_0_0) shapeCasts_S1x1600000_S1600000 :=
  StableHlo.eq_reshape' (x := main_v1) (y := main_v2) writes V 2 (lt_len 2 (by decide)) rfl shapeCasts_S1x1600000_S1600000 ⟨by decide, rfl⟩ ⟨by decide, rfl⟩ rfl (nr 1 2 main_v1 rfl (by decide)) (nw 2 main_v2 rfl) (val_main_v1 V)

theorem val_main_v3 : StableHlo.after ops V (Proc.devRef .tc main_v3) = rows (V (Proc.devRef .tc main_arg1)) :=
  StableHlo.eq_binary' (a := main_v2) (b := main_v0) (y := main_v3) writes V 3 (lt_len 3 (by decide)) ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ⟨by decide, rfl⟩ ⟨by decide, rfl⟩ ⟨by decide, rfl⟩ rfl (nr 2 3 main_v2 rfl (by decide)) (nr 0 3 main_v0 rfl (by decide)) (nw 3 main_v3 rfl) (val_main_v2 V) (val_main_v0 V)

theorem val_main_v4 : StableHlo.after ops V (Proc.devRef .tc main_v4) = extractStridedSlice S1x1600000 ![1, 0] (V (Proc.devRef .tc main_arg1)) slices_S2x1600000_S1x1600000_1_0 :=
  StableHlo.eq_unary' (x := main_arg1) (y := main_v4) writes V 4 (lt_len 4 (by decide)) ((extractStridedSlice S1x1600000 ![1, 0] · slices_S2x1600000_S1x1600000_1_0) : (⟨S2x1600000, .i32⟩ : BufTy).Contents (Elt F) → (⟨S1x1600000, .i32⟩ : BufTy).Contents (Elt F)) ⟨by decide, rfl⟩ ⟨by decide, rfl⟩ rfl (na main_arg1 arg1_notW 4) (nw 4 main_v4 rfl) (val_main_arg1 V)

theorem val_main_v5 : StableHlo.after ops V (Proc.devRef .tc main_v5) = shapeCast S1600000 (extractStridedSlice S1x1600000 ![1, 0] (V (Proc.devRef .tc main_arg1)) slices_S2x1600000_S1x1600000_1_0) shapeCasts_S1x1600000_S1600000 :=
  StableHlo.eq_reshape' (x := main_v4) (y := main_v5) writes V 5 (lt_len 5 (by decide)) rfl shapeCasts_S1x1600000_S1600000 ⟨by decide, rfl⟩ ⟨by decide, rfl⟩ rfl (nr 4 5 main_v4 rfl (by decide)) (nw 5 main_v5 rfl) (val_main_v4 V)

theorem val_main_v6 : StableHlo.after ops V (Proc.devRef .tc main_v6) = cols (V (Proc.devRef .tc main_arg1)) :=
  StableHlo.eq_binary' (a := main_v5) (b := main_v0) (y := main_v6) writes V 6 (lt_len 6 (by decide)) ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ⟨by decide, rfl⟩ ⟨by decide, rfl⟩ ⟨by decide, rfl⟩ rfl (nr 5 6 main_v5 rfl (by decide)) (nr 0 6 main_v0 rfl (by decide)) (nw 6 main_v6 rfl) (val_main_v5 V) (val_main_v0 V)

theorem val_main_cst : StableHlo.after ops V (Proc.devRef .tc main_cst) = constant S_ .f32 0x3F800000#32 :=
  StableHlo.eq_nullary (y := main_cst) writes V 7 (lt_len 7 (by decide)) _ ⟨by decide, rfl⟩ rfl (nw 7 main_cst rfl)

theorem val_main_v7 : StableHlo.after ops V (Proc.devRef .tc main_v7) = broadcastInDim S100000 ![] bcast_S_S100000 (constant S_ .f32 0x3F800000#32) :=
  StableHlo.eq_unary' (x := main_cst) (y := main_v7) writes V 8 (lt_len 8 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 7 8 main_cst rfl (by decide)) (nw 8 main_v7 rfl) (val_main_cst V)

theorem val_main_v8 : StableHlo.after ops V (Proc.devRef .tc main_v8) = wts (V (Proc.devRef .tc main_arg2)) :=
  StableHlo.eq_binary' (a := main_arg2) (b := main_v7) (y := main_v8) writes V 9 (lt_len 9 (by decide)) ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ⟨by decide, rfl⟩ ⟨by decide, rfl⟩ ⟨by decide, rfl⟩ rfl (na main_arg2 arg2_notW 9) (nr 8 9 main_v7 rfl (by decide)) (nw 9 main_v8 rfl) (val_main_arg2 V) (val_main_v7 V)

theorem val_main_v9 : StableHlo.after ops V (Proc.devRef .tc main_v9) = Host.dotGeneral dot_S100000x64_S64x32_S100000x32_1_0_0_1_n_n none (V (Proc.devRef .tc main_arg0)) (V (Proc.devRef .tc main_arg3)) :=
  StableHlo.eq_binary' (a := main_arg0) (b := main_arg3) (y := main_v9) writes V 10 (lt_len 10 (by decide)) ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) ⟨by decide, rfl⟩ ⟨by decide, rfl⟩ ⟨by decide, rfl⟩ rfl (na main_arg0 arg0_notW 10) (na main_arg3 arg3_notW 10) (nw 10 main_v9 rfl) (val_main_arg0 V) (val_main_arg3 V)

theorem val_main_cst_0 : StableHlo.after ops V (Proc.devRef .tc main_cst_0) = constant S_ .f32 0x00000000#32 :=
  StableHlo.eq_nullary (y := main_cst_0) writes V 11 (lt_len 11 (by decide)) _ ⟨by decide, rfl⟩ rfl (nw 11 main_cst_0 rfl)

theorem val_main_v10 : StableHlo.after ops V (Proc.devRef .tc main_v10) = broadcastInDim S100000 ![] bcast_S_S100000 (constant S_ .f32 0x00000000#32) :=
  StableHlo.eq_unary' (x := main_cst_0) (y := main_v10) writes V 12 (lt_len 12 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 11 12 main_cst_0 rfl (by decide)) (nw 12 main_v10 rfl) (val_main_cst_0 V)

theorem val_main_v11 : StableHlo.after ops V (Proc.devRef .tc main_v11) = broadcastInDim S1700000x1 ![0] bcast_S1700000_S1700000x1_0 (cols (V (Proc.devRef .tc main_arg1))) :=
  StableHlo.eq_unary' (x := main_v6) (y := main_v11) writes V 13 (lt_len 13 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 6 13 main_v6 rfl (by decide)) (nw 13 main_v11 rfl) (val_main_v6 V)

theorem val_main_v12 : StableHlo.after ops V (Proc.devRef .tc main_v12) = deg (cols (V (Proc.devRef .tc main_arg1))) (wts (V (Proc.devRef .tc main_arg2))) :=
  StableHlo.eq_ternary' (c := main_v10) (a := main_v11) (b := main_v8) (y := main_v12) writes V 14 (lt_len 14 (by decide)) ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ⟨by decide, rfl⟩ ⟨by decide, rfl⟩ ⟨by decide, rfl⟩ ⟨by decide, rfl⟩ rfl (nr 12 14 main_v10 rfl (by decide)) (nr 13 14 main_v11 rfl (by decide)) (nr 9 14 main_v8 rfl (by decide)) (nw 14 main_v12 rfl) (val_main_v10 V) (val_main_v11 V) (val_main_v8 V)

theorem val_main_cst_1 : StableHlo.after ops V (Proc.devRef .tc main_cst_1) = constant S_ .f32 0x00000000#32 :=
  StableHlo.eq_nullary (y := main_cst_1) writes V 15 (lt_len 15 (by decide)) _ ⟨by decide, rfl⟩ rfl (nw 15 main_cst_1 rfl)

theorem val_main_v13 : StableHlo.after ops V (Proc.devRef .tc main_v13) = broadcastInDim S100000 ![] bcast_S_S100000 (constant S_ .f32 0x00000000#32) :=
  StableHlo.eq_unary' (x := main_cst_1) (y := main_v13) writes V 16 (lt_len 16 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 15 16 main_cst_1 rfl (by decide)) (nw 16 main_v13 rfl) (val_main_cst_1 V)

theorem val_main_v14 : StableHlo.after ops V (Proc.devRef .tc main_v14) = cmpf .ogt (deg (cols (V (Proc.devRef .tc main_arg1))) (wts (V (Proc.devRef .tc main_arg2))) : (⟨S100000, .f32⟩ : BufTy).Contents (Elt F)) (broadcastInDim S100000 ![] bcast_S_S100000 (constant S_ .f32 0x00000000#32)) :=
  StableHlo.eq_binary' (a := main_v12) (b := main_v13) (y := main_v14) writes V 17 (lt_len 17 (by decide)) (cmpf .ogt : (⟨S100000, .f32⟩ : BufTy).Contents (Elt F) → (⟨S100000, .f32⟩ : BufTy).Contents (Elt F) → (⟨S100000, .i1⟩ : BufTy).Contents (Elt F)) ⟨by decide, rfl⟩ ⟨by decide, rfl⟩ ⟨by decide, rfl⟩ rfl (nr 14 17 main_v12 rfl (by decide)) (nr 16 17 main_v13 rfl (by decide)) (nw 17 main_v14 rfl) (val_main_v12 V) (val_main_v13 V)

theorem val_main_v15 : StableHlo.after ops V (Proc.devRef .tc main_v15) = Host.rsqrt (deg (cols (V (Proc.devRef .tc main_arg1))) (wts (V (Proc.devRef .tc main_arg2)))) :=
  StableHlo.eq_unary' (x := main_v12) (y := main_v15) writes V 18 (lt_len 18 (by decide)) (Host.rsqrt : (⟨S100000, .f32⟩ : BufTy).Contents (Elt F) → (⟨S100000, .f32⟩ : BufTy).Contents (Elt F)) ⟨by decide, rfl⟩ ⟨by decide, rfl⟩ rfl (nr 14 18 main_v12 rfl (by decide)) (nw 18 main_v15 rfl) (val_main_v12 V)

theorem val_main_cst_2 : StableHlo.after ops V (Proc.devRef .tc main_cst_2) = constant S_ .f32 0x00000000#32 :=
  StableHlo.eq_nullary (y := main_cst_2) writes V 19 (lt_len 19 (by decide)) _ ⟨by decide, rfl⟩ rfl (nw 19 main_cst_2 rfl)

theorem val_main_call0_v0 : StableHlo.after ops V (Proc.devRef .tc main_call0_v0) = id (constant S_ .f32 0x00000000#32) :=
  StableHlo.eq_unary' (x := main_cst_2) (y := main_call0_v0) writes V 20 (lt_len 20 (by decide)) (id : (⟨S_, .f32⟩ : BufTy).Contents (Elt F) → (⟨S_, .f32⟩ : BufTy).Contents (Elt F)) ⟨by decide, rfl⟩ ⟨by decide, rfl⟩ rfl (nr 19 20 main_cst_2 rfl (by decide)) (nw 20 main_call0_v0 rfl) (val_main_cst_2 V)

theorem val_main_call0_v1 : StableHlo.after ops V (Proc.devRef .tc main_call0_v1) = broadcastInDim S100000 ![] bcast_S_S100000 (id (constant S_ .f32 0x00000000#32)) :=
  StableHlo.eq_unary' (x := main_call0_v0) (y := main_call0_v1) writes V 21 (lt_len 21 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 20 21 main_call0_v0 rfl (by decide)) (nw 21 main_call0_v1 rfl) (val_main_call0_v0 V)

theorem val_main_v16 : StableHlo.after ops V (Proc.devRef .tc main_v16) = dis (cols (V (Proc.devRef .tc main_arg1))) (wts (V (Proc.devRef .tc main_arg2))) :=
  StableHlo.eq_ternary' (c := main_v14) (a := main_v15) (b := main_call0_v1) (y := main_v16) writes V 22 (lt_len 22 (by decide)) (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ⟨by decide, rfl⟩ ⟨by decide, rfl⟩ ⟨by decide, rfl⟩ ⟨by decide, rfl⟩ rfl (nr 17 22 main_v14 rfl (by decide)) (nr 18 22 main_v15 rfl (by decide)) (nr 21 22 main_call0_v1 rfl (by decide)) (nw 22 main_v16 rfl) (val_main_v14 V) (val_main_v15 V) (val_main_call0_v1 V)

theorem val_main_c : StableHlo.after ops V (Proc.devRef .tc main_c) = constantI S_ 32 0#32 :=
  StableHlo.eq_nullary (y := main_c) writes V 23 (lt_len 23 (by decide)) _ ⟨by decide, rfl⟩ rfl (nw 23 main_c rfl)

theorem val_main_v17 : StableHlo.after ops V (Proc.devRef .tc main_v17) = broadcastInDim S1700000 ![] bcast_S_S1700000 (constantI S_ 32 0#32) :=
  StableHlo.eq_unary' (x := main_c) (y := main_v17) writes V 24 (lt_len 24 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 23 24 main_c rfl (by decide)) (nw 24 main_v17 rfl) (val_main_c V)

theorem val_main_v18 : StableHlo.after ops V (Proc.devRef .tc main_v18) = cmpi .slt (rows (V (Proc.devRef .tc main_arg1))) (broadcastInDim S1700000 ![] bcast_S_S1700000 (constantI S_ 32 0#32)) :=
  StableHlo.eq_binary' (a := main_v3) (b := main_v17) (y := main_v18) writes V 25 (lt_len 25 (by decide)) (cmpi .slt : (⟨S1700000, .i32⟩ : BufTy).Contents (Elt F) → (⟨S1700000, .i32⟩ : BufTy).Contents (Elt F) → (⟨S1700000, .i1⟩ : BufTy).Contents (Elt F)) ⟨by decide, rfl⟩ ⟨by decide, rfl⟩ ⟨by decide, rfl⟩ rfl (nr 3 25 main_v3 rfl (by decide)) (nr 24 25 main_v17 rfl (by decide)) (nw 25 main_v18 rfl) (val_main_v3 V) (val_main_v17 V)

theorem val_main_c_3 : StableHlo.after ops V (Proc.devRef .tc main_c_3) = constantI S_ 32 100000#32 :=
  StableHlo.eq_nullary (y := main_c_3) writes V 26 (lt_len 26 (by decide)) _ ⟨by decide, rfl⟩ rfl (nw 26 main_c_3 rfl)

theorem val_main_v19 : StableHlo.after ops V (Proc.devRef .tc main_v19) = broadcastInDim S1700000 ![] bcast_S_S1700000 (constantI S_ 32 100000#32) :=
  StableHlo.eq_unary' (x := main_c_3) (y := main_v19) writes V 27 (lt_len 27 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 26 27 main_c_3 rfl (by decide)) (nw 27 main_v19 rfl) (val_main_c_3 V)

theorem val_main_v20 : StableHlo.after ops V (Proc.devRef .tc main_v20) = addi (rows (V (Proc.devRef .tc main_arg1))) (broadcastInDim S1700000 ![] bcast_S_S1700000 (constantI S_ 32 100000#32)) :=
  StableHlo.eq_binary' (a := main_v3) (b := main_v19) (y := main_v20) writes V 28 (lt_len 28 (by decide)) (addi : (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ rfl (nr 3 28 main_v3 rfl (by decide)) (nr 27 28 main_v19 rfl (by decide)) (nw 28 main_v20 rfl) (val_main_v3 V) (val_main_v19 V)

theorem val_main_v21 : StableHlo.after ops V (Proc.devRef .tc main_v21) = select (cmpi .slt (rows (V (Proc.devRef .tc main_arg1))) (broadcastInDim S1700000 ![] bcast_S_S1700000 (constantI S_ 32 0#32))) (addi (rows (V (Proc.devRef .tc main_arg1))) (broadcastInDim S1700000 ![] bcast_S_S1700000 (constantI S_ 32 100000#32))) (rows (V (Proc.devRef .tc main_arg1))) :=
  StableHlo.eq_ternary' (c := main_v18) (a := main_v20) (b := main_v3) (y := main_v21) writes V 29 (lt_len 29 (by decide)) (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ ⟨by decide, rfl⟩ rfl (nr 25 29 main_v18 rfl (by decide)) (nr 28 29 main_v20 rfl (by decide)) (nr 3 29 main_v3 rfl (by decide)) (nw 29 main_v21 rfl) (val_main_v18 V) (val_main_v20 V) (val_main_v3 V)

theorem val_main_v22 : StableHlo.after ops V (Proc.devRef .tc main_v22) = widx (rows (V (Proc.devRef .tc main_arg1))) :=
  StableHlo.eq_unary' (x := main_v21) (y := main_v22) writes V 30 (lt_len 30 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 29 30 main_v21 rfl (by decide)) (nw 30 main_v22 rfl) (val_main_v21 V)

theorem val_main_v23 : StableHlo.after ops V (Proc.devRef .tc main_v23) = Host.gather gather_S100000_S1700000x1_S1700000_n_0_n_n_0_1_1 (dis (cols (V (Proc.devRef .tc main_arg1))) (wts (V (Proc.devRef .tc main_arg2)))) (widx (rows (V (Proc.devRef .tc main_arg1)))) :=
  StableHlo.eq_binary' (a := main_v16) (b := main_v22) (y := main_v23) writes V 31 (lt_len 31 (by decide)) ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ⟨by decide, rfl⟩ ⟨by decide, rfl⟩ ⟨by decide, rfl⟩ rfl (nr 22 31 main_v16 rfl (by decide)) (nr 30 31 main_v22 rfl (by decide)) (nw 31 main_v23 rfl) (val_main_v16 V) (val_main_v22 V)

theorem val_main_v24 : StableHlo.after ops V (Proc.devRef .tc main_v24) = mulf (Host.gather gather_S100000_S1700000x1_S1700000_n_0_n_n_0_1_1 (dis (cols (V (Proc.devRef .tc main_arg1))) (wts (V (Proc.devRef .tc main_arg2)))) (widx (rows (V (Proc.devRef .tc main_arg1))))) (wts (V (Proc.devRef .tc main_arg2))) :=
  StableHlo.eq_binary' (a := main_v23) (b := main_v8) (y := main_v24) writes V 32 (lt_len 32 (by decide)) (mulf : (⟨S1700000, .f32⟩ : BufTy).Contents (Elt F) → (⟨S1700000, .f32⟩ : BufTy).Contents (Elt F) → (⟨S1700000, .f32⟩ : BufTy).Contents (Elt F)) ⟨by decide, rfl⟩ ⟨by decide, rfl⟩ ⟨by decide, rfl⟩ rfl (nr 31 32 main_v23 rfl (by decide)) (nr 9 32 main_v8 rfl (by decide)) (nw 32 main_v24 rfl) (val_main_v23 V) (val_main_v8 V)

theorem val_main_c_4 : StableHlo.after ops V (Proc.devRef .tc main_c_4) = constantI S_ 32 0#32 :=
  StableHlo.eq_nullary (y := main_c_4) writes V 33 (lt_len 33 (by decide)) _ ⟨by decide, rfl⟩ rfl (nw 33 main_c_4 rfl)

theorem val_main_v25 : StableHlo.after ops V (Proc.devRef .tc main_v25) = broadcastInDim S1700000 ![] bcast_S_S1700000 (constantI S_ 32 0#32) :=
  StableHlo.eq_unary' (x := main_c_4) (y := main_v25) writes V 34 (lt_len 34 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 33 34 main_c_4 rfl (by decide)) (nw 34 main_v25 rfl) (val_main_c_4 V)

theorem val_main_v26 : StableHlo.after ops V (Proc.devRef .tc main_v26) = cmpi .slt (cols (V (Proc.devRef .tc main_arg1))) (broadcastInDim S1700000 ![] bcast_S_S1700000 (constantI S_ 32 0#32)) :=
  StableHlo.eq_binary' (a := main_v6) (b := main_v25) (y := main_v26) writes V 35 (lt_len 35 (by decide)) (cmpi .slt : (⟨S1700000, .i32⟩ : BufTy).Contents (Elt F) → (⟨S1700000, .i32⟩ : BufTy).Contents (Elt F) → (⟨S1700000, .i1⟩ : BufTy).Contents (Elt F)) ⟨by decide, rfl⟩ ⟨by decide, rfl⟩ ⟨by decide, rfl⟩ rfl (nr 6 35 main_v6 rfl (by decide)) (nr 34 35 main_v25 rfl (by decide)) (nw 35 main_v26 rfl) (val_main_v6 V) (val_main_v25 V)

theorem val_main_c_5 : StableHlo.after ops V (Proc.devRef .tc main_c_5) = constantI S_ 32 100000#32 :=
  StableHlo.eq_nullary (y := main_c_5) writes V 36 (lt_len 36 (by decide)) _ ⟨by decide, rfl⟩ rfl (nw 36 main_c_5 rfl)

theorem val_main_v27 : StableHlo.after ops V (Proc.devRef .tc main_v27) = broadcastInDim S1700000 ![] bcast_S_S1700000 (constantI S_ 32 100000#32) :=
  StableHlo.eq_unary' (x := main_c_5) (y := main_v27) writes V 37 (lt_len 37 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 36 37 main_c_5 rfl (by decide)) (nw 37 main_v27 rfl) (val_main_c_5 V)

theorem val_main_v28 : StableHlo.after ops V (Proc.devRef .tc main_v28) = addi (cols (V (Proc.devRef .tc main_arg1))) (broadcastInDim S1700000 ![] bcast_S_S1700000 (constantI S_ 32 100000#32)) :=
  StableHlo.eq_binary' (a := main_v6) (b := main_v27) (y := main_v28) writes V 38 (lt_len 38 (by decide)) (addi : (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ rfl (nr 6 38 main_v6 rfl (by decide)) (nr 37 38 main_v27 rfl (by decide)) (nw 38 main_v28 rfl) (val_main_v6 V) (val_main_v27 V)

theorem val_main_v29 : StableHlo.after ops V (Proc.devRef .tc main_v29) = select (cmpi .slt (cols (V (Proc.devRef .tc main_arg1))) (broadcastInDim S1700000 ![] bcast_S_S1700000 (constantI S_ 32 0#32))) (addi (cols (V (Proc.devRef .tc main_arg1))) (broadcastInDim S1700000 ![] bcast_S_S1700000 (constantI S_ 32 100000#32))) (cols (V (Proc.devRef .tc main_arg1))) :=
  StableHlo.eq_ternary' (c := main_v26) (a := main_v28) (b := main_v6) (y := main_v29) writes V 39 (lt_len 39 (by decide)) (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ ⟨by decide, rfl⟩ rfl (nr 35 39 main_v26 rfl (by decide)) (nr 38 39 main_v28 rfl (by decide)) (nr 6 39 main_v6 rfl (by decide)) (nw 39 main_v29 rfl) (val_main_v26 V) (val_main_v28 V) (val_main_v6 V)

theorem val_main_v30 : StableHlo.after ops V (Proc.devRef .tc main_v30) = widx (cols (V (Proc.devRef .tc main_arg1))) :=
  StableHlo.eq_unary' (x := main_v29) (y := main_v30) writes V 40 (lt_len 40 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 39 40 main_v29 rfl (by decide)) (nw 40 main_v30 rfl) (val_main_v29 V)

theorem val_main_v31 : StableHlo.after ops V (Proc.devRef .tc main_v31) = Host.gather gather_S100000_S1700000x1_S1700000_n_0_n_n_0_1_1 (dis (cols (V (Proc.devRef .tc main_arg1))) (wts (V (Proc.devRef .tc main_arg2)))) (widx (cols (V (Proc.devRef .tc main_arg1)))) :=
  StableHlo.eq_binary' (a := main_v16) (b := main_v30) (y := main_v31) writes V 41 (lt_len 41 (by decide)) ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ⟨by decide, rfl⟩ ⟨by decide, rfl⟩ ⟨by decide, rfl⟩ rfl (nr 22 41 main_v16 rfl (by decide)) (nr 40 41 main_v30 rfl (by decide)) (nw 41 main_v31 rfl) (val_main_v16 V) (val_main_v30 V)

theorem val_main_v32 : StableHlo.after ops V (Proc.devRef .tc main_v32) = norm (rows (V (Proc.devRef .tc main_arg1))) (cols (V (Proc.devRef .tc main_arg1))) (wts (V (Proc.devRef .tc main_arg2))) :=
  StableHlo.eq_binary' (a := main_v24) (b := main_v31) (y := main_v32) writes V 42 (lt_len 42 (by decide)) (mulf : (⟨S1700000, .f32⟩ : BufTy).Contents (Elt F) → (⟨S1700000, .f32⟩ : BufTy).Contents (Elt F) → (⟨S1700000, .f32⟩ : BufTy).Contents (Elt F)) ⟨by decide, rfl⟩ ⟨by decide, rfl⟩ ⟨by decide, rfl⟩ rfl (nr 32 42 main_v24 rfl (by decide)) (nr 41 42 main_v31 rfl (by decide)) (nw 42 main_v32 rfl) (val_main_v24 V) (val_main_v31 V)

theorem val_main_c_6 : StableHlo.after ops V (Proc.devRef .tc main_c_6) = constantI S_ 32 0#32 :=
  StableHlo.eq_nullary (y := main_c_6) writes V 43 (lt_len 43 (by decide)) _ ⟨by decide, rfl⟩ rfl (nw 43 main_c_6 rfl)

theorem val_main_v33 : StableHlo.after ops V (Proc.devRef .tc main_v33) = broadcastInDim S1700000 ![] bcast_S_S1700000 (constantI S_ 32 0#32) :=
  StableHlo.eq_unary' (x := main_c_6) (y := main_v33) writes V 44 (lt_len 44 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 43 44 main_c_6 rfl (by decide)) (nw 44 main_v33 rfl) (val_main_c_6 V)

theorem val_main_v34 : StableHlo.after ops V (Proc.devRef .tc main_v34) = cmpi .slt (rows (V (Proc.devRef .tc main_arg1))) (broadcastInDim S1700000 ![] bcast_S_S1700000 (constantI S_ 32 0#32)) :=
  StableHlo.eq_binary' (a := main_v3) (b := main_v33) (y := main_v34) writes V 45 (lt_len 45 (by decide)) (cmpi .slt : (⟨S1700000, .i32⟩ : BufTy).Contents (Elt F) → (⟨S1700000, .i32⟩ : BufTy).Contents (Elt F) → (⟨S1700000, .i1⟩ : BufTy).Contents (Elt F)) ⟨by decide, rfl⟩ ⟨by decide, rfl⟩ ⟨by decide, rfl⟩ rfl (nr 3 45 main_v3 rfl (by decide)) (nr 44 45 main_v33 rfl (by decide)) (nw 45 main_v34 rfl) (val_main_v3 V) (val_main_v33 V)

theorem val_main_c_7 : StableHlo.after ops V (Proc.devRef .tc main_c_7) = constantI S_ 32 100000#32 :=
  StableHlo.eq_nullary (y := main_c_7) writes V 46 (lt_len 46 (by decide)) _ ⟨by decide, rfl⟩ rfl (nw 46 main_c_7 rfl)

theorem val_main_v35 : StableHlo.after ops V (Proc.devRef .tc main_v35) = broadcastInDim S1700000 ![] bcast_S_S1700000 (constantI S_ 32 100000#32) :=
  StableHlo.eq_unary' (x := main_c_7) (y := main_v35) writes V 47 (lt_len 47 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 46 47 main_c_7 rfl (by decide)) (nw 47 main_v35 rfl) (val_main_c_7 V)

theorem val_main_v36 : StableHlo.after ops V (Proc.devRef .tc main_v36) = addi (rows (V (Proc.devRef .tc main_arg1))) (broadcastInDim S1700000 ![] bcast_S_S1700000 (constantI S_ 32 100000#32)) :=
  StableHlo.eq_binary' (a := main_v3) (b := main_v35) (y := main_v36) writes V 48 (lt_len 48 (by decide)) (addi : (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ rfl (nr 3 48 main_v3 rfl (by decide)) (nr 47 48 main_v35 rfl (by decide)) (nw 48 main_v36 rfl) (val_main_v3 V) (val_main_v35 V)

theorem val_main_v37 : StableHlo.after ops V (Proc.devRef .tc main_v37) = select (cmpi .slt (rows (V (Proc.devRef .tc main_arg1))) (broadcastInDim S1700000 ![] bcast_S_S1700000 (constantI S_ 32 0#32))) (addi (rows (V (Proc.devRef .tc main_arg1))) (broadcastInDim S1700000 ![] bcast_S_S1700000 (constantI S_ 32 100000#32))) (rows (V (Proc.devRef .tc main_arg1))) :=
  StableHlo.eq_ternary' (c := main_v34) (a := main_v36) (b := main_v3) (y := main_v37) writes V 49 (lt_len 49 (by decide)) (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ ⟨by decide, rfl⟩ rfl (nr 45 49 main_v34 rfl (by decide)) (nr 48 49 main_v36 rfl (by decide)) (nr 3 49 main_v3 rfl (by decide)) (nw 49 main_v37 rfl) (val_main_v34 V) (val_main_v36 V) (val_main_v3 V)

theorem val_main_v38 : StableHlo.after ops V (Proc.devRef .tc main_v38) = widx (rows (V (Proc.devRef .tc main_arg1))) :=
  StableHlo.eq_unary' (x := main_v37) (y := main_v38) writes V 50 (lt_len 50 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 49 50 main_v37 rfl (by decide)) (nw 50 main_v38 rfl) (val_main_v37 V)

theorem val_main_v39 : StableHlo.after ops V (Proc.devRef .tc main_v39) = Host.gather gather_S100000x32_S1700000x1_S1700000x32_1_0_n_n_0_1_132 (Host.dotGeneral dot_S100000x64_S64x32_S100000x32_1_0_0_1_n_n none (V (Proc.devRef .tc main_arg0)) (V (Proc.devRef .tc main_arg3))) (widx (rows (V (Proc.devRef .tc main_arg1)))) :=
  StableHlo.eq_binary' (a := main_v9) (b := main_v38) (y := main_v39) writes V 51 (lt_len 51 (by decide)) ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)) ⟨by decide, rfl⟩ ⟨by decide, rfl⟩ ⟨by decide, rfl⟩ rfl (nr 10 51 main_v9 rfl (by decide)) (nr 50 51 main_v38 rfl (by decide)) (nw 51 main_v39 rfl) (val_main_v9 V) (val_main_v38 V)

theorem val_main_v40 : StableHlo.after ops V (Proc.devRef .tc main_v40) = broadcastInDim S1700000x1 ![0] bcast_S1700000_S1700000x1_0 (norm (rows (V (Proc.devRef .tc main_arg1))) (cols (V (Proc.devRef .tc main_arg1))) (wts (V (Proc.devRef .tc main_arg2)))) :=
  StableHlo.eq_unary' (x := main_v32) (y := main_v40) writes V 52 (lt_len 52 (by decide)) (broadcastInDim S1700000x1 ![0] bcast_S1700000_S1700000x1_0 : (⟨S1700000, .f32⟩ : BufTy).Contents (Elt F) → (⟨S1700000x1, .f32⟩ : BufTy).Contents (Elt F)) ⟨by decide, rfl⟩ ⟨by decide, rfl⟩ rfl (nr 42 52 main_v32 rfl (by decide)) (nw 52 main_v40 rfl) (val_main_v32 V)

theorem val_main_v41 : StableHlo.after ops V (Proc.devRef .tc main_v41) = broadcastInDim S1700000x32 ![0, 1] bcast_S1700000x1_S1700000x32_0_1 (broadcastInDim S1700000x1 ![0] bcast_S1700000_S1700000x1_0 (norm (rows (V (Proc.devRef .tc main_arg1))) (cols (V (Proc.devRef .tc main_arg1))) (wts (V (Proc.devRef .tc main_arg2))))) :=
  StableHlo.eq_unary' (x := main_v40) (y := main_v41) writes V 53 (lt_len 53 (by decide)) (broadcastInDim S1700000x32 ![0, 1] bcast_S1700000x1_S1700000x32_0_1 : (⟨S1700000x1, .f32⟩ : BufTy).Contents (Elt F) → (⟨S1700000x32, .f32⟩ : BufTy).Contents (Elt F)) ⟨by decide, rfl⟩ ⟨by decide, rfl⟩ rfl (nr 52 53 main_v40 rfl (by decide)) (nw 53 main_v41 rfl) (val_main_v40 V)

theorem val_main_v42 : StableHlo.after ops V (Proc.devRef .tc main_v42) = mulf (Host.gather gather_S100000x32_S1700000x1_S1700000x32_1_0_n_n_0_1_132 (Host.dotGeneral dot_S100000x64_S64x32_S100000x32_1_0_0_1_n_n none (V (Proc.devRef .tc main_arg0)) (V (Proc.devRef .tc main_arg3))) (widx (rows (V (Proc.devRef .tc main_arg1))))) (broadcastInDim S1700000x32 ![0, 1] bcast_S1700000x1_S1700000x32_0_1 (broadcastInDim S1700000x1 ![0] bcast_S1700000_S1700000x1_0 (norm (rows (V (Proc.devRef .tc main_arg1))) (cols (V (Proc.devRef .tc main_arg1))) (wts (V (Proc.devRef .tc main_arg2)))))) :=
  StableHlo.eq_binary' (a := main_v39) (b := main_v41) (y := main_v42) writes V 54 (lt_len 54 (by decide)) (mulf : (⟨S1700000x32, .f32⟩ : BufTy).Contents (Elt F) → (⟨S1700000x32, .f32⟩ : BufTy).Contents (Elt F) → (⟨S1700000x32, .f32⟩ : BufTy).Contents (Elt F)) ⟨by decide, rfl⟩ ⟨by decide, rfl⟩ ⟨by decide, rfl⟩ rfl (nr 51 54 main_v39 rfl (by decide)) (nr 53 54 main_v41 rfl (by decide)) (nw 54 main_v42 rfl) (val_main_v39 V) (val_main_v41 V)

theorem val_main_cst_8 : StableHlo.after ops V (Proc.devRef .tc main_cst_8) = constant S_ .f32 0x00000000#32 :=
  StableHlo.eq_nullary (y := main_cst_8) writes V 55 (lt_len 55 (by decide)) _ ⟨by decide, rfl⟩ rfl (nw 55 main_cst_8 rfl)

theorem val_main_v43 : StableHlo.after ops V (Proc.devRef .tc main_v43) = broadcastInDim S100000x32 ![] bcast_S_S100000x32 (constant S_ .f32 0x00000000#32) :=
  StableHlo.eq_unary' (x := main_cst_8) (y := main_v43) writes V 56 (lt_len 56 (by decide)) (broadcastInDim S100000x32 ![] bcast_S_S100000x32 : (⟨S_, .f32⟩ : BufTy).Contents (Elt F) → (⟨S100000x32, .f32⟩ : BufTy).Contents (Elt F)) ⟨by decide, rfl⟩ ⟨by decide, rfl⟩ rfl (nr 55 56 main_cst_8 rfl (by decide)) (nw 56 main_v43 rfl) (val_main_cst_8 V)

theorem val_main_v44 : StableHlo.after ops V (Proc.devRef .tc main_v44) = broadcastInDim S1700000x1 ![0] bcast_S1700000_S1700000x1_0 (cols (V (Proc.devRef .tc main_arg1))) :=
  StableHlo.eq_unary' (x := main_v6) (y := main_v44) writes V 57 (lt_len 57 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 6 57 main_v6 rfl (by decide)) (nw 57 main_v44 rfl) (val_main_v6 V)

theorem val_main_v45 : StableHlo.after ops V (Proc.devRef .tc main_v45) = Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 (cols (V (Proc.devRef .tc main_arg1)))) (mulf (Host.gather gather_S100000x32_S1700000x1_S1700000x32_1_0_n_n_0_1_132 (Host.dotGeneral dot_S100000x64_S64x32_S100000x32_1_0_0_1_n_n none (V (Proc.devRef .tc main_arg0)) (V (Proc.devRef .tc main_arg3))) (widx (rows (V (Proc.devRef .tc main_arg1))))) (broadcastInDim S1700000x32 ![0, 1] bcast_S1700000x1_S1700000x32_0_1 (broadcastInDim S1700000x1 ![0] bcast_S1700000_S1700000x1_0 (norm (rows (V (Proc.devRef .tc main_arg1))) (cols (V (Proc.devRef .tc main_arg1))) (wts (V (Proc.devRef .tc main_arg2))))))) :=
  StableHlo.eq_ternary' (c := main_v43) (a := main_v44) (b := main_v42) (y := main_v45) writes V 58 (lt_len 58 (by decide)) ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)) ⟨by decide, rfl⟩ ⟨by decide, rfl⟩ ⟨by decide, rfl⟩ ⟨by decide, rfl⟩ rfl (nr 56 58 main_v43 rfl (by decide)) (nr 57 58 main_v44 rfl (by decide)) (nr 54 58 main_v42 rfl (by decide)) (nw 58 main_v45 rfl) (val_main_v43 V) (val_main_v44 V) (val_main_v42 V)

theorem val_main_v46 : StableHlo.after ops V (Proc.devRef .tc main_v46) = broadcastInDim S1x32 ![1] bcast_S32_S1x32_1 (V (Proc.devRef .tc main_arg4)) :=
  StableHlo.eq_unary' (x := main_arg4) (y := main_v46) writes V 59 (lt_len 59 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (na main_arg4 arg4_notW 59) (nw 59 main_v46 rfl) (val_main_arg4 V)

theorem val_main_v47 : StableHlo.after ops V (Proc.devRef .tc main_v47) = broadcastInDim S100000x32 ![0, 1] bcast_S1x32_S100000x32_0_1 (broadcastInDim S1x32 ![1] bcast_S32_S1x32_1 (V (Proc.devRef .tc main_arg4))) :=
  StableHlo.eq_unary' (x := main_v46) (y := main_v47) writes V 60 (lt_len 60 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 59 60 main_v46 rfl (by decide)) (nw 60 main_v47 rfl) (val_main_v46 V)

theorem val_main_v48 : StableHlo.after ops V (Proc.devRef .tc main_v48) = gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))) :=
  StableHlo.eq_binary' (a := main_v45) (b := main_v47) (y := main_v48) writes V 61 (lt_len 61 (by decide)) (addf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 58 61 main_v45 rfl (by decide)) (nr 60 61 main_v47 rfl (by decide)) (nw 61 main_v48 rfl) (val_main_v45 V) (val_main_v47 V)

theorem val_main_call1_cst : StableHlo.after ops V (Proc.devRef .tc main_call1_cst) = constant S_ .f32 0x00000000#32 :=
  StableHlo.eq_nullary (y := main_call1_cst) writes V 62 (lt_len 62 (by decide)) _ ⟨by decide, rfl⟩ rfl (nw 62 main_call1_cst rfl)

theorem val_main_call1_v0 : StableHlo.after ops V (Proc.devRef .tc main_call1_v0) = broadcastInDim S100000x32 ![] bcast_S_S100000x32 (constant S_ .f32 0x00000000#32) :=
  StableHlo.eq_unary' (x := main_call1_cst) (y := main_call1_v0) writes V 63 (lt_len 63 (by decide)) (broadcastInDim S100000x32 ![] bcast_S_S100000x32 : (⟨S_, .f32⟩ : BufTy).Contents (Elt F) → (⟨S100000x32, .f32⟩ : BufTy).Contents (Elt F)) ⟨by decide, rfl⟩ ⟨by decide, rfl⟩ rfl (nr 62 63 main_call1_cst rfl (by decide)) (nw 63 main_call1_v0 rfl) (val_main_call1_cst V)

theorem val_main_v49 : StableHlo.after ops V (Proc.devRef .tc main_v49) = relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2)))) :=
  StableHlo.eq_binary' (a := main_v48) (b := main_call1_v0) (y := main_v49) writes V 64 (lt_len 64 (by decide)) (maximumf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 61 64 main_v48 rfl (by decide)) (nr 63 64 main_call1_v0 rfl (by decide)) (nw 64 main_v49 rfl) (val_main_v48 V) (val_main_call1_v0 V)

theorem val_main_cst_9 : StableHlo.after ops V (Proc.devRef .tc main_cst_9) = constant S_ .f32 0x00000000#32 :=
  StableHlo.eq_nullary (y := main_cst_9) writes V 65 (lt_len 65 (by decide)) _ ⟨by decide, rfl⟩ rfl (nw 65 main_cst_9 rfl)

theorem val_main_v50 : StableHlo.after ops V (Proc.devRef .tc main_v50) = Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_ :=
  StableHlo.eq_binary' (a := main_v49) (b := main_cst_9) (y := main_v50) writes V 66 (lt_len 66 (by decide)) ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)) ⟨by decide, rfl⟩ ⟨by decide, rfl⟩ ⟨by decide, rfl⟩ rfl (nr 64 66 main_v49 rfl (by decide)) (nr 65 66 main_cst_9 rfl (by decide)) (nw 66 main_v50 rfl) (val_main_v49 V) (val_main_cst_9 V)

theorem val_main_cst_10 : StableHlo.after ops V (Proc.devRef .tc main_cst_10) = constant S_ .f32 0x47C35000#32 :=
  StableHlo.eq_nullary (y := main_cst_10) writes V 67 (lt_len 67 (by decide)) _ ⟨by decide, rfl⟩ rfl (nw 67 main_cst_10 rfl)

theorem val_main_v51 : StableHlo.after ops V (Proc.devRef .tc main_v51) = broadcastInDim S32 ![] bcast_S_S32 (constant S_ .f32 0x47C35000#32) :=
  StableHlo.eq_unary' (x := main_cst_10) (y := main_v51) writes V 68 (lt_len 68 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 67 68 main_cst_10 rfl (by decide)) (nw 68 main_v51 rfl) (val_main_cst_10 V)

theorem val_main_v52 : StableHlo.after ops V (Proc.devRef .tc main_v52) = mean (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) :=
  StableHlo.eq_binary' (a := main_v50) (b := main_v51) (y := main_v52) writes V 69 (lt_len 69 (by decide)) (Host.divf : (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ rfl (nr 66 69 main_v50 rfl (by decide)) (nr 68 69 main_v51 rfl (by decide)) (nw 69 main_v52 rfl) (val_main_v50 V) (val_main_v51 V)

theorem val_main_c_11 : StableHlo.after ops V (Proc.devRef .tc main_c_11) = constantI S_ 32 0#32 :=
  StableHlo.eq_nullary (y := main_c_11) writes V 70 (lt_len 70 (by decide)) _ ⟨by decide, rfl⟩ rfl (nw 70 main_c_11 rfl)

theorem val_main_call2_cst : StableHlo.after ops V (Proc.devRef .tc main_call2_cst) = constant S_ .f32 0x00000000#32 :=
  StableHlo.eq_nullary (y := main_call2_cst) writes V 71 (lt_len 71 (by decide)) _ ⟨by decide, rfl⟩ rfl (nw 71 main_call2_cst rfl)

theorem val_main_call2_v0 : StableHlo.after ops V (Proc.devRef .tc main_call2_v0) = Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_ :=
  StableHlo.eq_binary' (a := main_v49) (b := main_call2_cst) (y := main_call2_v0) writes V 72 (lt_len 72 (by decide)) (fun x v => Host.reduceAdd x v reducesTo_S100000x32_S32_d0 h_S_ : (⟨S100000x32, .f32⟩ : BufTy).Contents (Elt F) → (⟨S_, .f32⟩ : BufTy).Contents (Elt F) → (⟨S32, .f32⟩ : BufTy).Contents (Elt F)) ⟨by decide, rfl⟩ ⟨by decide, rfl⟩ ⟨by decide, rfl⟩ rfl (nr 64 72 main_v49 rfl (by decide)) (nr 71 72 main_call2_cst rfl (by decide)) (nw 72 main_call2_v0 rfl) (val_main_v49 V) (val_main_call2_cst V)

theorem val_main_call2_v1 : StableHlo.after ops V (Proc.devRef .tc main_call2_v1) = broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_) :=
  StableHlo.eq_unary' (x := main_call2_v0) (y := main_call2_v1) writes V 73 (lt_len 73 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (nr 72 73 main_call2_v0 rfl (by decide)) (nw 73 main_call2_v1 rfl) (val_main_call2_v0 V)

theorem val_main_call2_cst_0 : StableHlo.after ops V (Proc.devRef .tc main_call2_cst_0) = constant S_ .f32 0x47C35000#32 :=
  StableHlo.eq_nullary (y := main_call2_cst_0) writes V 74 (lt_len 74 (by decide)) _ ⟨by decide, rfl⟩ rfl (nw 74 main_call2_cst_0 rfl)

theorem val_main_call2_v2 : StableHlo.after ops V (Proc.devRef .tc main_call2_v2) = broadcastInDim S1x32 ![] bcast_S_S1x32 (constant S_ .f32 0x47C35000#32) :=
  StableHlo.eq_unary' (x := main_call2_cst_0) (y := main_call2_v2) writes V 75 (lt_len 75 (by decide)) (broadcastInDim S1x32 ![] bcast_S_S1x32 : (⟨S_, .f32⟩ : BufTy).Contents (Elt F) → (⟨S1x32, .f32⟩ : BufTy).Contents (Elt F)) ⟨by decide, rfl⟩ ⟨by decide, rfl⟩ rfl (nr 74 75 main_call2_cst_0 rfl (by decide)) (nw 75 main_call2_v2 rfl) (val_main_call2_cst_0 V)

theorem val_main_call2_v3 : StableHlo.after ops V (Proc.devRef .tc main_call2_v3) = Host.divf (broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)) :=
  StableHlo.eq_binary' (a := main_call2_v1) (b := main_call2_v2) (y := main_call2_v3) writes V 76 (lt_len 76 (by decide)) (Host.divf : (⟨S1x32, .f32⟩ : BufTy).Contents (Elt F) → (⟨S1x32, .f32⟩ : BufTy).Contents (Elt F) → (⟨S1x32, .f32⟩ : BufTy).Contents (Elt F)) ⟨by decide, rfl⟩ ⟨by decide, rfl⟩ ⟨by decide, rfl⟩ rfl (nr 73 76 main_call2_v1 rfl (by decide)) (nr 75 76 main_call2_v2 rfl (by decide)) (nw 76 main_call2_v3 rfl) (val_main_call2_v1 V) (val_main_call2_v2 V)

theorem val_main_call2_v4 : StableHlo.after ops V (Proc.devRef .tc main_call2_v4) = broadcastInDim S100000x32 ![0, 1] bcast_S1x32_S100000x32_0_1 (Host.divf (broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))) :=
  StableHlo.eq_unary' (x := main_call2_v3) (y := main_call2_v4) writes V 77 (lt_len 77 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 76 77 main_call2_v3 rfl (by decide)) (nw 77 main_call2_v4 rfl) (val_main_call2_v3 V)

theorem val_main_call2_v5 : StableHlo.after ops V (Proc.devRef .tc main_call2_v5) = subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)))) :=
  StableHlo.eq_binary' (a := main_v49) (b := main_call2_v4) (y := main_call2_v5) writes V 78 (lt_len 78 (by decide)) (subf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 64 78 main_v49 rfl (by decide)) (nr 77 78 main_call2_v4 rfl (by decide)) (nw 78 main_call2_v5 rfl) (val_main_v49 V) (val_main_call2_v4 V)

theorem val_main_call2_v6 : StableHlo.after ops V (Proc.devRef .tc main_call2_v6) = mulf (subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) (subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) :=
  StableHlo.eq_binary' (a := main_call2_v5) (b := main_call2_v5) (y := main_call2_v6) writes V 79 (lt_len 79 (by decide)) (mulf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 78 79 main_call2_v5 rfl (by decide)) (nr 78 79 main_call2_v5 rfl (by decide)) (nw 79 main_call2_v6 rfl) (val_main_call2_v5 V) (val_main_call2_v5 V)

theorem val_main_call2_v7 : StableHlo.after ops V (Proc.devRef .tc main_call2_v7) = sitofp .f32 (constantI S_ 32 0#32) :=
  StableHlo.eq_unary' (x := main_c_11) (y := main_call2_v7) writes V 80 (lt_len 80 (by decide)) (sitofp .f32 : (⟨S_, .i32⟩ : BufTy).Contents (Elt F) → (⟨S_, .f32⟩ : BufTy).Contents (Elt F)) ⟨by decide, rfl⟩ ⟨by decide, rfl⟩ rfl (nr 70 80 main_c_11 rfl (by decide)) (nw 80 main_call2_v7 rfl) (val_main_c_11 V)

theorem val_main_call2_cst_1 : StableHlo.after ops V (Proc.devRef .tc main_call2_cst_1) = constant S_ .f32 0x47C35000#32 :=
  StableHlo.eq_nullary (y := main_call2_cst_1) writes V 81 (lt_len 81 (by decide)) _ ⟨by decide, rfl⟩ rfl (nw 81 main_call2_cst_1 rfl)

theorem val_main_call2_v8 : StableHlo.after ops V (Proc.devRef .tc main_call2_v8) = subf (constant S_ .f32 0x47C35000#32) (sitofp .f32 (constantI S_ 32 0#32)) :=
  StableHlo.eq_binary' (a := main_call2_cst_1) (b := main_call2_v7) (y := main_call2_v8) writes V 82 (lt_len 82 (by decide)) (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ rfl (nr 81 82 main_call2_cst_1 rfl (by decide)) (nr 80 82 main_call2_v7 rfl (by decide)) (nw 82 main_call2_v8 rfl) (val_main_call2_cst_1 V) (val_main_call2_v7 V)

theorem val_main_call2_cst_2 : StableHlo.after ops V (Proc.devRef .tc main_call2_cst_2) = constant S_ .f32 0x00000000#32 :=
  StableHlo.eq_nullary (y := main_call2_cst_2) writes V 83 (lt_len 83 (by decide)) _ ⟨by decide, rfl⟩ rfl (nw 83 main_call2_cst_2 rfl)

theorem val_main_call2_v9 : StableHlo.after ops V (Proc.devRef .tc main_call2_v9) = Host.reduceAdd (mulf (subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) (subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)))))) (constant S_ .f32 0x00000000#32) reducesTo_S100000x32_S32_d0 h_S_ :=
  StableHlo.eq_binary' (a := main_call2_v6) (b := main_call2_cst_2) (y := main_call2_v9) writes V 84 (lt_len 84 (by decide)) (fun x v => Host.reduceAdd x v reducesTo_S100000x32_S32_d0 h_S_ : (⟨S100000x32, .f32⟩ : BufTy).Contents (Elt F) → (⟨S_, .f32⟩ : BufTy).Contents (Elt F) → (⟨S32, .f32⟩ : BufTy).Contents (Elt F)) ⟨by decide, rfl⟩ ⟨by decide, rfl⟩ ⟨by decide, rfl⟩ rfl (nr 79 84 main_call2_v6 rfl (by decide)) (nr 83 84 main_call2_cst_2 rfl (by decide)) (nw 84 main_call2_v9 rfl) (val_main_call2_v6 V) (val_main_call2_cst_2 V)

theorem val_main_call2_v10 : StableHlo.after ops V (Proc.devRef .tc main_call2_v10) = broadcastInDim S32 ![] bcast_S_S32 (subf (constant S_ .f32 0x47C35000#32) (sitofp .f32 (constantI S_ 32 0#32))) :=
  StableHlo.eq_unary' (x := main_call2_v8) (y := main_call2_v10) writes V 85 (lt_len 85 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 82 85 main_call2_v8 rfl (by decide)) (nw 85 main_call2_v10 rfl) (val_main_call2_v8 V)

theorem val_main_call2_v11 : StableHlo.after ops V (Proc.devRef .tc main_call2_v11) = Host.divf (Host.reduceAdd (mulf (subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) (subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)))))) (constant S_ .f32 0x00000000#32) reducesTo_S100000x32_S32_d0 h_S_) (broadcastInDim S32 ![] bcast_S_S32 (subf (constant S_ .f32 0x47C35000#32) (sitofp .f32 (constantI S_ 32 0#32)))) :=
  StableHlo.eq_binary' (a := main_call2_v9) (b := main_call2_v10) (y := main_call2_v11) writes V 86 (lt_len 86 (by decide)) (Host.divf : (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ rfl (nr 84 86 main_call2_v9 rfl (by decide)) (nr 85 86 main_call2_v10 rfl (by decide)) (nw 86 main_call2_v11 rfl) (val_main_call2_v9 V) (val_main_call2_v10 V)

theorem val_main_call2_cst_3 : StableHlo.after ops V (Proc.devRef .tc main_call2_cst_3) = constant S_ .f32 0x00000000#32 :=
  StableHlo.eq_nullary (y := main_call2_cst_3) writes V 87 (lt_len 87 (by decide)) _ ⟨by decide, rfl⟩ rfl (nw 87 main_call2_cst_3 rfl)

theorem val_main_call2_v12 : StableHlo.after ops V (Proc.devRef .tc main_call2_v12) = cmpf .ogt (subf (constant S_ .f32 0x47C35000#32) (sitofp .f32 (constantI S_ 32 0#32)) : (⟨S_, .f32⟩ : BufTy).Contents (Elt F)) (constant S_ .f32 0x00000000#32) :=
  StableHlo.eq_binary' (a := main_call2_v8) (b := main_call2_cst_3) (y := main_call2_v12) writes V 88 (lt_len 88 (by decide)) (cmpf .ogt : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ rfl (nr 82 88 main_call2_v8 rfl (by decide)) (nr 87 88 main_call2_cst_3 rfl (by decide)) (nw 88 main_call2_v12 rfl) (val_main_call2_v8 V) (val_main_call2_cst_3 V)

theorem val_main_call2_cst_4 : StableHlo.after ops V (Proc.devRef .tc main_call2_cst_4) = constant S_ .f32 0x7FC00000#32 :=
  StableHlo.eq_nullary (y := main_call2_cst_4) writes V 89 (lt_len 89 (by decide)) _ ⟨by decide, rfl⟩ rfl (nw 89 main_call2_cst_4 rfl)

theorem val_main_call2_call0_v0 : StableHlo.after ops V (Proc.devRef .tc main_call2_call0_v0) = id (constant S_ .f32 0x7FC00000#32) :=
  StableHlo.eq_unary' (x := main_call2_cst_4) (y := main_call2_call0_v0) writes V 90 (lt_len 90 (by decide)) (id : (⟨S_, .f32⟩ : BufTy).Contents (Elt F) → (⟨S_, .f32⟩ : BufTy).Contents (Elt F)) ⟨by decide, rfl⟩ ⟨by decide, rfl⟩ rfl (nr 89 90 main_call2_cst_4 rfl (by decide)) (nw 90 main_call2_call0_v0 rfl) (val_main_call2_cst_4 V)

theorem val_main_call2_call0_v1 : StableHlo.after ops V (Proc.devRef .tc main_call2_call0_v1) = broadcastInDim S32 ![] bcast_S_S32 (id (constant S_ .f32 0x7FC00000#32)) :=
  StableHlo.eq_unary' (x := main_call2_call0_v0) (y := main_call2_call0_v1) writes V 91 (lt_len 91 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 90 91 main_call2_call0_v0 rfl (by decide)) (nw 91 main_call2_call0_v1 rfl) (val_main_call2_call0_v0 V)

theorem val_main_v53 : StableHlo.after ops V (Proc.devRef .tc main_v53) = var (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) :=
  StableHlo.eq_ternary' (c := main_call2_v12) (a := main_call2_v11) (b := main_call2_call0_v1) (y := main_v53) writes V 92 (lt_len 92 (by decide)) (fun p a b => select (broadcastInDim S32 ![] bcast_S_S32 p) a b : (⟨S_, .i1⟩ : BufTy).Contents (Elt F) → (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ ⟨by decide, rfl⟩ rfl (nr 88 92 main_call2_v12 rfl (by decide)) (nr 86 92 main_call2_v11 rfl (by decide)) (nr 91 92 main_call2_call0_v1 rfl (by decide)) (nw 92 main_v53 rfl) (val_main_call2_v12 V) (val_main_call2_v11 V) (val_main_call2_call0_v1 V)

theorem val_main_v54 : StableHlo.after ops V (Proc.devRef .tc main_v54) = broadcastInDim S1x32 ![1] bcast_S32_S1x32_1 (mean (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2)))))) :=
  StableHlo.eq_unary' (x := main_v52) (y := main_v54) writes V 93 (lt_len 93 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (nr 69 93 main_v52 rfl (by decide)) (nw 93 main_v54 rfl) (val_main_v52 V)

theorem val_main_v55 : StableHlo.after ops V (Proc.devRef .tc main_v55) = broadcastInDim S100000x32 ![0, 1] bcast_S1x32_S100000x32_0_1 (broadcastInDim S1x32 ![1] bcast_S32_S1x32_1 (mean (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))))) :=
  StableHlo.eq_unary' (x := main_v54) (y := main_v55) writes V 94 (lt_len 94 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 93 94 main_v54 rfl (by decide)) (nw 94 main_v55 rfl) (val_main_v54 V)

theorem val_main_v56 : StableHlo.after ops V (Proc.devRef .tc main_v56) = subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (broadcastInDim S1x32 ![1] bcast_S32_S1x32_1 (mean (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2)))))))) :=
  StableHlo.eq_binary' (a := main_v49) (b := main_v55) (y := main_v56) writes V 95 (lt_len 95 (by decide)) (subf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 64 95 main_v49 rfl (by decide)) (nr 94 95 main_v55 rfl (by decide)) (nw 95 main_v56 rfl) (val_main_v49 V) (val_main_v55 V)

theorem val_main_cst_12 : StableHlo.after ops V (Proc.devRef .tc main_cst_12) = constant S_ .f32 0x3727C5AC#32 :=
  StableHlo.eq_nullary (y := main_cst_12) writes V 96 (lt_len 96 (by decide)) _ ⟨by decide, rfl⟩ rfl (nw 96 main_cst_12 rfl)

theorem val_main_v57 : StableHlo.after ops V (Proc.devRef .tc main_v57) = broadcastInDim S32 ![] bcast_S_S32 (constant S_ .f32 0x3727C5AC#32) :=
  StableHlo.eq_unary' (x := main_cst_12) (y := main_v57) writes V 97 (lt_len 97 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 96 97 main_cst_12 rfl (by decide)) (nw 97 main_v57 rfl) (val_main_cst_12 V)

theorem val_main_v58 : StableHlo.after ops V (Proc.devRef .tc main_v58) = addf (var (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2)))))) (broadcastInDim S32 ![] bcast_S_S32 (constant S_ .f32 0x3727C5AC#32)) :=
  StableHlo.eq_binary' (a := main_v53) (b := main_v57) (y := main_v58) writes V 98 (lt_len 98 (by decide)) (addf : (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ rfl (nr 92 98 main_v53 rfl (by decide)) (nr 97 98 main_v57 rfl (by decide)) (nw 98 main_v58 rfl) (val_main_v53 V) (val_main_v57 V)

theorem val_main_v59 : StableHlo.after ops V (Proc.devRef .tc main_v59) = Host.rsqrt (addf (var (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2)))))) (broadcastInDim S32 ![] bcast_S_S32 (constant S_ .f32 0x3727C5AC#32))) :=
  StableHlo.eq_unary' (x := main_v58) (y := main_v59) writes V 99 (lt_len 99 (by decide)) (Host.rsqrt : (⟨S32, .f32⟩ : BufTy).Contents (Elt F) → (⟨S32, .f32⟩ : BufTy).Contents (Elt F)) ⟨by decide, rfl⟩ ⟨by decide, rfl⟩ rfl (nr 98 99 main_v58 rfl (by decide)) (nw 99 main_v59 rfl) (val_main_v58 V)

theorem val_main_v60 : StableHlo.after ops V (Proc.devRef .tc main_v60) = broadcastInDim S1x32 ![1] bcast_S32_S1x32_1 (Host.rsqrt (addf (var (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2)))))) (broadcastInDim S32 ![] bcast_S_S32 (constant S_ .f32 0x3727C5AC#32)))) :=
  StableHlo.eq_unary' (x := main_v59) (y := main_v60) writes V 100 (lt_len 100 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (nr 99 100 main_v59 rfl (by decide)) (nw 100 main_v60 rfl) (val_main_v59 V)

theorem val_main_v61 : StableHlo.after ops V (Proc.devRef .tc main_v61) = broadcastInDim S100000x32 ![0, 1] bcast_S1x32_S100000x32_0_1 (broadcastInDim S1x32 ![1] bcast_S32_S1x32_1 (Host.rsqrt (addf (var (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2)))))) (broadcastInDim S32 ![] bcast_S_S32 (constant S_ .f32 0x3727C5AC#32))))) :=
  StableHlo.eq_unary' (x := main_v60) (y := main_v61) writes V 101 (lt_len 101 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 100 101 main_v60 rfl (by decide)) (nw 101 main_v61 rfl) (val_main_v60 V)

theorem val_main_v62 : StableHlo.after ops V (Proc.devRef .tc main_v62) = mulf (subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (broadcastInDim S1x32 ![1] bcast_S32_S1x32_1 (mean (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))))))) (broadcastInDim S100000x32 ![0, 1] bcast_S1x32_S100000x32_0_1 (broadcastInDim S1x32 ![1] bcast_S32_S1x32_1 (Host.rsqrt (addf (var (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2)))))) (broadcastInDim S32 ![] bcast_S_S32 (constant S_ .f32 0x3727C5AC#32)))))) :=
  StableHlo.eq_binary' (a := main_v56) (b := main_v61) (y := main_v62) writes V 102 (lt_len 102 (by decide)) (mulf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 95 102 main_v56 rfl (by decide)) (nr 101 102 main_v61 rfl (by decide)) (nw 102 main_v62 rfl) (val_main_v56 V) (val_main_v61 V)

theorem val_main_v63 : StableHlo.after ops V (Proc.devRef .tc main_v63) = broadcastInDim S1x32 ![1] bcast_S32_S1x32_1 (V (Proc.devRef .tc main_arg5)) :=
  StableHlo.eq_unary' (x := main_arg5) (y := main_v63) writes V 103 (lt_len 103 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (na main_arg5 arg5_notW 103) (nw 103 main_v63 rfl) (val_main_arg5 V)

theorem val_main_v64 : StableHlo.after ops V (Proc.devRef .tc main_v64) = broadcastInDim S100000x32 ![0, 1] bcast_S1x32_S100000x32_0_1 (broadcastInDim S1x32 ![1] bcast_S32_S1x32_1 (V (Proc.devRef .tc main_arg5))) :=
  StableHlo.eq_unary' (x := main_v63) (y := main_v64) writes V 104 (lt_len 104 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 103 104 main_v63 rfl (by decide)) (nw 104 main_v64 rfl) (val_main_v63 V)

theorem val_main_v65 : StableHlo.after ops V (Proc.devRef .tc main_v65) = mulf (mulf (subf (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (broadcastInDim S100000x32 ![0, 1] bcast_S1x32_S100000x32_0_1 (broadcastInDim S1x32 ![1] bcast_S32_S1x32_1 (mean (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))))))) (broadcastInDim S100000x32 ![0, 1] bcast_S1x32_S100000x32_0_1 (broadcastInDim S1x32 ![1] bcast_S32_S1x32_1 (Host.rsqrt (addf (var (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2)))))) (broadcastInDim S32 ![] bcast_S_S32 (constant S_ .f32 0x3727C5AC#32))))))) (broadcastInDim S100000x32 ![0, 1] bcast_S1x32_S100000x32_0_1 (broadcastInDim S1x32 ![1] bcast_S32_S1x32_1 (V (Proc.devRef .tc main_arg5)))) :=
  StableHlo.eq_binary' (a := main_v62) (b := main_v64) (y := main_v65) writes V 105 (lt_len 105 (by decide)) (mulf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 102 105 main_v62 rfl (by decide)) (nr 104 105 main_v64 rfl (by decide)) (nw 105 main_v65 rfl) (val_main_v62 V) (val_main_v64 V)

theorem val_main_v66 : StableHlo.after ops V (Proc.devRef .tc main_v66) = broadcastInDim S1x32 ![1] bcast_S32_S1x32_1 (V (Proc.devRef .tc main_arg6)) :=
  StableHlo.eq_unary' (x := main_arg6) (y := main_v66) writes V 106 (lt_len 106 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (na main_arg6 arg6_notW 106) (nw 106 main_v66 rfl) (val_main_arg6 V)

theorem val_main_v67 : StableHlo.after ops V (Proc.devRef .tc main_v67) = broadcastInDim S100000x32 ![0, 1] bcast_S1x32_S100000x32_0_1 (broadcastInDim S1x32 ![1] bcast_S32_S1x32_1 (V (Proc.devRef .tc main_arg6))) :=
  StableHlo.eq_unary' (x := main_v66) (y := main_v67) writes V 107 (lt_len 107 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 106 107 main_v66 rfl (by decide)) (nw 107 main_v67 rfl) (val_main_v66 V)

theorem val_main_v68 : StableHlo.after ops V (Proc.devRef .tc main_v68) = bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6)) :=
  StableHlo.eq_binary' (a := main_v65) (b := main_v67) (y := main_v68) writes V 108 (lt_len 108 (by decide)) (addf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 105 108 main_v65 rfl (by decide)) (nr 107 108 main_v67 rfl (by decide)) (nw 108 main_v68 rfl) (val_main_v65 V) (val_main_v67 V)

theorem val_main_v69 : StableHlo.after ops V (Proc.devRef .tc main_v69) = Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7)) :=
  StableHlo.eq_binary' (a := main_v68) (b := main_arg7) (y := main_v69) writes V 109 (lt_len 109 (by decide)) ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ⟨by decide, rfl⟩ ⟨by decide, rfl⟩ ⟨by decide, rfl⟩ rfl (nr 108 109 main_v68 rfl (by decide)) (na main_arg7 arg7_notW 109) (nw 109 main_v69 rfl) (val_main_v68 V) (val_main_arg7 V)

theorem val_main_cst_13 : StableHlo.after ops V (Proc.devRef .tc main_cst_13) = constant S_ .f32 0x00000000#32 :=
  StableHlo.eq_nullary (y := main_cst_13) writes V 110 (lt_len 110 (by decide)) _ ⟨by decide, rfl⟩ rfl (nw 110 main_cst_13 rfl)

theorem val_main_v70 : StableHlo.after ops V (Proc.devRef .tc main_v70) = broadcastInDim S100000 ![] bcast_S_S100000 (constant S_ .f32 0x00000000#32) :=
  StableHlo.eq_unary' (x := main_cst_13) (y := main_v70) writes V 111 (lt_len 111 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 110 111 main_cst_13 rfl (by decide)) (nw 111 main_v70 rfl) (val_main_cst_13 V)

theorem val_main_v71 : StableHlo.after ops V (Proc.devRef .tc main_v71) = broadcastInDim S1700000x1 ![0] bcast_S1700000_S1700000x1_0 (cols (V (Proc.devRef .tc main_arg1))) :=
  StableHlo.eq_unary' (x := main_v6) (y := main_v71) writes V 112 (lt_len 112 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 6 112 main_v6 rfl (by decide)) (nw 112 main_v71 rfl) (val_main_v6 V)

theorem val_main_v72 : StableHlo.after ops V (Proc.devRef .tc main_v72) = deg (cols (V (Proc.devRef .tc main_arg1))) (wts (V (Proc.devRef .tc main_arg2))) :=
  StableHlo.eq_ternary' (c := main_v70) (a := main_v71) (b := main_v8) (y := main_v72) writes V 113 (lt_len 113 (by decide)) ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ⟨by decide, rfl⟩ ⟨by decide, rfl⟩ ⟨by decide, rfl⟩ ⟨by decide, rfl⟩ rfl (nr 111 113 main_v70 rfl (by decide)) (nr 112 113 main_v71 rfl (by decide)) (nr 9 113 main_v8 rfl (by decide)) (nw 113 main_v72 rfl) (val_main_v70 V) (val_main_v71 V) (val_main_v8 V)

theorem val_main_cst_14 : StableHlo.after ops V (Proc.devRef .tc main_cst_14) = constant S_ .f32 0x00000000#32 :=
  StableHlo.eq_nullary (y := main_cst_14) writes V 114 (lt_len 114 (by decide)) _ ⟨by decide, rfl⟩ rfl (nw 114 main_cst_14 rfl)

theorem val_main_v73 : StableHlo.after ops V (Proc.devRef .tc main_v73) = broadcastInDim S100000 ![] bcast_S_S100000 (constant S_ .f32 0x00000000#32) :=
  StableHlo.eq_unary' (x := main_cst_14) (y := main_v73) writes V 115 (lt_len 115 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 114 115 main_cst_14 rfl (by decide)) (nw 115 main_v73 rfl) (val_main_cst_14 V)

theorem val_main_v74 : StableHlo.after ops V (Proc.devRef .tc main_v74) = cmpf .ogt (deg (cols (V (Proc.devRef .tc main_arg1))) (wts (V (Proc.devRef .tc main_arg2))) : (⟨S100000, .f32⟩ : BufTy).Contents (Elt F)) (broadcastInDim S100000 ![] bcast_S_S100000 (constant S_ .f32 0x00000000#32)) :=
  StableHlo.eq_binary' (a := main_v72) (b := main_v73) (y := main_v74) writes V 116 (lt_len 116 (by decide)) (cmpf .ogt : (⟨S100000, .f32⟩ : BufTy).Contents (Elt F) → (⟨S100000, .f32⟩ : BufTy).Contents (Elt F) → (⟨S100000, .i1⟩ : BufTy).Contents (Elt F)) ⟨by decide, rfl⟩ ⟨by decide, rfl⟩ ⟨by decide, rfl⟩ rfl (nr 113 116 main_v72 rfl (by decide)) (nr 115 116 main_v73 rfl (by decide)) (nw 116 main_v74 rfl) (val_main_v72 V) (val_main_v73 V)

theorem val_main_v75 : StableHlo.after ops V (Proc.devRef .tc main_v75) = Host.rsqrt (deg (cols (V (Proc.devRef .tc main_arg1))) (wts (V (Proc.devRef .tc main_arg2)))) :=
  StableHlo.eq_unary' (x := main_v72) (y := main_v75) writes V 117 (lt_len 117 (by decide)) (Host.rsqrt : (⟨S100000, .f32⟩ : BufTy).Contents (Elt F) → (⟨S100000, .f32⟩ : BufTy).Contents (Elt F)) ⟨by decide, rfl⟩ ⟨by decide, rfl⟩ rfl (nr 113 117 main_v72 rfl (by decide)) (nw 117 main_v75 rfl) (val_main_v72 V)

theorem val_main_cst_15 : StableHlo.after ops V (Proc.devRef .tc main_cst_15) = constant S_ .f32 0x00000000#32 :=
  StableHlo.eq_nullary (y := main_cst_15) writes V 118 (lt_len 118 (by decide)) _ ⟨by decide, rfl⟩ rfl (nw 118 main_cst_15 rfl)

theorem val_main_call3_v0 : StableHlo.after ops V (Proc.devRef .tc main_call3_v0) = id (constant S_ .f32 0x00000000#32) :=
  StableHlo.eq_unary' (x := main_cst_15) (y := main_call3_v0) writes V 119 (lt_len 119 (by decide)) (id : (⟨S_, .f32⟩ : BufTy).Contents (Elt F) → (⟨S_, .f32⟩ : BufTy).Contents (Elt F)) ⟨by decide, rfl⟩ ⟨by decide, rfl⟩ rfl (nr 118 119 main_cst_15 rfl (by decide)) (nw 119 main_call3_v0 rfl) (val_main_cst_15 V)

theorem val_main_call3_v1 : StableHlo.after ops V (Proc.devRef .tc main_call3_v1) = broadcastInDim S100000 ![] bcast_S_S100000 (id (constant S_ .f32 0x00000000#32)) :=
  StableHlo.eq_unary' (x := main_call3_v0) (y := main_call3_v1) writes V 120 (lt_len 120 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 119 120 main_call3_v0 rfl (by decide)) (nw 120 main_call3_v1 rfl) (val_main_call3_v0 V)

theorem val_main_v76 : StableHlo.after ops V (Proc.devRef .tc main_v76) = dis (cols (V (Proc.devRef .tc main_arg1))) (wts (V (Proc.devRef .tc main_arg2))) :=
  StableHlo.eq_ternary' (c := main_v74) (a := main_v75) (b := main_call3_v1) (y := main_v76) writes V 121 (lt_len 121 (by decide)) (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ⟨by decide, rfl⟩ ⟨by decide, rfl⟩ ⟨by decide, rfl⟩ ⟨by decide, rfl⟩ rfl (nr 116 121 main_v74 rfl (by decide)) (nr 117 121 main_v75 rfl (by decide)) (nr 120 121 main_call3_v1 rfl (by decide)) (nw 121 main_v76 rfl) (val_main_v74 V) (val_main_v75 V) (val_main_call3_v1 V)

theorem val_main_c_16 : StableHlo.after ops V (Proc.devRef .tc main_c_16) = constantI S_ 32 0#32 :=
  StableHlo.eq_nullary (y := main_c_16) writes V 122 (lt_len 122 (by decide)) _ ⟨by decide, rfl⟩ rfl (nw 122 main_c_16 rfl)

theorem val_main_v77 : StableHlo.after ops V (Proc.devRef .tc main_v77) = broadcastInDim S1700000 ![] bcast_S_S1700000 (constantI S_ 32 0#32) :=
  StableHlo.eq_unary' (x := main_c_16) (y := main_v77) writes V 123 (lt_len 123 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 122 123 main_c_16 rfl (by decide)) (nw 123 main_v77 rfl) (val_main_c_16 V)

theorem val_main_v78 : StableHlo.after ops V (Proc.devRef .tc main_v78) = cmpi .slt (rows (V (Proc.devRef .tc main_arg1))) (broadcastInDim S1700000 ![] bcast_S_S1700000 (constantI S_ 32 0#32)) :=
  StableHlo.eq_binary' (a := main_v3) (b := main_v77) (y := main_v78) writes V 124 (lt_len 124 (by decide)) (cmpi .slt : (⟨S1700000, .i32⟩ : BufTy).Contents (Elt F) → (⟨S1700000, .i32⟩ : BufTy).Contents (Elt F) → (⟨S1700000, .i1⟩ : BufTy).Contents (Elt F)) ⟨by decide, rfl⟩ ⟨by decide, rfl⟩ ⟨by decide, rfl⟩ rfl (nr 3 124 main_v3 rfl (by decide)) (nr 123 124 main_v77 rfl (by decide)) (nw 124 main_v78 rfl) (val_main_v3 V) (val_main_v77 V)

theorem val_main_c_17 : StableHlo.after ops V (Proc.devRef .tc main_c_17) = constantI S_ 32 100000#32 :=
  StableHlo.eq_nullary (y := main_c_17) writes V 125 (lt_len 125 (by decide)) _ ⟨by decide, rfl⟩ rfl (nw 125 main_c_17 rfl)

theorem val_main_v79 : StableHlo.after ops V (Proc.devRef .tc main_v79) = broadcastInDim S1700000 ![] bcast_S_S1700000 (constantI S_ 32 100000#32) :=
  StableHlo.eq_unary' (x := main_c_17) (y := main_v79) writes V 126 (lt_len 126 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 125 126 main_c_17 rfl (by decide)) (nw 126 main_v79 rfl) (val_main_c_17 V)

theorem val_main_v80 : StableHlo.after ops V (Proc.devRef .tc main_v80) = addi (rows (V (Proc.devRef .tc main_arg1))) (broadcastInDim S1700000 ![] bcast_S_S1700000 (constantI S_ 32 100000#32)) :=
  StableHlo.eq_binary' (a := main_v3) (b := main_v79) (y := main_v80) writes V 127 (lt_len 127 (by decide)) (addi : (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ rfl (nr 3 127 main_v3 rfl (by decide)) (nr 126 127 main_v79 rfl (by decide)) (nw 127 main_v80 rfl) (val_main_v3 V) (val_main_v79 V)

theorem val_main_v81 : StableHlo.after ops V (Proc.devRef .tc main_v81) = select (cmpi .slt (rows (V (Proc.devRef .tc main_arg1))) (broadcastInDim S1700000 ![] bcast_S_S1700000 (constantI S_ 32 0#32))) (addi (rows (V (Proc.devRef .tc main_arg1))) (broadcastInDim S1700000 ![] bcast_S_S1700000 (constantI S_ 32 100000#32))) (rows (V (Proc.devRef .tc main_arg1))) :=
  StableHlo.eq_ternary' (c := main_v78) (a := main_v80) (b := main_v3) (y := main_v81) writes V 128 (lt_len 128 (by decide)) (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ ⟨by decide, rfl⟩ rfl (nr 124 128 main_v78 rfl (by decide)) (nr 127 128 main_v80 rfl (by decide)) (nr 3 128 main_v3 rfl (by decide)) (nw 128 main_v81 rfl) (val_main_v78 V) (val_main_v80 V) (val_main_v3 V)

theorem val_main_v82 : StableHlo.after ops V (Proc.devRef .tc main_v82) = widx (rows (V (Proc.devRef .tc main_arg1))) :=
  StableHlo.eq_unary' (x := main_v81) (y := main_v82) writes V 129 (lt_len 129 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 128 129 main_v81 rfl (by decide)) (nw 129 main_v82 rfl) (val_main_v81 V)

theorem val_main_v83 : StableHlo.after ops V (Proc.devRef .tc main_v83) = Host.gather gather_S100000_S1700000x1_S1700000_n_0_n_n_0_1_1 (dis (cols (V (Proc.devRef .tc main_arg1))) (wts (V (Proc.devRef .tc main_arg2)))) (widx (rows (V (Proc.devRef .tc main_arg1)))) :=
  StableHlo.eq_binary' (a := main_v76) (b := main_v82) (y := main_v83) writes V 130 (lt_len 130 (by decide)) ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ⟨by decide, rfl⟩ ⟨by decide, rfl⟩ ⟨by decide, rfl⟩ rfl (nr 121 130 main_v76 rfl (by decide)) (nr 129 130 main_v82 rfl (by decide)) (nw 130 main_v83 rfl) (val_main_v76 V) (val_main_v82 V)

theorem val_main_v84 : StableHlo.after ops V (Proc.devRef .tc main_v84) = mulf (Host.gather gather_S100000_S1700000x1_S1700000_n_0_n_n_0_1_1 (dis (cols (V (Proc.devRef .tc main_arg1))) (wts (V (Proc.devRef .tc main_arg2)))) (widx (rows (V (Proc.devRef .tc main_arg1))))) (wts (V (Proc.devRef .tc main_arg2))) :=
  StableHlo.eq_binary' (a := main_v83) (b := main_v8) (y := main_v84) writes V 131 (lt_len 131 (by decide)) (mulf : (⟨S1700000, .f32⟩ : BufTy).Contents (Elt F) → (⟨S1700000, .f32⟩ : BufTy).Contents (Elt F) → (⟨S1700000, .f32⟩ : BufTy).Contents (Elt F)) ⟨by decide, rfl⟩ ⟨by decide, rfl⟩ ⟨by decide, rfl⟩ rfl (nr 130 131 main_v83 rfl (by decide)) (nr 9 131 main_v8 rfl (by decide)) (nw 131 main_v84 rfl) (val_main_v83 V) (val_main_v8 V)

theorem val_main_c_18 : StableHlo.after ops V (Proc.devRef .tc main_c_18) = constantI S_ 32 0#32 :=
  StableHlo.eq_nullary (y := main_c_18) writes V 132 (lt_len 132 (by decide)) _ ⟨by decide, rfl⟩ rfl (nw 132 main_c_18 rfl)

theorem val_main_v85 : StableHlo.after ops V (Proc.devRef .tc main_v85) = broadcastInDim S1700000 ![] bcast_S_S1700000 (constantI S_ 32 0#32) :=
  StableHlo.eq_unary' (x := main_c_18) (y := main_v85) writes V 133 (lt_len 133 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 132 133 main_c_18 rfl (by decide)) (nw 133 main_v85 rfl) (val_main_c_18 V)

theorem val_main_v86 : StableHlo.after ops V (Proc.devRef .tc main_v86) = cmpi .slt (cols (V (Proc.devRef .tc main_arg1))) (broadcastInDim S1700000 ![] bcast_S_S1700000 (constantI S_ 32 0#32)) :=
  StableHlo.eq_binary' (a := main_v6) (b := main_v85) (y := main_v86) writes V 134 (lt_len 134 (by decide)) (cmpi .slt : (⟨S1700000, .i32⟩ : BufTy).Contents (Elt F) → (⟨S1700000, .i32⟩ : BufTy).Contents (Elt F) → (⟨S1700000, .i1⟩ : BufTy).Contents (Elt F)) ⟨by decide, rfl⟩ ⟨by decide, rfl⟩ ⟨by decide, rfl⟩ rfl (nr 6 134 main_v6 rfl (by decide)) (nr 133 134 main_v85 rfl (by decide)) (nw 134 main_v86 rfl) (val_main_v6 V) (val_main_v85 V)

theorem val_main_c_19 : StableHlo.after ops V (Proc.devRef .tc main_c_19) = constantI S_ 32 100000#32 :=
  StableHlo.eq_nullary (y := main_c_19) writes V 135 (lt_len 135 (by decide)) _ ⟨by decide, rfl⟩ rfl (nw 135 main_c_19 rfl)

theorem val_main_v87 : StableHlo.after ops V (Proc.devRef .tc main_v87) = broadcastInDim S1700000 ![] bcast_S_S1700000 (constantI S_ 32 100000#32) :=
  StableHlo.eq_unary' (x := main_c_19) (y := main_v87) writes V 136 (lt_len 136 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 135 136 main_c_19 rfl (by decide)) (nw 136 main_v87 rfl) (val_main_c_19 V)

theorem val_main_v88 : StableHlo.after ops V (Proc.devRef .tc main_v88) = addi (cols (V (Proc.devRef .tc main_arg1))) (broadcastInDim S1700000 ![] bcast_S_S1700000 (constantI S_ 32 100000#32)) :=
  StableHlo.eq_binary' (a := main_v6) (b := main_v87) (y := main_v88) writes V 137 (lt_len 137 (by decide)) (addi : (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ rfl (nr 6 137 main_v6 rfl (by decide)) (nr 136 137 main_v87 rfl (by decide)) (nw 137 main_v88 rfl) (val_main_v6 V) (val_main_v87 V)

theorem val_main_v89 : StableHlo.after ops V (Proc.devRef .tc main_v89) = select (cmpi .slt (cols (V (Proc.devRef .tc main_arg1))) (broadcastInDim S1700000 ![] bcast_S_S1700000 (constantI S_ 32 0#32))) (addi (cols (V (Proc.devRef .tc main_arg1))) (broadcastInDim S1700000 ![] bcast_S_S1700000 (constantI S_ 32 100000#32))) (cols (V (Proc.devRef .tc main_arg1))) :=
  StableHlo.eq_ternary' (c := main_v86) (a := main_v88) (b := main_v6) (y := main_v89) writes V 138 (lt_len 138 (by decide)) (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ ⟨by decide, rfl⟩ rfl (nr 134 138 main_v86 rfl (by decide)) (nr 137 138 main_v88 rfl (by decide)) (nr 6 138 main_v6 rfl (by decide)) (nw 138 main_v89 rfl) (val_main_v86 V) (val_main_v88 V) (val_main_v6 V)

theorem val_main_v90 : StableHlo.after ops V (Proc.devRef .tc main_v90) = widx (cols (V (Proc.devRef .tc main_arg1))) :=
  StableHlo.eq_unary' (x := main_v89) (y := main_v90) writes V 139 (lt_len 139 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 138 139 main_v89 rfl (by decide)) (nw 139 main_v90 rfl) (val_main_v89 V)

theorem val_main_v91 : StableHlo.after ops V (Proc.devRef .tc main_v91) = Host.gather gather_S100000_S1700000x1_S1700000_n_0_n_n_0_1_1 (dis (cols (V (Proc.devRef .tc main_arg1))) (wts (V (Proc.devRef .tc main_arg2)))) (widx (cols (V (Proc.devRef .tc main_arg1)))) :=
  StableHlo.eq_binary' (a := main_v76) (b := main_v90) (y := main_v91) writes V 140 (lt_len 140 (by decide)) ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ⟨by decide, rfl⟩ ⟨by decide, rfl⟩ ⟨by decide, rfl⟩ rfl (nr 121 140 main_v76 rfl (by decide)) (nr 139 140 main_v90 rfl (by decide)) (nw 140 main_v91 rfl) (val_main_v76 V) (val_main_v90 V)

theorem val_main_v92 : StableHlo.after ops V (Proc.devRef .tc main_v92) = norm (rows (V (Proc.devRef .tc main_arg1))) (cols (V (Proc.devRef .tc main_arg1))) (wts (V (Proc.devRef .tc main_arg2))) :=
  StableHlo.eq_binary' (a := main_v84) (b := main_v91) (y := main_v92) writes V 141 (lt_len 141 (by decide)) (mulf : (⟨S1700000, .f32⟩ : BufTy).Contents (Elt F) → (⟨S1700000, .f32⟩ : BufTy).Contents (Elt F) → (⟨S1700000, .f32⟩ : BufTy).Contents (Elt F)) ⟨by decide, rfl⟩ ⟨by decide, rfl⟩ ⟨by decide, rfl⟩ rfl (nr 131 141 main_v84 rfl (by decide)) (nr 140 141 main_v91 rfl (by decide)) (nw 141 main_v92 rfl) (val_main_v84 V) (val_main_v91 V)

theorem val_main_c_20 : StableHlo.after ops V (Proc.devRef .tc main_c_20) = constantI S_ 32 0#32 :=
  StableHlo.eq_nullary (y := main_c_20) writes V 142 (lt_len 142 (by decide)) _ ⟨by decide, rfl⟩ rfl (nw 142 main_c_20 rfl)

theorem val_main_v93 : StableHlo.after ops V (Proc.devRef .tc main_v93) = broadcastInDim S1700000 ![] bcast_S_S1700000 (constantI S_ 32 0#32) :=
  StableHlo.eq_unary' (x := main_c_20) (y := main_v93) writes V 143 (lt_len 143 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 142 143 main_c_20 rfl (by decide)) (nw 143 main_v93 rfl) (val_main_c_20 V)

theorem val_main_v94 : StableHlo.after ops V (Proc.devRef .tc main_v94) = cmpi .slt (rows (V (Proc.devRef .tc main_arg1))) (broadcastInDim S1700000 ![] bcast_S_S1700000 (constantI S_ 32 0#32)) :=
  StableHlo.eq_binary' (a := main_v3) (b := main_v93) (y := main_v94) writes V 144 (lt_len 144 (by decide)) (cmpi .slt : (⟨S1700000, .i32⟩ : BufTy).Contents (Elt F) → (⟨S1700000, .i32⟩ : BufTy).Contents (Elt F) → (⟨S1700000, .i1⟩ : BufTy).Contents (Elt F)) ⟨by decide, rfl⟩ ⟨by decide, rfl⟩ ⟨by decide, rfl⟩ rfl (nr 3 144 main_v3 rfl (by decide)) (nr 143 144 main_v93 rfl (by decide)) (nw 144 main_v94 rfl) (val_main_v3 V) (val_main_v93 V)

theorem val_main_c_21 : StableHlo.after ops V (Proc.devRef .tc main_c_21) = constantI S_ 32 100000#32 :=
  StableHlo.eq_nullary (y := main_c_21) writes V 145 (lt_len 145 (by decide)) _ ⟨by decide, rfl⟩ rfl (nw 145 main_c_21 rfl)

theorem val_main_v95 : StableHlo.after ops V (Proc.devRef .tc main_v95) = broadcastInDim S1700000 ![] bcast_S_S1700000 (constantI S_ 32 100000#32) :=
  StableHlo.eq_unary' (x := main_c_21) (y := main_v95) writes V 146 (lt_len 146 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 145 146 main_c_21 rfl (by decide)) (nw 146 main_v95 rfl) (val_main_c_21 V)

theorem val_main_v96 : StableHlo.after ops V (Proc.devRef .tc main_v96) = addi (rows (V (Proc.devRef .tc main_arg1))) (broadcastInDim S1700000 ![] bcast_S_S1700000 (constantI S_ 32 100000#32)) :=
  StableHlo.eq_binary' (a := main_v3) (b := main_v95) (y := main_v96) writes V 147 (lt_len 147 (by decide)) (addi : (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ rfl (nr 3 147 main_v3 rfl (by decide)) (nr 146 147 main_v95 rfl (by decide)) (nw 147 main_v96 rfl) (val_main_v3 V) (val_main_v95 V)

theorem val_main_v97 : StableHlo.after ops V (Proc.devRef .tc main_v97) = select (cmpi .slt (rows (V (Proc.devRef .tc main_arg1))) (broadcastInDim S1700000 ![] bcast_S_S1700000 (constantI S_ 32 0#32))) (addi (rows (V (Proc.devRef .tc main_arg1))) (broadcastInDim S1700000 ![] bcast_S_S1700000 (constantI S_ 32 100000#32))) (rows (V (Proc.devRef .tc main_arg1))) :=
  StableHlo.eq_ternary' (c := main_v94) (a := main_v96) (b := main_v3) (y := main_v97) writes V 148 (lt_len 148 (by decide)) (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ ⟨by decide, rfl⟩ rfl (nr 144 148 main_v94 rfl (by decide)) (nr 147 148 main_v96 rfl (by decide)) (nr 3 148 main_v3 rfl (by decide)) (nw 148 main_v97 rfl) (val_main_v94 V) (val_main_v96 V) (val_main_v3 V)

theorem val_main_v98 : StableHlo.after ops V (Proc.devRef .tc main_v98) = widx (rows (V (Proc.devRef .tc main_arg1))) :=
  StableHlo.eq_unary' (x := main_v97) (y := main_v98) writes V 149 (lt_len 149 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 148 149 main_v97 rfl (by decide)) (nw 149 main_v98 rfl) (val_main_v97 V)

theorem val_main_v99 : StableHlo.after ops V (Proc.devRef .tc main_v99) = Host.gather gather_S100000x32_S1700000x1_S1700000x32_1_0_n_n_0_1_132 (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (widx (rows (V (Proc.devRef .tc main_arg1)))) :=
  StableHlo.eq_binary' (a := main_v69) (b := main_v98) (y := main_v99) writes V 150 (lt_len 150 (by decide)) ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)) ⟨by decide, rfl⟩ ⟨by decide, rfl⟩ ⟨by decide, rfl⟩ rfl (nr 109 150 main_v69 rfl (by decide)) (nr 149 150 main_v98 rfl (by decide)) (nw 150 main_v99 rfl) (val_main_v69 V) (val_main_v98 V)

theorem val_main_v100 : StableHlo.after ops V (Proc.devRef .tc main_v100) = broadcastInDim S1700000x1 ![0] bcast_S1700000_S1700000x1_0 (norm (rows (V (Proc.devRef .tc main_arg1))) (cols (V (Proc.devRef .tc main_arg1))) (wts (V (Proc.devRef .tc main_arg2)))) :=
  StableHlo.eq_unary' (x := main_v92) (y := main_v100) writes V 151 (lt_len 151 (by decide)) (broadcastInDim S1700000x1 ![0] bcast_S1700000_S1700000x1_0 : (⟨S1700000, .f32⟩ : BufTy).Contents (Elt F) → (⟨S1700000x1, .f32⟩ : BufTy).Contents (Elt F)) ⟨by decide, rfl⟩ ⟨by decide, rfl⟩ rfl (nr 141 151 main_v92 rfl (by decide)) (nw 151 main_v100 rfl) (val_main_v92 V)

theorem val_main_v101 : StableHlo.after ops V (Proc.devRef .tc main_v101) = broadcastInDim S1700000x32 ![0, 1] bcast_S1700000x1_S1700000x32_0_1 (broadcastInDim S1700000x1 ![0] bcast_S1700000_S1700000x1_0 (norm (rows (V (Proc.devRef .tc main_arg1))) (cols (V (Proc.devRef .tc main_arg1))) (wts (V (Proc.devRef .tc main_arg2))))) :=
  StableHlo.eq_unary' (x := main_v100) (y := main_v101) writes V 152 (lt_len 152 (by decide)) (broadcastInDim S1700000x32 ![0, 1] bcast_S1700000x1_S1700000x32_0_1 : (⟨S1700000x1, .f32⟩ : BufTy).Contents (Elt F) → (⟨S1700000x32, .f32⟩ : BufTy).Contents (Elt F)) ⟨by decide, rfl⟩ ⟨by decide, rfl⟩ rfl (nr 151 152 main_v100 rfl (by decide)) (nw 152 main_v101 rfl) (val_main_v100 V)

theorem val_main_v102 : StableHlo.after ops V (Proc.devRef .tc main_v102) = mulf (Host.gather gather_S100000x32_S1700000x1_S1700000x32_1_0_n_n_0_1_132 (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (widx (rows (V (Proc.devRef .tc main_arg1))))) (broadcastInDim S1700000x32 ![0, 1] bcast_S1700000x1_S1700000x32_0_1 (broadcastInDim S1700000x1 ![0] bcast_S1700000_S1700000x1_0 (norm (rows (V (Proc.devRef .tc main_arg1))) (cols (V (Proc.devRef .tc main_arg1))) (wts (V (Proc.devRef .tc main_arg2)))))) :=
  StableHlo.eq_binary' (a := main_v99) (b := main_v101) (y := main_v102) writes V 153 (lt_len 153 (by decide)) (mulf : (⟨S1700000x32, .f32⟩ : BufTy).Contents (Elt F) → (⟨S1700000x32, .f32⟩ : BufTy).Contents (Elt F) → (⟨S1700000x32, .f32⟩ : BufTy).Contents (Elt F)) ⟨by decide, rfl⟩ ⟨by decide, rfl⟩ ⟨by decide, rfl⟩ rfl (nr 150 153 main_v99 rfl (by decide)) (nr 152 153 main_v101 rfl (by decide)) (nw 153 main_v102 rfl) (val_main_v99 V) (val_main_v101 V)

theorem val_main_cst_22 : StableHlo.after ops V (Proc.devRef .tc main_cst_22) = constant S_ .f32 0x00000000#32 :=
  StableHlo.eq_nullary (y := main_cst_22) writes V 154 (lt_len 154 (by decide)) _ ⟨by decide, rfl⟩ rfl (nw 154 main_cst_22 rfl)

theorem val_main_v103 : StableHlo.after ops V (Proc.devRef .tc main_v103) = broadcastInDim S100000x32 ![] bcast_S_S100000x32 (constant S_ .f32 0x00000000#32) :=
  StableHlo.eq_unary' (x := main_cst_22) (y := main_v103) writes V 155 (lt_len 155 (by decide)) (broadcastInDim S100000x32 ![] bcast_S_S100000x32 : (⟨S_, .f32⟩ : BufTy).Contents (Elt F) → (⟨S100000x32, .f32⟩ : BufTy).Contents (Elt F)) ⟨by decide, rfl⟩ ⟨by decide, rfl⟩ rfl (nr 154 155 main_cst_22 rfl (by decide)) (nw 155 main_v103 rfl) (val_main_cst_22 V)

theorem val_main_v104 : StableHlo.after ops V (Proc.devRef .tc main_v104) = broadcastInDim S1700000x1 ![0] bcast_S1700000_S1700000x1_0 (cols (V (Proc.devRef .tc main_arg1))) :=
  StableHlo.eq_unary' (x := main_v6) (y := main_v104) writes V 156 (lt_len 156 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 6 156 main_v6 rfl (by decide)) (nw 156 main_v104 rfl) (val_main_v6 V)

theorem val_main_v105 : StableHlo.after ops V (Proc.devRef .tc main_v105) = Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 (cols (V (Proc.devRef .tc main_arg1)))) (mulf (Host.gather gather_S100000x32_S1700000x1_S1700000x32_1_0_n_n_0_1_132 (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (widx (rows (V (Proc.devRef .tc main_arg1))))) (broadcastInDim S1700000x32 ![0, 1] bcast_S1700000x1_S1700000x32_0_1 (broadcastInDim S1700000x1 ![0] bcast_S1700000_S1700000x1_0 (norm (rows (V (Proc.devRef .tc main_arg1))) (cols (V (Proc.devRef .tc main_arg1))) (wts (V (Proc.devRef .tc main_arg2))))))) :=
  StableHlo.eq_ternary' (c := main_v103) (a := main_v104) (b := main_v102) (y := main_v105) writes V 157 (lt_len 157 (by decide)) ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)) ⟨by decide, rfl⟩ ⟨by decide, rfl⟩ ⟨by decide, rfl⟩ ⟨by decide, rfl⟩ rfl (nr 155 157 main_v103 rfl (by decide)) (nr 156 157 main_v104 rfl (by decide)) (nr 153 157 main_v102 rfl (by decide)) (nw 157 main_v105 rfl) (val_main_v103 V) (val_main_v104 V) (val_main_v102 V)

theorem val_main_v106 : StableHlo.after ops V (Proc.devRef .tc main_v106) = broadcastInDim S1x32 ![1] bcast_S32_S1x32_1 (V (Proc.devRef .tc main_arg8)) :=
  StableHlo.eq_unary' (x := main_arg8) (y := main_v106) writes V 158 (lt_len 158 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (na main_arg8 arg8_notW 158) (nw 158 main_v106 rfl) (val_main_arg8 V)

theorem val_main_v107 : StableHlo.after ops V (Proc.devRef .tc main_v107) = broadcastInDim S100000x32 ![0, 1] bcast_S1x32_S100000x32_0_1 (broadcastInDim S1x32 ![1] bcast_S32_S1x32_1 (V (Proc.devRef .tc main_arg8))) :=
  StableHlo.eq_unary' (x := main_v106) (y := main_v107) writes V 159 (lt_len 159 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 158 159 main_v106 rfl (by decide)) (nw 159 main_v107 rfl) (val_main_v106 V)

theorem val_main_v108 : StableHlo.after ops V (Proc.devRef .tc main_v108) = gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))) :=
  StableHlo.eq_binary' (a := main_v105) (b := main_v107) (y := main_v108) writes V 160 (lt_len 160 (by decide)) (addf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 157 160 main_v105 rfl (by decide)) (nr 159 160 main_v107 rfl (by decide)) (nw 160 main_v108 rfl) (val_main_v105 V) (val_main_v107 V)

theorem val_main_call4_cst : StableHlo.after ops V (Proc.devRef .tc main_call4_cst) = constant S_ .f32 0x00000000#32 :=
  StableHlo.eq_nullary (y := main_call4_cst) writes V 161 (lt_len 161 (by decide)) _ ⟨by decide, rfl⟩ rfl (nw 161 main_call4_cst rfl)

theorem val_main_call4_v0 : StableHlo.after ops V (Proc.devRef .tc main_call4_v0) = broadcastInDim S100000x32 ![] bcast_S_S100000x32 (constant S_ .f32 0x00000000#32) :=
  StableHlo.eq_unary' (x := main_call4_cst) (y := main_call4_v0) writes V 162 (lt_len 162 (by decide)) (broadcastInDim S100000x32 ![] bcast_S_S100000x32 : (⟨S_, .f32⟩ : BufTy).Contents (Elt F) → (⟨S100000x32, .f32⟩ : BufTy).Contents (Elt F)) ⟨by decide, rfl⟩ ⟨by decide, rfl⟩ rfl (nr 161 162 main_call4_cst rfl (by decide)) (nw 162 main_call4_v0 rfl) (val_main_call4_cst V)

theorem val_main_v109 : StableHlo.after ops V (Proc.devRef .tc main_v109) = relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2)))) :=
  StableHlo.eq_binary' (a := main_v108) (b := main_call4_v0) (y := main_v109) writes V 163 (lt_len 163 (by decide)) (maximumf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 160 163 main_v108 rfl (by decide)) (nr 162 163 main_call4_v0 rfl (by decide)) (nw 163 main_v109 rfl) (val_main_v108 V) (val_main_call4_v0 V)

theorem val_main_cst_23 : StableHlo.after ops V (Proc.devRef .tc main_cst_23) = constant S_ .f32 0x00000000#32 :=
  StableHlo.eq_nullary (y := main_cst_23) writes V 164 (lt_len 164 (by decide)) _ ⟨by decide, rfl⟩ rfl (nw 164 main_cst_23 rfl)

theorem val_main_v110 : StableHlo.after ops V (Proc.devRef .tc main_v110) = Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_ :=
  StableHlo.eq_binary' (a := main_v109) (b := main_cst_23) (y := main_v110) writes V 165 (lt_len 165 (by decide)) ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)) ⟨by decide, rfl⟩ ⟨by decide, rfl⟩ ⟨by decide, rfl⟩ rfl (nr 163 165 main_v109 rfl (by decide)) (nr 164 165 main_cst_23 rfl (by decide)) (nw 165 main_v110 rfl) (val_main_v109 V) (val_main_cst_23 V)

theorem val_main_cst_24 : StableHlo.after ops V (Proc.devRef .tc main_cst_24) = constant S_ .f32 0x47C35000#32 :=
  StableHlo.eq_nullary (y := main_cst_24) writes V 166 (lt_len 166 (by decide)) _ ⟨by decide, rfl⟩ rfl (nw 166 main_cst_24 rfl)

theorem val_main_v111 : StableHlo.after ops V (Proc.devRef .tc main_v111) = broadcastInDim S32 ![] bcast_S_S32 (constant S_ .f32 0x47C35000#32) :=
  StableHlo.eq_unary' (x := main_cst_24) (y := main_v111) writes V 167 (lt_len 167 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 166 167 main_cst_24 rfl (by decide)) (nw 167 main_v111 rfl) (val_main_cst_24 V)

theorem val_main_v112 : StableHlo.after ops V (Proc.devRef .tc main_v112) = mean (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) :=
  StableHlo.eq_binary' (a := main_v110) (b := main_v111) (y := main_v112) writes V 168 (lt_len 168 (by decide)) (Host.divf : (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ rfl (nr 165 168 main_v110 rfl (by decide)) (nr 167 168 main_v111 rfl (by decide)) (nw 168 main_v112 rfl) (val_main_v110 V) (val_main_v111 V)

theorem val_main_c_25 : StableHlo.after ops V (Proc.devRef .tc main_c_25) = constantI S_ 32 0#32 :=
  StableHlo.eq_nullary (y := main_c_25) writes V 169 (lt_len 169 (by decide)) _ ⟨by decide, rfl⟩ rfl (nw 169 main_c_25 rfl)

theorem val_main_call5_cst : StableHlo.after ops V (Proc.devRef .tc main_call5_cst) = constant S_ .f32 0x00000000#32 :=
  StableHlo.eq_nullary (y := main_call5_cst) writes V 170 (lt_len 170 (by decide)) _ ⟨by decide, rfl⟩ rfl (nw 170 main_call5_cst rfl)

theorem val_main_call5_v0 : StableHlo.after ops V (Proc.devRef .tc main_call5_v0) = Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_ :=
  StableHlo.eq_binary' (a := main_v109) (b := main_call5_cst) (y := main_call5_v0) writes V 171 (lt_len 171 (by decide)) (fun x v => Host.reduceAdd x v reducesTo_S100000x32_S32_d0 h_S_ : (⟨S100000x32, .f32⟩ : BufTy).Contents (Elt F) → (⟨S_, .f32⟩ : BufTy).Contents (Elt F) → (⟨S32, .f32⟩ : BufTy).Contents (Elt F)) ⟨by decide, rfl⟩ ⟨by decide, rfl⟩ ⟨by decide, rfl⟩ rfl (nr 163 171 main_v109 rfl (by decide)) (nr 170 171 main_call5_cst rfl (by decide)) (nw 171 main_call5_v0 rfl) (val_main_v109 V) (val_main_call5_cst V)

theorem val_main_call5_v1 : StableHlo.after ops V (Proc.devRef .tc main_call5_v1) = broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_) :=
  StableHlo.eq_unary' (x := main_call5_v0) (y := main_call5_v1) writes V 172 (lt_len 172 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (nr 171 172 main_call5_v0 rfl (by decide)) (nw 172 main_call5_v1 rfl) (val_main_call5_v0 V)

theorem val_main_call5_cst_0 : StableHlo.after ops V (Proc.devRef .tc main_call5_cst_0) = constant S_ .f32 0x47C35000#32 :=
  StableHlo.eq_nullary (y := main_call5_cst_0) writes V 173 (lt_len 173 (by decide)) _ ⟨by decide, rfl⟩ rfl (nw 173 main_call5_cst_0 rfl)

theorem val_main_call5_v2 : StableHlo.after ops V (Proc.devRef .tc main_call5_v2) = broadcastInDim S1x32 ![] bcast_S_S1x32 (constant S_ .f32 0x47C35000#32) :=
  StableHlo.eq_unary' (x := main_call5_cst_0) (y := main_call5_v2) writes V 174 (lt_len 174 (by decide)) (broadcastInDim S1x32 ![] bcast_S_S1x32 : (⟨S_, .f32⟩ : BufTy).Contents (Elt F) → (⟨S1x32, .f32⟩ : BufTy).Contents (Elt F)) ⟨by decide, rfl⟩ ⟨by decide, rfl⟩ rfl (nr 173 174 main_call5_cst_0 rfl (by decide)) (nw 174 main_call5_v2 rfl) (val_main_call5_cst_0 V)

theorem val_main_call5_v3 : StableHlo.after ops V (Proc.devRef .tc main_call5_v3) = Host.divf (broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)) :=
  StableHlo.eq_binary' (a := main_call5_v1) (b := main_call5_v2) (y := main_call5_v3) writes V 175 (lt_len 175 (by decide)) (Host.divf : (⟨S1x32, .f32⟩ : BufTy).Contents (Elt F) → (⟨S1x32, .f32⟩ : BufTy).Contents (Elt F) → (⟨S1x32, .f32⟩ : BufTy).Contents (Elt F)) ⟨by decide, rfl⟩ ⟨by decide, rfl⟩ ⟨by decide, rfl⟩ rfl (nr 172 175 main_call5_v1 rfl (by decide)) (nr 174 175 main_call5_v2 rfl (by decide)) (nw 175 main_call5_v3 rfl) (val_main_call5_v1 V) (val_main_call5_v2 V)

theorem val_main_call5_v4 : StableHlo.after ops V (Proc.devRef .tc main_call5_v4) = broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))) :=
  StableHlo.eq_unary' (x := main_call5_v3) (y := main_call5_v4) writes V 176 (lt_len 176 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 175 176 main_call5_v3 rfl (by decide)) (nw 176 main_call5_v4 rfl) (val_main_call5_v3 V)

theorem val_main_call5_v5 : StableHlo.after ops V (Proc.devRef .tc main_call5_v5) = subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)))) :=
  StableHlo.eq_binary' (a := main_v109) (b := main_call5_v4) (y := main_call5_v5) writes V 177 (lt_len 177 (by decide)) (subf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 163 177 main_v109 rfl (by decide)) (nr 176 177 main_call5_v4 rfl (by decide)) (nw 177 main_call5_v5 rfl) (val_main_v109 V) (val_main_call5_v4 V)

theorem val_main_call5_v6 : StableHlo.after ops V (Proc.devRef .tc main_call5_v6) = mulf (subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) (subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) :=
  StableHlo.eq_binary' (a := main_call5_v5) (b := main_call5_v5) (y := main_call5_v6) writes V 178 (lt_len 178 (by decide)) (mulf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 177 178 main_call5_v5 rfl (by decide)) (nr 177 178 main_call5_v5 rfl (by decide)) (nw 178 main_call5_v6 rfl) (val_main_call5_v5 V) (val_main_call5_v5 V)

theorem val_main_call5_v7 : StableHlo.after ops V (Proc.devRef .tc main_call5_v7) = sitofp .f32 (constantI S_ 32 0#32) :=
  StableHlo.eq_unary' (x := main_c_25) (y := main_call5_v7) writes V 179 (lt_len 179 (by decide)) (sitofp .f32 : (⟨S_, .i32⟩ : BufTy).Contents (Elt F) → (⟨S_, .f32⟩ : BufTy).Contents (Elt F)) ⟨by decide, rfl⟩ ⟨by decide, rfl⟩ rfl (nr 169 179 main_c_25 rfl (by decide)) (nw 179 main_call5_v7 rfl) (val_main_c_25 V)

theorem val_main_call5_cst_1 : StableHlo.after ops V (Proc.devRef .tc main_call5_cst_1) = constant S_ .f32 0x47C35000#32 :=
  StableHlo.eq_nullary (y := main_call5_cst_1) writes V 180 (lt_len 180 (by decide)) _ ⟨by decide, rfl⟩ rfl (nw 180 main_call5_cst_1 rfl)

theorem val_main_call5_v8 : StableHlo.after ops V (Proc.devRef .tc main_call5_v8) = subf (constant S_ .f32 0x47C35000#32) (sitofp .f32 (constantI S_ 32 0#32)) :=
  StableHlo.eq_binary' (a := main_call5_cst_1) (b := main_call5_v7) (y := main_call5_v8) writes V 181 (lt_len 181 (by decide)) (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ rfl (nr 180 181 main_call5_cst_1 rfl (by decide)) (nr 179 181 main_call5_v7 rfl (by decide)) (nw 181 main_call5_v8 rfl) (val_main_call5_cst_1 V) (val_main_call5_v7 V)

theorem val_main_call5_cst_2 : StableHlo.after ops V (Proc.devRef .tc main_call5_cst_2) = constant S_ .f32 0x00000000#32 :=
  StableHlo.eq_nullary (y := main_call5_cst_2) writes V 182 (lt_len 182 (by decide)) _ ⟨by decide, rfl⟩ rfl (nw 182 main_call5_cst_2 rfl)

theorem val_main_call5_v9 : StableHlo.after ops V (Proc.devRef .tc main_call5_v9) = Host.reduceAdd (mulf (subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) (subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)))))) (constant S_ .f32 0x00000000#32) reducesTo_S100000x32_S32_d0 h_S_ :=
  StableHlo.eq_binary' (a := main_call5_v6) (b := main_call5_cst_2) (y := main_call5_v9) writes V 183 (lt_len 183 (by decide)) (fun x v => Host.reduceAdd x v reducesTo_S100000x32_S32_d0 h_S_ : (⟨S100000x32, .f32⟩ : BufTy).Contents (Elt F) → (⟨S_, .f32⟩ : BufTy).Contents (Elt F) → (⟨S32, .f32⟩ : BufTy).Contents (Elt F)) ⟨by decide, rfl⟩ ⟨by decide, rfl⟩ ⟨by decide, rfl⟩ rfl (nr 178 183 main_call5_v6 rfl (by decide)) (nr 182 183 main_call5_cst_2 rfl (by decide)) (nw 183 main_call5_v9 rfl) (val_main_call5_v6 V) (val_main_call5_cst_2 V)

theorem val_main_call5_v10 : StableHlo.after ops V (Proc.devRef .tc main_call5_v10) = broadcastInDim S32 ![] bcast_S_S32 (subf (constant S_ .f32 0x47C35000#32) (sitofp .f32 (constantI S_ 32 0#32))) :=
  StableHlo.eq_unary' (x := main_call5_v8) (y := main_call5_v10) writes V 184 (lt_len 184 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 181 184 main_call5_v8 rfl (by decide)) (nw 184 main_call5_v10 rfl) (val_main_call5_v8 V)

theorem val_main_call5_v11 : StableHlo.after ops V (Proc.devRef .tc main_call5_v11) = Host.divf (Host.reduceAdd (mulf (subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) (subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)))))) (constant S_ .f32 0x00000000#32) reducesTo_S100000x32_S32_d0 h_S_) (broadcastInDim S32 ![] bcast_S_S32 (subf (constant S_ .f32 0x47C35000#32) (sitofp .f32 (constantI S_ 32 0#32)))) :=
  StableHlo.eq_binary' (a := main_call5_v9) (b := main_call5_v10) (y := main_call5_v11) writes V 185 (lt_len 185 (by decide)) (Host.divf : (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ rfl (nr 183 185 main_call5_v9 rfl (by decide)) (nr 184 185 main_call5_v10 rfl (by decide)) (nw 185 main_call5_v11 rfl) (val_main_call5_v9 V) (val_main_call5_v10 V)

theorem val_main_call5_cst_3 : StableHlo.after ops V (Proc.devRef .tc main_call5_cst_3) = constant S_ .f32 0x00000000#32 :=
  StableHlo.eq_nullary (y := main_call5_cst_3) writes V 186 (lt_len 186 (by decide)) _ ⟨by decide, rfl⟩ rfl (nw 186 main_call5_cst_3 rfl)

theorem val_main_call5_v12 : StableHlo.after ops V (Proc.devRef .tc main_call5_v12) = cmpf .ogt (subf (constant S_ .f32 0x47C35000#32) (sitofp .f32 (constantI S_ 32 0#32)) : (⟨S_, .f32⟩ : BufTy).Contents (Elt F)) (constant S_ .f32 0x00000000#32) :=
  StableHlo.eq_binary' (a := main_call5_v8) (b := main_call5_cst_3) (y := main_call5_v12) writes V 187 (lt_len 187 (by decide)) (cmpf .ogt : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ rfl (nr 181 187 main_call5_v8 rfl (by decide)) (nr 186 187 main_call5_cst_3 rfl (by decide)) (nw 187 main_call5_v12 rfl) (val_main_call5_v8 V) (val_main_call5_cst_3 V)

theorem val_main_call5_cst_4 : StableHlo.after ops V (Proc.devRef .tc main_call5_cst_4) = constant S_ .f32 0x7FC00000#32 :=
  StableHlo.eq_nullary (y := main_call5_cst_4) writes V 188 (lt_len 188 (by decide)) _ ⟨by decide, rfl⟩ rfl (nw 188 main_call5_cst_4 rfl)

theorem val_main_call5_call0_v0 : StableHlo.after ops V (Proc.devRef .tc main_call5_call0_v0) = id (constant S_ .f32 0x7FC00000#32) :=
  StableHlo.eq_unary' (x := main_call5_cst_4) (y := main_call5_call0_v0) writes V 189 (lt_len 189 (by decide)) (id : (⟨S_, .f32⟩ : BufTy).Contents (Elt F) → (⟨S_, .f32⟩ : BufTy).Contents (Elt F)) ⟨by decide, rfl⟩ ⟨by decide, rfl⟩ rfl (nr 188 189 main_call5_cst_4 rfl (by decide)) (nw 189 main_call5_call0_v0 rfl) (val_main_call5_cst_4 V)

theorem val_main_call5_call0_v1 : StableHlo.after ops V (Proc.devRef .tc main_call5_call0_v1) = broadcastInDim S32 ![] bcast_S_S32 (id (constant S_ .f32 0x7FC00000#32)) :=
  StableHlo.eq_unary' (x := main_call5_call0_v0) (y := main_call5_call0_v1) writes V 190 (lt_len 190 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 189 190 main_call5_call0_v0 rfl (by decide)) (nw 190 main_call5_call0_v1 rfl) (val_main_call5_call0_v0 V)

theorem val_main_v113 : StableHlo.after ops V (Proc.devRef .tc main_v113) = var (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) :=
  StableHlo.eq_ternary' (c := main_call5_v12) (a := main_call5_v11) (b := main_call5_call0_v1) (y := main_v113) writes V 191 (lt_len 191 (by decide)) (fun p a b => select (broadcastInDim S32 ![] bcast_S_S32 p) a b : (⟨S_, .i1⟩ : BufTy).Contents (Elt F) → (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ ⟨by decide, rfl⟩ rfl (nr 187 191 main_call5_v12 rfl (by decide)) (nr 185 191 main_call5_v11 rfl (by decide)) (nr 190 191 main_call5_call0_v1 rfl (by decide)) (nw 191 main_v113 rfl) (val_main_call5_v12 V) (val_main_call5_v11 V) (val_main_call5_call0_v1 V)

theorem val_main_v114 : StableHlo.after ops V (Proc.devRef .tc main_v114) = broadcastInDim S1x32 ![1] bcast_S32_S1x32_1 (mean (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2)))))) :=
  StableHlo.eq_unary' (x := main_v112) (y := main_v114) writes V 192 (lt_len 192 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (nr 168 192 main_v112 rfl (by decide)) (nw 192 main_v114 rfl) (val_main_v112 V)

theorem val_main_v115 : StableHlo.after ops V (Proc.devRef .tc main_v115) = broadcastInDim S100000x32 ![0, 1] bcast_S1x32_S100000x32_0_1 (broadcastInDim S1x32 ![1] bcast_S32_S1x32_1 (mean (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))))) :=
  StableHlo.eq_unary' (x := main_v114) (y := main_v115) writes V 193 (lt_len 193 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 192 193 main_v114 rfl (by decide)) (nw 193 main_v115 rfl) (val_main_v114 V)

theorem val_main_v116 : StableHlo.after ops V (Proc.devRef .tc main_v116) = subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (broadcastInDim S1x32 ![1] bcast_S32_S1x32_1 (mean (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2)))))))) :=
  StableHlo.eq_binary' (a := main_v109) (b := main_v115) (y := main_v116) writes V 194 (lt_len 194 (by decide)) (subf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 163 194 main_v109 rfl (by decide)) (nr 193 194 main_v115 rfl (by decide)) (nw 194 main_v116 rfl) (val_main_v109 V) (val_main_v115 V)

theorem val_main_cst_26 : StableHlo.after ops V (Proc.devRef .tc main_cst_26) = constant S_ .f32 0x3727C5AC#32 :=
  StableHlo.eq_nullary (y := main_cst_26) writes V 195 (lt_len 195 (by decide)) _ ⟨by decide, rfl⟩ rfl (nw 195 main_cst_26 rfl)

theorem val_main_v117 : StableHlo.after ops V (Proc.devRef .tc main_v117) = broadcastInDim S32 ![] bcast_S_S32 (constant S_ .f32 0x3727C5AC#32) :=
  StableHlo.eq_unary' (x := main_cst_26) (y := main_v117) writes V 196 (lt_len 196 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 195 196 main_cst_26 rfl (by decide)) (nw 196 main_v117 rfl) (val_main_cst_26 V)

theorem val_main_v118 : StableHlo.after ops V (Proc.devRef .tc main_v118) = addf (var (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2)))))) (broadcastInDim S32 ![] bcast_S_S32 (constant S_ .f32 0x3727C5AC#32)) :=
  StableHlo.eq_binary' (a := main_v113) (b := main_v117) (y := main_v118) writes V 197 (lt_len 197 (by decide)) (addf : (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ rfl (nr 191 197 main_v113 rfl (by decide)) (nr 196 197 main_v117 rfl (by decide)) (nw 197 main_v118 rfl) (val_main_v113 V) (val_main_v117 V)

theorem val_main_v119 : StableHlo.after ops V (Proc.devRef .tc main_v119) = Host.rsqrt (addf (var (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2)))))) (broadcastInDim S32 ![] bcast_S_S32 (constant S_ .f32 0x3727C5AC#32))) :=
  StableHlo.eq_unary' (x := main_v118) (y := main_v119) writes V 198 (lt_len 198 (by decide)) (Host.rsqrt : (⟨S32, .f32⟩ : BufTy).Contents (Elt F) → (⟨S32, .f32⟩ : BufTy).Contents (Elt F)) ⟨by decide, rfl⟩ ⟨by decide, rfl⟩ rfl (nr 197 198 main_v118 rfl (by decide)) (nw 198 main_v119 rfl) (val_main_v118 V)

theorem val_main_v120 : StableHlo.after ops V (Proc.devRef .tc main_v120) = broadcastInDim S1x32 ![1] bcast_S32_S1x32_1 (Host.rsqrt (addf (var (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2)))))) (broadcastInDim S32 ![] bcast_S_S32 (constant S_ .f32 0x3727C5AC#32)))) :=
  StableHlo.eq_unary' (x := main_v119) (y := main_v120) writes V 199 (lt_len 199 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (nr 198 199 main_v119 rfl (by decide)) (nw 199 main_v120 rfl) (val_main_v119 V)

theorem val_main_v121 : StableHlo.after ops V (Proc.devRef .tc main_v121) = broadcastInDim S100000x32 ![0, 1] bcast_S1x32_S100000x32_0_1 (broadcastInDim S1x32 ![1] bcast_S32_S1x32_1 (Host.rsqrt (addf (var (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2)))))) (broadcastInDim S32 ![] bcast_S_S32 (constant S_ .f32 0x3727C5AC#32))))) :=
  StableHlo.eq_unary' (x := main_v120) (y := main_v121) writes V 200 (lt_len 200 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 199 200 main_v120 rfl (by decide)) (nw 200 main_v121 rfl) (val_main_v120 V)

theorem val_main_v122 : StableHlo.after ops V (Proc.devRef .tc main_v122) = mulf (subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (broadcastInDim S1x32 ![1] bcast_S32_S1x32_1 (mean (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))))))) (broadcastInDim S100000x32 ![0, 1] bcast_S1x32_S100000x32_0_1 (broadcastInDim S1x32 ![1] bcast_S32_S1x32_1 (Host.rsqrt (addf (var (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2)))))) (broadcastInDim S32 ![] bcast_S_S32 (constant S_ .f32 0x3727C5AC#32)))))) :=
  StableHlo.eq_binary' (a := main_v116) (b := main_v121) (y := main_v122) writes V 201 (lt_len 201 (by decide)) (mulf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 194 201 main_v116 rfl (by decide)) (nr 200 201 main_v121 rfl (by decide)) (nw 201 main_v122 rfl) (val_main_v116 V) (val_main_v121 V)

theorem val_main_v123 : StableHlo.after ops V (Proc.devRef .tc main_v123) = broadcastInDim S1x32 ![1] bcast_S32_S1x32_1 (V (Proc.devRef .tc main_arg9)) :=
  StableHlo.eq_unary' (x := main_arg9) (y := main_v123) writes V 202 (lt_len 202 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (na main_arg9 arg9_notW 202) (nw 202 main_v123 rfl) (val_main_arg9 V)

theorem val_main_v124 : StableHlo.after ops V (Proc.devRef .tc main_v124) = broadcastInDim S100000x32 ![0, 1] bcast_S1x32_S100000x32_0_1 (broadcastInDim S1x32 ![1] bcast_S32_S1x32_1 (V (Proc.devRef .tc main_arg9))) :=
  StableHlo.eq_unary' (x := main_v123) (y := main_v124) writes V 203 (lt_len 203 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 202 203 main_v123 rfl (by decide)) (nw 203 main_v124 rfl) (val_main_v123 V)

theorem val_main_v125 : StableHlo.after ops V (Proc.devRef .tc main_v125) = mulf (mulf (subf (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (broadcastInDim S100000x32 ![0, 1] bcast_S1x32_S100000x32_0_1 (broadcastInDim S1x32 ![1] bcast_S32_S1x32_1 (mean (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))))))) (broadcastInDim S100000x32 ![0, 1] bcast_S1x32_S100000x32_0_1 (broadcastInDim S1x32 ![1] bcast_S32_S1x32_1 (Host.rsqrt (addf (var (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2)))))) (broadcastInDim S32 ![] bcast_S_S32 (constant S_ .f32 0x3727C5AC#32))))))) (broadcastInDim S100000x32 ![0, 1] bcast_S1x32_S100000x32_0_1 (broadcastInDim S1x32 ![1] bcast_S32_S1x32_1 (V (Proc.devRef .tc main_arg9)))) :=
  StableHlo.eq_binary' (a := main_v122) (b := main_v124) (y := main_v125) writes V 204 (lt_len 204 (by decide)) (mulf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 201 204 main_v122 rfl (by decide)) (nr 203 204 main_v124 rfl (by decide)) (nw 204 main_v125 rfl) (val_main_v122 V) (val_main_v124 V)

theorem val_main_v126 : StableHlo.after ops V (Proc.devRef .tc main_v126) = broadcastInDim S1x32 ![1] bcast_S32_S1x32_1 (V (Proc.devRef .tc main_arg10)) :=
  StableHlo.eq_unary' (x := main_arg10) (y := main_v126) writes V 205 (lt_len 205 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (na main_arg10 arg10_notW 205) (nw 205 main_v126 rfl) (val_main_arg10 V)

theorem val_main_v127 : StableHlo.after ops V (Proc.devRef .tc main_v127) = broadcastInDim S100000x32 ![0, 1] bcast_S1x32_S100000x32_0_1 (broadcastInDim S1x32 ![1] bcast_S32_S1x32_1 (V (Proc.devRef .tc main_arg10))) :=
  StableHlo.eq_unary' (x := main_v126) (y := main_v127) writes V 206 (lt_len 206 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 205 206 main_v126 rfl (by decide)) (nw 206 main_v127 rfl) (val_main_v126 V)

theorem val_main_v128 : StableHlo.after ops V (Proc.devRef .tc main_v128) = bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10)) :=
  StableHlo.eq_binary' (a := main_v125) (b := main_v127) (y := main_v128) writes V 207 (lt_len 207 (by decide)) (addf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 204 207 main_v125 rfl (by decide)) (nr 206 207 main_v127 rfl (by decide)) (nw 207 main_v128 rfl) (val_main_v125 V) (val_main_v127 V)

theorem val_main_v129 : StableHlo.after ops V (Proc.devRef .tc main_v129) = Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11)) :=
  StableHlo.eq_binary' (a := main_v128) (b := main_arg11) (y := main_v129) writes V 208 (lt_len 208 (by decide)) ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ⟨by decide, rfl⟩ ⟨by decide, rfl⟩ ⟨by decide, rfl⟩ rfl (nr 207 208 main_v128 rfl (by decide)) (na main_arg11 arg11_notW 208) (nw 208 main_v129 rfl) (val_main_v128 V) (val_main_arg11 V)

theorem val_main_cst_27 : StableHlo.after ops V (Proc.devRef .tc main_cst_27) = constant S_ .f32 0x00000000#32 :=
  StableHlo.eq_nullary (y := main_cst_27) writes V 209 (lt_len 209 (by decide)) _ ⟨by decide, rfl⟩ rfl (nw 209 main_cst_27 rfl)

theorem val_main_v130 : StableHlo.after ops V (Proc.devRef .tc main_v130) = broadcastInDim S100000 ![] bcast_S_S100000 (constant S_ .f32 0x00000000#32) :=
  StableHlo.eq_unary' (x := main_cst_27) (y := main_v130) writes V 210 (lt_len 210 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 209 210 main_cst_27 rfl (by decide)) (nw 210 main_v130 rfl) (val_main_cst_27 V)

theorem val_main_v131 : StableHlo.after ops V (Proc.devRef .tc main_v131) = broadcastInDim S1700000x1 ![0] bcast_S1700000_S1700000x1_0 (cols (V (Proc.devRef .tc main_arg1))) :=
  StableHlo.eq_unary' (x := main_v6) (y := main_v131) writes V 211 (lt_len 211 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 6 211 main_v6 rfl (by decide)) (nw 211 main_v131 rfl) (val_main_v6 V)

theorem val_main_v132 : StableHlo.after ops V (Proc.devRef .tc main_v132) = deg (cols (V (Proc.devRef .tc main_arg1))) (wts (V (Proc.devRef .tc main_arg2))) :=
  StableHlo.eq_ternary' (c := main_v130) (a := main_v131) (b := main_v8) (y := main_v132) writes V 212 (lt_len 212 (by decide)) ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ⟨by decide, rfl⟩ ⟨by decide, rfl⟩ ⟨by decide, rfl⟩ ⟨by decide, rfl⟩ rfl (nr 210 212 main_v130 rfl (by decide)) (nr 211 212 main_v131 rfl (by decide)) (nr 9 212 main_v8 rfl (by decide)) (nw 212 main_v132 rfl) (val_main_v130 V) (val_main_v131 V) (val_main_v8 V)

theorem val_main_cst_28 : StableHlo.after ops V (Proc.devRef .tc main_cst_28) = constant S_ .f32 0x00000000#32 :=
  StableHlo.eq_nullary (y := main_cst_28) writes V 213 (lt_len 213 (by decide)) _ ⟨by decide, rfl⟩ rfl (nw 213 main_cst_28 rfl)

theorem val_main_v133 : StableHlo.after ops V (Proc.devRef .tc main_v133) = broadcastInDim S100000 ![] bcast_S_S100000 (constant S_ .f32 0x00000000#32) :=
  StableHlo.eq_unary' (x := main_cst_28) (y := main_v133) writes V 214 (lt_len 214 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 213 214 main_cst_28 rfl (by decide)) (nw 214 main_v133 rfl) (val_main_cst_28 V)

theorem val_main_v134 : StableHlo.after ops V (Proc.devRef .tc main_v134) = cmpf .ogt (deg (cols (V (Proc.devRef .tc main_arg1))) (wts (V (Proc.devRef .tc main_arg2))) : (⟨S100000, .f32⟩ : BufTy).Contents (Elt F)) (broadcastInDim S100000 ![] bcast_S_S100000 (constant S_ .f32 0x00000000#32)) :=
  StableHlo.eq_binary' (a := main_v132) (b := main_v133) (y := main_v134) writes V 215 (lt_len 215 (by decide)) (cmpf .ogt : (⟨S100000, .f32⟩ : BufTy).Contents (Elt F) → (⟨S100000, .f32⟩ : BufTy).Contents (Elt F) → (⟨S100000, .i1⟩ : BufTy).Contents (Elt F)) ⟨by decide, rfl⟩ ⟨by decide, rfl⟩ ⟨by decide, rfl⟩ rfl (nr 212 215 main_v132 rfl (by decide)) (nr 214 215 main_v133 rfl (by decide)) (nw 215 main_v134 rfl) (val_main_v132 V) (val_main_v133 V)

theorem val_main_v135 : StableHlo.after ops V (Proc.devRef .tc main_v135) = Host.rsqrt (deg (cols (V (Proc.devRef .tc main_arg1))) (wts (V (Proc.devRef .tc main_arg2)))) :=
  StableHlo.eq_unary' (x := main_v132) (y := main_v135) writes V 216 (lt_len 216 (by decide)) (Host.rsqrt : (⟨S100000, .f32⟩ : BufTy).Contents (Elt F) → (⟨S100000, .f32⟩ : BufTy).Contents (Elt F)) ⟨by decide, rfl⟩ ⟨by decide, rfl⟩ rfl (nr 212 216 main_v132 rfl (by decide)) (nw 216 main_v135 rfl) (val_main_v132 V)

theorem val_main_cst_29 : StableHlo.after ops V (Proc.devRef .tc main_cst_29) = constant S_ .f32 0x00000000#32 :=
  StableHlo.eq_nullary (y := main_cst_29) writes V 217 (lt_len 217 (by decide)) _ ⟨by decide, rfl⟩ rfl (nw 217 main_cst_29 rfl)

theorem val_main_call6_v0 : StableHlo.after ops V (Proc.devRef .tc main_call6_v0) = id (constant S_ .f32 0x00000000#32) :=
  StableHlo.eq_unary' (x := main_cst_29) (y := main_call6_v0) writes V 218 (lt_len 218 (by decide)) (id : (⟨S_, .f32⟩ : BufTy).Contents (Elt F) → (⟨S_, .f32⟩ : BufTy).Contents (Elt F)) ⟨by decide, rfl⟩ ⟨by decide, rfl⟩ rfl (nr 217 218 main_cst_29 rfl (by decide)) (nw 218 main_call6_v0 rfl) (val_main_cst_29 V)

theorem val_main_call6_v1 : StableHlo.after ops V (Proc.devRef .tc main_call6_v1) = broadcastInDim S100000 ![] bcast_S_S100000 (id (constant S_ .f32 0x00000000#32)) :=
  StableHlo.eq_unary' (x := main_call6_v0) (y := main_call6_v1) writes V 219 (lt_len 219 (by decide)) (broadcastInDim S100000 ![] bcast_S_S100000 : (⟨S_, .f32⟩ : BufTy).Contents (Elt F) → (⟨S100000, .f32⟩ : BufTy).Contents (Elt F)) ⟨by decide, rfl⟩ ⟨by decide, rfl⟩ rfl (nr 218 219 main_call6_v0 rfl (by decide)) (nw 219 main_call6_v1 rfl) (val_main_call6_v0 V)

theorem val_main_v136 : StableHlo.after ops V (Proc.devRef .tc main_v136) = dis (cols (V (Proc.devRef .tc main_arg1))) (wts (V (Proc.devRef .tc main_arg2))) :=
  StableHlo.eq_ternary' (c := main_v134) (a := main_v135) (b := main_call6_v1) (y := main_v136) writes V 220 (lt_len 220 (by decide)) (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ⟨by decide, rfl⟩ ⟨by decide, rfl⟩ ⟨by decide, rfl⟩ ⟨by decide, rfl⟩ rfl (nr 215 220 main_v134 rfl (by decide)) (nr 216 220 main_v135 rfl (by decide)) (nr 219 220 main_call6_v1 rfl (by decide)) (nw 220 main_v136 rfl) (val_main_v134 V) (val_main_v135 V) (val_main_call6_v1 V)

theorem val_main_c_30 : StableHlo.after ops V (Proc.devRef .tc main_c_30) = constantI S_ 32 0#32 :=
  StableHlo.eq_nullary (y := main_c_30) writes V 221 (lt_len 221 (by decide)) _ ⟨by decide, rfl⟩ rfl (nw 221 main_c_30 rfl)

theorem val_main_v137 : StableHlo.after ops V (Proc.devRef .tc main_v137) = broadcastInDim S1700000 ![] bcast_S_S1700000 (constantI S_ 32 0#32) :=
  StableHlo.eq_unary' (x := main_c_30) (y := main_v137) writes V 222 (lt_len 222 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 221 222 main_c_30 rfl (by decide)) (nw 222 main_v137 rfl) (val_main_c_30 V)

theorem val_main_v138 : StableHlo.after ops V (Proc.devRef .tc main_v138) = cmpi .slt (rows (V (Proc.devRef .tc main_arg1))) (broadcastInDim S1700000 ![] bcast_S_S1700000 (constantI S_ 32 0#32)) :=
  StableHlo.eq_binary' (a := main_v3) (b := main_v137) (y := main_v138) writes V 223 (lt_len 223 (by decide)) (cmpi .slt : (⟨S1700000, .i32⟩ : BufTy).Contents (Elt F) → (⟨S1700000, .i32⟩ : BufTy).Contents (Elt F) → (⟨S1700000, .i1⟩ : BufTy).Contents (Elt F)) ⟨by decide, rfl⟩ ⟨by decide, rfl⟩ ⟨by decide, rfl⟩ rfl (nr 3 223 main_v3 rfl (by decide)) (nr 222 223 main_v137 rfl (by decide)) (nw 223 main_v138 rfl) (val_main_v3 V) (val_main_v137 V)

theorem val_main_c_31 : StableHlo.after ops V (Proc.devRef .tc main_c_31) = constantI S_ 32 100000#32 :=
  StableHlo.eq_nullary (y := main_c_31) writes V 224 (lt_len 224 (by decide)) _ ⟨by decide, rfl⟩ rfl (nw 224 main_c_31 rfl)

theorem val_main_v139 : StableHlo.after ops V (Proc.devRef .tc main_v139) = broadcastInDim S1700000 ![] bcast_S_S1700000 (constantI S_ 32 100000#32) :=
  StableHlo.eq_unary' (x := main_c_31) (y := main_v139) writes V 225 (lt_len 225 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 224 225 main_c_31 rfl (by decide)) (nw 225 main_v139 rfl) (val_main_c_31 V)

theorem val_main_v140 : StableHlo.after ops V (Proc.devRef .tc main_v140) = addi (rows (V (Proc.devRef .tc main_arg1))) (broadcastInDim S1700000 ![] bcast_S_S1700000 (constantI S_ 32 100000#32)) :=
  StableHlo.eq_binary' (a := main_v3) (b := main_v139) (y := main_v140) writes V 226 (lt_len 226 (by decide)) (addi : (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ rfl (nr 3 226 main_v3 rfl (by decide)) (nr 225 226 main_v139 rfl (by decide)) (nw 226 main_v140 rfl) (val_main_v3 V) (val_main_v139 V)

theorem val_main_v141 : StableHlo.after ops V (Proc.devRef .tc main_v141) = select (cmpi .slt (rows (V (Proc.devRef .tc main_arg1))) (broadcastInDim S1700000 ![] bcast_S_S1700000 (constantI S_ 32 0#32))) (addi (rows (V (Proc.devRef .tc main_arg1))) (broadcastInDim S1700000 ![] bcast_S_S1700000 (constantI S_ 32 100000#32))) (rows (V (Proc.devRef .tc main_arg1))) :=
  StableHlo.eq_ternary' (c := main_v138) (a := main_v140) (b := main_v3) (y := main_v141) writes V 227 (lt_len 227 (by decide)) (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ ⟨by decide, rfl⟩ rfl (nr 223 227 main_v138 rfl (by decide)) (nr 226 227 main_v140 rfl (by decide)) (nr 3 227 main_v3 rfl (by decide)) (nw 227 main_v141 rfl) (val_main_v138 V) (val_main_v140 V) (val_main_v3 V)

theorem val_main_v142 : StableHlo.after ops V (Proc.devRef .tc main_v142) = widx (rows (V (Proc.devRef .tc main_arg1))) :=
  StableHlo.eq_unary' (x := main_v141) (y := main_v142) writes V 228 (lt_len 228 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 227 228 main_v141 rfl (by decide)) (nw 228 main_v142 rfl) (val_main_v141 V)

theorem val_main_v143 : StableHlo.after ops V (Proc.devRef .tc main_v143) = Host.gather gather_S100000_S1700000x1_S1700000_n_0_n_n_0_1_1 (dis (cols (V (Proc.devRef .tc main_arg1))) (wts (V (Proc.devRef .tc main_arg2)))) (widx (rows (V (Proc.devRef .tc main_arg1)))) :=
  StableHlo.eq_binary' (a := main_v136) (b := main_v142) (y := main_v143) writes V 229 (lt_len 229 (by decide)) ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ⟨by decide, rfl⟩ ⟨by decide, rfl⟩ ⟨by decide, rfl⟩ rfl (nr 220 229 main_v136 rfl (by decide)) (nr 228 229 main_v142 rfl (by decide)) (nw 229 main_v143 rfl) (val_main_v136 V) (val_main_v142 V)

theorem val_main_v144 : StableHlo.after ops V (Proc.devRef .tc main_v144) = mulf (Host.gather gather_S100000_S1700000x1_S1700000_n_0_n_n_0_1_1 (dis (cols (V (Proc.devRef .tc main_arg1))) (wts (V (Proc.devRef .tc main_arg2)))) (widx (rows (V (Proc.devRef .tc main_arg1))))) (wts (V (Proc.devRef .tc main_arg2))) :=
  StableHlo.eq_binary' (a := main_v143) (b := main_v8) (y := main_v144) writes V 230 (lt_len 230 (by decide)) (mulf : (⟨S1700000, .f32⟩ : BufTy).Contents (Elt F) → (⟨S1700000, .f32⟩ : BufTy).Contents (Elt F) → (⟨S1700000, .f32⟩ : BufTy).Contents (Elt F)) ⟨by decide, rfl⟩ ⟨by decide, rfl⟩ ⟨by decide, rfl⟩ rfl (nr 229 230 main_v143 rfl (by decide)) (nr 9 230 main_v8 rfl (by decide)) (nw 230 main_v144 rfl) (val_main_v143 V) (val_main_v8 V)

theorem val_main_c_32 : StableHlo.after ops V (Proc.devRef .tc main_c_32) = constantI S_ 32 0#32 :=
  StableHlo.eq_nullary (y := main_c_32) writes V 231 (lt_len 231 (by decide)) _ ⟨by decide, rfl⟩ rfl (nw 231 main_c_32 rfl)

theorem val_main_v145 : StableHlo.after ops V (Proc.devRef .tc main_v145) = broadcastInDim S1700000 ![] bcast_S_S1700000 (constantI S_ 32 0#32) :=
  StableHlo.eq_unary' (x := main_c_32) (y := main_v145) writes V 232 (lt_len 232 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 231 232 main_c_32 rfl (by decide)) (nw 232 main_v145 rfl) (val_main_c_32 V)

theorem val_main_v146 : StableHlo.after ops V (Proc.devRef .tc main_v146) = cmpi .slt (cols (V (Proc.devRef .tc main_arg1))) (broadcastInDim S1700000 ![] bcast_S_S1700000 (constantI S_ 32 0#32)) :=
  StableHlo.eq_binary' (a := main_v6) (b := main_v145) (y := main_v146) writes V 233 (lt_len 233 (by decide)) (cmpi .slt : (⟨S1700000, .i32⟩ : BufTy).Contents (Elt F) → (⟨S1700000, .i32⟩ : BufTy).Contents (Elt F) → (⟨S1700000, .i1⟩ : BufTy).Contents (Elt F)) ⟨by decide, rfl⟩ ⟨by decide, rfl⟩ ⟨by decide, rfl⟩ rfl (nr 6 233 main_v6 rfl (by decide)) (nr 232 233 main_v145 rfl (by decide)) (nw 233 main_v146 rfl) (val_main_v6 V) (val_main_v145 V)

theorem val_main_c_33 : StableHlo.after ops V (Proc.devRef .tc main_c_33) = constantI S_ 32 100000#32 :=
  StableHlo.eq_nullary (y := main_c_33) writes V 234 (lt_len 234 (by decide)) _ ⟨by decide, rfl⟩ rfl (nw 234 main_c_33 rfl)

theorem val_main_v147 : StableHlo.after ops V (Proc.devRef .tc main_v147) = broadcastInDim S1700000 ![] bcast_S_S1700000 (constantI S_ 32 100000#32) :=
  StableHlo.eq_unary' (x := main_c_33) (y := main_v147) writes V 235 (lt_len 235 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 234 235 main_c_33 rfl (by decide)) (nw 235 main_v147 rfl) (val_main_c_33 V)

theorem val_main_v148 : StableHlo.after ops V (Proc.devRef .tc main_v148) = addi (cols (V (Proc.devRef .tc main_arg1))) (broadcastInDim S1700000 ![] bcast_S_S1700000 (constantI S_ 32 100000#32)) :=
  StableHlo.eq_binary' (a := main_v6) (b := main_v147) (y := main_v148) writes V 236 (lt_len 236 (by decide)) (addi : (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ rfl (nr 6 236 main_v6 rfl (by decide)) (nr 235 236 main_v147 rfl (by decide)) (nw 236 main_v148 rfl) (val_main_v6 V) (val_main_v147 V)

theorem val_main_v149 : StableHlo.after ops V (Proc.devRef .tc main_v149) = select (cmpi .slt (cols (V (Proc.devRef .tc main_arg1))) (broadcastInDim S1700000 ![] bcast_S_S1700000 (constantI S_ 32 0#32))) (addi (cols (V (Proc.devRef .tc main_arg1))) (broadcastInDim S1700000 ![] bcast_S_S1700000 (constantI S_ 32 100000#32))) (cols (V (Proc.devRef .tc main_arg1))) :=
  StableHlo.eq_ternary' (c := main_v146) (a := main_v148) (b := main_v6) (y := main_v149) writes V 237 (lt_len 237 (by decide)) (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ ⟨by decide, rfl⟩ rfl (nr 233 237 main_v146 rfl (by decide)) (nr 236 237 main_v148 rfl (by decide)) (nr 6 237 main_v6 rfl (by decide)) (nw 237 main_v149 rfl) (val_main_v146 V) (val_main_v148 V) (val_main_v6 V)

theorem val_main_v150 : StableHlo.after ops V (Proc.devRef .tc main_v150) = widx (cols (V (Proc.devRef .tc main_arg1))) :=
  StableHlo.eq_unary' (x := main_v149) (y := main_v150) writes V 238 (lt_len 238 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 237 238 main_v149 rfl (by decide)) (nw 238 main_v150 rfl) (val_main_v149 V)

theorem val_main_v151 : StableHlo.after ops V (Proc.devRef .tc main_v151) = Host.gather gather_S100000_S1700000x1_S1700000_n_0_n_n_0_1_1 (dis (cols (V (Proc.devRef .tc main_arg1))) (wts (V (Proc.devRef .tc main_arg2)))) (widx (cols (V (Proc.devRef .tc main_arg1)))) :=
  StableHlo.eq_binary' (a := main_v136) (b := main_v150) (y := main_v151) writes V 239 (lt_len 239 (by decide)) ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ⟨by decide, rfl⟩ ⟨by decide, rfl⟩ ⟨by decide, rfl⟩ rfl (nr 220 239 main_v136 rfl (by decide)) (nr 238 239 main_v150 rfl (by decide)) (nw 239 main_v151 rfl) (val_main_v136 V) (val_main_v150 V)

theorem val_main_v152 : StableHlo.after ops V (Proc.devRef .tc main_v152) = norm (rows (V (Proc.devRef .tc main_arg1))) (cols (V (Proc.devRef .tc main_arg1))) (wts (V (Proc.devRef .tc main_arg2))) :=
  StableHlo.eq_binary' (a := main_v144) (b := main_v151) (y := main_v152) writes V 240 (lt_len 240 (by decide)) (mulf : (⟨S1700000, .f32⟩ : BufTy).Contents (Elt F) → (⟨S1700000, .f32⟩ : BufTy).Contents (Elt F) → (⟨S1700000, .f32⟩ : BufTy).Contents (Elt F)) ⟨by decide, rfl⟩ ⟨by decide, rfl⟩ ⟨by decide, rfl⟩ rfl (nr 230 240 main_v144 rfl (by decide)) (nr 239 240 main_v151 rfl (by decide)) (nw 240 main_v152 rfl) (val_main_v144 V) (val_main_v151 V)

theorem val_main_c_34 : StableHlo.after ops V (Proc.devRef .tc main_c_34) = constantI S_ 32 0#32 :=
  StableHlo.eq_nullary (y := main_c_34) writes V 241 (lt_len 241 (by decide)) _ ⟨by decide, rfl⟩ rfl (nw 241 main_c_34 rfl)

theorem val_main_v153 : StableHlo.after ops V (Proc.devRef .tc main_v153) = broadcastInDim S1700000 ![] bcast_S_S1700000 (constantI S_ 32 0#32) :=
  StableHlo.eq_unary' (x := main_c_34) (y := main_v153) writes V 242 (lt_len 242 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 241 242 main_c_34 rfl (by decide)) (nw 242 main_v153 rfl) (val_main_c_34 V)

theorem val_main_v154 : StableHlo.after ops V (Proc.devRef .tc main_v154) = cmpi .slt (rows (V (Proc.devRef .tc main_arg1))) (broadcastInDim S1700000 ![] bcast_S_S1700000 (constantI S_ 32 0#32)) :=
  StableHlo.eq_binary' (a := main_v3) (b := main_v153) (y := main_v154) writes V 243 (lt_len 243 (by decide)) (cmpi .slt : (⟨S1700000, .i32⟩ : BufTy).Contents (Elt F) → (⟨S1700000, .i32⟩ : BufTy).Contents (Elt F) → (⟨S1700000, .i1⟩ : BufTy).Contents (Elt F)) ⟨by decide, rfl⟩ ⟨by decide, rfl⟩ ⟨by decide, rfl⟩ rfl (nr 3 243 main_v3 rfl (by decide)) (nr 242 243 main_v153 rfl (by decide)) (nw 243 main_v154 rfl) (val_main_v3 V) (val_main_v153 V)

theorem val_main_c_35 : StableHlo.after ops V (Proc.devRef .tc main_c_35) = constantI S_ 32 100000#32 :=
  StableHlo.eq_nullary (y := main_c_35) writes V 244 (lt_len 244 (by decide)) _ ⟨by decide, rfl⟩ rfl (nw 244 main_c_35 rfl)

theorem val_main_v155 : StableHlo.after ops V (Proc.devRef .tc main_v155) = broadcastInDim S1700000 ![] bcast_S_S1700000 (constantI S_ 32 100000#32) :=
  StableHlo.eq_unary' (x := main_c_35) (y := main_v155) writes V 245 (lt_len 245 (by decide)) (broadcastInDim S1700000 ![] bcast_S_S1700000 : (⟨S_, .i32⟩ : BufTy).Contents (Elt F) → (⟨S1700000, .i32⟩ : BufTy).Contents (Elt F)) ⟨by decide, rfl⟩ ⟨by decide, rfl⟩ rfl (nr 244 245 main_c_35 rfl (by decide)) (nw 245 main_v155 rfl) (val_main_c_35 V)

theorem val_main_v156 : StableHlo.after ops V (Proc.devRef .tc main_v156) = addi (rows (V (Proc.devRef .tc main_arg1))) (broadcastInDim S1700000 ![] bcast_S_S1700000 (constantI S_ 32 100000#32)) :=
  StableHlo.eq_binary' (a := main_v3) (b := main_v155) (y := main_v156) writes V 246 (lt_len 246 (by decide)) (addi : (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ rfl (nr 3 246 main_v3 rfl (by decide)) (nr 245 246 main_v155 rfl (by decide)) (nw 246 main_v156 rfl) (val_main_v3 V) (val_main_v155 V)

theorem val_main_v157 : StableHlo.after ops V (Proc.devRef .tc main_v157) = select (cmpi .slt (rows (V (Proc.devRef .tc main_arg1))) (broadcastInDim S1700000 ![] bcast_S_S1700000 (constantI S_ 32 0#32))) (addi (rows (V (Proc.devRef .tc main_arg1))) (broadcastInDim S1700000 ![] bcast_S_S1700000 (constantI S_ 32 100000#32))) (rows (V (Proc.devRef .tc main_arg1))) :=
  StableHlo.eq_ternary' (c := main_v154) (a := main_v156) (b := main_v3) (y := main_v157) writes V 247 (lt_len 247 (by decide)) (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ⟨by decide, rfl⟩ ⟨by decide, rfl⟩ ⟨by decide, rfl⟩ ⟨by decide, rfl⟩ rfl (nr 243 247 main_v154 rfl (by decide)) (nr 246 247 main_v156 rfl (by decide)) (nr 3 247 main_v3 rfl (by decide)) (nw 247 main_v157 rfl) (val_main_v154 V) (val_main_v156 V) (val_main_v3 V)

theorem val_main_v158 : StableHlo.after ops V (Proc.devRef .tc main_v158) = widx (rows (V (Proc.devRef .tc main_arg1))) :=
  StableHlo.eq_unary' (x := main_v157) (y := main_v158) writes V 248 (lt_len 248 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 247 248 main_v157 rfl (by decide)) (nw 248 main_v158 rfl) (val_main_v157 V)

theorem val_main_v159 : StableHlo.after ops V (Proc.devRef .tc main_v159) = Host.gather gather_S100000x32_S1700000x1_S1700000x32_1_0_n_n_0_1_132 (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (widx (rows (V (Proc.devRef .tc main_arg1)))) :=
  StableHlo.eq_binary' (a := main_v129) (b := main_v158) (y := main_v159) writes V 249 (lt_len 249 (by decide)) ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)) ⟨by decide, rfl⟩ ⟨by decide, rfl⟩ ⟨by decide, rfl⟩ rfl (nr 208 249 main_v129 rfl (by decide)) (nr 248 249 main_v158 rfl (by decide)) (nw 249 main_v159 rfl) (val_main_v129 V) (val_main_v158 V)

theorem val_main_v160 : StableHlo.after ops V (Proc.devRef .tc main_v160) = broadcastInDim S1700000x1 ![0] bcast_S1700000_S1700000x1_0 (norm (rows (V (Proc.devRef .tc main_arg1))) (cols (V (Proc.devRef .tc main_arg1))) (wts (V (Proc.devRef .tc main_arg2)))) :=
  StableHlo.eq_unary' (x := main_v152) (y := main_v160) writes V 250 (lt_len 250 (by decide)) (broadcastInDim S1700000x1 ![0] bcast_S1700000_S1700000x1_0 : (⟨S1700000, .f32⟩ : BufTy).Contents (Elt F) → (⟨S1700000x1, .f32⟩ : BufTy).Contents (Elt F)) ⟨by decide, rfl⟩ ⟨by decide, rfl⟩ rfl (nr 240 250 main_v152 rfl (by decide)) (nw 250 main_v160 rfl) (val_main_v152 V)

theorem val_main_v161 : StableHlo.after ops V (Proc.devRef .tc main_v161) = broadcastInDim S1700000x32 ![0, 1] bcast_S1700000x1_S1700000x32_0_1 (broadcastInDim S1700000x1 ![0] bcast_S1700000_S1700000x1_0 (norm (rows (V (Proc.devRef .tc main_arg1))) (cols (V (Proc.devRef .tc main_arg1))) (wts (V (Proc.devRef .tc main_arg2))))) :=
  StableHlo.eq_unary' (x := main_v160) (y := main_v161) writes V 251 (lt_len 251 (by decide)) (broadcastInDim S1700000x32 ![0, 1] bcast_S1700000x1_S1700000x32_0_1 : (⟨S1700000x1, .f32⟩ : BufTy).Contents (Elt F) → (⟨S1700000x32, .f32⟩ : BufTy).Contents (Elt F)) ⟨by decide, rfl⟩ ⟨by decide, rfl⟩ rfl (nr 250 251 main_v160 rfl (by decide)) (nw 251 main_v161 rfl) (val_main_v160 V)

theorem val_main_v162 : StableHlo.after ops V (Proc.devRef .tc main_v162) = mulf (Host.gather gather_S100000x32_S1700000x1_S1700000x32_1_0_n_n_0_1_132 (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (widx (rows (V (Proc.devRef .tc main_arg1))))) (broadcastInDim S1700000x32 ![0, 1] bcast_S1700000x1_S1700000x32_0_1 (broadcastInDim S1700000x1 ![0] bcast_S1700000_S1700000x1_0 (norm (rows (V (Proc.devRef .tc main_arg1))) (cols (V (Proc.devRef .tc main_arg1))) (wts (V (Proc.devRef .tc main_arg2)))))) :=
  StableHlo.eq_binary' (a := main_v159) (b := main_v161) (y := main_v162) writes V 252 (lt_len 252 (by decide)) (mulf : (⟨S1700000x32, .f32⟩ : BufTy).Contents (Elt F) → (⟨S1700000x32, .f32⟩ : BufTy).Contents (Elt F) → (⟨S1700000x32, .f32⟩ : BufTy).Contents (Elt F)) ⟨by decide, rfl⟩ ⟨by decide, rfl⟩ ⟨by decide, rfl⟩ rfl (nr 249 252 main_v159 rfl (by decide)) (nr 251 252 main_v161 rfl (by decide)) (nw 252 main_v162 rfl) (val_main_v159 V) (val_main_v161 V)

theorem val_main_cst_36 : StableHlo.after ops V (Proc.devRef .tc main_cst_36) = constant S_ .f32 0x00000000#32 :=
  StableHlo.eq_nullary (y := main_cst_36) writes V 253 (lt_len 253 (by decide)) _ ⟨by decide, rfl⟩ rfl (nw 253 main_cst_36 rfl)

theorem val_main_v163 : StableHlo.after ops V (Proc.devRef .tc main_v163) = broadcastInDim S100000x32 ![] bcast_S_S100000x32 (constant S_ .f32 0x00000000#32) :=
  StableHlo.eq_unary' (x := main_cst_36) (y := main_v163) writes V 254 (lt_len 254 (by decide)) (broadcastInDim S100000x32 ![] bcast_S_S100000x32 : (⟨S_, .f32⟩ : BufTy).Contents (Elt F) → (⟨S100000x32, .f32⟩ : BufTy).Contents (Elt F)) ⟨by decide, rfl⟩ ⟨by decide, rfl⟩ rfl (nr 253 254 main_cst_36 rfl (by decide)) (nw 254 main_v163 rfl) (val_main_cst_36 V)

theorem val_main_v164 : StableHlo.after ops V (Proc.devRef .tc main_v164) = broadcastInDim S1700000x1 ![0] bcast_S1700000_S1700000x1_0 (cols (V (Proc.devRef .tc main_arg1))) :=
  StableHlo.eq_unary' (x := main_v6) (y := main_v164) writes V 255 (lt_len 255 (by decide)) (broadcastInDim S1700000x1 ![0] bcast_S1700000_S1700000x1_0 : (⟨S1700000, .i32⟩ : BufTy).Contents (Elt F) → (⟨S1700000x1, .i32⟩ : BufTy).Contents (Elt F)) ⟨by decide, rfl⟩ ⟨by decide, rfl⟩ rfl (nr 6 255 main_v6 rfl (by decide)) (nw 255 main_v164 rfl) (val_main_v6 V)

theorem val_main_v165 : StableHlo.after ops V (Proc.devRef .tc main_v165) = Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 (cols (V (Proc.devRef .tc main_arg1)))) (mulf (Host.gather gather_S100000x32_S1700000x1_S1700000x32_1_0_n_n_0_1_132 (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (widx (rows (V (Proc.devRef .tc main_arg1))))) (broadcastInDim S1700000x32 ![0, 1] bcast_S1700000x1_S1700000x32_0_1 (broadcastInDim S1700000x1 ![0] bcast_S1700000_S1700000x1_0 (norm (rows (V (Proc.devRef .tc main_arg1))) (cols (V (Proc.devRef .tc main_arg1))) (wts (V (Proc.devRef .tc main_arg2))))))) :=
  StableHlo.eq_ternary' (c := main_v163) (a := main_v164) (b := main_v162) (y := main_v165) writes V 256 (lt_len 256 (by decide)) ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)) ⟨by decide, rfl⟩ ⟨by decide, rfl⟩ ⟨by decide, rfl⟩ ⟨by decide, rfl⟩ rfl (nr 254 256 main_v163 rfl (by decide)) (nr 255 256 main_v164 rfl (by decide)) (nr 252 256 main_v162 rfl (by decide)) (nw 256 main_v165 rfl) (val_main_v163 V) (val_main_v164 V) (val_main_v162 V)

theorem val_main_v166 : StableHlo.after ops V (Proc.devRef .tc main_v166) = broadcastInDim S1x32 ![1] bcast_S32_S1x32_1 (V (Proc.devRef .tc main_arg12)) :=
  StableHlo.eq_unary' (x := main_arg12) (y := main_v166) writes V 257 (lt_len 257 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (na main_arg12 arg12_notW 257) (nw 257 main_v166 rfl) (val_main_arg12 V)

theorem val_main_v167 : StableHlo.after ops V (Proc.devRef .tc main_v167) = broadcastInDim S100000x32 ![0, 1] bcast_S1x32_S100000x32_0_1 (broadcastInDim S1x32 ![1] bcast_S32_S1x32_1 (V (Proc.devRef .tc main_arg12))) :=
  StableHlo.eq_unary' (x := main_v166) (y := main_v167) writes V 258 (lt_len 258 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 257 258 main_v166 rfl (by decide)) (nw 258 main_v167 rfl) (val_main_v166 V)

theorem val_main_v168 : StableHlo.after ops V (Proc.devRef .tc main_v168) = gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))) :=
  StableHlo.eq_binary' (a := main_v165) (b := main_v167) (y := main_v168) writes V 259 (lt_len 259 (by decide)) (addf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 256 259 main_v165 rfl (by decide)) (nr 258 259 main_v167 rfl (by decide)) (nw 259 main_v168 rfl) (val_main_v165 V) (val_main_v167 V)

theorem val_main_call7_cst : StableHlo.after ops V (Proc.devRef .tc main_call7_cst) = constant S_ .f32 0x00000000#32 :=
  StableHlo.eq_nullary (y := main_call7_cst) writes V 260 (lt_len 260 (by decide)) _ ⟨by decide, rfl⟩ rfl (nw 260 main_call7_cst rfl)

theorem val_main_call7_v0 : StableHlo.after ops V (Proc.devRef .tc main_call7_v0) = broadcastInDim S100000x32 ![] bcast_S_S100000x32 (constant S_ .f32 0x00000000#32) :=
  StableHlo.eq_unary' (x := main_call7_cst) (y := main_call7_v0) writes V 261 (lt_len 261 (by decide)) (broadcastInDim S100000x32 ![] bcast_S_S100000x32 : (⟨S_, .f32⟩ : BufTy).Contents (Elt F) → (⟨S100000x32, .f32⟩ : BufTy).Contents (Elt F)) ⟨by decide, rfl⟩ ⟨by decide, rfl⟩ rfl (nr 260 261 main_call7_cst rfl (by decide)) (nw 261 main_call7_v0 rfl) (val_main_call7_cst V)

theorem val_main_v169 : StableHlo.after ops V (Proc.devRef .tc main_v169) = relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2)))) :=
  StableHlo.eq_binary' (a := main_v168) (b := main_call7_v0) (y := main_v169) writes V 262 (lt_len 262 (by decide)) (maximumf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 259 262 main_v168 rfl (by decide)) (nr 261 262 main_call7_v0 rfl (by decide)) (nw 262 main_v169 rfl) (val_main_v168 V) (val_main_call7_v0 V)

theorem val_main_cst_37 : StableHlo.after ops V (Proc.devRef .tc main_cst_37) = constant S_ .f32 0x00000000#32 :=
  StableHlo.eq_nullary (y := main_cst_37) writes V 263 (lt_len 263 (by decide)) _ ⟨by decide, rfl⟩ rfl (nw 263 main_cst_37 rfl)

theorem val_main_v170 : StableHlo.after ops V (Proc.devRef .tc main_v170) = Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_ :=
  StableHlo.eq_binary' (a := main_v169) (b := main_cst_37) (y := main_v170) writes V 264 (lt_len 264 (by decide)) ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)) ⟨by decide, rfl⟩ ⟨by decide, rfl⟩ ⟨by decide, rfl⟩ rfl (nr 262 264 main_v169 rfl (by decide)) (nr 263 264 main_cst_37 rfl (by decide)) (nw 264 main_v170 rfl) (val_main_v169 V) (val_main_cst_37 V)

theorem val_main_cst_38 : StableHlo.after ops V (Proc.devRef .tc main_cst_38) = constant S_ .f32 0x47C35000#32 :=
  StableHlo.eq_nullary (y := main_cst_38) writes V 265 (lt_len 265 (by decide)) _ ⟨by decide, rfl⟩ rfl (nw 265 main_cst_38 rfl)

theorem val_main_v171 : StableHlo.after ops V (Proc.devRef .tc main_v171) = broadcastInDim S32 ![] bcast_S_S32 (constant S_ .f32 0x47C35000#32) :=
  StableHlo.eq_unary' (x := main_cst_38) (y := main_v171) writes V 266 (lt_len 266 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 265 266 main_cst_38 rfl (by decide)) (nw 266 main_v171 rfl) (val_main_cst_38 V)

theorem val_main_v172 : StableHlo.after ops V (Proc.devRef .tc main_v172) = mean (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) :=
  StableHlo.eq_binary' (a := main_v170) (b := main_v171) (y := main_v172) writes V 267 (lt_len 267 (by decide)) (Host.divf : (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ rfl (nr 264 267 main_v170 rfl (by decide)) (nr 266 267 main_v171 rfl (by decide)) (nw 267 main_v172 rfl) (val_main_v170 V) (val_main_v171 V)

theorem val_main_c_39 : StableHlo.after ops V (Proc.devRef .tc main_c_39) = constantI S_ 32 0#32 :=
  StableHlo.eq_nullary (y := main_c_39) writes V 268 (lt_len 268 (by decide)) _ ⟨by decide, rfl⟩ rfl (nw 268 main_c_39 rfl)

theorem val_main_call8_cst : StableHlo.after ops V (Proc.devRef .tc main_call8_cst) = constant S_ .f32 0x00000000#32 :=
  StableHlo.eq_nullary (y := main_call8_cst) writes V 269 (lt_len 269 (by decide)) _ ⟨by decide, rfl⟩ rfl (nw 269 main_call8_cst rfl)

theorem val_main_call8_v0 : StableHlo.after ops V (Proc.devRef .tc main_call8_v0) = Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_ :=
  StableHlo.eq_binary' (a := main_v169) (b := main_call8_cst) (y := main_call8_v0) writes V 270 (lt_len 270 (by decide)) (fun x v => Host.reduceAdd x v reducesTo_S100000x32_S32_d0 h_S_ : (⟨S100000x32, .f32⟩ : BufTy).Contents (Elt F) → (⟨S_, .f32⟩ : BufTy).Contents (Elt F) → (⟨S32, .f32⟩ : BufTy).Contents (Elt F)) ⟨by decide, rfl⟩ ⟨by decide, rfl⟩ ⟨by decide, rfl⟩ rfl (nr 262 270 main_v169 rfl (by decide)) (nr 269 270 main_call8_cst rfl (by decide)) (nw 270 main_call8_v0 rfl) (val_main_v169 V) (val_main_call8_cst V)

theorem val_main_call8_v1 : StableHlo.after ops V (Proc.devRef .tc main_call8_v1) = broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_) :=
  StableHlo.eq_unary' (x := main_call8_v0) (y := main_call8_v1) writes V 271 (lt_len 271 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (nr 270 271 main_call8_v0 rfl (by decide)) (nw 271 main_call8_v1 rfl) (val_main_call8_v0 V)

theorem val_main_call8_cst_0 : StableHlo.after ops V (Proc.devRef .tc main_call8_cst_0) = constant S_ .f32 0x47C35000#32 :=
  StableHlo.eq_nullary (y := main_call8_cst_0) writes V 272 (lt_len 272 (by decide)) _ ⟨by decide, rfl⟩ rfl (nw 272 main_call8_cst_0 rfl)

theorem val_main_call8_v2 : StableHlo.after ops V (Proc.devRef .tc main_call8_v2) = broadcastInDim S1x32 ![] bcast_S_S1x32 (constant S_ .f32 0x47C35000#32) :=
  StableHlo.eq_unary' (x := main_call8_cst_0) (y := main_call8_v2) writes V 273 (lt_len 273 (by decide)) (broadcastInDim S1x32 ![] bcast_S_S1x32 : (⟨S_, .f32⟩ : BufTy).Contents (Elt F) → (⟨S1x32, .f32⟩ : BufTy).Contents (Elt F)) ⟨by decide, rfl⟩ ⟨by decide, rfl⟩ rfl (nr 272 273 main_call8_cst_0 rfl (by decide)) (nw 273 main_call8_v2 rfl) (val_main_call8_cst_0 V)

theorem val_main_call8_v3 : StableHlo.after ops V (Proc.devRef .tc main_call8_v3) = Host.divf (broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)) :=
  StableHlo.eq_binary' (a := main_call8_v1) (b := main_call8_v2) (y := main_call8_v3) writes V 274 (lt_len 274 (by decide)) (Host.divf : (⟨S1x32, .f32⟩ : BufTy).Contents (Elt F) → (⟨S1x32, .f32⟩ : BufTy).Contents (Elt F) → (⟨S1x32, .f32⟩ : BufTy).Contents (Elt F)) ⟨by decide, rfl⟩ ⟨by decide, rfl⟩ ⟨by decide, rfl⟩ rfl (nr 271 274 main_call8_v1 rfl (by decide)) (nr 273 274 main_call8_v2 rfl (by decide)) (nw 274 main_call8_v3 rfl) (val_main_call8_v1 V) (val_main_call8_v2 V)

theorem val_main_call8_v4 : StableHlo.after ops V (Proc.devRef .tc main_call8_v4) = broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))) :=
  StableHlo.eq_unary' (x := main_call8_v3) (y := main_call8_v4) writes V 275 (lt_len 275 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 274 275 main_call8_v3 rfl (by decide)) (nw 275 main_call8_v4 rfl) (val_main_call8_v3 V)

theorem val_main_call8_v5 : StableHlo.after ops V (Proc.devRef .tc main_call8_v5) = subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)))) :=
  StableHlo.eq_binary' (a := main_v169) (b := main_call8_v4) (y := main_call8_v5) writes V 276 (lt_len 276 (by decide)) (subf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 262 276 main_v169 rfl (by decide)) (nr 275 276 main_call8_v4 rfl (by decide)) (nw 276 main_call8_v5 rfl) (val_main_v169 V) (val_main_call8_v4 V)

theorem val_main_call8_v6 : StableHlo.after ops V (Proc.devRef .tc main_call8_v6) = mulf (subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) (subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) :=
  StableHlo.eq_binary' (a := main_call8_v5) (b := main_call8_v5) (y := main_call8_v6) writes V 277 (lt_len 277 (by decide)) (mulf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 276 277 main_call8_v5 rfl (by decide)) (nr 276 277 main_call8_v5 rfl (by decide)) (nw 277 main_call8_v6 rfl) (val_main_call8_v5 V) (val_main_call8_v5 V)

theorem val_main_call8_v7 : StableHlo.after ops V (Proc.devRef .tc main_call8_v7) = sitofp .f32 (constantI S_ 32 0#32) :=
  StableHlo.eq_unary' (x := main_c_39) (y := main_call8_v7) writes V 278 (lt_len 278 (by decide)) (sitofp .f32 : (⟨S_, .i32⟩ : BufTy).Contents (Elt F) → (⟨S_, .f32⟩ : BufTy).Contents (Elt F)) ⟨by decide, rfl⟩ ⟨by decide, rfl⟩ rfl (nr 268 278 main_c_39 rfl (by decide)) (nw 278 main_call8_v7 rfl) (val_main_c_39 V)

theorem val_main_call8_cst_1 : StableHlo.after ops V (Proc.devRef .tc main_call8_cst_1) = constant S_ .f32 0x47C35000#32 :=
  StableHlo.eq_nullary (y := main_call8_cst_1) writes V 279 (lt_len 279 (by decide)) _ ⟨by decide, rfl⟩ rfl (nw 279 main_call8_cst_1 rfl)

theorem val_main_call8_v8 : StableHlo.after ops V (Proc.devRef .tc main_call8_v8) = subf (constant S_ .f32 0x47C35000#32) (sitofp .f32 (constantI S_ 32 0#32)) :=
  StableHlo.eq_binary' (a := main_call8_cst_1) (b := main_call8_v7) (y := main_call8_v8) writes V 280 (lt_len 280 (by decide)) (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ rfl (nr 279 280 main_call8_cst_1 rfl (by decide)) (nr 278 280 main_call8_v7 rfl (by decide)) (nw 280 main_call8_v8 rfl) (val_main_call8_cst_1 V) (val_main_call8_v7 V)

theorem val_main_call8_cst_2 : StableHlo.after ops V (Proc.devRef .tc main_call8_cst_2) = constant S_ .f32 0x00000000#32 :=
  StableHlo.eq_nullary (y := main_call8_cst_2) writes V 281 (lt_len 281 (by decide)) _ ⟨by decide, rfl⟩ rfl (nw 281 main_call8_cst_2 rfl)

theorem val_main_call8_v9 : StableHlo.after ops V (Proc.devRef .tc main_call8_v9) = Host.reduceAdd (mulf (subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) (subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)))))) (constant S_ .f32 0x00000000#32) reducesTo_S100000x32_S32_d0 h_S_ :=
  StableHlo.eq_binary' (a := main_call8_v6) (b := main_call8_cst_2) (y := main_call8_v9) writes V 282 (lt_len 282 (by decide)) (fun x v => Host.reduceAdd x v reducesTo_S100000x32_S32_d0 h_S_ : (⟨S100000x32, .f32⟩ : BufTy).Contents (Elt F) → (⟨S_, .f32⟩ : BufTy).Contents (Elt F) → (⟨S32, .f32⟩ : BufTy).Contents (Elt F)) ⟨by decide, rfl⟩ ⟨by decide, rfl⟩ ⟨by decide, rfl⟩ rfl (nr 277 282 main_call8_v6 rfl (by decide)) (nr 281 282 main_call8_cst_2 rfl (by decide)) (nw 282 main_call8_v9 rfl) (val_main_call8_v6 V) (val_main_call8_cst_2 V)

theorem val_main_call8_v10 : StableHlo.after ops V (Proc.devRef .tc main_call8_v10) = broadcastInDim S32 ![] bcast_S_S32 (subf (constant S_ .f32 0x47C35000#32) (sitofp .f32 (constantI S_ 32 0#32))) :=
  StableHlo.eq_unary' (x := main_call8_v8) (y := main_call8_v10) writes V 283 (lt_len 283 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 280 283 main_call8_v8 rfl (by decide)) (nw 283 main_call8_v10 rfl) (val_main_call8_v8 V)

theorem val_main_call8_v11 : StableHlo.after ops V (Proc.devRef .tc main_call8_v11) = Host.divf (Host.reduceAdd (mulf (subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32))))) (subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (Host.divf (broadcastInDim S1x32 ![1] bcast_S32_S1x32_1 (Host.reduceAdd (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (constant S_ .f32 0x00000000#32) reducesTo_S100000x32_S32_d0 h_S_)) (broadcastInDim S1x32 ![] bcast_S_S1x32 (constant S_ .f32 0x47C35000#32)))))) (constant S_ .f32 0x00000000#32) reducesTo_S100000x32_S32_d0 h_S_) (broadcastInDim S32 ![] bcast_S_S32 (subf (constant S_ .f32 0x47C35000#32) (sitofp .f32 (constantI S_ 32 0#32)))) :=
  StableHlo.eq_binary' (a := main_call8_v9) (b := main_call8_v10) (y := main_call8_v11) writes V 284 (lt_len 284 (by decide)) (Host.divf : (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ rfl (nr 282 284 main_call8_v9 rfl (by decide)) (nr 283 284 main_call8_v10 rfl (by decide)) (nw 284 main_call8_v11 rfl) (val_main_call8_v9 V) (val_main_call8_v10 V)

theorem val_main_call8_cst_3 : StableHlo.after ops V (Proc.devRef .tc main_call8_cst_3) = constant S_ .f32 0x00000000#32 :=
  StableHlo.eq_nullary (y := main_call8_cst_3) writes V 285 (lt_len 285 (by decide)) _ ⟨by decide, rfl⟩ rfl (nw 285 main_call8_cst_3 rfl)

theorem val_main_call8_v12 : StableHlo.after ops V (Proc.devRef .tc main_call8_v12) = cmpf .ogt (subf (constant S_ .f32 0x47C35000#32) (sitofp .f32 (constantI S_ 32 0#32)) : (⟨S_, .f32⟩ : BufTy).Contents (Elt F)) (constant S_ .f32 0x00000000#32) :=
  StableHlo.eq_binary' (a := main_call8_v8) (b := main_call8_cst_3) (y := main_call8_v12) writes V 286 (lt_len 286 (by decide)) (cmpf .ogt : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ rfl (nr 280 286 main_call8_v8 rfl (by decide)) (nr 285 286 main_call8_cst_3 rfl (by decide)) (nw 286 main_call8_v12 rfl) (val_main_call8_v8 V) (val_main_call8_cst_3 V)

theorem val_main_call8_cst_4 : StableHlo.after ops V (Proc.devRef .tc main_call8_cst_4) = constant S_ .f32 0x7FC00000#32 :=
  StableHlo.eq_nullary (y := main_call8_cst_4) writes V 287 (lt_len 287 (by decide)) _ ⟨by decide, rfl⟩ rfl (nw 287 main_call8_cst_4 rfl)

theorem val_main_call8_call0_v0 : StableHlo.after ops V (Proc.devRef .tc main_call8_call0_v0) = id (constant S_ .f32 0x7FC00000#32) :=
  StableHlo.eq_unary' (x := main_call8_cst_4) (y := main_call8_call0_v0) writes V 288 (lt_len 288 (by decide)) (id : (⟨S_, .f32⟩ : BufTy).Contents (Elt F) → (⟨S_, .f32⟩ : BufTy).Contents (Elt F)) ⟨by decide, rfl⟩ ⟨by decide, rfl⟩ rfl (nr 287 288 main_call8_cst_4 rfl (by decide)) (nw 288 main_call8_call0_v0 rfl) (val_main_call8_cst_4 V)

theorem val_main_call8_call0_v1 : StableHlo.after ops V (Proc.devRef .tc main_call8_call0_v1) = broadcastInDim S32 ![] bcast_S_S32 (id (constant S_ .f32 0x7FC00000#32)) :=
  StableHlo.eq_unary' (x := main_call8_call0_v0) (y := main_call8_call0_v1) writes V 289 (lt_len 289 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 288 289 main_call8_call0_v0 rfl (by decide)) (nw 289 main_call8_call0_v1 rfl) (val_main_call8_call0_v0 V)

theorem val_main_v173 : StableHlo.after ops V (Proc.devRef .tc main_v173) = var (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) :=
  StableHlo.eq_ternary' (c := main_call8_v12) (a := main_call8_v11) (b := main_call8_call0_v1) (y := main_v173) writes V 290 (lt_len 290 (by decide)) (fun p a b => select (broadcastInDim S32 ![] bcast_S_S32 p) a b : (⟨S_, .i1⟩ : BufTy).Contents (Elt F) → (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ ⟨by decide, rfl⟩ rfl (nr 286 290 main_call8_v12 rfl (by decide)) (nr 284 290 main_call8_v11 rfl (by decide)) (nr 289 290 main_call8_call0_v1 rfl (by decide)) (nw 290 main_v173 rfl) (val_main_call8_v12 V) (val_main_call8_v11 V) (val_main_call8_call0_v1 V)

theorem val_main_v174 : StableHlo.after ops V (Proc.devRef .tc main_v174) = broadcastInDim S1x32 ![1] bcast_S32_S1x32_1 (mean (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2)))))) :=
  StableHlo.eq_unary' (x := main_v172) (y := main_v174) writes V 291 (lt_len 291 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (nr 267 291 main_v172 rfl (by decide)) (nw 291 main_v174 rfl) (val_main_v172 V)

theorem val_main_v175 : StableHlo.after ops V (Proc.devRef .tc main_v175) = broadcastInDim S100000x32 ![0, 1] bcast_S1x32_S100000x32_0_1 (broadcastInDim S1x32 ![1] bcast_S32_S1x32_1 (mean (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))))) :=
  StableHlo.eq_unary' (x := main_v174) (y := main_v175) writes V 292 (lt_len 292 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 291 292 main_v174 rfl (by decide)) (nw 292 main_v175 rfl) (val_main_v174 V)

theorem val_main_v176 : StableHlo.after ops V (Proc.devRef .tc main_v176) = subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (broadcastInDim S1x32 ![1] bcast_S32_S1x32_1 (mean (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2)))))))) :=
  StableHlo.eq_binary' (a := main_v169) (b := main_v175) (y := main_v176) writes V 293 (lt_len 293 (by decide)) (subf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 262 293 main_v169 rfl (by decide)) (nr 292 293 main_v175 rfl (by decide)) (nw 293 main_v176 rfl) (val_main_v169 V) (val_main_v175 V)

theorem val_main_cst_40 : StableHlo.after ops V (Proc.devRef .tc main_cst_40) = constant S_ .f32 0x3727C5AC#32 :=
  StableHlo.eq_nullary (y := main_cst_40) writes V 294 (lt_len 294 (by decide)) _ ⟨by decide, rfl⟩ rfl (nw 294 main_cst_40 rfl)

theorem val_main_v177 : StableHlo.after ops V (Proc.devRef .tc main_v177) = broadcastInDim S32 ![] bcast_S_S32 (constant S_ .f32 0x3727C5AC#32) :=
  StableHlo.eq_unary' (x := main_cst_40) (y := main_v177) writes V 295 (lt_len 295 (by decide)) (broadcastInDim S32 ![] bcast_S_S32 : (⟨S_, .f32⟩ : BufTy).Contents (Elt F) → (⟨S32, .f32⟩ : BufTy).Contents (Elt F)) ⟨by decide, rfl⟩ ⟨by decide, rfl⟩ rfl (nr 294 295 main_cst_40 rfl (by decide)) (nw 295 main_v177 rfl) (val_main_cst_40 V)

theorem val_main_v178 : StableHlo.after ops V (Proc.devRef .tc main_v178) = addf (var (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2)))))) (broadcastInDim S32 ![] bcast_S_S32 (constant S_ .f32 0x3727C5AC#32)) :=
  StableHlo.eq_binary' (a := main_v173) (b := main_v177) (y := main_v178) writes V 296 (lt_len 296 (by decide)) (addf : (⟨S32, .f32⟩ : BufTy).Contents (Elt F) → (⟨S32, .f32⟩ : BufTy).Contents (Elt F) → (⟨S32, .f32⟩ : BufTy).Contents (Elt F)) ⟨by decide, rfl⟩ ⟨by decide, rfl⟩ ⟨by decide, rfl⟩ rfl (nr 290 296 main_v173 rfl (by decide)) (nr 295 296 main_v177 rfl (by decide)) (nw 296 main_v178 rfl) (val_main_v173 V) (val_main_v177 V)

theorem val_main_v179 : StableHlo.after ops V (Proc.devRef .tc main_v179) = Host.rsqrt (addf (var (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2)))))) (broadcastInDim S32 ![] bcast_S_S32 (constant S_ .f32 0x3727C5AC#32))) :=
  StableHlo.eq_unary' (x := main_v178) (y := main_v179) writes V 297 (lt_len 297 (by decide)) (Host.rsqrt : (⟨S32, .f32⟩ : BufTy).Contents (Elt F) → (⟨S32, .f32⟩ : BufTy).Contents (Elt F)) ⟨by decide, rfl⟩ ⟨by decide, rfl⟩ rfl (nr 296 297 main_v178 rfl (by decide)) (nw 297 main_v179 rfl) (val_main_v178 V)

theorem val_main_v180 : StableHlo.after ops V (Proc.devRef .tc main_v180) = broadcastInDim S1x32 ![1] bcast_S32_S1x32_1 (Host.rsqrt (addf (var (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2)))))) (broadcastInDim S32 ![] bcast_S_S32 (constant S_ .f32 0x3727C5AC#32)))) :=
  StableHlo.eq_unary' (x := main_v179) (y := main_v180) writes V 298 (lt_len 298 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (nr 297 298 main_v179 rfl (by decide)) (nw 298 main_v180 rfl) (val_main_v179 V)

theorem val_main_v181 : StableHlo.after ops V (Proc.devRef .tc main_v181) = broadcastInDim S100000x32 ![0, 1] bcast_S1x32_S100000x32_0_1 (broadcastInDim S1x32 ![1] bcast_S32_S1x32_1 (Host.rsqrt (addf (var (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2)))))) (broadcastInDim S32 ![] bcast_S_S32 (constant S_ .f32 0x3727C5AC#32))))) :=
  StableHlo.eq_unary' (x := main_v180) (y := main_v181) writes V 299 (lt_len 299 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 298 299 main_v180 rfl (by decide)) (nw 299 main_v181 rfl) (val_main_v180 V)

theorem val_main_v182 : StableHlo.after ops V (Proc.devRef .tc main_v182) = mulf (subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (broadcastInDim S1x32 ![1] bcast_S32_S1x32_1 (mean (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))))))) (broadcastInDim S100000x32 ![0, 1] bcast_S1x32_S100000x32_0_1 (broadcastInDim S1x32 ![1] bcast_S32_S1x32_1 (Host.rsqrt (addf (var (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2)))))) (broadcastInDim S32 ![] bcast_S_S32 (constant S_ .f32 0x3727C5AC#32)))))) :=
  StableHlo.eq_binary' (a := main_v176) (b := main_v181) (y := main_v182) writes V 300 (lt_len 300 (by decide)) (mulf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 293 300 main_v176 rfl (by decide)) (nr 299 300 main_v181 rfl (by decide)) (nw 300 main_v182 rfl) (val_main_v176 V) (val_main_v181 V)

theorem val_main_v183 : StableHlo.after ops V (Proc.devRef .tc main_v183) = broadcastInDim S1x32 ![1] bcast_S32_S1x32_1 (V (Proc.devRef .tc main_arg13)) :=
  StableHlo.eq_unary' (x := main_arg13) (y := main_v183) writes V 301 (lt_len 301 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (na main_arg13 arg13_notW 301) (nw 301 main_v183 rfl) (val_main_arg13 V)

theorem val_main_v184 : StableHlo.after ops V (Proc.devRef .tc main_v184) = broadcastInDim S100000x32 ![0, 1] bcast_S1x32_S100000x32_0_1 (broadcastInDim S1x32 ![1] bcast_S32_S1x32_1 (V (Proc.devRef .tc main_arg13))) :=
  StableHlo.eq_unary' (x := main_v183) (y := main_v184) writes V 302 (lt_len 302 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 301 302 main_v183 rfl (by decide)) (nw 302 main_v184 rfl) (val_main_v183 V)

theorem val_main_v185 : StableHlo.after ops V (Proc.devRef .tc main_v185) = mulf (mulf (subf (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (broadcastInDim S100000x32 ![0, 1] bcast_S1x32_S100000x32_0_1 (broadcastInDim S1x32 ![1] bcast_S32_S1x32_1 (mean (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))))))) (broadcastInDim S100000x32 ![0, 1] bcast_S1x32_S100000x32_0_1 (broadcastInDim S1x32 ![1] bcast_S32_S1x32_1 (Host.rsqrt (addf (var (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2)))))) (broadcastInDim S32 ![] bcast_S_S32 (constant S_ .f32 0x3727C5AC#32))))))) (broadcastInDim S100000x32 ![0, 1] bcast_S1x32_S100000x32_0_1 (broadcastInDim S1x32 ![1] bcast_S32_S1x32_1 (V (Proc.devRef .tc main_arg13)))) :=
  StableHlo.eq_binary' (a := main_v182) (b := main_v184) (y := main_v185) writes V 303 (lt_len 303 (by decide)) (mulf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 300 303 main_v182 rfl (by decide)) (nr 302 303 main_v184 rfl (by decide)) (nw 303 main_v185 rfl) (val_main_v182 V) (val_main_v184 V)

theorem val_main_v186 : StableHlo.after ops V (Proc.devRef .tc main_v186) = broadcastInDim S1x32 ![1] bcast_S32_S1x32_1 (V (Proc.devRef .tc main_arg14)) :=
  StableHlo.eq_unary' (x := main_arg14) (y := main_v186) writes V 304 (lt_len 304 (by decide)) (broadcastInDim S1x32 ![1] bcast_S32_S1x32_1 : (⟨S32, .f32⟩ : BufTy).Contents (Elt F) → (⟨S1x32, .f32⟩ : BufTy).Contents (Elt F)) ⟨by decide, rfl⟩ ⟨by decide, rfl⟩ rfl (na main_arg14 arg14_notW 304) (nw 304 main_v186 rfl) (val_main_arg14 V)

theorem val_main_v187 : StableHlo.after ops V (Proc.devRef .tc main_v187) = broadcastInDim S100000x32 ![0, 1] bcast_S1x32_S100000x32_0_1 (broadcastInDim S1x32 ![1] bcast_S32_S1x32_1 (V (Proc.devRef .tc main_arg14))) :=
  StableHlo.eq_unary' (x := main_v186) (y := main_v187) writes V 305 (lt_len 305 (by decide)) (broadcastInDim S100000x32 ![0, 1] bcast_S1x32_S100000x32_0_1 : (⟨S1x32, .f32⟩ : BufTy).Contents (Elt F) → (⟨S100000x32, .f32⟩ : BufTy).Contents (Elt F)) ⟨by decide, rfl⟩ ⟨by decide, rfl⟩ rfl (nr 304 305 main_v186 rfl (by decide)) (nw 305 main_v187 rfl) (val_main_v186 V)

theorem val_main_v188 : StableHlo.after ops V (Proc.devRef .tc main_v188) = bn (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (V (Proc.devRef .tc main_arg13)) (V (Proc.devRef .tc main_arg14)) :=
  StableHlo.eq_binary' (a := main_v185) (b := main_v187) (y := main_v188) writes V 306 (lt_len 306 (by decide)) (addf : (⟨S100000x32, .f32⟩ : BufTy).Contents (Elt F) → (⟨S100000x32, .f32⟩ : BufTy).Contents (Elt F) → (⟨S100000x32, .f32⟩ : BufTy).Contents (Elt F)) ⟨by decide, rfl⟩ ⟨by decide, rfl⟩ ⟨by decide, rfl⟩ rfl (nr 303 306 main_v185 rfl (by decide)) (nr 305 306 main_v187 rfl (by decide)) (nw 306 main_v188 rfl) (val_main_v185 V) (val_main_v187 V)

theorem val_main_v189 : StableHlo.after ops V (Proc.devRef .tc main_v189) = concatenate S100000x96 1 [⟨S100000x32, bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))⟩, ⟨S100000x32, bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))⟩, ⟨S100000x32, bn (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (V (Proc.devRef .tc main_arg13)) (V (Proc.devRef .tc main_arg14))⟩] concatenates_S100000x32_S100000x32_S100000x32_S100000x96_d1 := by
  have h := StableHlo.eq_nary3 (x0 := main_v68) (x1 := main_v128) (x2 := main_v188) (y := main_v189) writes V 307 (lt_len 307 (by decide)) (fun u => concatenate S100000x96 1 [⟨S100000x32, u 0⟩, ⟨S100000x32, u 1⟩, ⟨S100000x32, u 2⟩] concatenates_S100000x32_S100000x32_S100000x32_S100000x96_d1) (by decide) ⟨by decide, rfl⟩ rfl (nr 108 307 main_v68 rfl (by decide)) (nr 207 307 main_v128 rfl (by decide)) (nr 306 307 main_v188 rfl (by decide)) (nw 307 main_v189 rfl)
  rw [h]
  show (concatenate S100000x96 1 [⟨S100000x32, StableHlo.after ops V (Proc.devRef .tc main_v68)⟩, ⟨S100000x32, StableHlo.after ops V (Proc.devRef .tc main_v128)⟩, ⟨S100000x32, StableHlo.after ops V (Proc.devRef .tc main_v188)⟩] concatenates_S100000x32_S100000x32_S100000x32_S100000x96_d1) = _
  rw [val_main_v68 V, val_main_v128 V, val_main_v188 V]

theorem val_main_v190 : StableHlo.after ops V (Proc.devRef .tc main_v190) = Host.dotGeneral dot_S100000x96_S96x2_S100000x2_1_0_0_1_n_n none (concatenate S100000x96 1 [⟨S100000x32, bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))⟩, ⟨S100000x32, bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))⟩, ⟨S100000x32, bn (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (V (Proc.devRef .tc main_arg13)) (V (Proc.devRef .tc main_arg14))⟩] concatenates_S100000x32_S100000x32_S100000x32_S100000x96_d1) (V (Proc.devRef .tc main_arg15)) :=
  StableHlo.eq_binary' (a := main_v189) (b := main_arg15) (y := main_v190) writes V 308 (lt_len 308 (by decide)) ((fun l r => Host.dotGeneral dot_S100000x96_S96x2_S100000x2_1_0_0_1_n_n none l r) : (⟨S100000x96, .f32⟩ : BufTy).Contents (Elt F) → (⟨S96x2, .f32⟩ : BufTy).Contents (Elt F) → (⟨S100000x2, .f32⟩ : BufTy).Contents (Elt F)) ⟨by decide, rfl⟩ ⟨by decide, rfl⟩ ⟨by decide, rfl⟩ rfl (nr 307 308 main_v189 rfl (by decide)) (na main_arg15 arg15_notW 308) (nw 308 main_v190 rfl) (val_main_v189 V) (val_main_arg15 V)

theorem val_main_v191 : StableHlo.after ops V (Proc.devRef .tc main_v191) = broadcastInDim S1x2 ![1] bcast_S2_S1x2_1 (V (Proc.devRef .tc main_arg16)) :=
  StableHlo.eq_unary' (x := main_arg16) (y := main_v191) writes V 309 (lt_len 309 (by decide)) (broadcastInDim S1x2 ![1] bcast_S2_S1x2_1 : (⟨S2, .f32⟩ : BufTy).Contents (Elt F) → (⟨S1x2, .f32⟩ : BufTy).Contents (Elt F)) ⟨by decide, rfl⟩ ⟨by decide, rfl⟩ rfl (na main_arg16 arg16_notW 309) (nw 309 main_v191 rfl) (val_main_arg16 V)

theorem val_main_v192 : StableHlo.after ops V (Proc.devRef .tc main_v192) = broadcastInDim S100000x2 ![0, 1] bcast_S1x2_S100000x2_0_1 (broadcastInDim S1x2 ![1] bcast_S2_S1x2_1 (V (Proc.devRef .tc main_arg16))) :=
  StableHlo.eq_unary' (x := main_v191) (y := main_v192) writes V 310 (lt_len 310 (by decide)) (broadcastInDim S100000x2 ![0, 1] bcast_S1x2_S100000x2_0_1 : (⟨S1x2, .f32⟩ : BufTy).Contents (Elt F) → (⟨S100000x2, .f32⟩ : BufTy).Contents (Elt F)) ⟨by decide, rfl⟩ ⟨by decide, rfl⟩ rfl (nr 309 310 main_v191 rfl (by decide)) (nw 310 main_v192 rfl) (val_main_v191 V)

theorem val_main_v193 : StableHlo.after ops V (Proc.devRef .tc main_v193) = final (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (bn (relu (gcn (Host.dotGeneral dot_S100000x32_S32x32_S100000x32_1_0_0_1_n_n none (bn (relu (gcn (Host.dotGeneral dot_S100000x32_S32x32_S100000x32_1_0_0_1_n_n none (bn (relu (gcn (Host.dotGeneral dot_S100000x64_S64x32_S100000x32_1_0_0_1_n_n none (V (Proc.devRef .tc main_arg0)) (V (Proc.devRef .tc main_arg3))) (V (Proc.devRef .tc main_arg4)) (rows (V (Proc.devRef .tc main_arg1))) (cols (V (Proc.devRef .tc main_arg1))) (wts (V (Proc.devRef .tc main_arg2))))) (V (Proc.devRef .tc main_arg5)) (V (Proc.devRef .tc main_arg6))) (V (Proc.devRef .tc main_arg7))) (V (Proc.devRef .tc main_arg8)) (rows (V (Proc.devRef .tc main_arg1))) (cols (V (Proc.devRef .tc main_arg1))) (wts (V (Proc.devRef .tc main_arg2))))) (V (Proc.devRef .tc main_arg9)) (V (Proc.devRef .tc main_arg10))) (V (Proc.devRef .tc main_arg11))) (V (Proc.devRef .tc main_arg12)) (rows (V (Proc.devRef .tc main_arg1))) (cols (V (Proc.devRef .tc main_arg1))) (wts (V (Proc.devRef .tc main_arg2))))) (V (Proc.devRef .tc main_arg13)) (V (Proc.devRef .tc main_arg14))) (V (Proc.devRef .tc main_arg15)) (V (Proc.devRef .tc main_arg16)) :=
  StableHlo.eq_binary' (a := main_v190) (b := main_v192) (y := main_v193) writes V 311 (lt_len 311 (by decide)) (addf : (⟨S100000x2, .f32⟩ : BufTy).Contents (Elt F) → (⟨S100000x2, .f32⟩ : BufTy).Contents (Elt F) → (⟨S100000x2, .f32⟩ : BufTy).Contents (Elt F)) ⟨by decide, rfl⟩ ⟨by decide, rfl⟩ ⟨by decide, rfl⟩ rfl (nr 308 311 main_v190 rfl (by decide)) (nr 310 311 main_v192 rfl (by decide)) (nw 311 main_v193 rfl) (val_main_v190 V) (val_main_v192 V)

end

/-- The first layer's output. -/
def out1 (a0 : (⟨S100000x64, .f32⟩ : BufTy).Contents (Elt F)) (a1 : (⟨S2x1600000, .i32⟩ : BufTy).Contents (Elt F)) (a2 : (⟨S1600000, .f32⟩ : BufTy).Contents (Elt F)) (a3 : (⟨S64x32, .f32⟩ : BufTy).Contents (Elt F)) (a4 : (⟨S32, .f32⟩ : BufTy).Contents (Elt F)) (a5 : (⟨S32, .f32⟩ : BufTy).Contents (Elt F)) (a6 : (⟨S32, .f32⟩ : BufTy).Contents (Elt F)) :
    (⟨S100000x32, .f32⟩ : BufTy).Contents (Elt F) :=
  bn (relu (gcn (Host.dotGeneral dot_S100000x64_S64x32_S100000x32_1_0_0_1_n_n none a0 a3) a4 (rows a1) (cols a1) (wts a2))) a5 a6

/-- The second layer's output. -/
def out2 (a0 : (⟨S100000x64, .f32⟩ : BufTy).Contents (Elt F)) (a1 : (⟨S2x1600000, .i32⟩ : BufTy).Contents (Elt F)) (a2 : (⟨S1600000, .f32⟩ : BufTy).Contents (Elt F)) (a3 : (⟨S64x32, .f32⟩ : BufTy).Contents (Elt F)) (a4 : (⟨S32, .f32⟩ : BufTy).Contents (Elt F)) (a5 : (⟨S32, .f32⟩ : BufTy).Contents (Elt F)) (a6 : (⟨S32, .f32⟩ : BufTy).Contents (Elt F)) (a7 : (⟨S32x32, .f32⟩ : BufTy).Contents (Elt F)) (a8 : (⟨S32, .f32⟩ : BufTy).Contents (Elt F)) (a9 : (⟨S32, .f32⟩ : BufTy).Contents (Elt F)) (a10 : (⟨S32, .f32⟩ : BufTy).Contents (Elt F)) :
    (⟨S100000x32, .f32⟩ : BufTy).Contents (Elt F) :=
  bn (relu (gcn (Host.dotGeneral dot_S100000x32_S32x32_S100000x32_1_0_0_1_n_n none (out1 a0 a1 a2 a3 a4 a5 a6) a7) a8 (rows a1) (cols a1) (wts a2))) a9 a10

/-- The third layer's output. -/
def out3 (a0 : (⟨S100000x64, .f32⟩ : BufTy).Contents (Elt F)) (a1 : (⟨S2x1600000, .i32⟩ : BufTy).Contents (Elt F)) (a2 : (⟨S1600000, .f32⟩ : BufTy).Contents (Elt F)) (a3 : (⟨S64x32, .f32⟩ : BufTy).Contents (Elt F)) (a4 : (⟨S32, .f32⟩ : BufTy).Contents (Elt F)) (a5 : (⟨S32, .f32⟩ : BufTy).Contents (Elt F)) (a6 : (⟨S32, .f32⟩ : BufTy).Contents (Elt F)) (a7 : (⟨S32x32, .f32⟩ : BufTy).Contents (Elt F)) (a8 : (⟨S32, .f32⟩ : BufTy).Contents (Elt F)) (a9 : (⟨S32, .f32⟩ : BufTy).Contents (Elt F)) (a10 : (⟨S32, .f32⟩ : BufTy).Contents (Elt F)) (a11 : (⟨S32x32, .f32⟩ : BufTy).Contents (Elt F)) (a12 : (⟨S32, .f32⟩ : BufTy).Contents (Elt F)) (a13 : (⟨S32, .f32⟩ : BufTy).Contents (Elt F)) (a14 : (⟨S32, .f32⟩ : BufTy).Contents (Elt F)) :
    (⟨S100000x32, .f32⟩ : BufTy).Contents (Elt F) :=
  bn (relu (gcn (Host.dotGeneral dot_S100000x32_S32x32_S100000x32_1_0_0_1_n_n none (out2 a0 a1 a2 a3 a4 a5 a6 a7 a8 a9 a10) a11) a12 (rows a1) (cols a1) (wts a2))) a13 a14

/-- The reference's result as a term of its seventeen argument arrays. -/
def out (a0 : (⟨S100000x64, .f32⟩ : BufTy).Contents (Elt F)) (a1 : (⟨S2x1600000, .i32⟩ : BufTy).Contents (Elt F)) (a2 : (⟨S1600000, .f32⟩ : BufTy).Contents (Elt F)) (a3 : (⟨S64x32, .f32⟩ : BufTy).Contents (Elt F)) (a4 : (⟨S32, .f32⟩ : BufTy).Contents (Elt F)) (a5 : (⟨S32, .f32⟩ : BufTy).Contents (Elt F)) (a6 : (⟨S32, .f32⟩ : BufTy).Contents (Elt F)) (a7 : (⟨S32x32, .f32⟩ : BufTy).Contents (Elt F)) (a8 : (⟨S32, .f32⟩ : BufTy).Contents (Elt F)) (a9 : (⟨S32, .f32⟩ : BufTy).Contents (Elt F)) (a10 : (⟨S32, .f32⟩ : BufTy).Contents (Elt F)) (a11 : (⟨S32x32, .f32⟩ : BufTy).Contents (Elt F)) (a12 : (⟨S32, .f32⟩ : BufTy).Contents (Elt F)) (a13 : (⟨S32, .f32⟩ : BufTy).Contents (Elt F)) (a14 : (⟨S32, .f32⟩ : BufTy).Contents (Elt F)) (a15 : (⟨S96x2, .f32⟩ : BufTy).Contents (Elt F)) (a16 : (⟨S2, .f32⟩ : BufTy).Contents (Elt F)) :
    (⟨S100000x2, .f32⟩ : BufTy).Contents (Elt F) :=
  final (out1 a0 a1 a2 a3 a4 a5 a6) (out2 a0 a1 a2 a3 a4 a5 a6 a7 a8 a9 a10) (out3 a0 a1 a2 a3 a4 a5 a6 a7 a8 a9 a10 a11 a12 a13 a14) a15 a16

theorem val_out (V : Valuation τ sig (Elt F)) :
    StableHlo.after ops V (Proc.devRef .tc main_v193) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  val_main_v193 V

/-- The result buffer's final contents, from the launch memory m on device c. -/
theorem result_eq (m : (ℓ : Loc nD τ sig) → Buf (Elt F) ℓ) (c : Dev nD) :
    StableHlo.after ops (fun b => m (c, b)) (Proc.devRef .tc main_v193)
      = out (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16)) :=
  val_out (fun b => m (c, b))

/-- The run with the result spelt as the term of the arguments: every weakly fair execution terminates with the result
    buffer at the reference term of the launch arguments, the arguments unchanged. -/
theorem run_out (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v193) = out (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c).1.trans (result_eq m c), (h c).2⟩) (run m ρ)

end Cert.ReferenceIdeal.RefRun

end
-- ==== Proof.KOut.lean ====
/-
  The kernel program's result as one function of its seventeen argument arrays: three layers, each the layer function
  of the aggregated projection of the layer before, and the final linear map over the three.
-/
import proofs.«107356_j16226386444409_1_alg».proof.Proof.KFun

noncomputable section

namespace Cert.Bridge

open Idealize.ShloMosaic Cert.Gcn

/-- The kernel program's result as a function of the seventeen argument arrays. -/
def kOut (a0 : SNx64.Idx → EReal) (a1 : IVec S2xE 32) (a2 : SE.Idx → EReal) (a3 : (⟨2, ![64, 32]⟩ : Shape).Idx → EReal)
    (a4 a5 a6 : S32.Idx → EReal) (a7 : (⟨2, ![32, 32]⟩ : Shape).Idx → EReal) (a8 a9 a10 : S32.Idx → EReal)
    (a11 : (⟨2, ![32, 32]⟩ : Shape).Idx → EReal) (a12 a13 a14 : S32.Idx → EReal) (a15 : S96x2.Idx → EReal) (a16 : S2.Idx → EReal) :
    SNx2.Idx → EReal :=
  kFinal
    (kLayerOut (agg (rows (F := Ideal) a1) (cols (F := Ideal) a1) (normOf (F := Ideal) a1 a2) (mm64 a0 a3)) a4 a5 a6)
    (kLayerOut (agg (rows (F := Ideal) a1) (cols (F := Ideal) a1) (normOf (F := Ideal) a1 a2)
      (mm32 (kLayerOut (agg (rows (F := Ideal) a1) (cols (F := Ideal) a1) (normOf (F := Ideal) a1 a2) (mm64 a0 a3)) a4 a5 a6) a7)) a8 a9 a10)
    (kLayerOut (agg (rows (F := Ideal) a1) (cols (F := Ideal) a1) (normOf (F := Ideal) a1 a2)
      (mm32 (kLayerOut (agg (rows (F := Ideal) a1) (cols (F := Ideal) a1) (normOf (F := Ideal) a1 a2)
        (mm32 (kLayerOut (agg (rows (F := Ideal) a1) (cols (F := Ideal) a1) (normOf (F := Ideal) a1 a2) (mm64 a0 a3)) a4 a5 a6) a7)) a8 a9 a10) a11)) a12 a13 a14)
    a15 a16

end Cert.Bridge

end
-- ==== Proof.BnMath.lean ====
/-
  Extended-real facts for a graph convolution followed by a batch normalisation.

  The extended reals are not a ring: distributivity and cancellation fail at the infinities. Every law used below is
  therefore proved for entries that are REAL numbers: the float literals the two programs spell (100000, the small
  variance offset, one, zero), sums and products of reals, and the two spellings of a normalised column:

    with  μ = (Σ ρ)/N,   the variance written  (Σ ρ²)/N − μ·μ   equals   (Σ (ρ − μ)²)/N  ≥ 0,
    and   ρ·(g·y) + (β − μ·(g·y)) = ((ρ − μ)·y)·g + β   for the real  y = 1/√(variance + ε).
-/
import Idealize.ShloMosaic.PureOps.Ideal
import Idealize.ShloMosaic.PureOps.Ideal.Laws

noncomputable section

namespace Cert.BnMath

open Idealize.ShloMosaic
open scoped BigOperators

/-! ## The literals -/

/-- The pattern of `100000.0` denotes the real `100000`. -/
theorem ofBits_1e5 : Ideal.ofBits .f32 0x47C35000#32 = ((100000 : ℝ) : EReal) := by
  simp [Ideal.ofBits, Ideal.ieee, -EReal.coe_mul]; norm_num

/-- The pattern of `1.0` denotes `1`. -/
theorem ofBits_one : Ideal.ofBits .f32 0x3F800000#32 = ((1 : ℝ) : EReal) := by
  simp [Ideal.ofBits, Ideal.ieee, -EReal.coe_mul]; norm_num

/-- The variance offset: the pattern `0x3727C5AC` (the float nearest `1e-5`) denotes a positive real. -/
def eps : ℝ := 10995116 * (2 : ℝ) ^ (-40 : Int)

theorem eps_pos : 0 < eps := by unfold eps; positivity

theorem ofBits_eps : Ideal.ofBits .f32 0x3727C5AC#32 = ((eps : ℝ) : EReal) := by
  unfold eps
  simp [Ideal.ofBits, Ideal.ieee, -EReal.coe_mul]

/-! ## Real entries -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- A finite sum of reals, as extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert j s hj ih => rw [Finset.sum_insert hj, Finset.sum_insert hj, ih, EReal.coe_add]

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert j s hj ih =>
    rw [Finset.sum_insert hj]
    exact (h j (Finset.mem_insert_self j s)).add (ih fun i hi => h i (Finset.mem_insert_of_mem hi))

/-- The quotient of a real by a nonzero real. -/
theorem div_coe_coe (a : ℝ) {b : ℝ} (hb : b ≠ 0) : Ideal.div (a : EReal) (b : EReal) = ((a / b : ℝ) : EReal) := by
  rw [Ideal.div_coe hb, ← EReal.coe_mul]; congr 1; ring

theorem IsReal.div_coe {x : EReal} (hx : IsReal x) {b : ℝ} (hb : b ≠ 0) : IsReal (Ideal.div x (b : EReal)) := by
  obtain ⟨a, rfl⟩ := hx; exact ⟨a / b, div_coe_coe a hb⟩

/-- The reciprocal square root of a positive real is a real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-! ## The variance, two ways -/

/-- The mean of squares minus the squared mean is the mean squared deviation. -/
theorem var_eq {n : ℕ} (ρ : Fin n → ℝ) (N : ℝ) (hN : N = n) (hn : 0 < n) :
    (∑ j, ρ j * ρ j) / N - ((∑ j, ρ j) / N) * ((∑ j, ρ j) / N)
      = (∑ j, (ρ j - (∑ j, ρ j) / N) * (ρ j - (∑ j, ρ j) / N)) / N := by
  have hN0 : N ≠ 0 := by rw [hN]; exact_mod_cast hn.ne'
  have hcard : (∑ _j : Fin n, (1 : ℝ)) = N := by simp [hN]
  set μ := (∑ j, ρ j) / N with hμ
  have hS : (∑ j, ρ j) = μ * N := by rw [hμ]; field_simp
  have e : (∑ j, (ρ j - μ) * (ρ j - μ)) = (∑ j, ρ j * ρ j) - 2 * μ * (∑ j, ρ j) + μ * μ * N := by
    rw [← hcard, Finset.mul_sum, Finset.mul_sum, ← Finset.sum_sub_distrib, ← Finset.sum_add_distrib]
    exact Finset.sum_congr rfl fun j _ => by ring
  rw [e, hS]; field_simp; ring

theorem var_nonneg {n : ℕ} (ρ : Fin n → ℝ) (N : ℝ) (hN0 : 0 < N) (μ : ℝ) :
    0 ≤ (∑ j, (ρ j - μ) * (ρ j - μ)) / N :=
  div_nonneg (Finset.sum_nonneg fun j _ => mul_self_nonneg _) hN0.le

/-- The normalised entry, two ways. -/
theorem affine_eq (ρ μ y g β : ℝ) : ρ * (g * y) + (β - μ * (g * y)) = ((ρ - μ) * y) * g + β := by ring

end Cert.BnMath

end
-- ==== Proof.RefRead.lean ====
/-
  The reference's stage definitions read at one index, at the ideal values (a float an extended real, every operation
  exact): the rectified graph convolution as a maximum with zero, the column mean and variance as sums over the
  hundred thousand rows divided by their count, the batch normalisation entry by entry, the matrix products as sums over
  the contracted coordinate, and the final layer as three sums of thirty-two terms plus the bias.
-/
import proofs.«107356_j16226386444409_1_alg».proof.Proof.RefRunDefs
import proofs.«107356_j16226386444409_1_alg».proof.Proof.BnMath
import Idealize.ShloMosaic.Lib.ValueIdx
import Idealize.ShloMosaic.Lib.Pipeline.Value
import Idealize.ShloMosaic.PureOps.Ideal.Laws
import Idealize.ShloMosaic.Lib.KernelVsHost
import Idealize.ShloMosaic.Lib.IdealHost
import Idealize.ShloMosaic.Lib.StackMember

noncomputable section

namespace Cert.ReferenceIdeal.RefRun

open Cert.ReferenceIdeal Idealize.ShloMosaic Idealize.ShloMosaic.ValueIdx Idealize.SL.Sem
open Cert.ReferenceIdeal.Facts₀
open scoped BigOperators

section Generic

variable {F : FTy → Type} [FloatOps F]

/-- The aggregation of one graph convolution, before the bias: the gathered rows scaled by the normalisation,
    scatter-added at the targets. -/
def aggR (h : (⟨S100000x32, .f32⟩ : BufTy).Contents (Elt F)) (r c : (⟨S1700000, .i32⟩ : BufTy).Contents (Elt F)) (w : (⟨S1700000, .f32⟩ : BufTy).Contents (Elt F)) :
    (⟨S100000x32, .f32⟩ : BufTy).Contents (Elt F) :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 c) (mulf (Host.gather gather_S100000x32_S1700000x1_S1700000x32_1_0_n_n_0_1_132 h (widx r)) (broadcastInDim S1700000x32 ![0, 1] bcast_S1700000x1_S1700000x32_0_1 (broadcastInDim S1700000x1 ![0] bcast_S1700000_S1700000x1_0 (norm r c w))))

/-- A graph convolution is its aggregation plus the bias on every row. -/
theorem gcn_eq (h : (⟨S100000x32, .f32⟩ : BufTy).Contents (Elt F)) (b : (⟨S32, .f32⟩ : BufTy).Contents (Elt F)) (r c : (⟨S1700000, .i32⟩ : BufTy).Contents (Elt F)) (w : (⟨S1700000, .f32⟩ : BufTy).Contents (Elt F)) :
    gcn h b r c w = addf (aggR h r c w) (broadcastInDim S100000x32 ![0, 1] bcast_S1x32_S100000x32_0_1 (broadcastInDim S1x32 ![1] bcast_S32_S1x32_1 b)) := rfl

/-- The rows minus the column means, as the variance computes them. -/
def centred (x : (⟨S100000x32, .f32⟩ : BufTy).Contents (Elt F)) : (⟨S100000x32, .f32⟩ : BufTy).Contents (Elt F) :=
  subf x (broadcastInDim S100000x32 ![0, 1] bcast_S1x32_S100000x32_0_1 (Host.divf (broadcastInDim S1x32 ![1] bcast_S32_S1x32_1 (Host.reduceAdd x (constant S_ .f32 0x00000000#32) reducesTo_S100000x32_S32_d0 h_S_)) (broadcastInDim S1x32 ![] bcast_S_S1x32 (constant S_ .f32 0x47C35000#32))))

/-- The variance over the centred rows. -/
theorem var_eq (x : (⟨S100000x32, .f32⟩ : BufTy).Contents (Elt F)) :
    var x = select (broadcastInDim S32 ![] bcast_S_S32 (cmpf .ogt (subf (constant S_ .f32 0x47C35000#32) (sitofp .f32 (constantI S_ 32 0#32)) : (⟨S_, .f32⟩ : BufTy).Contents (Elt F)) (constant S_ .f32 0x00000000#32))) (Host.divf (Host.reduceAdd (mulf (centred x) (centred x)) (constant S_ .f32 0x00000000#32) reducesTo_S100000x32_S32_d0 h_S_) (broadcastInDim S32 ![] bcast_S_S32 (subf (constant S_ .f32 0x47C35000#32) (sitofp .f32 (constantI S_ 32 0#32))))) (broadcastInDim S32 ![] bcast_S_S32 (id (constant S_ .f32 0x7FC00000#32))) := rfl

end Generic

/-! ## Broadcasts at an index -/

/-- A vector of 32 as a one-row matrix, read in its row. -/
theorem row1_apply {α : Type} (v : S32.Idx → α) (q : Fin 32) :
    broadcastInDim S1x32 ![1] bcast_S32_S1x32_1 v (ix2 (0 : Fin 1) q) = v (ix1 q) := by
  refine broadcastInDim_apply ![1] bcast_S32_S1x32_1 v (ix2 (0 : Fin 1) q) (ix1 q) ?_
  intro a
  fin_cases a
  show q.val = if (32 : ℕ) = 1 then 0 else q.val
  simp

/-- A vector of 32 broadcast down the hundred thousand rows reads its entry at the column. -/
theorem rowb_apply {α : Type} (v : S32.Idx → α) (p : Fin 100000) (q : Fin 32) :
    broadcastInDim S100000x32 ![0, 1] bcast_S1x32_S100000x32_0_1 (broadcastInDim S1x32 ![1] bcast_S32_S1x32_1 v) (ix2 p q)
      = v (ix1 q) :=
  (broadcastInDim_oneRow_apply bcast_S1x32_S100000x32_0_1 _ p q).trans (row1_apply v q)

/-- A scalar float constant broadcast to any shape reads the constant's value. -/
theorem bcastc_apply {T : Shape} (h : S_.BroadcastsInDim T ![]) (b : BitVec 32) (j : T.Idx) :
    broadcastInDim T ![] h (constant (F := Ideal) S_ .f32 b) j = Ideal.ofBits .f32 b := by
  rw [broadcastInDim_scalar_apply]; rfl

/-! ## The rectified convolution -/

theorem relu_gcn_apply (h : (⟨S100000x32, .f32⟩ : BufTy).Contents (Elt Ideal)) (b : (⟨S32, .f32⟩ : BufTy).Contents (Elt Ideal)) (r c : (⟨S1700000, .i32⟩ : BufTy).Contents (Elt Ideal)) (w : (⟨S1700000, .f32⟩ : BufTy).Contents (Elt Ideal)) (p : Fin 100000) (q : Fin 32) :
    relu (gcn h b r c w) (ix2 p q) = max (aggR h r c w (ix2 p q) + b (ix1 q)) (Ideal.ofBits .f32 0x00000000#32) := by
  unfold relu
  rw [maximumf_apply, bcastc_apply, gcn_eq, addf_apply, rowb_apply]

/-! ## The column statistics -/

/-- A column sum from zero is the sum of the column's hundred thousand entries. -/
theorem colsum_apply (x : (⟨S100000x32, .f32⟩ : BufTy).Contents (Elt Ideal)) (q : Fin 32) :
    Host.reduceAdd x (constant (F := Ideal) S_ .f32 0x00000000#32) reducesTo_S100000x32_S32_d0 h_S_ (ix1 q)
      = ∑ p : Fin 100000, x (ix2 p q) := by
  have hR : S100000x32.Reduces [0] S32 := by decide
  rw [hostReduceAdd_apply, Ideal.hostReduceAdd_single reducesTo_S100000x32_S32_d0 hR]
  rw [constant_apply, Ideal.ofBits_zero_f32, zero_add]
  refine Finset.sum_congr rfl fun p _ => congrArg x ?_
  funext a
  match a with
  | ⟨0, _⟩ => exact Fin.ext rfl
  | ⟨1, _⟩ => exact Fin.ext rfl

theorem mean_apply (x : (⟨S100000x32, .f32⟩ : BufTy).Contents (Elt Ideal)) (q : Fin 32) :
    mean x (ix1 q) = Ideal.div (∑ p : Fin 100000, x (ix2 p q)) ((100000 : ℝ) : EReal) := by
  unfold mean
  rw [hostDivf_apply, colsum_apply, bcastc_apply, Cert.BnMath.ofBits_1e5]

/-- The row count minus the converted integer zero is the row count. -/
theorem count_apply :
    subf (constant (F := Ideal) S_ .f32 0x47C35000#32) (sitofp .f32 (constantI S_ 32 0#32)) ix0 = ((100000 : ℝ) : EReal) := by
  rw [subf_apply, constant_apply, sitofp_apply, Cert.BnMath.ofBits_1e5]
  show ((100000 : ℝ) : EReal) - ((((0#32 : BitVec 32).toInt : ℤ) : ℝ) : EReal) = _
  have h0 : (0#32 : BitVec 32).toInt = 0 := by decide
  rw [h0]
  simp

/-- That count is positive. -/
theorem count_pos_apply :
    cmpf .ogt (subf (constant (F := Ideal) S_ .f32 0x47C35000#32) (sitofp .f32 (constantI S_ 32 0#32)) : (⟨S_, .f32⟩ : BufTy).Contents (Elt Ideal)) (constant S_ .f32 0x00000000#32) ix0 = 1#1 := by
  rw [cmpf_apply, count_apply, constant_apply, Ideal.ofBits_zero_f32, Ideal.cmpf_def]
  show BitVec.ofBool (decide ((0 : EReal) < ((100000 : ℝ) : EReal))) = 1#1
  rw [decide_eq_true (EReal.coe_pos.mpr (by norm_num))]
  rfl

/-- A centred entry is the entry minus its column's mean. -/
theorem centred_apply (x : (⟨S100000x32, .f32⟩ : BufTy).Contents (Elt Ideal)) (p : Fin 100000) (q : Fin 32) :
    centred x (ix2 p q) = x (ix2 p q) - mean x (ix1 q) := by
  unfold centred
  rw [subf_apply, broadcastInDim_oneRow_apply bcast_S1x32_S100000x32_0_1, hostDivf_apply, row1_apply, colsum_apply,
    bcastc_apply, Cert.BnMath.ofBits_1e5, mean_apply]

theorem var_apply (x : (⟨S100000x32, .f32⟩ : BufTy).Contents (Elt Ideal)) (q : Fin 32) :
    var x (ix1 q) = Ideal.div (∑ p : Fin 100000, (x (ix2 p q) - mean x (ix1 q)) * (x (ix2 p q) - mean x (ix1 q)))
      ((100000 : ℝ) : EReal) := by
  rw [var_eq, select_apply, hostDivf_apply, broadcastInDim_scalar_apply, broadcastInDim_scalar_apply,
    broadcastInDim_scalar_apply, count_pos_apply, select_one, colsum_apply, count_apply]
  refine congrArg (fun s => Ideal.div s ((100000 : ℝ) : EReal)) (Finset.sum_congr rfl fun p _ => ?_)
  rw [mulf_apply, centred_apply]

/-! ## Batch normalisation -/

/-- The host's reciprocal square root at an index. -/
theorem hostRsqrt_apply {s : Shape} (a : FVec Ideal s .f32) (i : s.Idx) : Host.rsqrt a i = Ideal.rsqrt (a i) := rfl

theorem bn_apply (x : (⟨S100000x32, .f32⟩ : BufTy).Contents (Elt Ideal)) (g be : (⟨S32, .f32⟩ : BufTy).Contents (Elt Ideal)) (p : Fin 100000) (q : Fin 32) :
    bn x g be (ix2 p q)
      = ((x (ix2 p q) - mean x (ix1 q)) * Ideal.rsqrt (var x (ix1 q) + Ideal.ofBits .f32 0x3727C5AC#32)) * g (ix1 q)
        + be (ix1 q) := by
  unfold bn
  simp only [addf_apply, mulf_apply, subf_apply]
  rw [rowb_apply (mean x), rowb_apply g, rowb_apply be, rowb_apply, hostRsqrt_apply, addf_apply, bcastc_apply]

/-! ## The matrix products -/

theorem dot64_apply (x : FVec Ideal S100000x64 .f32) (w : FVec Ideal S64x32 .f32) (p : Fin 100000) (q : Fin 32) :
    Host.dotGeneral dot_S100000x64_S64x32_S100000x32_1_0_0_1_n_n none x w (ix2 p q) = ∑ k : Fin 64, x (ix2 p k) * w (ix2 k q) :=
  StackMember.dotGeneral_plain_apply none x w p q

theorem dot32_apply (x : FVec Ideal S100000x32 .f32) (w : FVec Ideal S32x32 .f32) (p : Fin 100000) (q : Fin 32) :
    Host.dotGeneral dot_S100000x32_S32x32_S100000x32_1_0_0_1_n_n none x w (ix2 p q) = ∑ k : Fin 32, x (ix2 p k) * w (ix2 k q) :=
  StackMember.dotGeneral_plain_apply none x w p q

theorem dot96_apply (x : FVec Ideal S100000x96 .f32) (w : FVec Ideal S96x2 .f32) (p : Fin 100000) (j : Fin 2) :
    Host.dotGeneral dot_S100000x96_S96x2_S100000x2_1_0_0_1_n_n none x w (ix2 p j) = ∑ k : Fin 96, x (ix2 p k) * w (ix2 k j) :=
  StackMember.dotGeneral_plain_apply none x w p j

end Cert.ReferenceIdeal.RefRun

end
-- ==== Proof.RefPair.lean ====
/-
  The reference function's whole-array stages against the neutral graph-convolution terms. Each pair is the same
  composition of the same operations: the shapes are the same literals under two names, the dimension-number records
  have the same fields, and the side conditions are propositions, so each equation holds by unfolding the definitions.
-/
import proofs.«107356_j16226386444409_1_alg».proof.Proof.RefRunDefs
import proofs.«107356_j16226386444409_1_alg».proof.Proof.GcnDefs

noncomputable section

namespace Cert.RefPair

open Cert.ReferenceIdeal Idealize.ShloMosaic Idealize.SL.Sem
open Cert.ReferenceIdeal.Facts₀

/-! ## The four dimension-number records -/

/-- The flat scatter of per-edge values onto nodes: the reference's record is the neutral one. -/
theorem sdVec_eq : scatter_S100000_S1700000x1_S1700000_n_0_0_1 = Cert.Gcn.sdVec := rfl
/-- The flat gather of per-node values at edges. -/
theorem gdVec_eq : gather_S100000_S1700000x1_S1700000_n_0_n_n_0_1_1 = Cert.Gcn.gdVec := rfl
/-- The row gather of node features at edges. -/
theorem gdRow_eq : gather_S100000x32_S1700000x1_S1700000x32_1_0_n_n_0_1_132 = Cert.Gcn.gdRow := rfl
/-- The row scatter of edge messages onto nodes. -/
theorem sdRow_eq : scatter_S100000x32_S1700000x1_S1700000x32_1_0_0_1 = Cert.Gcn.sdRow := rfl

variable {F : FTy → Type} [FloatOps F]

/-! ## The graph data -/

theorem rows_pair (ei : (⟨S2x1600000, .i32⟩ : BufTy).Contents (Elt F)) :
    RefRun.rows (F := F) ei = Cert.Gcn.rows (F := F) ei := rfl

theorem cols_pair (ei : (⟨S2x1600000, .i32⟩ : BufTy).Contents (Elt F)) :
    RefRun.cols (F := F) ei = Cert.Gcn.cols (F := F) ei := rfl

theorem wts_pair (ew : (⟨S1600000, .f32⟩ : BufTy).Contents (Elt F)) :
    RefRun.wts (F := F) ew = Cert.Gcn.wts (F := F) ew := rfl

/-- The weighted in-degree. -/
theorem deg_pair (c : (⟨S1700000, .i32⟩ : BufTy).Contents (Elt F)) (w : (⟨S1700000, .f32⟩ : BufTy).Contents (Elt F)) :
    RefRun.deg (F := F) c w = Cert.Gcn.deg (F := F) c w := rfl

/-- The degree's inverse square root where the degree is positive, zero elsewhere. -/
theorem dis_pair (c : (⟨S1700000, .i32⟩ : BufTy).Contents (Elt F)) (w : (⟨S1700000, .f32⟩ : BufTy).Contents (Elt F)) :
    RefRun.dis (F := F) c w = Cert.Gcn.dis (F := F) (Cert.Gcn.deg (F := F) c w) := rfl

/-- A node index as a gather index: the wrapped index as a column. -/
theorem widx_pair (i : (⟨S1700000, .i32⟩ : BufTy).Contents (Elt F)) :
    RefRun.widx (F := F) i = broadcastInDim Cert.Gcn.SMx1 ![0] Cert.Gcn.bc_M_Mx1 (Cert.Gcn.wrap (F := F) i) := rfl

/-! ## The normalisation and one convolution -/

/-- The edge normalisation at any edge data. -/
theorem norm_pair' (r c : (⟨S1700000, .i32⟩ : BufTy).Contents (Elt F)) (w : (⟨S1700000, .f32⟩ : BufTy).Contents (Elt F)) :
    RefRun.norm (F := F) r c w = Cert.Gcn.norm (F := F) r c w (Cert.Gcn.dis (F := F) (Cert.Gcn.deg (F := F) c w)) := rfl

/-- The edge normalisation of the graph arguments. -/
theorem norm_pair (ei : (⟨S2x1600000, .i32⟩ : BufTy).Contents (Elt F)) (ew : (⟨S1600000, .f32⟩ : BufTy).Contents (Elt F)) :
    RefRun.norm (F := F) (RefRun.rows (F := F) ei) (RefRun.cols (F := F) ei) (RefRun.wts (F := F) ew)
      = Cert.Gcn.normOf (F := F) ei ew := rfl

/-- One convolution: the aggregation of h under the reference's normalisation, plus the bias along the rows. -/
theorem gcn_pair (h : (⟨S100000x32, .f32⟩ : BufTy).Contents (Elt F)) (b : (⟨S32, .f32⟩ : BufTy).Contents (Elt F))
    (r c : (⟨S1700000, .i32⟩ : BufTy).Contents (Elt F)) (w : (⟨S1700000, .f32⟩ : BufTy).Contents (Elt F)) :
    RefRun.gcn (F := F) h b r c w
      = addf (Cert.Gcn.agg (F := F) r c (RefRun.norm (F := F) r c w) h)
          (broadcastInDim S100000x32 ![0, 1] bcast_S1x32_S100000x32_0_1 (broadcastInDim S1x32 ![1] bcast_S32_S1x32_1 b)) := rfl

end Cert.RefPair

end
-- ==== Proof.LibScatterAdd.lean ====
/-
  The host's accumulating float scatter at the exact instance, and a nonnegative finite factor moved across it.

  At the exact instance `hostScatterAdd d x idx upd` read at `i` is `x i` plus the sum of the updates that land on
  `i`. The extended reals are not a ring: `(y + z) * a = y * a + z * a` can fail when `a` is infinite or negative
  and `y`, `z` are infinities of opposite signs. For `0 ≤ a < ⊤` it holds for all `y`, `z`, so such an `a` moves
  across a finite sum, and across the scatter: scaling the operand's element and every landing update by `a` scales
  the result's element by `a`.

  Also here: the reciprocal square root of a positive natural number is a nonnegative finite real, and the scatter
  of ones from zeros counts the landing updates.
-/
import Idealize.ShloMosaic.PureOps.Ideal

noncomputable section

namespace Idealize.ShloMosaic.ScatterAddLaws

open scoped BigOperators

/-- A nonnegative finite factor distributes over a finite sum of extended reals. -/
theorem sum_mul_of_nonneg_ne_top {ι : Type} (S : Finset ι) (f : ι → EReal) {a : EReal} (ha0 : 0 ≤ a) (hat : a ≠ ⊤) :
    (∑ j ∈ S, f j) * a = ∑ j ∈ S, f j * a := by
  classical
  induction S using Finset.induction_on with
  | empty => simp
  | insert j S hj ih =>
    rw [Finset.sum_insert hj, Finset.sum_insert hj, EReal.right_distrib_of_nonneg_of_ne_top ha0 hat, ih]

/-- The accumulating scatter at the exact instance, read at an element. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- Scaling the operand's element at `i` and every update that lands on `i` by a nonnegative finite `a` scales the
    scatter's element at `i` by `a`. -/
theorem hostScatterAdd_mul_right {s si su : Shape} (d : ScatterDims s si su) {w : Nat} (idx : IVec si w)
    (x x' : s.Idx → EReal) (u u' : su.Idx → EReal) (i : s.Idx) {a : EReal} (ha0 : 0 ≤ a) (hat : a ≠ ⊤)
    (hx : x' i = x i * a) (hu : ∀ j, d.resultIdx? j idx = some i → u' j = u j * a) :
    Ideal.hostScatterAdd d x' idx u' i = Ideal.hostScatterAdd d x idx u i * a := by
  rw [hostScatterAdd_apply, hostScatterAdd_apply, EReal.right_distrib_of_nonneg_of_ne_top ha0 hat,
    sum_mul_of_nonneg_ne_top _ _ ha0 hat, hx]
  refine congrArg _ (Finset.sum_congr rfl fun j hj => hu j (Finset.mem_filter.mp hj).2)

/-- Two scatters through the same indices whose operands agree at `i` and whose updates agree wherever they land on
    `i` agree at `i`. -/
theorem hostScatterAdd_congr_at {s si su : Shape} (d : ScatterDims s si su) {w : Nat} (idx : IVec si w)
    (x x' : s.Idx → EReal) (u u' : su.Idx → EReal) (i : s.Idx)
    (hx : x' i = x i) (hu : ∀ j, d.resultIdx? j idx = some i → u' j = u j) :
    Ideal.hostScatterAdd d x' idx u' i = Ideal.hostScatterAdd d x idx u i := by
  rw [hostScatterAdd_apply, hostScatterAdd_apply, hx]
  refine congrArg _ (Finset.sum_congr rfl fun j hj => hu j (Finset.mem_filter.mp hj).2)

/-- The scatter of ones from zero counts the updates that land on `i`. -/
theorem hostScatterAdd_ones {s si su : Shape} (d : ScatterDims s si su) {w : Nat} (idx : IVec si w)
    (x : s.Idx → EReal) (u : su.Idx → EReal) (i : s.Idx) (hx : x i = 0) (hu : ∀ j, u j = 1) :
    Ideal.hostScatterAdd d x idx u i
      = (((Finset.univ.filter (fun j => d.resultIdx? j idx = some i)).card : ℝ) : EReal) := by
  rw [hostScatterAdd_apply, hx, zero_add, Finset.sum_congr rfl (fun j _ => hu j), Finset.sum_const, EReal.nsmul_eq_mul, mul_one]
  norm_cast

/-- The reciprocal square root of a positive natural number is a nonnegative finite extended real. -/
theorem rsqrt_natCast_pos {n : ℕ} (hn : 0 < n) :
    0 ≤ Ideal.rsqrt (((n : ℝ) : EReal)) ∧ Ideal.rsqrt (((n : ℝ) : EReal)) ≠ ⊤ := by
  have hpos : (0 : ℝ) < (n : ℝ) := by exact_mod_cast hn
  have e : Ideal.rsqrt (((n : ℝ) : EReal)) = (((Real.sqrt (n : ℝ))⁻¹ : ℝ) : EReal) := by
    show (if (n : ℝ) < 0 then (⊥ : EReal) else if (n : ℝ) = 0 then ⊤ else ((Real.sqrt (n : ℝ))⁻¹ : ℝ)) = _
    rw [if_neg (not_lt.mpr hpos.le), if_neg hpos.ne']
  rw [e]
  refine ⟨?_, EReal.coe_ne_top _⟩
  exact_mod_cast inv_nonneg.mpr (Real.sqrt_nonneg _)

end Idealize.ShloMosaic.ScatterAddLaws

end
-- ==== Proof.GcnReal.lean ====
/-
  Arrays of real numbers.

  The batch-normalisation identity holds for real entries only, so each array on the way is shown to hold reals:
  a layout operation (a broadcast, a gather, a reshape, a slice, a concatenation) only moves entries; a pointwise sum,
  difference, product or maximum of reals is real; an accumulating scatter adds finitely many real updates to a real
  entry; `deg^(-1/2)` is taken only where `deg > 0`, and is `0` elsewhere.
-/
import proofs.«107356_j16226386444409_1_alg».proof.Proof.GcnDefs
import proofs.«107356_j16226386444409_1_alg».proof.Proof.BnMath
import proofs.«107356_j16226386444409_1_alg».proof.Proof.LibScatterAdd

noncomputable section

namespace Cert.Gcn

open Idealize.ShloMosaic Cert.BnMath
open scoped BigOperators

/-- Every entry is a real number. -/
def RealArr {S : Shape} (x : S.Idx → EReal) : Prop := ∀ i, IsReal (x i)

variable {S T : Shape}

theorem RealArr.bcast {x : S.Idx → EReal} (hx : RealArr x) (dims : Fin S.rank → Fin T.rank) (h : S.BroadcastsInDim T dims) :
    RealArr (broadcastInDim T dims h x) := fun _ => hx _

theorem RealArr.gather {SI : Shape} {w : Nat} {x : S.Idx → EReal} (hx : RealArr x) (d : GatherDims S SI T) (idx : IVec SI w) :
    RealArr (Host.gather d x idx) := fun _ => hx _

theorem RealArr.const (b : BitVec 32) (hb : IsReal (Ideal.ofBits .f32 b)) : RealArr (constant (F := Ideal) S .f32 b) := fun _ => hb

theorem isReal_zero_bits : IsReal (Ideal.ofBits .f32 0x00000000#32) := by rw [Ideal.ofBits_zero_f32]; exact IsReal.zero
theorem isReal_one_bits : IsReal (Ideal.ofBits .f32 0x3F800000#32) := ⟨1, ofBits_one⟩

theorem RealArr.mulf {x y : S.Idx → EReal} (hx : RealArr x) (hy : RealArr y) : RealArr (mulf (F := Ideal) (φ := .f32) x y) :=
  fun i => (hx i).mul (hy i)
theorem RealArr.addf {x y : S.Idx → EReal} (hx : RealArr x) (hy : RealArr y) : RealArr (addf (F := Ideal) (φ := .f32) x y) :=
  fun i => (hx i).add (hy i)
theorem RealArr.subf {x y : S.Idx → EReal} (hx : RealArr x) (hy : RealArr y) : RealArr (subf (F := Ideal) (φ := .f32) x y) :=
  fun i => (hx i).sub (hy i)

theorem RealArr.scatterAdd {SI SU : Shape} {w : Nat} {x : S.Idx → EReal} {u : SU.Idx → EReal} (hx : RealArr x) (hu : RealArr u)
    (d : ScatterDims S SI SU) (idx : IVec SI w) : RealArr (Host.scatterAdd (F := Ideal) (φ := .f32) d x idx u) := by
  intro i
  show IsReal (Ideal.hostScatterAdd d x idx u i)
  rw [ScatterAddLaws.hostScatterAdd_apply]
  exact (hx i).add (IsReal.sum _ _ fun j _ => hu j)

/-- A concatenation only moves entries. -/
theorem concatenate_mem {α : Type} (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem RealArr.wts {ew : SE.Idx → EReal} (h : RealArr ew) : RealArr (wts (F := Ideal) ew) := by
  intro j
  unfold Cert.Gcn.wts
  obtain ⟨p, hp, i, e⟩ := concatenate_mem SM 0 [⟨SE, ew⟩, ⟨SN, broadcastInDim SN ![] bc_0_N (constant (F := Ideal) S0 .f32 0x3F800000#32)⟩] concats_E_N j
  rw [e]
  simp only [List.mem_cons, List.mem_nil_iff, or_false] at hp
  rcases hp with rfl | rfl
  · exact h i
  · exact isReal_one_bits

theorem RealArr.deg {w : SM.Idx → EReal} (hw : RealArr w) (col : IVec SM 32) : RealArr (deg (F := Ideal) col w) :=
  RealArr.scatterAdd (fun _ => isReal_zero_bits) hw _ _

theorem RealArr.dis {d : SN.Idx → EReal} (hd : RealArr d) : RealArr (dis (F := Ideal) d) := by
  intro i
  show IsReal (Scalar.select (Ideal.cmp .ogt (d i) (Ideal.ofBits .f32 0x00000000#32)) (Ideal.rsqrt (d i)) (Ideal.ofBits .f32 0x00000000#32))
  unfold Scalar.select
  split
  · rename_i hc
    obtain ⟨r, hr⟩ := hd i
    rw [hr, Ideal.ofBits_zero_f32] at hc
    have hpos : (0 : EReal) < (r : EReal) := by
      by_contra hn
      simp [Ideal.cmp, hn] at hc
    rw [hr, rsqrt_coe_pos (by exact_mod_cast hpos)]
    exact IsReal.coe _
  · exact isReal_zero_bits

theorem RealArr.norm {w : SM.Idx → EReal} {ds : SN.Idx → EReal} (hw : RealArr w) (hds : RealArr ds) (row col : IVec SM 32) :
    RealArr (norm (F := Ideal) row col w ds) :=
  RealArr.mulf (RealArr.mulf (hds.gather _ _) hw) (hds.gather _ _)

theorem RealArr.normOf {ew : SE.Idx → EReal} (h : RealArr ew) (ei : IVec S2xE 32) : RealArr (normOf (F := Ideal) ei ew) :=
  RealArr.norm h.wts (RealArr.dis (RealArr.deg h.wts _)) _ _

theorem RealArr.agg {nrm : SM.Idx → EReal} {h : SNx32.Idx → EReal} (hn : RealArr nrm) (hh : RealArr h) (row col : IVec SM 32) :
    RealArr (agg (F := Ideal) row col nrm h) :=
  RealArr.scatterAdd (fun _ => isReal_zero_bits) (RealArr.mulf (hh.gather _ _) ((hn.bcast _ _).bcast _ _)) _ _

end Cert.Gcn

end
-- ==== Proof.KBn.lean ====
/-
  The batch-normalisation identity on the kernel side.

  The kernel program is handed the clipped array r = max (a + b, 0) with its column sums and sums of squares, forms
  μ = (Σ r)/N, the variance as (Σ r²)/N − μ·μ, scale = γ · rsqrt (variance + ε), shift = β − μ · scale, and returns
  r · scale + shift. For real entries this is the normalised array ((r − μ) · rsqrt (var + ε)) · γ + β, with var the
  mean squared deviation (Σ (r − μ)²)/N of the column — and every entry of it is a real number.
-/
import proofs.«107356_j16226386444409_1_alg».proof.Proof.KFun
import proofs.«107356_j16226386444409_1_alg».proof.Proof.BnMath
import proofs.«107356_j16226386444409_1_alg».proof.Proof.GcnReal
import Idealize.ShloMosaic.Lib.Pipeline.Value

noncomputable section

namespace Cert.Gcn

open Idealize.ShloMosaic Idealize.ShloMosaic.ValueIdx Cert.BnMath
open scoped BigOperators

/-! ## One column of N = 100000 entries -/

/-- The mean of a column. -/
def meanOf (r : Fin 100000 → EReal) : EReal := Ideal.div (∑ p, r p) ((100000 : ℝ) : EReal)
/-- The mean squared deviation of a column. -/
def varOf (r : Fin 100000 → EReal) : EReal :=
  Ideal.div (∑ p, (r p - meanOf r) * (r p - meanOf r)) ((100000 : ℝ) : EReal)
/-- The variance as the mean of squares minus the squared mean. -/
def sqVarOf (r : Fin 100000 → EReal) : EReal :=
  Ideal.div (∑ p, r p * r p) ((100000 : ℝ) : EReal) - meanOf r * meanOf r

theorem N_ne_zero : (100000 : ℝ) ≠ 0 := by norm_num

/-- A column of reals is the coercion of a real column. -/
theorem exists_real_col {r : Fin 100000 → EReal} (hr : ∀ p, IsReal (r p)) :
    ∃ ρ : Fin 100000 → ℝ, r = fun p => ((ρ p : ℝ) : EReal) :=
  ⟨fun p => (hr p).choose, funext fun p => (hr p).choose_spec⟩

theorem meanOf_coe (ρ : Fin 100000 → ℝ) :
    meanOf (fun p => ((ρ p : ℝ) : EReal)) = (((∑ p, ρ p) / 100000 : ℝ) : EReal) := by
  unfold meanOf
  rw [coe_sum Finset.univ ρ, div_coe_coe _ N_ne_zero]

theorem varOf_coe (ρ : Fin 100000 → ℝ) :
    varOf (fun p => ((ρ p : ℝ) : EReal))
      = (((∑ p, (ρ p - (∑ p, ρ p) / 100000) * (ρ p - (∑ p, ρ p) / 100000)) / 100000 : ℝ) : EReal) := by
  unfold varOf
  rw [meanOf_coe]
  have e : ∀ p : Fin 100000, (((ρ p : ℝ) : EReal) - (((∑ p, ρ p) / 100000 : ℝ) : EReal)) * (((ρ p : ℝ) : EReal) - (((∑ p, ρ p) / 100000 : ℝ) : EReal))
      = (((ρ p - (∑ p, ρ p) / 100000) * (ρ p - (∑ p, ρ p) / 100000) : ℝ) : EReal) := fun p => by
    rw [← EReal.coe_sub, ← EReal.coe_mul]
  rw [Finset.sum_congr rfl fun p _ => e p, coe_sum Finset.univ, div_coe_coe _ N_ne_zero]

theorem sqVarOf_coe (ρ : Fin 100000 → ℝ) :
    sqVarOf (fun p => ((ρ p : ℝ) : EReal))
      = (((∑ p, ρ p * ρ p) / 100000 - ((∑ p, ρ p) / 100000) * ((∑ p, ρ p) / 100000) : ℝ) : EReal) := by
  unfold sqVarOf
  rw [meanOf_coe]
  have e : ∀ p : Fin 100000, ((ρ p : ℝ) : EReal) * ((ρ p : ℝ) : EReal) = ((ρ p * ρ p : ℝ) : EReal) := fun p => (EReal.coe_mul _ _).symm
  rw [Finset.sum_congr rfl fun p _ => e p, coe_sum Finset.univ, div_coe_coe _ N_ne_zero, ← EReal.coe_mul, ← EReal.coe_sub]

/-- For a real column the two spellings of the variance agree. -/
theorem sqVarOf_eq_varOf {r : Fin 100000 → EReal} (hr : ∀ p, IsReal (r p)) : sqVarOf r = varOf r := by
  obtain ⟨ρ, rfl⟩ := exists_real_col hr
  rw [sqVarOf_coe, varOf_coe]
  exact congrArg _ (var_eq ρ 100000 (by norm_num) (by norm_num))

theorem isReal_meanOf {r : Fin 100000 → EReal} (hr : ∀ p, IsReal (r p)) : IsReal (meanOf r) :=
  (IsReal.sum _ _ fun p _ => hr p).div_coe N_ne_zero

/-- The reciprocal square root of the offset variance of a real column is a real. -/
theorem rsqrt_var_coe (ρ : Fin 100000 → ℝ) :
    Ideal.rsqrt (varOf (fun p => ((ρ p : ℝ) : EReal)) + ((eps : ℝ) : EReal))
      = (((Real.sqrt ((∑ p, (ρ p - (∑ p, ρ p) / 100000) * (ρ p - (∑ p, ρ p) / 100000)) / 100000 + eps))⁻¹ : ℝ) : EReal) := by
  rw [varOf_coe, ← EReal.coe_add]
  exact rsqrt_coe_pos (add_pos_of_nonneg_of_pos (var_nonneg ρ 100000 (by norm_num) _) eps_pos)

theorem isReal_rsqrt_var {r : Fin 100000 → EReal} (hr : ∀ p, IsReal (r p)) :
    IsReal (Ideal.rsqrt (varOf r + ((eps : ℝ) : EReal))) := by
  obtain ⟨ρ, rfl⟩ := exists_real_col hr
  rw [rsqrt_var_coe]
  exact IsReal.coe _

/-- THE IDENTITY for one real column, a real scale γ and a real shift β: scaling by γ · rsqrt and shifting by
    β − μ · (γ · rsqrt), with the variance spelt as the mean of squares minus the squared mean, normalises the column. -/
theorem bn_identity {r : Fin 100000 → EReal} (hr : ∀ p, IsReal (r p)) {gq bq : EReal} (hg : IsReal gq) (hb : IsReal bq)
    (p : Fin 100000) :
    r p * (gq * Ideal.rsqrt (sqVarOf r + ((eps : ℝ) : EReal)))
        + (bq - meanOf r * (gq * Ideal.rsqrt (sqVarOf r + ((eps : ℝ) : EReal))))
      = ((r p - meanOf r) * Ideal.rsqrt (varOf r + ((eps : ℝ) : EReal))) * gq + bq := by
  rw [sqVarOf_eq_varOf hr]
  obtain ⟨ρ, rfl⟩ := exists_real_col hr
  obtain ⟨γ, rfl⟩ := hg
  obtain ⟨β, rfl⟩ := hb
  rw [rsqrt_var_coe, meanOf_coe]
  dsimp only
  generalize (Real.sqrt ((∑ x, (ρ x - (∑ p, ρ p) / 100000) * (ρ x - (∑ p, ρ p) / 100000)) / 100000 + eps))⁻¹ = y
  generalize (∑ p, ρ p) / 100000 = μ
  exact_mod_cast affine_eq (ρ p) μ y γ β

theorem isReal_bn {r : Fin 100000 → EReal} (hr : ∀ p, IsReal (r p)) {gq bq : EReal} (hg : IsReal gq) (hb : IsReal bq)
    (p : Fin 100000) : IsReal (((r p - meanOf r) * Ideal.rsqrt (varOf r + ((eps : ℝ) : EReal))) * gq + bq) :=
  ((((hr p).sub (isReal_meanOf hr)).mul (isReal_rsqrt_var hr)).mul hg).add hb

/-! ## Arrays -/

/-- The column mean of an [N, 32] array. -/
def colMean (x : SNx32.Idx → EReal) (q : Fin 32) : EReal :=
  Ideal.div (∑ p : Fin 100000, x (ix2 p q)) ((100000 : ℝ) : EReal)
/-- The column's mean squared deviation. -/
def colVar (x : SNx32.Idx → EReal) (q : Fin 32) : EReal :=
  Ideal.div (∑ p : Fin 100000, (x (ix2 p q) - colMean x q) * (x (ix2 p q) - colMean x q)) ((100000 : ℝ) : EReal)
/-- The normalised array ((x − μ) · rsqrt (var + ε)) · γ + β. -/
def bnOf (x : SNx32.Idx → EReal) (g be : S32.Idx → EReal) : SNx32.Idx → EReal :=
  arrNx32 fun p q => ((x (ix2 p q) - colMean x q) * Ideal.rsqrt (colVar x q + Ideal.ofBits .f32 0x3727C5AC#32)) * g (ix1 q) + be (ix1 q)
/-- The clipped array max (a + b, 0). -/
def clipF (a : SNx32.Idx → EReal) (b : S32.Idx → EReal) : SNx32.Idx → EReal := arrNx32 (reluF a (row32 (F := Ideal) b))

theorem colMean_eq (x : SNx32.Idx → EReal) (q : Fin 32) : colMean x q = meanOf fun p => x (ix2 p q) := rfl
theorem colVar_eq (x : SNx32.Idx → EReal) (q : Fin 32) : colVar x q = varOf fun p => x (ix2 p q) := rfl

/-- A length-32 vector as one row, read at (0, q). -/
theorem row32_apply (b : S32.Idx → EReal) (q : Fin 32) : row32 (F := Ideal) b (ix2 (0 : Fin 1) q) = b (ix1 q) := by
  unfold row32
  refine shapeCast_apply b casts_32_1x32 (ix2 (0 : Fin 1) q) (ix1 q) ?_
  rw [Shape.rowMajor_val_one, Shape.rowMajor_val_two]
  show q.val = 0 * 32 + q.val
  omega

theorem clipF_apply (a : SNx32.Idx → EReal) (b : S32.Idx → EReal) (p : Fin 100000) (q : Fin 32) :
    clipF a b (ix2 p q) = max (a (ix2 p q) + b (ix1 q)) 0 := by
  show max (a (ix2 p q) + row32 (F := Ideal) b (ix2 (0 : Fin 1) q)) (Ideal.ofBits .f32 0x00000000#32) = _
  rw [row32_apply, Ideal.ofBits_zero_f32]

theorem isReal_clipF {a : SNx32.Idx → EReal} (ha : RealArr a) {b : S32.Idx → EReal} (hb : RealArr b) : RealArr (clipF a b) := by
  intro i
  obtain ⟨p, q, rfl⟩ : ∃ (p : Fin 100000) (q : Fin 32), i = ix2 p q := ⟨i 0, i 1, eq_ix2 i⟩
  rw [clipF_apply]
  exact ((ha _).add (hb _)).max IsReal.zero

/-- The column means from the column sums, read at an index. -/
theorem kMean_apply (s : S1x32.Idx → EReal) (i : S1x32.Idx) :
    kMean (F := Ideal) s i = Ideal.div (s i) ((100000 : ℝ) : EReal) := by
  show Ideal.div (s i) (Ideal.ofBits .f32 0x47C35000#32) = _
  rw [ofBits_1e5]

/-- The scale row read at (0, q). -/
theorem kScale_apply (s qq : S1x32.Idx → EReal) (g : S32.Idx → EReal) (q : Fin 32) :
    kScale (F := Ideal) s qq g (ix2 (0 : Fin 1) q)
      = g (ix1 q) * Ideal.rsqrt (Ideal.div (qq (ix2 (0 : Fin 1) q)) ((100000 : ℝ) : EReal)
          - Ideal.div (s (ix2 (0 : Fin 1) q)) ((100000 : ℝ) : EReal) * Ideal.div (s (ix2 (0 : Fin 1) q)) ((100000 : ℝ) : EReal)
          + ((eps : ℝ) : EReal)) := by
  show row32 (F := Ideal) g (ix2 (0 : Fin 1) q) * Ideal.rsqrt (Ideal.div (qq (ix2 (0 : Fin 1) q)) (Ideal.ofBits .f32 0x47C35000#32)
      - kMean (F := Ideal) s (ix2 (0 : Fin 1) q) * kMean (F := Ideal) s (ix2 (0 : Fin 1) q) + Ideal.ofBits .f32 0x3727C5AC#32) = _
  rw [row32_apply, kMean_apply, ofBits_1e5, ofBits_eps]

/-- The shift row read at (0, q). -/
theorem kShift_apply (s qq : S1x32.Idx → EReal) (g be : S32.Idx → EReal) (q : Fin 32) :
    kShift (F := Ideal) s qq g be (ix2 (0 : Fin 1) q)
      = be (ix1 q) - Ideal.div (s (ix2 (0 : Fin 1) q)) ((100000 : ℝ) : EReal) * kScale (F := Ideal) s qq g (ix2 (0 : Fin 1) q) := by
  show row32 (F := Ideal) be (ix2 (0 : Fin 1) q) - kMean (F := Ideal) s (ix2 (0 : Fin 1) q) * kScale (F := Ideal) s qq g (ix2 (0 : Fin 1) q) = _
  rw [row32_apply, kMean_apply]

/-- THE KERNEL'S LAYER RESULT at (p, q): the clipped array normalised over its column, scaled by γ and shifted by β. -/
theorem kLayerOut_apply {a : SNx32.Idx → EReal} (ha : RealArr a) {b g be : S32.Idx → EReal} (hb : RealArr b) (hg : RealArr g)
    (hbe : RealArr be) (p : Fin 100000) (q : Fin 32) :
    kLayerOut a b g be (ix2 p q)
      = ((clipF a b (ix2 p q) - colMean (clipF a b) q) * Ideal.rsqrt (colVar (clipF a b) q + Ideal.ofBits .f32 0x3727C5AC#32))
          * g (ix1 q) + be (ix1 q) := by
  have hr : ∀ p' : Fin 100000, IsReal (clipF a b (ix2 p' q)) := fun p' => isReal_clipF ha hb _
  rw [colMean_eq, colVar_eq, ofBits_eps, ← bn_identity hr (hg (ix1 q)) (hbe (ix1 q)) p]
  show reluF a (row32 (F := Ideal) b) p q * kScale (F := Ideal) (sumF a (row32 (F := Ideal) b)) (sumsqF a (row32 (F := Ideal) b)) g (ix2 (0 : Fin 1) q)
      + kShift (F := Ideal) (sumF a (row32 (F := Ideal) b)) (sumsqF a (row32 (F := Ideal) b)) g be (ix2 (0 : Fin 1) q) = _
  rw [kShift_apply, kScale_apply]
  rfl

/-- The kernel's layer result is the normalised clipped array. -/
theorem kLayerOut_eq {a : SNx32.Idx → EReal} (ha : RealArr a) {b g be : S32.Idx → EReal} (hb : RealArr b) (hg : RealArr g)
    (hbe : RealArr be) : kLayerOut a b g be = bnOf (clipF a b) g be :=
  arrNx32_ext _ _ fun p q => kLayerOut_apply ha hb hg hbe p q

/-- Every entry of the kernel's layer result is a real number. -/
theorem kLayerOut_real {a : SNx32.Idx → EReal} (ha : RealArr a) {b g be : S32.Idx → EReal} (hb : RealArr b) (hg : RealArr g)
    (hbe : RealArr be) : RealArr (kLayerOut a b g be) := by
  intro i
  obtain ⟨p, q, rfl⟩ : ∃ (p : Fin 100000) (q : Fin 32), i = ix2 p q := ⟨i 0, i 1, eq_ix2 i⟩
  have hr : ∀ p' : Fin 100000, IsReal (clipF a b (ix2 p' q)) := fun p' => isReal_clipF ha hb _
  rw [kLayerOut_apply ha hb hg hbe, colMean_eq, colVar_eq, ofBits_eps]
  exact isReal_bn hr (hg (ix1 q)) (hbe (ix1 q)) p

end Cert.Gcn

end
-- ==== Proof.LayerBridge.lean ====
/-
  One layer of the reference against the kernel's layer result.

  The reference projects the features, aggregates them over the graph, adds the bias, clips at zero and normalises each
  column by its mean and mean squared deviation. The kernel's layer result is stated over the aggregated projection: the
  clipped array scaled and shifted by rows computed from its column sums. For real entries the two are the same array.
-/
import proofs.«107356_j16226386444409_1_alg».proof.Proof.RefRead
import proofs.«107356_j16226386444409_1_alg».proof.Proof.RefPair
import proofs.«107356_j16226386444409_1_alg».proof.Proof.KBn

noncomputable section

namespace Cert.Bridge

open Cert Cert.ReferenceIdeal Idealize.ShloMosaic Idealize.ShloMosaic.ValueIdx Idealize.SL.Sem Cert.BnMath
open Cert.ReferenceIdeal.Facts₀
open scoped BigOperators

/-! ## Batch normalisation -/

/-- The reference's column mean is the column mean. -/
theorem mean_eq_colMean (x : (⟨S100000x32, .f32⟩ : BufTy).Contents (Elt Ideal)) (q : Fin 32) :
    RefRun.mean x (ix1 q) = Gcn.colMean x q := RefRun.mean_apply x q

/-- The reference's column variance is the column's mean squared deviation. -/
theorem var_eq_colVar (x : (⟨S100000x32, .f32⟩ : BufTy).Contents (Elt Ideal)) (q : Fin 32) :
    RefRun.var x (ix1 q) = Gcn.colVar x q := by
  rw [RefRun.var_apply, mean_eq_colMean]
  rfl

/-- The reference's batch normalisation of ANY array is the normalised array: the same column mean, the same mean
    squared deviation, the same entry-by-entry formula. -/
theorem bn_eq_bnOf (x : (⟨S100000x32, .f32⟩ : BufTy).Contents (Elt Ideal)) (g be : (⟨S32, .f32⟩ : BufTy).Contents (Elt Ideal)) :
    RefRun.bn x g be = Gcn.bnOf x g be :=
  Gcn.arrNx32_ext _ _ fun p q => by
    rw [RefRun.bn_apply, var_eq_colVar, mean_eq_colMean]

/-! ## The matrix products -/

/-- The reference's projection by a [64, 32] matrix is the sum over the contracted coordinate. -/
theorem dot64_eq (x : (⟨S100000x64, .f32⟩ : BufTy).Contents (Elt Ideal)) (w : (⟨S64x32, .f32⟩ : BufTy).Contents (Elt Ideal)) :
    Host.dotGeneral (F := Ideal) (φ₁ := .f32) (φ₂ := .f32) dot_S100000x64_S64x32_S100000x32_1_0_0_1_n_n none x w = Gcn.mm64 x w :=
  Gcn.arrNx32_ext _ _ fun p q => RefRun.dot64_apply x w p q

/-- The reference's projection by a [32, 32] matrix is the sum over the contracted coordinate. -/
theorem dot32_eq (x : (⟨S100000x32, .f32⟩ : BufTy).Contents (Elt Ideal)) (w : (⟨S32x32, .f32⟩ : BufTy).Contents (Elt Ideal)) :
    Host.dotGeneral (F := Ideal) (φ₁ := .f32) (φ₂ := .f32) dot_S100000x32_S32x32_S100000x32_1_0_0_1_n_n none x w = Gcn.mm32 x w :=
  Gcn.arrNx32_ext _ _ fun p q => RefRun.dot32_apply x w p q

/-- A projection of real entries by real weights has real entries. -/
theorem mm64_real {x : Gcn.SNx64.Idx → EReal} (hx : Gcn.RealArr x) {w : (⟨2, ![64, 32]⟩ : Shape).Idx → EReal} (hw : Gcn.RealArr w) :
    Gcn.RealArr (Gcn.mm64 x w) := by
  intro i
  obtain ⟨p, q, rfl⟩ : ∃ (p : Fin 100000) (q : Fin 32), i = ix2 p q := ⟨i 0, i 1, eq_ix2 i⟩
  show IsReal (∑ k : Fin 64, x (ix2 p k) * w (ix2 k q))
  exact IsReal.sum _ _ fun k _ => (hx _).mul (hw _)

theorem mm32_real {x : Gcn.SNx32.Idx → EReal} (hx : Gcn.RealArr x) {w : (⟨2, ![32, 32]⟩ : Shape).Idx → EReal} (hw : Gcn.RealArr w) :
    Gcn.RealArr (Gcn.mm32 x w) := by
  intro i
  obtain ⟨p, q, rfl⟩ : ∃ (p : Fin 100000) (q : Fin 32), i = ix2 p q := ⟨i 0, i 1, eq_ix2 i⟩
  show IsReal (∑ k : Fin 32, x (ix2 p k) * w (ix2 k q))
  exact IsReal.sum _ _ fun k _ => (hx _).mul (hw _)

/-! ## The rectified convolution -/

/-- The reference's aggregation is the neutral one under the reference's normalisation. -/
theorem aggR_eq (h : (⟨S100000x32, .f32⟩ : BufTy).Contents (Elt Ideal)) (r c : (⟨S1700000, .i32⟩ : BufTy).Contents (Elt Ideal))
    (w : (⟨S1700000, .f32⟩ : BufTy).Contents (Elt Ideal)) :
    RefRun.aggR h r c w = Gcn.agg (F := Ideal) r c (RefRun.norm r c w) h := rfl

/-- The rectified convolution is the aggregation plus the bias, clipped at zero. -/
theorem relu_gcn_eq (h : (⟨S100000x32, .f32⟩ : BufTy).Contents (Elt Ideal)) (b : (⟨S32, .f32⟩ : BufTy).Contents (Elt Ideal))
    (r c : (⟨S1700000, .i32⟩ : BufTy).Contents (Elt Ideal)) (w : (⟨S1700000, .f32⟩ : BufTy).Contents (Elt Ideal)) :
    RefRun.relu (RefRun.gcn h b r c w) = Gcn.clipF (Gcn.agg (F := Ideal) r c (RefRun.norm r c w) h) b :=
  Gcn.arrNx32_ext _ _ fun p q => by
    rw [RefRun.relu_gcn_apply, aggR_eq]
    show _ = max (_ + Gcn.row32 (F := Ideal) b (ix2 (0 : Fin 1) q)) _
    rw [Gcn.row32_apply]

/-! ## One layer -/

/-- A layer over 64 input features: the reference's convolution, rectifier and batch normalisation of the projected
    features is the kernel's layer result of the aggregated projection. -/
theorem layer64 (ei : (⟨S2x1600000, .i32⟩ : BufTy).Contents (Elt Ideal)) (ew : (⟨S1600000, .f32⟩ : BufTy).Contents (Elt Ideal))
    (hew : Gcn.RealArr ew) (x : (⟨S100000x64, .f32⟩ : BufTy).Contents (Elt Ideal)) (hx : Gcn.RealArr x)
    (W : (⟨S64x32, .f32⟩ : BufTy).Contents (Elt Ideal)) (hW : Gcn.RealArr W)
    (b g be : (⟨S32, .f32⟩ : BufTy).Contents (Elt Ideal)) (hb : Gcn.RealArr b) (hg : Gcn.RealArr g) (hbe : Gcn.RealArr be) :
    RefRun.bn (RefRun.relu (RefRun.gcn (Host.dotGeneral (F := Ideal) (φ₁ := .f32) (φ₂ := .f32) dot_S100000x64_S64x32_S100000x32_1_0_0_1_n_n none x W) b
        (RefRun.rows ei) (RefRun.cols ei) (RefRun.wts ew))) g be
      = Gcn.kLayerOut (Gcn.agg (F := Ideal) (Gcn.rows ei) (Gcn.cols ei) (Gcn.normOf ei ew) (Gcn.mm64 x W)) b g be := by
  rw [dot64_eq, relu_gcn_eq, bn_eq_bnOf, RefPair.norm_pair]
  exact (Gcn.kLayerOut_eq (Gcn.RealArr.agg (Gcn.RealArr.normOf hew ei) (mm64_real hx hW) _ _) hb hg hbe).symm

/-- Its entries are real numbers. -/
theorem layer64_real (ei : (⟨S2x1600000, .i32⟩ : BufTy).Contents (Elt Ideal)) (ew : (⟨S1600000, .f32⟩ : BufTy).Contents (Elt Ideal))
    (hew : Gcn.RealArr ew) (x : (⟨S100000x64, .f32⟩ : BufTy).Contents (Elt Ideal)) (hx : Gcn.RealArr x)
    (W : (⟨S64x32, .f32⟩ : BufTy).Contents (Elt Ideal)) (hW : Gcn.RealArr W)
    (b g be : (⟨S32, .f32⟩ : BufTy).Contents (Elt Ideal)) (hb : Gcn.RealArr b) (hg : Gcn.RealArr g) (hbe : Gcn.RealArr be) :
    Gcn.RealArr (Gcn.kLayerOut (Gcn.agg (F := Ideal) (Gcn.rows ei) (Gcn.cols ei) (Gcn.normOf ei ew) (Gcn.mm64 x W)) b g be) :=
  Gcn.kLayerOut_real (Gcn.RealArr.agg (Gcn.RealArr.normOf hew ei) (mm64_real hx hW) _ _) hb hg hbe

/-- A layer over 32 input features. -/
theorem layer32 (ei : (⟨S2x1600000, .i32⟩ : BufTy).Contents (Elt Ideal)) (ew : (⟨S1600000, .f32⟩ : BufTy).Contents (Elt Ideal))
    (hew : Gcn.RealArr ew) (x : (⟨S100000x32, .f32⟩ : BufTy).Contents (Elt Ideal)) (hx : Gcn.RealArr x)
    (W : (⟨S32x32, .f32⟩ : BufTy).Contents (Elt Ideal)) (hW : Gcn.RealArr W)
    (b g be : (⟨S32, .f32⟩ : BufTy).Contents (Elt Ideal)) (hb : Gcn.RealArr b) (hg : Gcn.RealArr g) (hbe : Gcn.RealArr be) :
    RefRun.bn (RefRun.relu (RefRun.gcn (Host.dotGeneral (F := Ideal) (φ₁ := .f32) (φ₂ := .f32) dot_S100000x32_S32x32_S100000x32_1_0_0_1_n_n none x W) b
        (RefRun.rows ei) (RefRun.cols ei) (RefRun.wts ew))) g be
      = Gcn.kLayerOut (Gcn.agg (F := Ideal) (Gcn.rows ei) (Gcn.cols ei) (Gcn.normOf ei ew) (Gcn.mm32 x W)) b g be := by
  rw [dot32_eq, relu_gcn_eq, bn_eq_bnOf, RefPair.norm_pair]
  exact (Gcn.kLayerOut_eq (Gcn.RealArr.agg (Gcn.RealArr.normOf hew ei) (mm32_real hx hW) _ _) hb hg hbe).symm

theorem layer32_real (ei : (⟨S2x1600000, .i32⟩ : BufTy).Contents (Elt Ideal)) (ew : (⟨S1600000, .f32⟩ : BufTy).Contents (Elt Ideal))
    (hew : Gcn.RealArr ew) (x : (⟨S100000x32, .f32⟩ : BufTy).Contents (Elt Ideal)) (hx : Gcn.RealArr x)
    (W : (⟨S32x32, .f32⟩ : BufTy).Contents (Elt Ideal)) (hW : Gcn.RealArr W)
    (b g be : (⟨S32, .f32⟩ : BufTy).Contents (Elt Ideal)) (hb : Gcn.RealArr b) (hg : Gcn.RealArr g) (hbe : Gcn.RealArr be) :
    Gcn.RealArr (Gcn.kLayerOut (Gcn.agg (F := Ideal) (Gcn.rows ei) (Gcn.cols ei) (Gcn.normOf ei ew) (Gcn.mm32 x W)) b g be) :=
  Gcn.kLayerOut_real (Gcn.RealArr.agg (Gcn.RealArr.normOf hew ei) (mm32_real hx hW) _ _) hb hg hbe

end Cert.Bridge

end
-- ==== Proof.FinalBridge.lean ====
/-
  The final linear layer: the reference's form is the kernel program's form.

  The reference lays the three layers' results side by side into an [N, 96] array, multiplies it by the [96, 2] weight
  matrix and adds the bias broadcast over the rows. The kernel program multiplies each [N, 32] result by its own
  [32, 2] slice of the weight matrix (rows 0–31, 32–63, 64–95), adds the three products in order and adds the bias row.
  Entry (p, j) of the reference is the sum over k < 96 of cat (p, k) · w (k, j); column k of the concatenation is column
  k, k − 32 or k − 64 of the first, second or third result, so the sum over 96 splits into the three sums over 32, and
  row 32 s + k of the weight matrix is row k of its slice s. Sums of extended reals regroup freely.
-/
import proofs.«107356_j16226386444409_1_alg».proof.Proof.RefRunDefs
import proofs.«107356_j16226386444409_1_alg».proof.Proof.KFun
import Idealize.ShloMosaic.Lib.KernelVsHost
import Idealize.ShloMosaic.Lib.ValueLayout
import Idealize.ShloMosaic.PureOps.Ideal.Laws

noncomputable section

namespace Cert.Bridge

open Idealize.ShloMosaic Idealize.ShloMosaic.ValueIdx Cert.Gcn
open scoped BigOperators

/-- A plain matrix product on the host (rows × contraction times contraction × columns, no batch axes) read at (a, b): the
    sum over the contracted coordinate of the products of the entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (a : Fin m) (b : Fin n) :
    FloatOps.dotGeneral (⟨[1], [0], [0], [1], [], [], w⟩ : DotDims ⟨2, ![m, k]⟩ ⟨2, ![k, n]⟩ ⟨2, ![m, n]⟩) prec sched A B (ix2 a b)
      = ∑ c : Fin k, A (ix2 a c) * B (ix2 c b) := by
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The reference's product read at (p, j). -/
theorem dot_apply (x : FVec Ideal (⟨2, ![100000, 96]⟩ : Shape) .f32) (wl : FVec Ideal (⟨2, ![96, 2]⟩ : Shape) .f32) (p : Fin 100000) (j : Fin 2) :
    Host.dotGeneral Cert.ReferenceIdeal.dot_S100000x96_S96x2_S100000x2_1_0_0_1_n_n none x wl (ix2 p j)
      = ∑ k : Fin 96, x (ix2 p k) * wl (ix2 k j) :=
  dotGeneral_plain_apply Cert.ReferenceIdeal.Gen.dot_S100000x96_S96x2_S100000x2_1_0_0_1_n_n_wf none .single x wl p j

/-- A sum over 96 columns is the sum over the three runs of 32. -/
theorem sum96 {M : Type*} [AddCommMonoid M] (f : Fin 96 → M) :
    ∑ k : Fin 96, f k = (∑ k : Fin 32, f ⟨k.val, by omega⟩) + (∑ k : Fin 32, f ⟨32 + k.val, by omega⟩)
      + (∑ k : Fin 32, f ⟨64 + k.val, by omega⟩) := by
  show ∑ k : Fin (32 + 32 + 32), f k = _
  rw [Fin.sum_univ_add, Fin.sum_univ_add]
  rfl

/-- Column k of the concatenation: the first result's column k, -/
theorem cat1 (o1 o2 o3 : SNx32.Idx → EReal) (h) (p : Fin 100000) (k : Fin 32) :
    concatenate (⟨2, ![100000, 96]⟩ : Shape) 1 [⟨SNx32, o1⟩, ⟨SNx32, o2⟩, ⟨SNx32, o3⟩] h (ix2 p (⟨k.val, by omega⟩ : Fin 96)) = o1 (ix2 p k) :=
  concatenate_apply_piece (t := (⟨2, ![100000, 96]⟩ : Shape)) (1 : Fin 2) [⟨SNx32, o1⟩, ⟨SNx32, o2⟩, ⟨SNx32, o3⟩] h (ix2 p (⟨k.val, by omega⟩ : Fin 96)) 0 (by simp) SNx32 o1 rfl rfl 0 rfl (ix2 p k)
    (fun b hb => by
      match b with
      | ⟨0, _⟩ => rfl
      | ⟨1, _⟩ => exact absurd rfl hb)
    (Nat.zero_add _)

/-- the second's column k − 32, -/
theorem cat2 (o1 o2 o3 : SNx32.Idx → EReal) (h) (p : Fin 100000) (k : Fin 32) :
    concatenate (⟨2, ![100000, 96]⟩ : Shape) 1 [⟨SNx32, o1⟩, ⟨SNx32, o2⟩, ⟨SNx32, o3⟩] h (ix2 p (⟨32 + k.val, by omega⟩ : Fin 96)) = o2 (ix2 p k) :=
  concatenate_apply_piece (t := (⟨2, ![100000, 96]⟩ : Shape)) (1 : Fin 2) [⟨SNx32, o1⟩, ⟨SNx32, o2⟩, ⟨SNx32, o3⟩] h (ix2 p (⟨32 + k.val, by omega⟩ : Fin 96)) 1 (by simp) SNx32 o2 rfl rfl 32 rfl (ix2 p k)
    (fun b hb => by
      match b with
      | ⟨0, _⟩ => rfl
      | ⟨1, _⟩ => exact absurd rfl hb)
    rfl

/-- the third's column k − 64. -/
theorem cat3 (o1 o2 o3 : SNx32.Idx → EReal) (h) (p : Fin 100000) (k : Fin 32) :
    concatenate (⟨2, ![100000, 96]⟩ : Shape) 1 [⟨SNx32, o1⟩, ⟨SNx32, o2⟩, ⟨SNx32, o3⟩] h (ix2 p (⟨64 + k.val, by omega⟩ : Fin 96)) = o3 (ix2 p k) :=
  concatenate_apply_piece (t := (⟨2, ![100000, 96]⟩ : Shape)) (1 : Fin 2) [⟨SNx32, o1⟩, ⟨SNx32, o2⟩, ⟨SNx32, o3⟩] h (ix2 p (⟨64 + k.val, by omega⟩ : Fin 96)) 2 (by simp) SNx32 o3 rfl rfl 64 rfl (ix2 p k)
    (fun b hb => by
      match b with
      | ⟨0, _⟩ => rfl
      | ⟨1, _⟩ => exact absurd rfl hb)
    rfl

/-- The bias as a row, read at (0, j). -/
theorem row2_apply (bl : S2.Idx → EReal) (j : Fin 2) : row2 (F := Ideal) bl (ix2 (0 : Fin 1) j) = bl (ix1 j) :=
  shapeCast_a_1a_apply bl casts_2_1x2 0 j

/-- The bias broadcast to one row, read at (0, j). -/
theorem bias_row_apply (bl : S2.Idx → EReal) (h : S2.BroadcastsInDim S1x2 (![1] : Fin 1 → Fin S1x2.rank)) (j : Fin 2) :
    broadcastInDim S1x2 ![1] h bl (ix2 (0 : Fin 1) j) = bl (ix1 j) :=
  broadcastInDim_apply ![1] h bl (ix2 (0 : Fin 1) j) (ix1 j) fun a => by
    match a with
    | ⟨0, _⟩ => rfl

/-- THE FINAL LAYER: the reference's form is the kernel program's. -/
theorem final_eq (o1 o2 o3 : SNx32.Idx → EReal) (wl : S96x2.Idx → EReal) (bl : S2.Idx → EReal) :
    Cert.ReferenceIdeal.RefRun.final (F := Ideal) o1 o2 o3 wl bl = Cert.Gcn.kFinal o1 o2 o3 wl bl := by
  unfold Cert.Gcn.kFinal
  refine arrNx2_ext _ _ fun p j => ?_
  unfold Cert.ReferenceIdeal.RefRun.final
  refine (addf_apply _ _ _).trans ?_
  refine congrArg₂ (· + ·) ?_ ?_
  · refine (dot_apply _ wl p j).trans ?_
    rw [sum96]
    refine congrArg₂ (· + ·) (congrArg₂ (· + ·) ?_ ?_) ?_
    · refine Finset.sum_congr rfl fun k _ => congrArg₂ (· * ·) (cat1 o1 o2 o3 _ p k) ?_
      exact (slice2_axis0_apply 0 wl slices_w0 k j ⟨k.val, by omega⟩ (Nat.zero_add _).symm).symm
    · refine Finset.sum_congr rfl fun k _ => congrArg₂ (· * ·) (cat2 o1 o2 o3 _ p k) ?_
      exact (slice2_axis0_apply 32 wl slices_w1 k j ⟨32 + k.val, by omega⟩ rfl).symm
    · refine Finset.sum_congr rfl fun k _ => congrArg₂ (· * ·) (cat3 o1 o2 o3 _ p k) ?_
      exact (slice2_axis0_apply 64 wl slices_w2 k j ⟨64 + k.val, by omega⟩ rfl).symm
  · refine (broadcastInDim_oneRow_apply _ _ p j).trans ?_
    rw [bias_row_apply, row2_apply]

end Cert.Bridge

end
-- ==== Proof.OutBridge.lean ====
/-
  The two programs compute one function of real arguments.

  Layer by layer: the reference's batch-normalised, clipped graph convolution of real features is the kernel program's
  layer function of the aggregated projection, and it is again an array of reals, so the next layer's identity
  applies; the final linear map over the concatenated layers is the sum of the three partial products.
-/
import proofs.«107356_j16226386444409_1_alg».proof.Proof.KOut
import proofs.«107356_j16226386444409_1_alg».proof.Proof.LayerBridge
import proofs.«107356_j16226386444409_1_alg».proof.Proof.FinalBridge
import proofs.«107356_j16226386444409_1_alg».proof.Proof.RefRunVal

noncomputable section

namespace Cert.Bridge

open Idealize.ShloMosaic Idealize.ShloMosaic.ValueIdx Cert.Gcn Cert.BnMath

/-- On real arguments the reference's result is the kernel program's function. -/
theorem out_eq (a0 : SNx64.Idx → EReal) (a1 : IVec S2xE 32) (a2 : SE.Idx → EReal) (a3 : (⟨2, ![64, 32]⟩ : Shape).Idx → EReal)
    (a4 a5 a6 : S32.Idx → EReal) (a7 : (⟨2, ![32, 32]⟩ : Shape).Idx → EReal) (a8 a9 a10 : S32.Idx → EReal)
    (a11 : (⟨2, ![32, 32]⟩ : Shape).Idx → EReal) (a12 a13 a14 : S32.Idx → EReal) (a15 : S96x2.Idx → EReal) (a16 : S2.Idx → EReal)
    (h0 : RealArr a0) (h2 : RealArr a2) (h3 : RealArr a3) (h4 : RealArr a4) (h5 : RealArr a5) (h6 : RealArr a6) (h7 : RealArr a7)
    (h8 : RealArr a8) (h9 : RealArr a9) (h10 : RealArr a10) (h11 : RealArr a11) (h12 : RealArr a12) (h13 : RealArr a13)
    (h14 : RealArr a14) :
    Cert.ReferenceIdeal.RefRun.out (F := Ideal) a0 a1 a2 a3 a4 a5 a6 a7 a8 a9 a10 a11 a12 a13 a14 a15 a16 = kOut a0 a1 a2 a3 a4 a5 a6 a7 a8 a9 a10 a11 a12 a13 a14 a15 a16 := by
  have e1 : Cert.ReferenceIdeal.RefRun.out1 (F := Ideal) a0 a1 a2 a3 a4 a5 a6 = (kLayerOut (agg (rows (F := Ideal) a1) (cols (F := Ideal) a1) (normOf (F := Ideal) a1 a2) (mm64 a0 a3)) a4 a5 a6) :=
    layer64 a1 a2 h2 a0 h0 a3 h3 a4 a5 a6 h4 h5 h6
  have r1 : RealArr (kLayerOut (agg (rows (F := Ideal) a1) (cols (F := Ideal) a1) (normOf (F := Ideal) a1 a2) (mm64 a0 a3)) a4 a5 a6) :=
    layer64_real a1 a2 h2 a0 h0 a3 h3 a4 a5 a6 h4 h5 h6
  have e2 : Cert.ReferenceIdeal.RefRun.out2 (F := Ideal) a0 a1 a2 a3 a4 a5 a6 a7 a8 a9 a10 = (kLayerOut (agg (rows (F := Ideal) a1) (cols (F := Ideal) a1) (normOf (F := Ideal) a1 a2) (mm32 (kLayerOut (agg (rows (F := Ideal) a1) (cols (F := Ideal) a1) (normOf (F := Ideal) a1 a2) (mm64 a0 a3)) a4 a5 a6) a7)) a8 a9 a10) := by
    unfold Cert.ReferenceIdeal.RefRun.out2
    rw [e1]
    exact layer32 a1 a2 h2 _ r1 a7 h7 a8 a9 a10 h8 h9 h10
  have r2 : RealArr (kLayerOut (agg (rows (F := Ideal) a1) (cols (F := Ideal) a1) (normOf (F := Ideal) a1 a2) (mm32 (kLayerOut (agg (rows (F := Ideal) a1) (cols (F := Ideal) a1) (normOf (F := Ideal) a1 a2) (mm64 a0 a3)) a4 a5 a6) a7)) a8 a9 a10) := layer32_real a1 a2 h2 _ r1 a7 h7 a8 a9 a10 h8 h9 h10
  have e3 : Cert.ReferenceIdeal.RefRun.out3 (F := Ideal) a0 a1 a2 a3 a4 a5 a6 a7 a8 a9 a10 a11 a12 a13 a14 = (kLayerOut (agg (rows (F := Ideal) a1) (cols (F := Ideal) a1) (normOf (F := Ideal) a1 a2) (mm32 (kLayerOut (agg (rows (F := Ideal) a1) (cols (F := Ideal) a1) (normOf (F := Ideal) a1 a2) (mm32 (kLayerOut (agg (rows (F := Ideal) a1) (cols (F := Ideal) a1) (normOf (F := Ideal) a1 a2) (mm64 a0 a3)) a4 a5 a6) a7)) a8 a9 a10) a11)) a12 a13 a14) := by
    unfold Cert.ReferenceIdeal.RefRun.out3
    rw [e2]
    exact layer32 a1 a2 h2 _ r2 a11 h11 a12 a13 a14 h12 h13 h14
  unfold Cert.ReferenceIdeal.RefRun.out
  rw [e1, e2, e3, final_eq]
  rfl

end Cert.Bridge

end
-- ==== Proof.PreReal.lean ====
/-
  The precondition read back. The printed predicate is the conjunction, over the sixteen float arguments x, of
  "every element of x satisfies |x| < +∞": per argument the absolute value max x (-x), an ordered less-than against
  the splat of the pattern 0x7F800000 (which denotes +∞), and a reduction by "and" over every axis from the constant
  true. Over the extended reals max x (-x) < ⊤ rules out x = ⊤ and x = ⊥, so every element of every float argument
  is a real number.
-/
import proofs.«107356_j16226386444409_1_alg».proof.Pre_finite_inputs
import proofs.«107356_j16226386444409_1_alg».proof.Proof.Gen.Pre_finite_inputs
import Idealize.ShloMosaic.Lib.ReduceAll
import Idealize.ShloMosaic.Lib.IdealHost
import Idealize.ShloMosaic.Lib.ValueIdx
import Idealize.ShloMosaic.PureOps.Ideal.Laws

namespace Cert.PreReal

open Idealize.ShloMosaic Idealize.ShloMosaic.ValueIdx

/-- The rank-0 shape: the shape of each reduction's result and of the whole predicate. -/
abbrev S0 : Shape := ⟨0, ![]⟩

/-- A rank-0 shape has one index. -/
instance : Subsingleton S0.Idx := ⟨fun a b => funext fun d => d.elim0⟩

/-- The bit pattern 0x7F800000 denotes +∞. -/
theorem inf_bits : Ideal.ofBits .f32 0x7F800000#32 = (⊤ : EReal) := by
  simp [Ideal.ofBits, Ideal.ieee]

/-- An extended real whose absolute value max x (-x) lies strictly below +∞ is a real number:
    at ⊥ and at ⊤ the maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The reduction by "and" of the elementwise |x| < +∞ being true gives that every element of x is a real number,
    at any shape. -/
theorem all_lt_inf_real {S : Shape} {axes : List (Fin S.rank)} (x : FVec Ideal S .f32)
    (hb : S0.BroadcastsInDim S (![] : Fin 0 → Fin S.rank)) (hred : S.ReducesTo axes S0) (h0 : 0 < S0.numel)
    (h : Host.reduce IntOp.andi (cmpf .olt (Host.absf x) (broadcastInDim S ![] hb (constant S0 .f32 0x7F800000#32)))
          (constantI S0 1 1#1) hred h0 ix0 = 1#1) :
    ∀ i, ∃ r : ℝ, x i = (r : EReal) := by
  intro i
  have e := Host.reduce_andi_all _ _ hred h0 ix0 h i
  apply real_of_abs_lt_top
  have e2 : Ideal.cmp .olt (max (x i) (-(x i))) (Ideal.ofBits .f32 0x7F800000#32) = 1#1 := e
  rw [inf_bits] at e2
  by_contra hn
  have e3 : Ideal.cmp .olt (max (x i) (-(x i))) (⊤ : EReal) = 0#1 := by
    unfold Ideal.cmp
    simp only [hn, decide_false]
    rfl
  rw [e3] at e2
  exact absurd e2 (by decide)

/-- The precondition holding (the predicate is true at its one index) makes every element of each of the sixteen
    float arguments a real number. The conjunction is nested to the left, so the conjuncts come off from the last. -/
theorem real_of_pre [Cert.Pre_finite_inputs.Facts]
    (a0 : FVec Ideal Cert.Pre_finite_inputs.S100000x64 .f32)
    (a1 : IVec Cert.Pre_finite_inputs.S2x1600000 32)
    (a2 : FVec Ideal Cert.Pre_finite_inputs.S1600000 .f32)
    (a3 : FVec Ideal Cert.Pre_finite_inputs.S64x32 .f32)
    (a4 : FVec Ideal Cert.Pre_finite_inputs.S32 .f32)
    (a5 : FVec Ideal Cert.Pre_finite_inputs.S32 .f32)
    (a6 : FVec Ideal Cert.Pre_finite_inputs.S32 .f32)
    (a7 : FVec Ideal Cert.Pre_finite_inputs.S32x32 .f32)
    (a8 : FVec Ideal Cert.Pre_finite_inputs.S32 .f32)
    (a9 : FVec Ideal Cert.Pre_finite_inputs.S32 .f32)
    (a10 : FVec Ideal Cert.Pre_finite_inputs.S32 .f32)
    (a11 : FVec Ideal Cert.Pre_finite_inputs.S32x32 .f32)
    (a12 : FVec Ideal Cert.Pre_finite_inputs.S32 .f32)
    (a13 : FVec Ideal Cert.Pre_finite_inputs.S32 .f32)
    (a14 : FVec Ideal Cert.Pre_finite_inputs.S32 .f32)
    (a15 : FVec Ideal Cert.Pre_finite_inputs.S96x2 .f32)
    (a16 : FVec Ideal Cert.Pre_finite_inputs.S2 .f32)
    (h : Cert.Pre_finite_inputs.fn (F := Ideal) a0 a1 a2 a3 a4 a5 a6 a7 a8 a9 a10 a11 a12 a13 a14 a15 a16 = fun _ => 1#1) :
    (∀ i, ∃ r : ℝ, a0 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) := by
  have h0 := congrFun h ix0
  dsimp only [Cert.Pre_finite_inputs.fn, Cert.Pre_finite_inputs.fn_part1, Cert.Pre_finite_inputs.fn_part2, Cert.Pre_finite_inputs.fn_part3, Cert.Pre_finite_inputs.fn_part4] at h0
  obtain ⟨h0, h16⟩ := IntOp.andi_eq_one.1 h0
  obtain ⟨h0, h15⟩ := IntOp.andi_eq_one.1 h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨all_lt_inf_real a0 _ _ _ h0,
    all_lt_inf_real a2 _ _ _ h2,
    all_lt_inf_real a3 _ _ _ h3,
    all_lt_inf_real a4 _ _ _ h4,
    all_lt_inf_real a5 _ _ _ h5,
    all_lt_inf_real a6 _ _ _ h6,
    all_lt_inf_real a7 _ _ _ h7,
    all_lt_inf_real a8 _ _ _ h8,
    all_lt_inf_real a9 _ _ _ h9,
    all_lt_inf_real a10 _ _ _ h10,
    all_lt_inf_real a11 _ _ _ h11,
    all_lt_inf_real a12 _ _ _ h12,
    all_lt_inf_real a13 _ _ _ h13,
    all_lt_inf_real a14 _ _ _ h14,
    all_lt_inf_real a15 _ _ _ h15,
    all_lt_inf_real a16 _ _ _ h16⟩

end Cert.PreReal
-- ==== Proof.lean ====
/-
  A three-layer graph convolution network: the pipelined kernel program against its array-language reference, as
  extended reals.

  Both programs build the same graph data (rows, columns, weights with self loops, the symmetric normalisation) and
  aggregate with the same gathers and accumulating scatters. They differ in the projections (blocked matrix products
  against one whole product: the same sums), in the batch normalisation (the kernel program accumulates column sums
  and sums of squares and applies `r · scale + shift` with `var = q/N − μ²`; the reference takes the mean squared
  deviation and normalises `(r − μ) · rsqrt (var + ε) · γ + β`) and in the last linear map (three partial products
  against one product over the concatenation). The variance identity and the rearrangement of the affine map hold
  for real entries only; the precondition makes every float argument real, and every array on the way stays real:
  gathers only move entries, an accumulating scatter adds finitely many reals, and the reciprocal square roots are
  taken of positive reals.

  The kernel program's run names its result array through the boundary contents of its twenty segments; the reference's
  run is read off its operation list. The idealisation rewrote nothing, so its statement is trivial.
-/
import proofs.«107356_j16226386444409_1_alg».proof.Defs
import proofs.«107356_j16226386444409_1_alg».proof.Proof.Gen.Kernel
import proofs.«107356_j16226386444409_1_alg».proof.Proof.Gen.Kernel.Frame
import proofs.«107356_j16226386444409_1_alg».proof.Proof.Gen.KernelIdeal
import proofs.«107356_j16226386444409_1_alg».proof.Proof.Gen.KernelIdeal.Frame
import proofs.«107356_j16226386444409_1_alg».proof.Proof.Gen.ReferenceIdeal
import proofs.«107356_j16226386444409_1_alg».proof.Proof.Gen.Pre_finite_inputs
import proofs.«107356_j16226386444409_1_alg».proof.Proof.KRun
import proofs.«107356_j16226386444409_1_alg».proof.Proof.KFinal
import proofs.«107356_j16226386444409_1_alg».proof.Proof.RefRunVal
import proofs.«107356_j16226386444409_1_alg».proof.Proof.OutBridge
import proofs.«107356_j16226386444409_1_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The kernel program's result array is its closed form of the launch arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W20 m ρ c (Proc.devRef .tc Cert.KernelIdeal.main_v129)
      = Cert.Bridge.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) :=
  Cert.KernelIdeal.KFinal.out m ρ c

/-- Both programs run, and from memories that agree on real arguments they end with the same result array. -/
theorem algebraic : Cert.algebraic_KernelIdeal_ReferenceIdeal := by
  intro m ρ m' ρ' hpre hagree
  refine ⟨fun c => Cert.Bridge.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono (fun r h c => ⟨(h c).1.trans (kernel_value m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRun.run_out (F := Ideal) m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16]
    obtain ⟨r0, r2, r3, r4, r5, r6, r7, r8, r9, r10, r11, r12, r13, r14, r15, r16⟩ :=
      Cert.PreReal.real_of_pre _ _ _ _ _ _ _ _ _ _ _ _ _ _ _ _ _ (hpre c)
    exact Cert.Bridge.out_eq _ _ _ _ _ _ _ _ _ _ _ _ _ _ _ _ _ r0 r2 r3 r4 r5 r6 r7 r8 r9 r10 r11 r12 r13 r14

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
